-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x256x256 : Shape := ⟨4, ![4, 3, 256, 256]⟩
abbrev S4x121x256x256 : Shape := ⟨4, ![4, 121, 256, 256]⟩
abbrev S4x1x256x256 : Shape := ⟨4, ![4, 1, 256, 256]⟩
abbrev S_ : Shape := ⟨0, ![]⟩

class Facts : Prop where
  bcast_S_S4x3x256x256 : S_.BroadcastsInDim S4x3x256x256 (![] : Fin 0 → Fin S4x3x256x256.rank)
  reducesTo_S4x3x256x256_S_d0_1_2_3 : S4x3x256x256.ReducesTo [0, 1, 2, 3] S_
  h_S_ : 0 < S_.numel
  bcast_S_S4x121x256x256 : S_.BroadcastsInDim S4x121x256x256 (![] : Fin 0 → Fin S4x121x256x256.rank)
  reducesTo_S4x121x256x256_S_d0_1_2_3 : S4x121x256x256.ReducesTo [0, 1, 2, 3] S_
  bcast_S_S4x1x256x256 : S_.BroadcastsInDim S4x1x256x256 (![] : Fin 0 → Fin S4x1x256x256.rank)
  reducesTo_S4x1x256x256_S_d0_1_2_3 : S4x1x256x256.ReducesTo [0, 1, 2, 3] S_

variable [Facts]

def fn_part1 {F : FTy → Type} [FloatOps F] (main_v13 : IVec S_ 1) (main_v16 : IVec S4x1x256x256 1) : IVec S_ 1 :=
  let main_c_5 : IVec S_ 1 := constantI S_ 1 1#1
  let main_v17 : IVec S_ 1 := (fun x v => Host.reduce IntOp.andi x v reducesTo_S4x1x256x256_S_d0_1_2_3 h_S_) main_v16 main_c_5
  let main_v18 : IVec S_ 1 := andi main_v13 main_v17
  main_v18

def fn {F : FTy → Type} [FloatOps F] (main_arg0 : FVec F S4x3x256x256 .f32) (main_arg1 : FVec F S4x3x256x256 .f32) (main_arg2 : FVec F S4x121x256x256 .f32) (main_arg3 : FVec F S4x1x256x256 .f32) : IVec S_ 1 :=
  let main_v0 : FVec F S4x3x256x256 .f32 := Host.absf main_arg0
  let main_cst : FVec F S_ .f32 := constant S_ .f32 0x7F800000#32
  let main_v1 : FVec F S4x3x256x256 .f32 := broadcastInDim S4x3x256x256 ![] bcast_S_S4x3x256x256 main_cst
  let main_v2 : IVec S4x3x256x256 1 := cmpf .olt main_v0 main_v1
  let main_c : IVec S_ 1 := constantI S_ 1 1#1
  let main_v3 : IVec S_ 1 := (fun x v => Host.reduce IntOp.andi x v reducesTo_S4x3x256x256_S_d0_1_2_3 h_S_) main_v2 main_c
  let main_v4 : FVec F S4x3x256x256 .f32 := Host.absf main_arg1
  let main_cst_0 : FVec F S_ .f32 := constant S_ .f32 0x7F800000#32
  let main_v5 : FVec F S4x3x256x256 .f32 := broadcastInDim S4x3x256x256 ![] bcast_S_S4x3x256x256 main_cst_0
  let main_v6 : IVec S4x3x256x256 1 := cmpf .olt main_v4 main_v5
  let main_c_1 : IVec S_ 1 := constantI S_ 1 1#1
  let main_v7 : IVec S_ 1 := (fun x v => Host.reduce IntOp.andi x v reducesTo_S4x3x256x256_S_d0_1_2_3 h_S_) main_v6 main_c_1
  let main_v8 : IVec S_ 1 := andi main_v3 main_v7
  let main_v9 : FVec F S4x121x256x256 .f32 := Host.absf main_arg2
  let main_cst_2 : FVec F S_ .f32 := constant S_ .f32 0x7F800000#32
  let main_v10 : FVec F S4x121x256x256 .f32 := broadcastInDim S4x121x256x256 ![] bcast_S_S4x121x256x256 main_cst_2
  let main_v11 : IVec S4x121x256x256 1 := cmpf .olt main_v9 main_v10
  let main_c_3 : IVec S_ 1 := constantI S_ 1 1#1
  let main_v12 : IVec S_ 1 := (fun x v => Host.reduce IntOp.andi x v reducesTo_S4x121x256x256_S_d0_1_2_3 h_S_) main_v11 main_c_3
  let main_v13 : IVec S_ 1 := andi main_v8 main_v12
  let main_v14 : FVec F S4x1x256x256 .f32 := Host.absf main_arg3
  let main_cst_4 : FVec F S_ .f32 := constant S_ .f32 0x7F800000#32
  let main_v15 : FVec F S4x1x256x256 .f32 := broadcastInDim S4x1x256x256 ![] bcast_S_S4x1x256x256 main_cst_4
  let main_v16 : IVec S4x1x256x256 1 := cmpf .olt main_v14 main_v15
  fn_part1 (F := F) main_v13 main_v16
-- ==== Kernel.lean ====
abbrev S4x3x256x256 : Shape := ⟨4, ![4, 3, 256, 256]⟩
abbrev S4x121x256x256 : Shape := ⟨4, ![4, 121, 256, 256]⟩
abbrev S4x1x256x256 : Shape := ⟨4, ![4, 1, 256, 256]⟩
abbrev S_ : Shape := ⟨0, ![]⟩
abbrev S4x3x266x266 : Shape := ⟨4, ![4, 3, 266, 266]⟩
abbrev S4x3x256x266 : Shape := ⟨4, ![4, 3, 256, 266]⟩
abbrev S4x1x3x256x266 : Shape := ⟨5, ![4, 1, 3, 256, 266]⟩
abbrev S4x11x3x256x266 : Shape := ⟨5, ![4, 11, 3, 256, 266]⟩
abbrev S4x11x11x256x256 : Shape := ⟨5, ![4, 11, 11, 256, 256]⟩
abbrev S4x1x128 : Shape := ⟨3, ![4, 1, 128]⟩
abbrev S1x1x3x256x266 : Shape := ⟨5, ![1, 1, 3, 256, 266]⟩
abbrev S1x1x11x256x256 : Shape := ⟨5, ![1, 1, 11, 256, 256]⟩
abbrev S1x3x256x256 : Shape := ⟨4, ![1, 3, 256, 256]⟩
abbrev S1x1x256x256 : Shape := ⟨4, ![1, 1, 256, 256]⟩
abbrev S1x1x128 : Shape := ⟨3, ![1, 1, 128]⟩
abbrev S3x256x256 : Shape := ⟨3, ![3, 256, 256]⟩
abbrev S3x256x266 : Shape := ⟨3, ![3, 256, 266]⟩
abbrev S11x256x256 : Shape := ⟨3, ![11, 256, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩

abbrev nBuf : Space → Nat
  | .hbm => 38
  | .vmem => 11
  | .smem => 0
  | _ => 0

abbrev bufTy : (tb : Table) → Fin (tcTables nBuf tb) → BufTy
  | .hbm, ⟨0, _⟩ => ⟨S4x3x256x256, .f32⟩
  | .hbm, ⟨1, _⟩ => ⟨S4x3x256x256, .f32⟩
  | .hbm, ⟨2, _⟩ => ⟨S4x121x256x256, .f32⟩
  | .hbm, ⟨3, _⟩ => ⟨S4x1x256x256, .f32⟩
  | .hbm, ⟨4, _⟩ => ⟨S_, .i32⟩
  | .hbm, ⟨5, _⟩ => ⟨S_, .f32⟩
  | .hbm, ⟨6, _⟩ => ⟨S4x3x266x266, .f32⟩
  | .hbm, ⟨7, _⟩ => ⟨S4x3x256x266, .f32⟩
  | .hbm, ⟨8, _⟩ => ⟨S4x3x256x266, .f32⟩
  | .hbm, ⟨9, _⟩ => ⟨S4x3x256x266, .f32⟩
  | .hbm, ⟨10, _⟩ => ⟨S4x3x256x266, .f32⟩
  | .hbm, ⟨11, _⟩ => ⟨S4x3x256x266, .f32⟩
  | .hbm, ⟨12, _⟩ => ⟨S4x3x256x266, .f32⟩
  | .hbm, ⟨13, _⟩ => ⟨S4x3x256x266, .f32⟩
  | .hbm, ⟨14, _⟩ => ⟨S4x3x256x266, .f32⟩
  | .hbm, ⟨15, _⟩ => ⟨S4x3x256x266, .f32⟩
  | .hbm, ⟨16, _⟩ => ⟨S4x3x256x266, .f32⟩
  | .hbm, ⟨17, _⟩ => ⟨S4x3x256x266, .f32⟩
  | .hbm, ⟨18, _⟩ => ⟨S4x1x3x256x266, .f32⟩
  | .hbm, ⟨19, _⟩ => ⟨S4x1x3x256x266, .f32⟩
  | .hbm, ⟨20, _⟩ => ⟨S4x1x3x256x266, .f32⟩
  | .hbm, ⟨21, _⟩ => ⟨S4x1x3x256x266, .f32⟩
  | .hbm, ⟨22, _⟩ => ⟨S4x1x3x256x266, .f32⟩
  | .hbm, ⟨23, _⟩ => ⟨S4x1x3x256x266, .f32⟩
  | .hbm, ⟨24, _⟩ => ⟨S4x1x3x256x266, .f32⟩
  | .hbm, ⟨25, _⟩ => ⟨S4x1x3x256x266, .f32⟩
  | .hbm, ⟨26, _⟩ => ⟨S4x1x3x256x266, .f32⟩
  | .hbm, ⟨27, _⟩ => ⟨S4x1x3x256x266, .f32⟩
  | .hbm, ⟨28, _⟩ => ⟨S4x1x3x256x266, .f32⟩
  | .hbm, ⟨29, _⟩ => ⟨S4x11x3x256x266, .f32⟩
  | .hbm, ⟨30, _⟩ => ⟨S4x11x11x256x256, .f32⟩
  | .hbm, ⟨31, _⟩ => ⟨S4x1x128, .f32⟩
  | .hbm, ⟨32, _⟩ => ⟨S4x1x1, .f32⟩
  | .hbm, ⟨33, _⟩ => ⟨S4, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x1x3x256x266, .f32⟩
  | .local _ .vmem, ⟨1, _⟩ => ⟨S1x1x3x256x266, .f32⟩
  | .local _ .vmem, ⟨2, _⟩ => ⟨S1x1x11x256x256, .f32⟩
  | .local _ .vmem, ⟨3, _⟩ => ⟨S1x1x11x256x256, .f32⟩
  | .local _ .vmem, ⟨4, _⟩ => ⟨S1x3x256x256, .f32⟩
  | .local _ .vmem, ⟨5, _⟩ => ⟨S1x3x256x256, .f32⟩
  | .local _ .vmem, ⟨6, _⟩ => ⟨S1x1x256x256, .f32⟩
  | .local _ .vmem, ⟨7, _⟩ => ⟨S1x1x256x256, .f32⟩
  | .local _ .vmem, ⟨8, _⟩ => ⟨S1x1x128, .f32⟩
  | .local _ .vmem, ⟨9, _⟩ => ⟨S1x1x128, .f32⟩
  | .local _ .vmem, ⟨10, _⟩ => ⟨S3x256x256, .f32⟩
  | _, _ => ⟨S4x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v90 : BitVec 1 := Scalar.cmpi .eq arg1 c10_i32
  let v91 : BitVec 32 := Scalar.extui v90
  let c0_i32_16 : BitVec 32 := 0#32
  let v92 : BitVec 1 := Scalar.cmpi .ne v91 c0_i32_16
  v92

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x3x256x266 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x11x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S4x3x256x256_S4x3x266x266_000_000_550_550 : S4x3x256x256.Pads (![0, 0, 5, 5] : Fin 4 → Nat) ![0, 0, 5, 5] ![0, 0, 0, 0] S4x3x266x266
  h_S_ : 0 < S_.numel
  slices_S4x3x266x266_S4x3x256x266_0_0_0_0 : S4x3x266x266.Slices ![0, 0, 0, 0] S4x3x256x266
  slices_S4x3x266x266_S4x3x256x266_0_0_1_0 : S4x3x266x266.Slices ![0, 0, 1, 0] S4x3x256x266
  slices_S4x3x266x266_S4x3x256x266_0_0_2_0 : S4x3x266x266.Slices ![0, 0, 2, 0] S4x3x256x266
  slices_S4x3x266x266_S4x3x256x266_0_0_3_0 : S4x3x266x266.Slices ![0, 0, 3, 0] S4x3x256x266
  slices_S4x3x266x266_S4x3x256x266_0_0_4_0 : S4x3x266x266.Slices ![0, 0, 4, 0] S4x3x256x266
  slices_S4x3x266x266_S4x3x256x266_0_0_5_0 : S4x3x266x266.Slices ![0, 0, 5, 0] S4x3x256x266
  slices_S4x3x266x266_S4x3x256x266_0_0_6_0 : S4x3x266x266.Slices ![0, 0, 6, 0] S4x3x256x266
  slices_S4x3x266x266_S4x3x256x266_0_0_7_0 : S4x3x266x266.Slices ![0, 0, 7, 0] S4x3x256x266
  slices_S4x3x266x266_S4x3x256x266_0_0_8_0 : S4x3x266x266.Slices ![0, 0, 8, 0] S4x3x256x266
  slices_S4x3x266x266_S4x3x256x266_0_0_9_0 : S4x3x266x266.Slices ![0, 0, 9, 0] S4x3x256x266
  slices_S4x3x266x266_S4x3x256x266_0_0_10_0 : S4x3x266x266.Slices ![0, 0, 10, 0] S4x3x256x266
  bcast_S4x3x256x266_S4x1x3x256x266_0_2_3_4 : S4x3x256x266.BroadcastsInDim S4x1x3x256x266 (![0, 2, 3, 4] : Fin 4 → Fin S4x1x3x256x266.rank)
  concatenates_S4x1x3x256x266_S4x1x3x256x266_S4x1x3x256x266_S4x1x3x256x266_S4x1x3x256x266_S4x1x3x256x266_S4x1x3x256x266_S4x1x3x256x266_S4x1x3x256x266_S4x1x3x256x266_S4x1x3x256x266_S4x11x3x256x266_d1 : Shape.Concatenates [S4x1x3x256x266, S4x1x3x256x266, S4x1x3x256x266, S4x1x3x256x266, S4x1x3x256x266, S4x1x3x256x266, S4x1x3x256x266, S4x1x3x256x266, S4x1x3x256x266, S4x1x3x256x266, S4x1x3x256x266] S4x11x3x256x266 1
  shapeCasts_S4x121x256x256_S4x11x11x256x256 : S4x121x256x256.ShapeCasts S4x11x11x256x256
  inb_S3x256x256_S3x256x256_0_0_0 : ∀ a, (![0, 0, 0] : Fin 3 → Nat) a + S3x256x256.size a ≤ S3x256x256.size a
  h_S3x256x256 : 0 < S3x256x256.numel
  shapeCasts_S3x256x256_S3x256x256 : S3x256x256.ShapeCasts S3x256x256
  inb_S1x1x3x256x266_S1x1x3x256x266_0_0_0_0_0 : ∀ a, (![0, 0, 0, 0, 0] : Fin 5 → Nat) a + S1x1x3x256x266.size a ≤ S1x1x3x256x266.size a
  h_S1x1x3x256x266 : 0 < S1x1x3x256x266.numel
  shapeCasts_S1x1x3x256x266_S3x256x266 : S1x1x3x256x266.ShapeCasts S3x256x266
  inb_S1x1x11x256x256_S1x1x11x256x256_0_0_0_0_0 : ∀ a, (![0, 0, 0, 0, 0] : Fin 5 → Nat) a + S1x1x11x256x256.size a ≤ S1x1x11x256x256.size a
  h_S1x1x11x256x256 : 0 < S1x1x11x256x256.numel
  shapeCasts_S1x1x11x256x256_S11x256x256 : S1x1x11x256x256.ShapeCasts S11x256x256
  slices_S3x256x266_o0_0_0_S3x256x256 : S3x256x266.Slices ![0, 0, 0] S3x256x256
  slices_S11x256x256_o0_0_0_S1x256x256 : S11x256x256.Slices ![0, 0, 0] S1x256x256
  shapeCasts_S1x256x256_S256x256 : S1x256x256.ShapeCasts S256x256
  shapeCasts_S256x256_S1x256x256 : S256x256.ShapeCasts S1x256x256
  broadcasts_S1x256x256_S3x256x256 : S1x256x256.Broadcasts S3x256x256
  slices_S3x256x266_o0_0_1_S3x256x256 : S3x256x266.Slices ![0, 0, 1] S3x256x256
  slices_S11x256x256_o1_0_0_S1x256x256 : S11x256x256.Slices ![1, 0, 0] S1x256x256
  slices_S3x256x266_o0_0_2_S3x256x256 : S3x256x266.Slices ![0, 0, 2] S3x256x256
  slices_S11x256x256_o2_0_0_S1x256x256 : S11x256x256.Slices ![2, 0, 0] S1x256x256
  slices_S3x256x266_o0_0_3_S3x256x256 : S3x256x266.Slices ![0, 0, 3] S3x256x256
  slices_S11x256x256_o3_0_0_S1x256x256 : S11x256x256.Slices ![3, 0, 0] S1x256x256
  slices_S3x256x266_o0_0_4_S3x256x256 : S3x256x266.Slices ![0, 0, 4] S3x256x256
  slices_S11x256x256_o4_0_0_S1x256x256 : S11x256x256.Slices ![4, 0, 0] S1x256x256
  slices_S3x256x266_o0_0_5_S3x256x256 : S3x256x266.Slices ![0, 0, 5] S3x256x256
  slices_S11x256x256_o5_0_0_S1x256x256 : S11x256x256.Slices ![5, 0, 0] S1x256x256
  slices_S3x256x266_o0_0_6_S3x256x256 : S3x256x266.Slices ![0, 0, 6] S3x256x256
  slices_S11x256x256_o6_0_0_S1x256x256 : S11x256x256.Slices ![6, 0, 0] S1x256x256
  slices_S3x256x266_o0_0_7_S3x256x256 : S3x256x266.Slices ![0, 0, 7] S3x256x256
  slices_S11x256x256_o7_0_0_S1x256x256 : S11x256x256.Slices ![7, 0, 0] S1x256x256
  slices_S3x256x266_o0_0_8_S3x256x256 : S3x256x266.Slices ![0, 0, 8] S3x256x256
  slices_S11x256x256_o8_0_0_S1x256x256 : S11x256x256.Slices ![8, 0, 0] S1x256x256
  slices_S3x256x266_o0_0_9_S3x256x256 : S3x256x266.Slices ![0, 0, 9] S3x256x256
  slices_S11x256x256_o9_0_0_S1x256x256 : S11x256x256.Slices ![9, 0, 0] S1x256x256
  slices_S3x256x266_o0_0_10_S3x256x256 : S3x256x266.Slices ![0, 0, 10] S3x256x256
  slices_S11x256x256_o10_0_0_S1x256x256 : S11x256x256.Slices ![10, 0, 0] S1x256x256
  inb_S1x3x256x256_S1x3x256x256_0_0_0_0 : ∀ a, (![0, 0, 0, 0] : Fin 4 → Nat) a + S1x3x256x256.size a ≤ S1x3x256x256.size a
  h_S1x3x256x256 : 0 < S1x3x256x256.numel
  shapeCasts_S1x3x256x256_S3x256x256 : S1x3x256x256.ShapeCasts S3x256x256
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S1x256x256 : S1x1x256x256.ShapeCasts S1x256x256
  reduces_S3x256x256_S256x256 : S3x256x256.Reduces [0] S256x256
  reduces_S256x256_S256 : S256x256.Reduces [1] S256
  shapeCasts_S256_S256x1 : S256.ShapeCasts S256x1
  reduces_S256x1_S1 : S256x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S4x1x128_S4x1x1_0_0_0 : S4x1x128.Slices ![0, 0, 0] S4x1x1
  shapeCasts_S4x1x1_S4 : S4x1x1.ShapeCasts S4
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x3x256x266.size a ≤ S4x11x3x256x266.size a
  hwx0_0 : ∀ i : grid0.Coords, EltTy.bits .f32 = 32 ∨ (Rect.block (s := S4x11x3x256x266) S1x1x3x256x266.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x11x256x256.size a ≤ S4x11x11x256x256.size a
  hwx0_1 : ∀ i : grid0.Coords, EltTy.bits .f32 = 32 ∨ (Rect.block (s := S4x11x11x256x256) S1x1x11x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x256x256.size a ≤ S4x3x256x256.size a
  hwx0_2 : ∀ i : grid0.Coords, EltTy.bits .f32 = 32 ∨ (Rect.block (s := S4x3x256x256) S1x3x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x256.size a ≤ S4x1x256x256.size a
  hwx0_3 : ∀ i : grid0.Coords, EltTy.bits .f32 = 32 ∨ (Rect.block (s := S4x1x256x256) S1x1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S4x1x128.size a
  hwx0_4 : ∀ i : grid0.Coords, EltTy.bits .f32 = 32 ∨ (Rect.block (s := S4x1x128) S1x1x128.size (cc0_transform_4 i) (hinb0_4 i)).WholeWords (EltTy.packing .f32)

variable [Facts₀]

abbrev win0_0 : Pipeline.Window sig grid0 :=
  Pipeline.Window.ofSpec (Memref.whole main_v23) S1x1x3x256x266.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x1x11x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x3x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x3x256x256 : Shape := ⟨4, ![4, 3, 256, 256]⟩
abbrev S4x121x256x256 : Shape := ⟨4, ![4, 121, 256, 256]⟩
abbrev S4x1x256x256 : Shape := ⟨4, ![4, 1, 256, 256]⟩
abbrev S_ : Shape := ⟨0, ![]⟩
abbrev S4x3x266x266 : Shape := ⟨4, ![4, 3, 266, 266]⟩
abbrev S4x3x1x256x256 : Shape := ⟨5, ![4, 3, 1, 256, 256]⟩
abbrev S4x3x16x256x256 : Shape := ⟨5, ![4, 3, 16, 256, 256]⟩
abbrev S4x3x9x256x256 : Shape := ⟨5, ![4, 3, 9, 256, 256]⟩
abbrev S4x3x121x256x256 : Shape := ⟨5, ![4, 3, 121, 256, 256]⟩
abbrev S4x1x121x256x256 : Shape := ⟨5, ![4, 1, 121, 256, 256]⟩

abbrev nBuf : Space → Nat
  | .hbm => 275
  | .vmem => 0
  | .smem => 0
  | _ => 0

abbrev hbmTy0_0 (i : Nat) : BufTy := match i % 128 with
  | 0 => ⟨S4x3x256x256, .f32⟩
  | 1 => ⟨S4x3x256x256, .f32⟩
  | 2 => ⟨S4x121x256x256, .f32⟩
  | 3 => ⟨S4x1x256x256, .f32⟩
  | 4 => ⟨S_, .i32⟩
  | 5 => ⟨S_, .f32⟩
  | 6 => ⟨S4x3x266x266, .f32⟩
  | 7 => ⟨S4x3x256x256, .f32⟩
  | 8 => ⟨S4x3x256x256, .f32⟩
  | 9 => ⟨S4x3x256x256, .f32⟩
  | 10 => ⟨S4x3x256x256, .f32⟩
  | 11 => ⟨S4x3x256x256, .f32⟩
  | 12 => ⟨S4x3x256x256, .f32⟩
  | 13 => ⟨S4x3x256x256, .f32⟩
  | 14 => ⟨S4x3x256x256, .f32⟩
  | 15 => ⟨S4x3x256x256, .f32⟩
  | 16 => ⟨S4x3x256x256, .f32⟩
  | 17 => ⟨S4x3x256x256, .f32⟩
  | 18 => ⟨S4x3x256x256, .f32⟩
  | 19 => ⟨S4x3x256x256, .f32⟩
  | 20 => ⟨S4x3x256x256, .f32⟩
  | 21 => ⟨S4x3x256x256, .f32⟩
  | 22 => ⟨S4x3x256x256, .f32⟩
  | 23 => ⟨S4x3x256x256, .f32⟩
  | 24 => ⟨S4x3x256x256, .f32⟩
  | 25 => ⟨S4x3x256x256, .f32⟩
  | 26 => ⟨S4x3x256x256, .f32⟩
  | 27 => ⟨S4x3x256x256, .f32⟩
  | 28 => ⟨S4x3x256x256, .f32⟩
  | 29 => ⟨S4x3x256x256, .f32⟩
  | 30 => ⟨S4x3x256x256, .f32⟩
  | 31 => ⟨S4x3x256x256, .f32⟩
  | 32 => ⟨S4x3x256x256, .f32⟩
  | 33 => ⟨S4x3x256x256, .f32⟩
  | 34 => ⟨S4x3x256x256, .f32⟩
  | 35 => ⟨S4x3x256x256, .f32⟩
  | 36 => ⟨S4x3x256x256, .f32⟩
  | 37 => ⟨S4x3x256x256, .f32⟩
  | 38 => ⟨S4x3x256x256, .f32⟩
  | 39 => ⟨S4x3x256x256, .f32⟩
  | 40 => ⟨S4x3x256x256, .f32⟩
  | 41 => ⟨S4x3x256x256, .f32⟩
  | 42 => ⟨S4x3x256x256, .f32⟩
  | 43 => ⟨S4x3x256x256, .f32⟩
  | 44 => ⟨S4x3x256x256, .f32⟩
  | 45 => ⟨S4x3x256x256, .f32⟩
  | 46 => ⟨S4x3x256x256, .f32⟩
  | 47 => ⟨S4x3x256x256, .f32⟩
  | 48 => ⟨S4x3x256x256, .f32⟩
  | 49 => ⟨S4x3x256x256, .f32⟩
  | 50 => ⟨S4x3x256x256, .f32⟩
  | 51 => ⟨S4x3x256x256, .f32⟩
  | 52 => ⟨S4x3x256x256, .f32⟩
  | 53 => ⟨S4x3x256x256, .f32⟩
  | 54 => ⟨S4x3x256x256, .f32⟩
  | 55 => ⟨S4x3x256x256, .f32⟩
  | 56 => ⟨S4x3x256x256, .f32⟩
  | 57 => ⟨S4x3x256x256, .f32⟩
  | 58 => ⟨S4x3x256x256, .f32⟩
  | 59 => ⟨S4x3x256x256, .f32⟩
  | 60 => ⟨S4x3x256x256, .f32⟩
  | 61 => ⟨S4x3x256x256, .f32⟩
  | 62 => ⟨S4x3x256x256, .f32⟩
  | 63 => ⟨S4x3x256x256, .f32⟩
  | 64 => ⟨S4x3x256x256, .f32⟩
  | 65 => ⟨S4x3x256x256, .f32⟩
  | 66 => ⟨S4x3x256x256, .f32⟩
  | 67 => ⟨S4x3x256x256, .f32⟩
  | 68 => ⟨S4x3x256x256, .f32⟩
  | 69 => ⟨S4x3x256x256, .f32⟩
  | 70 => ⟨S4x3x256x256, .f32⟩
  | 71 => ⟨S4x3x256x256, .f32⟩
  | 72 => ⟨S4x3x256x256, .f32⟩
  | 73 => ⟨S4x3x256x256, .f32⟩
  | 74 => ⟨S4x3x256x256, .f32⟩
  | 75 => ⟨S4x3x256x256, .f32⟩
  | 76 => ⟨S4x3x256x256, .f32⟩
  | 77 => ⟨S4x3x256x256, .f32⟩
  | 78 => ⟨S4x3x256x256, .f32⟩
  | 79 => ⟨S4x3x256x256, .f32⟩
  | 80 => ⟨S4x3x256x256, .f32⟩
  | 81 => ⟨S4x3x256x256, .f32⟩
  | 82 => ⟨S4x3x256x256, .f32⟩
  | 83 => ⟨S4x3x256x256, .f32⟩
  | 84 => ⟨S4x3x256x256, .f32⟩
  | 85 => ⟨S4x3x256x256, .f32⟩
  | 86 => ⟨S4x3x256x256, .f32⟩
  | 87 => ⟨S4x3x256x256, .f32⟩
  | 88 => ⟨S4x3x256x256, .f32⟩
  | 89 => ⟨S4x3x256x256, .f32⟩
  | 90 => ⟨S4x3x256x256, .f32⟩
  | 91 => ⟨S4x3x256x256, .f32⟩
  | 92 => ⟨S4x3x256x256, .f32⟩
  | 93 => ⟨S4x3x256x256, .f32⟩
  | 94 => ⟨S4x3x256x256, .f32⟩
  | 95 => ⟨S4x3x256x256, .f32⟩
  | 96 => ⟨S4x3x256x256, .f32⟩
  | 97 => ⟨S4x3x256x256, .f32⟩
  | 98 => ⟨S4x3x256x256, .f32⟩
  | 99 => ⟨S4x3x256x256, .f32⟩
  | 100 => ⟨S4x3x256x256, .f32⟩
  | 101 => ⟨S4x3x256x256, .f32⟩
  | 102 => ⟨S4x3x256x256, .f32⟩
  | 103 => ⟨S4x3x256x256, .f32⟩
  | 104 => ⟨S4x3x256x256, .f32⟩
  | 105 => ⟨S4x3x256x256, .f32⟩
  | 106 => ⟨S4x3x256x256, .f32⟩
  | 107 => ⟨S4x3x256x256, .f32⟩
  | 108 => ⟨S4x3x256x256, .f32⟩
  | 109 => ⟨S4x3x256x256, .f32⟩
  | 110 => ⟨S4x3x256x256, .f32⟩
  | 111 => ⟨S4x3x256x256, .f32⟩
  | 112 => ⟨S4x3x256x256, .f32⟩
  | 113 => ⟨S4x3x256x256, .f32⟩
  | 114 => ⟨S4x3x256x256, .f32⟩
  | 115 => ⟨S4x3x256x256, .f32⟩
  | 116 => ⟨S4x3x256x256, .f32⟩
  | 117 => ⟨S4x3x256x256, .f32⟩
  | 118 => ⟨S4x3x256x256, .f32⟩
  | 119 => ⟨S4x3x256x256, .f32⟩
  | 120 => ⟨S4x3x256x256, .f32⟩
  | 121 => ⟨S4x3x256x256, .f32⟩
  | 122 => ⟨S4x3x256x256, .f32⟩
  | 123 => ⟨S4x3x256x256, .f32⟩
  | 124 => ⟨S4x3x256x256, .f32⟩
  | 125 => ⟨S4x3x256x256, .f32⟩
  | 126 => ⟨S4x3x256x256, .f32⟩
  | 127 => ⟨S4x3x256x256, .f32⟩
  | _ => ⟨S4x3x256x256, .f32⟩

abbrev hbmTy0_1 (i : Nat) : BufTy := match i % 128 with
  | 0 => ⟨S4x3x1x256x256, .f32⟩
  | 1 => ⟨S4x3x1x256x256, .f32⟩
  | 2 => ⟨S4x3x1x256x256, .f32⟩
  | 3 => ⟨S4x3x1x256x256, .f32⟩
  | 4 => ⟨S4x3x1x256x256, .f32⟩
  | 5 => ⟨S4x3x1x256x256, .f32⟩
  | 6 => ⟨S4x3x1x256x256, .f32⟩
  | 7 => ⟨S4x3x1x256x256, .f32⟩
  | 8 => ⟨S4x3x1x256x256, .f32⟩
  | 9 => ⟨S4x3x1x256x256, .f32⟩
  | 10 => ⟨S4x3x1x256x256, .f32⟩
  | 11 => ⟨S4x3x1x256x256, .f32⟩
  | 12 => ⟨S4x3x1x256x256, .f32⟩
  | 13 => ⟨S4x3x1x256x256, .f32⟩
  | 14 => ⟨S4x3x1x256x256, .f32⟩
  | 15 => ⟨S4x3x1x256x256, .f32⟩
  | 16 => ⟨S4x3x1x256x256, .f32⟩
  | 17 => ⟨S4x3x1x256x256, .f32⟩
  | 18 => ⟨S4x3x1x256x256, .f32⟩
  | 19 => ⟨S4x3x1x256x256, .f32⟩
  | 20 => ⟨S4x3x1x256x256, .f32⟩
  | 21 => ⟨S4x3x1x256x256, .f32⟩
  | 22 => ⟨S4x3x1x256x256, .f32⟩
  | 23 => ⟨S4x3x1x256x256, .f32⟩
  | 24 => ⟨S4x3x1x256x256, .f32⟩
  | 25 => ⟨S4x3x1x256x256, .f32⟩
  | 26 => ⟨S4x3x1x256x256, .f32⟩
  | 27 => ⟨S4x3x1x256x256, .f32⟩
  | 28 => ⟨S4x3x1x256x256, .f32⟩
  | 29 => ⟨S4x3x1x256x256, .f32⟩
  | 30 => ⟨S4x3x1x256x256, .f32⟩
  | 31 => ⟨S4x3x1x256x256, .f32⟩
  | 32 => ⟨S4x3x1x256x256, .f32⟩
  | 33 => ⟨S4x3x1x256x256, .f32⟩
  | 34 => ⟨S4x3x1x256x256, .f32⟩
  | 35 => ⟨S4x3x1x256x256, .f32⟩
  | 36 => ⟨S4x3x1x256x256, .f32⟩
  | 37 => ⟨S4x3x1x256x256, .f32⟩
  | 38 => ⟨S4x3x1x256x256, .f32⟩
  | 39 => ⟨S4x3x1x256x256, .f32⟩
  | 40 => ⟨S4x3x1x256x256, .f32⟩
  | 41 => ⟨S4x3x1x256x256, .f32⟩
  | 42 => ⟨S4x3x1x256x256, .f32⟩
  | 43 => ⟨S4x3x1x256x256, .f32⟩
  | 44 => ⟨S4x3x1x256x256, .f32⟩
  | 45 => ⟨S4x3x1x256x256, .f32⟩
  | 46 => ⟨S4x3x1x256x256, .f32⟩
  | 47 => ⟨S4x3x1x256x256, .f32⟩
  | 48 => ⟨S4x3x1x256x256, .f32⟩
  | 49 => ⟨S4x3x1x256x256, .f32⟩
  | 50 => ⟨S4x3x1x256x256, .f32⟩
  | 51 => ⟨S4x3x1x256x256, .f32⟩
  | 52 => ⟨S4x3x1x256x256, .f32⟩
  | 53 => ⟨S4x3x1x256x256, .f32⟩
  | 54 => ⟨S4x3x1x256x256, .f32⟩
  | 55 => ⟨S4x3x1x256x256, .f32⟩
  | 56 => ⟨S4x3x1x256x256, .f32⟩
  | 57 => ⟨S4x3x1x256x256, .f32⟩
  | 58 => ⟨S4x3x1x256x256, .f32⟩
  | 59 => ⟨S4x3x1x256x256, .f32⟩
  | 60 => ⟨S4x3x1x256x256, .f32⟩
  | 61 => ⟨S4x3x1x256x256, .f32⟩
  | 62 => ⟨S4x3x1x256x256, .f32⟩
  | 63 => ⟨S4x3x1x256x256, .f32⟩
  | 64 => ⟨S4x3x1x256x256, .f32⟩
  | 65 => ⟨S4x3x1x256x256, .f32⟩
  | 66 => ⟨S4x3x1x256x256, .f32⟩
  | 67 => ⟨S4x3x1x256x256, .f32⟩
  | 68 => ⟨S4x3x1x256x256, .f32⟩
  | 69 => ⟨S4x3x1x256x256, .f32⟩
  | 70 => ⟨S4x3x1x256x256, .f32⟩
  | 71 => ⟨S4x3x1x256x256, .f32⟩
  | 72 => ⟨S4x3x1x256x256, .f32⟩
  | 73 => ⟨S4x3x1x256x256, .f32⟩
  | 74 => ⟨S4x3x1x256x256, .f32⟩
  | 75 => ⟨S4x3x1x256x256, .f32⟩
  | 76 => ⟨S4x3x1x256x256, .f32⟩
  | 77 => ⟨S4x3x1x256x256, .f32⟩
  | 78 => ⟨S4x3x1x256x256, .f32⟩
  | 79 => ⟨S4x3x1x256x256, .f32⟩
  | 80 => ⟨S4x3x1x256x256, .f32⟩
  | 81 => ⟨S4x3x1x256x256, .f32⟩
  | 82 => ⟨S4x3x1x256x256, .f32⟩
  | 83 => ⟨S4x3x1x256x256, .f32⟩
  | 84 => ⟨S4x3x1x256x256, .f32⟩
  | 85 => ⟨S4x3x1x256x256, .f32⟩
  | 86 => ⟨S4x3x1x256x256, .f32⟩
  | 87 => ⟨S4x3x1x256x256, .f32⟩
  | 88 => ⟨S4x3x1x256x256, .f32⟩
  | 89 => ⟨S4x3x1x256x256, .f32⟩
  | 90 => ⟨S4x3x1x256x256, .f32⟩
  | 91 => ⟨S4x3x1x256x256, .f32⟩
  | 92 => ⟨S4x3x1x256x256, .f32⟩
  | 93 => ⟨S4x3x1x256x256, .f32⟩
  | 94 => ⟨S4x3x1x256x256, .f32⟩
  | 95 => ⟨S4x3x1x256x256, .f32⟩
  | 96 => ⟨S4x3x1x256x256, .f32⟩
  | 97 => ⟨S4x3x1x256x256, .f32⟩
  | 98 => ⟨S4x3x1x256x256, .f32⟩
  | 99 => ⟨S4x3x1x256x256, .f32⟩
  | 100 => ⟨S4x3x1x256x256, .f32⟩
  | 101 => ⟨S4x3x1x256x256, .f32⟩
  | 102 => ⟨S4x3x1x256x256, .f32⟩
  | 103 => ⟨S4x3x1x256x256, .f32⟩
  | 104 => ⟨S4x3x1x256x256, .f32⟩
  | 105 => ⟨S4x3x1x256x256, .f32⟩
  | 106 => ⟨S4x3x1x256x256, .f32⟩
  | 107 => ⟨S4x3x1x256x256, .f32⟩
  | 108 => ⟨S4x3x1x256x256, .f32⟩
  | 109 => ⟨S4x3x1x256x256, .f32⟩
  | 110 => ⟨S4x3x1x256x256, .f32⟩
  | 111 => ⟨S4x3x1x256x256, .f32⟩
  | 112 => ⟨S4x3x1x256x256, .f32⟩
  | 113 => ⟨S4x3x1x256x256, .f32⟩
  | 114 => ⟨S4x3x1x256x256, .f32⟩
  | 115 => ⟨S4x3x1x256x256, .f32⟩
  | 116 => ⟨S4x3x1x256x256, .f32⟩
  | 117 => ⟨S4x3x1x256x256, .f32⟩
  | 118 => ⟨S4x3x1x256x256, .f32⟩
  | 119 => ⟨S4x3x1x256x256, .f32⟩
  | 120 => ⟨S4x3x1x256x256, .f32⟩
  | 121 => ⟨S4x3x16x256x256, .f32⟩
  | 122 => ⟨S4x3x16x256x256, .f32⟩
  | 123 => ⟨S4x3x16x256x256, .f32⟩
  | 124 => ⟨S4x3x16x256x256, .f32⟩
  | 125 => ⟨S4x3x16x256x256, .f32⟩
  | 126 => ⟨S4x3x16x256x256, .f32⟩
  | 127 => ⟨S4x3x16x256x256, .f32⟩
  | _ => ⟨S4x3x256x256, .f32⟩

abbrev hbmTy0_2 (i : Nat) : BufTy := match i % 128 with
  | 0 => ⟨S4x3x9x256x256, .f32⟩
  | 1 => ⟨S4x3x121x256x256, .f32⟩
  | 2 => ⟨S4x1x121x256x256, .f32⟩
  | 3 => ⟨S4x3x121x256x256, .f32⟩
  | 4 => ⟨S4x3x121x256x256, .f32⟩
  | 5 => ⟨S_, .f32⟩
  | 6 => ⟨S4x3x256x256, .f32⟩
  | 7 => ⟨S4x3x256x256, .f32⟩
  | 8 => ⟨S4x3x256x256, .f32⟩
  | 9 => ⟨S_, .f32⟩
  | 10 => ⟨S4x3x256x256, .f32⟩
  | 11 => ⟨S4x3x256x256, .f32⟩
  | 12 => ⟨S4x3x256x256, .f32⟩
  | 13 => ⟨S4x3x256x256, .f32⟩
  | 14 => ⟨S4x3x256x256, .f32⟩
  | 15 => ⟨S_, .f32⟩
  | 16 => ⟨S_, .f32⟩
  | 17 => ⟨S_, .f32⟩
  | 18 => ⟨S_, .f32⟩
  | _ => ⟨S4x3x256x256, .f32⟩

abbrev hbmTy (i : Nat) : BufTy := match i / 128 with
  | 0 => hbmTy0_0 i
  | 1 => hbmTy0_1 i
  | 2 => hbmTy0_2 i
  | _ => ⟨S4x3x256x256, .f32⟩

abbrev bufTy : (tb : Table) → Fin (tcTables nBuf tb) → BufTy
  | .hbm, ⟨i, _⟩ => hbmTy i
  | _, _ => ⟨S4x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_cst : Ref sig .tc := ⟨.hbm, 261, rfl⟩
abbrev main_v255 : Ref sig .tc := ⟨.hbm, 262, rfl⟩
abbrev main_v256 : Ref sig .tc := ⟨.hbm, 263, rfl⟩
abbrev main_v257 : Ref sig .tc := ⟨.hbm, 264, rfl⟩
abbrev main_cst_0 : Ref sig .tc := ⟨.hbm, 265, rfl⟩
abbrev main_v258 : Ref sig .tc := ⟨.hbm, 266, rfl⟩
abbrev main_v259 : Ref sig .tc := ⟨.hbm, 267, rfl⟩
abbrev main_v260 : Ref sig .tc := ⟨.hbm, 268, rfl⟩
abbrev main_v261 : Ref sig .tc := ⟨.hbm, 269, rfl⟩
abbrev main_v262 : Ref sig .tc := ⟨.hbm, 270, rfl⟩
abbrev main_cst_1 : Ref sig .tc := ⟨.hbm, 271, rfl⟩
abbrev main_v263 : Ref sig .tc := ⟨.hbm, 272, rfl⟩
abbrev main_cst_2 : Ref sig .tc := ⟨.hbm, 273, rfl⟩
abbrev main_v264 : Ref sig .tc := ⟨.hbm, 274, rfl⟩

abbrev nD : Nat := 1
abbrev τ : Topo := Topo.v7x

variable {F : FTy → Type} [FloatOps F]

class Facts₀ : Prop where
  pads_S4x3x256x256_S4x3x266x266_000_000_550_550 : S4x3x256x256.Pads (![0, 0, 5, 5] : Fin 4 → Nat) ![0, 0, 5, 5] ![0, 0, 0, 0] S4x3x266x266
  h_S_ : 0 < S_.numel
  slices_S4x3x266x266_S4x3x256x256_0_0_0_0 : S4x3x266x266.Slices ![0, 0, 0, 0] S4x3x256x256
  slices_S4x3x266x266_S4x3x256x256_0_0_0_1 : S4x3x266x266.Slices ![0, 0, 0, 1] S4x3x256x256
  slices_S4x3x266x266_S4x3x256x256_0_0_0_2 : S4x3x266x266.Slices ![0, 0, 0, 2] S4x3x256x256
  slices_S4x3x266x266_S4x3x256x256_0_0_0_3 : S4x3x266x266.Slices ![0, 0, 0, 3] S4x3x256x256
  slices_S4x3x266x266_S4x3x256x256_0_0_0_4 : S4x3x266x266.Slices ![0, 0, 0, 4] S4x3x256x256
  slices_S4x3x266x266_S4x3x256x256_0_0_0_5 : S4x3x266x266.Slices ![0, 0, 0, 5] S4x3x256x256
  slices_S4x3x266x266_S4x3x256x256_0_0_0_6 : S4x3x266x266.Slices ![0, 0, 0, 6] S4x3x256x256
  slices_S4x3x266x266_S4x3x256x256_0_0_0_7 : S4x3x266x266.Slices ![0, 0, 0, 7] S4x3x256x256
  slices_S4x3x266x266_S4x3x256x256_0_0_0_8 : S4x3x266x266.Slices ![0, 0, 0, 8] S4x3x256x256
  slices_S4x3x266x266_S4x3x256x256_0_0_0_9 : S4x3x266x266.Slices ![0, 0, 0, 9] S4x3x256x256
  slices_S4x3x266x266_S4x3x256x256_0_0_0_10 : S4x3x266x266.Slices ![0, 0, 0, 10] S4x3x256x256
  slices_S4x3x266x266_S4x3x256x256_0_0_1_0 : S4x3x266x266.Slices ![0, 0, 1, 0] S4x3x256x256
  slices_S4x3x266x266_S4x3x256x256_0_0_1_1 : S4x3x266x266.Slices ![0, 0, 1, 1] S4x3x256x256
  slices_S4x3x266x266_S4x3x256x256_0_0_1_2 : S4x3x266x266.Slices ![0, 0, 1, 2] S4x3x256x256
  slices_S4x3x266x266_S4x3x256x256_0_0_1_3 : S4x3x266x266.Slices ![0, 0, 1, 3] S4x3x256x256
  slices_S4x3x266x266_S4x3x256x256_0_0_1_4 : S4x3x266x266.Slices ![0, 0, 1, 4] S4x3x256x256
  slices_S4x3x266x266_S4x3x256x256_0_0_1_5 : S4x3x266x266.Slices ![0, 0, 1, 5] S4x3x256x256
  slices_S4x3x266x266_S4x3x256x256_0_0_1_6 : S4x3x266x266.Slices ![0, 0, 1, 6] S4x3x256x256
  slices_S4x3x266x266_S4x3x256x256_0_0_1_7 : S4x3x266x266.Slices ![0, 0, 1, 7] S4x3x256x256
  slices_S4x3x266x266_S4x3x256x256_0_0_1_8 : S4x3x266x266.Slices ![0, 0, 1, 8] S4x3x256x256
  slices_S4x3x266x266_S4x3x256x256_0_0_1_9 : S4x3x266x266.Slices ![0, 0, 1, 9] S4x3x256x256
  slices_S4x3x266x266_S4x3x256x256_0_0_1_10 : S4x3x266x266.Slices ![0, 0, 1, 10] S4x3x256x256
  slices_S4x3x266x266_S4x3x256x256_0_0_2_0 : S4x3x266x266.Slices ![0, 0, 2, 0] S4x3x256x256
  slices_S4x3x266x266_S4x3x256x256_0_0_2_1 : S4x3x266x266.Slices ![0, 0, 2, 1] S4x3x256x256
  slices_S4x3x266x266_S4x3x256x256_0_0_2_2 : S4x3x266x266.Slices ![0, 0, 2, 2] S4x3x256x256
  slices_S4x3x266x266_S4x3x256x256_0_0_2_3 : S4x3x266x266.Slices ![0, 0, 2, 3] S4x3x256x256
  slices_S4x3x266x266_S4x3x256x256_0_0_2_4 : S4x3x266x266.Slices ![0, 0, 2, 4] S4x3x256x256
  slices_S4x3x266x266_S4x3x256x256_0_0_2_5 : S4x3x266x266.Slices ![0, 0, 2, 5] S4x3x256x256
  slices_S4x3x266x266_S4x3x256x256_0_0_2_6 : S4x3x266x266.Slices ![0, 0, 2, 6] S4x3x256x256
  slices_S4x3x266x266_S4x3x256x256_0_0_2_7 : S4x3x266x266.Slices ![0, 0, 2, 7] S4x3x256x256
  slices_S4x3x266x266_S4x3x256x256_0_0_2_8 : S4x3x266x266.Slices ![0, 0, 2, 8] S4x3x256x256
  slices_S4x3x266x266_S4x3x256x256_0_0_2_9 : S4x3x266x266.Slices ![0, 0, 2, 9] S4x3x256x256
  slices_S4x3x266x266_S4x3x256x256_0_0_2_10 : S4x3x266x266.Slices ![0, 0, 2, 10] S4x3x256x256
  slices_S4x3x266x266_S4x3x256x256_0_0_3_0 : S4x3x266x266.Slices ![0, 0, 3, 0] S4x3x256x256
  slices_S4x3x266x266_S4x3x256x256_0_0_3_1 : S4x3x266x266.Slices ![0, 0, 3, 1] S4x3x256x256
  slices_S4x3x266x266_S4x3x256x256_0_0_3_2 : S4x3x266x266.Slices ![0, 0, 3, 2] S4x3x256x256
  slices_S4x3x266x266_S4x3x256x256_0_0_3_3 : S4x3x266x266.Slices ![0, 0, 3, 3] S4x3x256x256
  slices_S4x3x266x266_S4x3x256x256_0_0_3_4 : S4x3x266x266.Slices ![0, 0, 3, 4] S4x3x256x256
  slices_S4x3x266x266_S4x3x256x256_0_0_3_5 : S4x3x266x266.Slices ![0, 0, 3, 5] S4x3x256x256
  slices_S4x3x266x266_S4x3x256x256_0_0_3_6 : S4x3x266x266.Slices ![0, 0, 3, 6] S4x3x256x256
  slices_S4x3x266x266_S4x3x256x256_0_0_3_7 : S4x3x266x266.Slices ![0, 0, 3, 7] S4x3x256x256
  slices_S4x3x266x266_S4x3x256x256_0_0_3_8 : S4x3x266x266.Slices ![0, 0, 3, 8] S4x3x256x256
  slices_S4x3x266x266_S4x3x256x256_0_0_3_9 : S4x3x266x266.Slices ![0, 0, 3, 9] S4x3x256x256
  slices_S4x3x266x266_S4x3x256x256_0_0_3_10 : S4x3x266x266.Slices ![0, 0, 3, 10] S4x3x256x256
  slices_S4x3x266x266_S4x3x256x256_0_0_4_0 : S4x3x266x266.Slices ![0, 0, 4, 0] S4x3x256x256
  slices_S4x3x266x266_S4x3x256x256_0_0_4_1 : S4x3x266x266.Slices ![0, 0, 4, 1] S4x3x256x256
  slices_S4x3x266x266_S4x3x256x256_0_0_4_2 : S4x3x266x266.Slices ![0, 0, 4, 2] S4x3x256x256
  slices_S4x3x266x266_S4x3x256x256_0_0_4_3 : S4x3x266x266.Slices ![0, 0, 4, 3] S4x3x256x256
  slices_S4x3x266x266_S4x3x256x256_0_0_4_4 : S4x3x266x266.Slices ![0, 0, 4, 4] S4x3x256x256
  slices_S4x3x266x266_S4x3x256x256_0_0_4_5 : S4x3x266x266.Slices ![0, 0, 4, 5] S4x3x256x256
  slices_S4x3x266x266_S4x3x256x256_0_0_4_6 : S4x3x266x266.Slices ![0, 0, 4, 6] S4x3x256x256
  slices_S4x3x266x266_S4x3x256x256_0_0_4_7 : S4x3x266x266.Slices ![0, 0, 4, 7] S4x3x256x256
  slices_S4x3x266x266_S4x3x256x256_0_0_4_8 : S4x3x266x266.Slices ![0, 0, 4, 8] S4x3x256x256
  slices_S4x3x266x266_S4x3x256x256_0_0_4_9 : S4x3x266x266.Slices ![0, 0, 4, 9] S4x3x256x256
  slices_S4x3x266x266_S4x3x256x256_0_0_4_10 : S4x3x266x266.Slices ![0, 0, 4, 10] S4x3x256x256
  slices_S4x3x266x266_S4x3x256x256_0_0_5_0 : S4x3x266x266.Slices ![0, 0, 5, 0] S4x3x256x256
  slices_S4x3x266x266_S4x3x256x256_0_0_5_1 : S4x3x266x266.Slices ![0, 0, 5, 1] S4x3x256x256
  slices_S4x3x266x266_S4x3x256x256_0_0_5_2 : S4x3x266x266.Slices ![0, 0, 5, 2] S4x3x256x256
  slices_S4x3x266x266_S4x3x256x256_0_0_5_3 : S4x3x266x266.Slices ![0, 0, 5, 3] S4x3x256x256
  slices_S4x3x266x266_S4x3x256x256_0_0_5_4 : S4x3x266x266.Slices ![0, 0, 5, 4] S4x3x256x256
  slices_S4x3x266x266_S4x3x256x256_0_0_5_5 : S4x3x266x266.Slices ![0, 0, 5, 5] S4x3x256x256
  slices_S4x3x266x266_S4x3x256x256_0_0_5_6 : S4x3x266x266.Slices ![0, 0, 5, 6] S4x3x256x256
  slices_S4x3x266x266_S4x3x256x256_0_0_5_7 : S4x3x266x266.Slices ![0, 0, 5, 7] S4x3x256x256
  slices_S4x3x266x266_S4x3x256x256_0_0_5_8 : S4x3x266x266.Slices ![0, 0, 5, 8] S4x3x256x256
  slices_S4x3x266x266_S4x3x256x256_0_0_5_9 : S4x3x266x266.Slices ![0, 0, 5, 9] S4x3x256x256
  slices_S4x3x266x266_S4x3x256x256_0_0_5_10 : S4x3x266x266.Slices ![0, 0, 5, 10] S4x3x256x256
  slices_S4x3x266x266_S4x3x256x256_0_0_6_0 : S4x3x266x266.Slices ![0, 0, 6, 0] S4x3x256x256
  slices_S4x3x266x266_S4x3x256x256_0_0_6_1 : S4x3x266x266.Slices ![0, 0, 6, 1] S4x3x256x256
  slices_S4x3x266x266_S4x3x256x256_0_0_6_2 : S4x3x266x266.Slices ![0, 0, 6, 2] S4x3x256x256
  slices_S4x3x266x266_S4x3x256x256_0_0_6_3 : S4x3x266x266.Slices ![0, 0, 6, 3] S4x3x256x256
  slices_S4x3x266x266_S4x3x256x256_0_0_6_4 : S4x3x266x266.Slices ![0, 0, 6, 4] S4x3x256x256
  slices_S4x3x266x266_S4x3x256x256_0_0_6_5 : S4x3x266x266.Slices ![0, 0, 6, 5] S4x3x256x256
  slices_S4x3x266x266_S4x3x256x256_0_0_6_6 : S4x3x266x266.Slices ![0, 0, 6, 6] S4x3x256x256
  slices_S4x3x266x266_S4x3x256x256_0_0_6_7 : S4x3x266x266.Slices ![0, 0, 6, 7] S4x3x256x256
  slices_S4x3x266x266_S4x3x256x256_0_0_6_8 : S4x3x266x266.Slices ![0, 0, 6, 8] S4x3x256x256
  slices_S4x3x266x266_S4x3x256x256_0_0_6_9 : S4x3x266x266.Slices ![0, 0, 6, 9] S4x3x256x256
  slices_S4x3x266x266_S4x3x256x256_0_0_6_10 : S4x3x266x266.Slices ![0, 0, 6, 10] S4x3x256x256
  slices_S4x3x266x266_S4x3x256x256_0_0_7_0 : S4x3x266x266.Slices ![0, 0, 7, 0] S4x3x256x256
  slices_S4x3x266x266_S4x3x256x256_0_0_7_1 : S4x3x266x266.Slices ![0, 0, 7, 1] S4x3x256x256
  slices_S4x3x266x266_S4x3x256x256_0_0_7_2 : S4x3x266x266.Slices ![0, 0, 7, 2] S4x3x256x256
  slices_S4x3x266x266_S4x3x256x256_0_0_7_3 : S4x3x266x266.Slices ![0, 0, 7, 3] S4x3x256x256
  slices_S4x3x266x266_S4x3x256x256_0_0_7_4 : S4x3x266x266.Slices ![0, 0, 7, 4] S4x3x256x256
  slices_S4x3x266x266_S4x3x256x256_0_0_7_5 : S4x3x266x266.Slices ![0, 0, 7, 5] S4x3x256x256
  slices_S4x3x266x266_S4x3x256x256_0_0_7_6 : S4x3x266x266.Slices ![0, 0, 7, 6] S4x3x256x256
  slices_S4x3x266x266_S4x3x256x256_0_0_7_7 : S4x3x266x266.Slices ![0, 0, 7, 7] S4x3x256x256
  slices_S4x3x266x266_S4x3x256x256_0_0_7_8 : S4x3x266x266.Slices ![0, 0, 7, 8] S4x3x256x256
  slices_S4x3x266x266_S4x3x256x256_0_0_7_9 : S4x3x266x266.Slices ![0, 0, 7, 9] S4x3x256x256
  slices_S4x3x266x266_S4x3x256x256_0_0_7_10 : S4x3x266x266.Slices ![0, 0, 7, 10] S4x3x256x256
  slices_S4x3x266x266_S4x3x256x256_0_0_8_0 : S4x3x266x266.Slices ![0, 0, 8, 0] S4x3x256x256
  slices_S4x3x266x266_S4x3x256x256_0_0_8_1 : S4x3x266x266.Slices ![0, 0, 8, 1] S4x3x256x256
  slices_S4x3x266x266_S4x3x256x256_0_0_8_2 : S4x3x266x266.Slices ![0, 0, 8, 2] S4x3x256x256
  slices_S4x3x266x266_S4x3x256x256_0_0_8_3 : S4x3x266x266.Slices ![0, 0, 8, 3] S4x3x256x256
  slices_S4x3x266x266_S4x3x256x256_0_0_8_4 : S4x3x266x266.Slices ![0, 0, 8, 4] S4x3x256x256
  slices_S4x3x266x266_S4x3x256x256_0_0_8_5 : S4x3x266x266.Slices ![0, 0, 8, 5] S4x3x256x256
  slices_S4x3x266x266_S4x3x256x256_0_0_8_6 : S4x3x266x266.Slices ![0, 0, 8, 6] S4x3x256x256
  slices_S4x3x266x266_S4x3x256x256_0_0_8_7 : S4x3x266x266.Slices ![0, 0, 8, 7] S4x3x256x256
  slices_S4x3x266x266_S4x3x256x256_0_0_8_8 : S4x3x266x266.Slices ![0, 0, 8, 8] S4x3x256x256
  slices_S4x3x266x266_S4x3x256x256_0_0_8_9 : S4x3x266x266.Slices ![0, 0, 8, 9] S4x3x256x256
  slices_S4x3x266x266_S4x3x256x256_0_0_8_10 : S4x3x266x266.Slices ![0, 0, 8, 10] S4x3x256x256
  slices_S4x3x266x266_S4x3x256x256_0_0_9_0 : S4x3x266x266.Slices ![0, 0, 9, 0] S4x3x256x256
  slices_S4x3x266x266_S4x3x256x256_0_0_9_1 : S4x3x266x266.Slices ![0, 0, 9, 1] S4x3x256x256
  slices_S4x3x266x266_S4x3x256x256_0_0_9_2 : S4x3x266x266.Slices ![0, 0, 9, 2] S4x3x256x256
  slices_S4x3x266x266_S4x3x256x256_0_0_9_3 : S4x3x266x266.Slices ![0, 0, 9, 3] S4x3x256x256
  slices_S4x3x266x266_S4x3x256x256_0_0_9_4 : S4x3x266x266.Slices ![0, 0, 9, 4] S4x3x256x256
  slices_S4x3x266x266_S4x3x256x256_0_0_9_5 : S4x3x266x266.Slices ![0, 0, 9, 5] S4x3x256x256
  slices_S4x3x266x266_S4x3x256x256_0_0_9_6 : S4x3x266x266.Slices ![0, 0, 9, 6] S4x3x256x256
  slices_S4x3x266x266_S4x3x256x256_0_0_9_7 : S4x3x266x266.Slices ![0, 0, 9, 7] S4x3x256x256
  slices_S4x3x266x266_S4x3x256x256_0_0_9_8 : S4x3x266x266.Slices ![0, 0, 9, 8] S4x3x256x256
  slices_S4x3x266x266_S4x3x256x256_0_0_9_9 : S4x3x266x266.Slices ![0, 0, 9, 9] S4x3x256x256
  slices_S4x3x266x266_S4x3x256x256_0_0_9_10 : S4x3x266x266.Slices ![0, 0, 9, 10] S4x3x256x256
  slices_S4x3x266x266_S4x3x256x256_0_0_10_0 : S4x3x266x266.Slices ![0, 0, 10, 0] S4x3x256x256
  slices_S4x3x266x266_S4x3x256x256_0_0_10_1 : S4x3x266x266.Slices ![0, 0, 10, 1] S4x3x256x256
  slices_S4x3x266x266_S4x3x256x256_0_0_10_2 : S4x3x266x266.Slices ![0, 0, 10, 2] S4x3x256x256
  slices_S4x3x266x266_S4x3x256x256_0_0_10_3 : S4x3x266x266.Slices ![0, 0, 10, 3] S4x3x256x256
  slices_S4x3x266x266_S4x3x256x256_0_0_10_4 : S4x3x266x266.Slices ![0, 0, 10, 4] S4x3x256x256
  slices_S4x3x266x266_S4x3x256x256_0_0_10_5 : S4x3x266x266.Slices ![0, 0, 10, 5] S4x3x256x256
  slices_S4x3x266x266_S4x3x256x256_0_0_10_6 : S4x3x266x266.Slices ![0, 0, 10, 6] S4x3x256x256
  slices_S4x3x266x266_S4x3x256x256_0_0_10_7 : S4x3x266x266.Slices ![0, 0, 10, 7] S4x3x256x256
  slices_S4x3x266x266_S4x3x256x256_0_0_10_8 : S4x3x266x266.Slices ![0, 0, 10, 8] S4x3x256x256
  slices_S4x3x266x266_S4x3x256x256_0_0_10_9 : S4x3x266x266.Slices ![0, 0, 10, 9] S4x3x256x256
  slices_S4x3x266x266_S4x3x256x256_0_0_10_10 : S4x3x266x266.Slices ![0, 0, 10, 10] S4x3x256x256
  bcast_S4x3x256x256_S4x3x1x256x256_0_1_3_4 : S4x3x256x256.BroadcastsInDim S4x3x1x256x256 (![0, 1, 3, 4] : Fin 4 → Fin S4x3x1x256x256.rank)
  concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2 : Shape.Concatenates [S4x3x1x256x256, S4x3x1x256x256, S4x3x1x256x256, S4x3x1x256x256, S4x3x1x256x256, S4x3x1x256x256, S4x3x1x256x256, S4x3x1x256x256, S4x3x1x256x256, S4x3x1x256x256, S4x3x1x256x256, S4x3x1x256x256, S4x3x1x256x256, S4x3x1x256x256, S4x3x1x256x256, S4x3x1x256x256] S4x3x16x256x256 2
  concatenates_S4x3x1x256x256_S4x3x1x256x256_S4x3x1x256x256_S4x3x1x256x256_S4x3x1x256x256_S4x3x1x256x256_S4x3x1x256x256_S4x3x1x256x256_S4x3x1x256x256_S4x3x9x256x256_d2 : Shape.Concatenates [S4x3x1x256x256, S4x3x1x256x256, S4x3x1x256x256, S4x3x1x256x256, S4x3x1x256x256, S4x3x1x256x256, S4x3x1x256x256, S4x3x1x256x256, S4x3x1x256x256] S4x3x9x256x256 2
  concatenates_S4x3x16x256x256_S4x3x16x256x256_S4x3x16x256x256_S4x3x16x256x256_S4x3x16x256x256_S4x3x16x256x256_S4x3x16x256x256_S4x3x9x256x256_S4x3x121x256x256_d2 : Shape.Concatenates [S4x3x16x256x256, S4x3x16x256x256, S4x3x16x256x256, S4x3x16x256x256, S4x3x16x256x256, S4x3x16x256x256, S4x3x16x256x256, S4x3x9x256x256] S4x3x121x256x256 2
  bcast_S4x121x256x256_S4x1x121x256x256_0_2_3_4 : S4x121x256x256.BroadcastsInDim S4x1x121x256x256 (![0, 2, 3, 4] : Fin 4 → Fin S4x1x121x256x256.rank)
  bcast_S4x1x121x256x256_S4x3x121x256x256_0_1_2_3_4 : S4x1x121x256x256.BroadcastsInDim S4x3x121x256x256 (![0, 1, 2, 3, 4] : Fin 5 → Fin S4x3x121x256x256.rank)
  reducesTo_S4x3x121x256x256_S4x3x256x256_d2 : S4x3x121x256x256.ReducesTo [2] S4x3x256x256
  bcast_S_S4x3x256x256 : S_.BroadcastsInDim S4x3x256x256 (![] : Fin 0 → Fin S4x3x256x256.rank)
  bcast_S4x1x256x256_S4x3x256x256_0_1_2_3 : S4x1x256x256.BroadcastsInDim S4x3x256x256 (![0, 1, 2, 3] : Fin 4 → Fin S4x3x256x256.rank)
  reducesTo_S4x3x256x256_S_d0_1_2_3 : S4x3x256x256.ReducesTo [0, 1, 2, 3] S_

variable [Facts₀]

class Facts : Prop extends Facts₀ where

variable [Facts]
-- ==== Proof.KbBase.lean ====
/-
  The launch of the one pallas_call of this program: the host operations before the region give each
  window's array (`V`), the region runs the 4 × 11 grid, and six host operations follow it. This module holds what
  the three control cases of the body share: the contents the region finds, the blocks of the windows, the closed
  forms of the two conditions of the body (tap row 0: the accumulator is reset; tap row 10: the loss of one image
  is stored), where the output window is idle, and how the frame claim follows from the run's post.
-/
import proofs.«140256_j85203561218656_2_alg».proof.Proof.Gen.Kernel.Launch
import proofs.«140256_j85203561218656_2_alg».proof.Proof.Gen.Kernel.Skeleton
import proofs.«140256_j85203561218656_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: after the host operations before it (the zero
    constant, the padding call, the eleven row-shifted slices stacked, the filters reshaped). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The four argument arrays end as launched: the second image and the mask are staged inputs (their arrays are kept
    by the pipeline), the first image and the filters are read by host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).1 2).trans (((dats 0 c).arrAt_in 2 rfl _).trans ((hA c 2).trans (V_main_arg1 m c))),
     ((h c).2 main_arg2 (Pipeline.mem_restRefs_of main_arg2 (by decide) (by decide))).trans (W_main_arg2 m dats c),
     ((h c).1 3).trans (((dats 0 c).arrAt_in 3 rfl _).trans ((hA c 3).trans (V_main_arg3 m c)))⟩) h

/-! ## The body's two conditions -/

/-- The first `scf.if` of the body: the tap row is 0. -/
abbrev cond0_0 (i : grid0.Coords) : Prop := (Scalar.cmpi .ne (Scalar.extui (Scalar.cmpi .eq (BitVec.ofNat 32 (i 1).val) 0#32)) 0#32) = 1#1
/-- It holds at the points ≡ 0 (mod 11). -/
theorem hcond0_0 : ∀ t : Fin cfg0.N, cond0_0 (grid0.coords t) ↔ t.val % 11 = 0 :=
  (by decide +kernel : ∀ t : Fin grid0.N, cond0_0 (grid0.coords t) ↔ t.val % 11 = 0)

/-- The second `scf.if` of the body: the tap row is 10. -/
abbrev cond0_1 (i : grid0.Coords) : Prop := k0_cond2 i = 1#1
/-- It holds at the points ≡ 10 (mod 11). -/
theorem hcond0_1 : ∀ t : Fin cfg0.N, cond0_1 (grid0.coords t) ↔ t.val % 11 = 10 :=
  (by decide +kernel : ∀ t : Fin grid0.N, cond0_1 (grid0.coords t) ↔ t.val % 11 = 10)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the tap row is not 10 the body stores nothing into the output window, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At tap row 10 the output window is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1x1x128 .f32 := (Memref.whole cc0_stg4_0 : Memref sig .tc .vmem S1x1x128 .f32).view
abbrev ms0_0 (t : Fin cfg0.N) : Memref sig .tc .vmem S1x1x3x256x266 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x11x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0_0 : Memref sig .tc .vmem S3x256x256 .f32 := Memref.whole cc0_scratch0
abbrev VS0_0 : View sig .tc .vmem S3x256x256 .f32 := scM0_0.view

/-- The region invariant of the launch with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KbRunA.lean ====
/-
  The body of the kernel at a grid point of tap row 0: the accumulator is reset to zero, then the eleven column taps of the row are added; nothing is stored into the output block.
  The run is symbolic: each buffer ends at its initial contents overwritten by a list of stored pieces, which the
  run itself finds.
-/
import proofs.«140256_j85203561218656_2_alg».proof.Proof.KbBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block and in the accumulator in this case, with the triple: on
    whole staging memrefs holding the four input blocks, the body runs and hands every input back as it was. -/
noncomputable def kernelRun0_A (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : cond0_0 i) (hc1 : ¬cond0_1 i)
    (x0 : Vec F S1x1x3x256x266 .f32) (x1 : Vec F S1x1x11x256x256 .f32) (x2 : Vec F S1x3x256x256 .f32) (x3 : Vec F S1x1x256x256 .f32) :
    Σ' (L4 : List (View.Piece (Elt F) S1x1x128 .f32)), { LS0 : List (View.Piece (Elt F) S3x256x256 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__occlusion_loss_kernel i arg2 harg2 arg3 harg3 arg4 harg4 arg5 harg5 arg6 harg6 arg7 harg7) K } := by
  refine ⟨[], ?_, fun xi4 E K => ?run⟩
  case run =>
    simp only [cc0__occlusion_loss_kernel_eq_skeleton]; unfold cc0__occlusion_loss_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.KbRunB.lean ====
/-
  The body of the kernel at a grid point of a tap row strictly between 0 and 10: the eleven column taps of the row are added to the accumulator; nothing is stored into the output block.
  The run is symbolic: each buffer ends at its initial contents overwritten by a list of stored pieces, which the
  run itself finds.
-/
import proofs.«140256_j85203561218656_2_alg».proof.Proof.KbBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block and in the accumulator in this case, with the triple: on
    whole staging memrefs holding the four input blocks, the body runs and hands every input back as it was. -/
noncomputable def kernelRun0_B (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : ¬cond0_1 i)
    (x0 : Vec F S1x1x3x256x266 .f32) (x1 : Vec F S1x1x11x256x256 .f32) (x2 : Vec F S1x3x256x256 .f32) (x3 : Vec F S1x1x256x256 .f32) (xs0 : Vec F S3x256x256 .f32) :
    Σ' (L4 : List (View.Piece (Elt F) S1x1x128 .f32)), { LS0 : List (View.Piece (Elt F) S3x256x256 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__occlusion_loss_kernel i arg2 harg2 arg3 harg3 arg4 harg4 arg5 harg5 arg6 harg6 arg7 harg7) K } := by
  refine ⟨[], ?_, fun xi4 E K => ?run⟩
  case run =>
    simp only [cc0__occlusion_loss_kernel_eq_skeleton]; unfold cc0__occlusion_loss_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.KbRunC.lean ====
/-
  The body of the kernel at a grid point of tap row 10: the last eleven column taps are added to the accumulator, and the image's summed masked Charbonnier distance is stored into the output block.
  The run is symbolic: each buffer ends at its initial contents overwritten by a list of stored pieces, which the
  run itself finds.
-/
import proofs.«140256_j85203561218656_2_alg».proof.Proof.KbBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block and in the accumulator in this case, with the triple: on
    whole staging memrefs holding the four input blocks, the body runs and hands every input back as it was. -/
noncomputable def kernelRun0_C (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) :
    Σ' (L4 : List (View.Piece (Elt F) S1x1x128 .f32)), { LS0 : List (View.Piece (Elt F) S3x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__occlusion_loss_kernel i arg2 harg2 arg3 harg3 arg4 harg4 arg5 harg5 arg6 harg6 arg7 harg7) K } := by
  refine ⟨?_, ?_, fun E K => ?run⟩
  case run =>
    simp only [cc0__occlusion_loss_kernel_eq_skeleton]; unfold cc0__occlusion_loss_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.KbFrame.lean ====
/-
  The frame of the program: what the output block and the accumulator hold after each grid point (by recursion on
  the point: the accumulator is reset at tap row 0, added to at every tap row, and read at tap row 10), the
  pipeline's proof data, the body obligation at every point, and the run of @main.
-/
import proofs.«140256_j85203561218656_2_alg».proof.Proof.KbRunA
import proofs.«140256_j85203561218656_2_alg».proof.Proof.KbRunB
import proofs.«140256_j85203561218656_2_alg».proof.Proof.KbRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output block's staging buffer: its pieces read back over junk (none: the block is idle here, and nothing consults this). -/
def out0_A_4 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : cond0_0 i) (hc1 : ¬cond0_1 i)
    (x0 : Vec F S1x1x3x256x266 .f32) (x1 : Vec F S1x1x11x256x256 .f32) (x2 : Vec F S1x3x256x256 .f32) (x3 : Vec F S1x1x256x256 .f32) : Vec F S1x1x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : cond0_0 i) (hc1 : ¬cond0_1 i)
    (x0 : Vec F S1x1x3x256x266 .f32) (x1 : Vec F S1x1x11x256x256 .f32) (x2 : Vec F S1x3x256x256 .f32) (x3 : Vec F S1x1x256x256 .f32) (y : S3x256x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S3x256x256.size (by sl_kernel_rfl) y

/-- What case A leaves in the accumulator: its pieces read back. -/
def sout0_A_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : cond0_0 i) (hc1 : ¬cond0_1 i)
    (x0 : Vec F S1x1x3x256x266 .f32) (x1 : Vec F S1x1x11x256x256 .f32) (x2 : Vec F S1x3x256x256 .f32) (x3 : Vec F S1x1x256x256 .f32) : Vec F S3x256x256 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's staging buffer: its pieces read back over junk (none: the block is idle here, and nothing consults this). -/
def out0_B_4 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : ¬cond0_1 i)
    (x0 : Vec F S1x1x3x256x266 .f32) (x1 : Vec F S1x1x11x256x256 .f32) (x2 : Vec F S1x3x256x256 .f32) (x3 : Vec F S1x1x256x256 .f32) (xs0 : Vec F S3x256x256 .f32) : Vec F S1x1x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : ¬cond0_1 i)
    (x0 : Vec F S1x1x3x256x266 .f32) (x1 : Vec F S1x1x11x256x256 .f32) (x2 : Vec F S1x3x256x256 .f32) (x3 : Vec F S1x1x256x256 .f32) (xs0 : Vec F S3x256x256 .f32) (y : S3x256x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S3x256x256.size (by sl_kernel_rfl) y

/-- What case B leaves in the accumulator: its pieces read back. -/
def sout0_B_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : ¬cond0_1 i)
    (x0 : Vec F S1x1x3x256x266 .f32) (x1 : Vec F S1x1x11x256x256 .f32) (x2 : Vec F S1x3x256x256 .f32) (x3 : Vec F S1x1x256x256 .f32) (xs0 : Vec F S3x256x256 .f32) : Vec F S3x256x256 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What case C leaves in the output block's staging buffer: its pieces read back over junk. -/
def out0_C_4 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) : Vec F S1x1x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) (y : S3x256x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S3x256x256.size (by sl_kernel_rfl) y

/-- What case C leaves in the accumulator: its pieces read back. -/
def sout0_C_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) : Vec F S3x256x256 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- Case C's one store into the output block covers it. -/
theorem cover0_C_4 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) (y : S1x1x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1x128.size (by sl_kernel_rfl) y

/-! ## What the output block and the accumulator hold after each point -/

/-- After the body at position `n`: (the output block's staging buffer, the accumulator). The case is the one the
    closed forms select at `n`; cases B and C start from the accumulator the point before left. -/
def outsAt0 (c : Dev nD) : (n : ℕ) → n < cfg0.N → Vec F S1x1x128 .f32 × Vec F S3x256x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 11 = 0 then
      if h1 : (n + 1) % 11 = 10 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 11 = 10 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 11 = 0) (h1 : ¬t.val % 11 = 10) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 11 = 0) (h1 : ¬t.val % 11 = 10) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 11 = 0) (h1 : t.val % 11 = 10) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's; afterwards the accumulator at
    what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed forms say which case the point is in;
    the invariant hands the body the accumulator at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 44 := lt_of_lt_of_eq t.isLt (show cfg0.N = 44 from N_0)
  by_cases h0 : t.val % 11 = 0
  · by_cases h1 : t.val % 11 = 10
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 11 = 10
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 44 := N_0; omega)

/-! ## The run and the frame -/

set_option backward.isDefEq.respectTransparency.types false in
/-- Every weakly fair execution of @main terminates, and every final state has each array of the pipeline at what
    the proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KiBase.lean ====
/-
  The launch of the one pallas_call of this program: the host operations before the region give each
  window's array (`V`), the region runs the 4 × 11 grid, and six host operations follow it. This module holds what
  the three control cases of the body share: the contents the region finds, the blocks of the windows, the closed
  forms of the two conditions of the body (tap row 0: the accumulator is reset; tap row 10: the loss of one image
  is stored), where the output window is idle, and how the frame claim follows from the run's post.
-/
import proofs.«140256_j85203561218656_2_alg».proof.Proof.Gen.KernelIdeal.Launch
import proofs.«140256_j85203561218656_2_alg».proof.Proof.Gen.KernelIdeal.Skeleton
import proofs.«140256_j85203561218656_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: after the host operations before it (the zero
    constant, the padding call, the eleven row-shifted slices stacked, the filters reshaped). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The four argument arrays end as launched: the second image and the mask are staged inputs (their arrays are kept
    by the pipeline), the first image and the filters are read by host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).1 2).trans (((dats 0 c).arrAt_in 2 rfl _).trans ((hA c 2).trans (V_main_arg1 m c))),
     ((h c).2 main_arg2 (Pipeline.mem_restRefs_of main_arg2 (by decide) (by decide))).trans (W_main_arg2 m dats c),
     ((h c).1 3).trans (((dats 0 c).arrAt_in 3 rfl _).trans ((hA c 3).trans (V_main_arg3 m c)))⟩) h

/-! ## The body's two conditions -/

/-- The first `scf.if` of the body: the tap row is 0. -/
abbrev cond0_0 (i : grid0.Coords) : Prop := (Scalar.cmpi .ne (Scalar.extui (Scalar.cmpi .eq (BitVec.ofNat 32 (i 1).val) 0#32)) 0#32) = 1#1
/-- It holds at the points ≡ 0 (mod 11). -/
theorem hcond0_0 : ∀ t : Fin cfg0.N, cond0_0 (grid0.coords t) ↔ t.val % 11 = 0 :=
  (by decide +kernel : ∀ t : Fin grid0.N, cond0_0 (grid0.coords t) ↔ t.val % 11 = 0)

/-- The second `scf.if` of the body: the tap row is 10. -/
abbrev cond0_1 (i : grid0.Coords) : Prop := k0_cond2 i = 1#1
/-- It holds at the points ≡ 10 (mod 11). -/
theorem hcond0_1 : ∀ t : Fin cfg0.N, cond0_1 (grid0.coords t) ↔ t.val % 11 = 10 :=
  (by decide +kernel : ∀ t : Fin grid0.N, cond0_1 (grid0.coords t) ↔ t.val % 11 = 10)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the tap row is not 10 the body stores nothing into the output window, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At tap row 10 the output window is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1x1x128 .f32 := (Memref.whole cc0_stg4_0 : Memref sig .tc .vmem S1x1x128 .f32).view
abbrev ms0_0 (t : Fin cfg0.N) : Memref sig .tc .vmem S1x1x3x256x266 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x11x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0_0 : Memref sig .tc .vmem S3x256x256 .f32 := Memref.whole cc0_scratch0
abbrev VS0_0 : View sig .tc .vmem S3x256x256 .f32 := scM0_0.view

/-- The region invariant of the launch with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KiRunA.lean ====
/-
  The body of the kernel at a grid point of tap row 0: the accumulator is reset to zero, then the eleven column taps of the row are added; nothing is stored into the output block.
  The run is symbolic: each buffer ends at its initial contents overwritten by a list of stored pieces, which the
  run itself finds.
-/
import proofs.«140256_j85203561218656_2_alg».proof.Proof.KiBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block and in the accumulator in this case, with the triple: on
    whole staging memrefs holding the four input blocks, the body runs and hands every input back as it was. -/
noncomputable def kernelRun0_A (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : cond0_0 i) (hc1 : ¬cond0_1 i)
    (x0 : Vec F S1x1x3x256x266 .f32) (x1 : Vec F S1x1x11x256x256 .f32) (x2 : Vec F S1x3x256x256 .f32) (x3 : Vec F S1x1x256x256 .f32) :
    Σ' (L4 : List (View.Piece (Elt F) S1x1x128 .f32)), { LS0 : List (View.Piece (Elt F) S3x256x256 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__occlusion_loss_kernel i arg2 harg2 arg3 harg3 arg4 harg4 arg5 harg5 arg6 harg6 arg7 harg7) K } := by
  refine ⟨[], ?_, fun xi4 E K => ?run⟩
  case run =>
    simp only [cc0__occlusion_loss_kernel_eq_skeleton]; unfold cc0__occlusion_loss_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KiRunB.lean ====
/-
  The body of the kernel at a grid point of a tap row strictly between 0 and 10: the eleven column taps of the row are added to the accumulator; nothing is stored into the output block.
  The run is symbolic: each buffer ends at its initial contents overwritten by a list of stored pieces, which the
  run itself finds.
-/
import proofs.«140256_j85203561218656_2_alg».proof.Proof.KiBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block and in the accumulator in this case, with the triple: on
    whole staging memrefs holding the four input blocks, the body runs and hands every input back as it was. -/
noncomputable def kernelRun0_B (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : ¬cond0_1 i)
    (x0 : Vec F S1x1x3x256x266 .f32) (x1 : Vec F S1x1x11x256x256 .f32) (x2 : Vec F S1x3x256x256 .f32) (x3 : Vec F S1x1x256x256 .f32) (xs0 : Vec F S3x256x256 .f32) :
    Σ' (L4 : List (View.Piece (Elt F) S1x1x128 .f32)), { LS0 : List (View.Piece (Elt F) S3x256x256 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__occlusion_loss_kernel i arg2 harg2 arg3 harg3 arg4 harg4 arg5 harg5 arg6 harg6 arg7 harg7) K } := by
  refine ⟨[], ?_, fun xi4 E K => ?run⟩
  case run =>
    simp only [cc0__occlusion_loss_kernel_eq_skeleton]; unfold cc0__occlusion_loss_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KiRunC.lean ====
/-
  The body of the kernel at a grid point of tap row 10: the last eleven column taps are added to the accumulator, and the image's summed masked Charbonnier distance is stored into the output block.
  The run is symbolic: each buffer ends at its initial contents overwritten by a list of stored pieces, which the
  run itself finds.
-/
import proofs.«140256_j85203561218656_2_alg».proof.Proof.KiBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block and in the accumulator in this case, with the triple: on
    whole staging memrefs holding the four input blocks, the body runs and hands every input back as it was. -/
noncomputable def kernelRun0_C (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) :
    Σ' (L4 : List (View.Piece (Elt F) S1x1x128 .f32)), { LS0 : List (View.Piece (Elt F) S3x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__occlusion_loss_kernel i arg2 harg2 arg3 harg3 arg4 harg4 arg5 harg5 arg6 harg6 arg7 harg7) K } := by
  refine ⟨?_, ?_, fun E K => ?run⟩
  case run =>
    simp only [cc0__occlusion_loss_kernel_eq_skeleton]; unfold cc0__occlusion_loss_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KiFrame.lean ====
/-
  The frame of the program: what the output block and the accumulator hold after each grid point (by recursion on
  the point: the accumulator is reset at tap row 0, added to at every tap row, and read at tap row 10), the
  pipeline's proof data, the body obligation at every point, and the run of @main.
-/
import proofs.«140256_j85203561218656_2_alg».proof.Proof.KiRunA
import proofs.«140256_j85203561218656_2_alg».proof.Proof.KiRunB
import proofs.«140256_j85203561218656_2_alg».proof.Proof.KiRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output block's staging buffer: its pieces read back over junk (none: the block is idle here, and nothing consults this). -/
def out0_A_4 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : cond0_0 i) (hc1 : ¬cond0_1 i)
    (x0 : Vec F S1x1x3x256x266 .f32) (x1 : Vec F S1x1x11x256x256 .f32) (x2 : Vec F S1x3x256x256 .f32) (x3 : Vec F S1x1x256x256 .f32) : Vec F S1x1x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : cond0_0 i) (hc1 : ¬cond0_1 i)
    (x0 : Vec F S1x1x3x256x266 .f32) (x1 : Vec F S1x1x11x256x256 .f32) (x2 : Vec F S1x3x256x256 .f32) (x3 : Vec F S1x1x256x256 .f32) (y : S3x256x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S3x256x256.size (by sl_kernel_rfl) y

/-- What case A leaves in the accumulator: its pieces read back. -/
def sout0_A_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : cond0_0 i) (hc1 : ¬cond0_1 i)
    (x0 : Vec F S1x1x3x256x266 .f32) (x1 : Vec F S1x1x11x256x256 .f32) (x2 : Vec F S1x3x256x256 .f32) (x3 : Vec F S1x1x256x256 .f32) : Vec F S3x256x256 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's staging buffer: its pieces read back over junk (none: the block is idle here, and nothing consults this). -/
def out0_B_4 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : ¬cond0_1 i)
    (x0 : Vec F S1x1x3x256x266 .f32) (x1 : Vec F S1x1x11x256x256 .f32) (x2 : Vec F S1x3x256x256 .f32) (x3 : Vec F S1x1x256x256 .f32) (xs0 : Vec F S3x256x256 .f32) : Vec F S1x1x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : ¬cond0_1 i)
    (x0 : Vec F S1x1x3x256x266 .f32) (x1 : Vec F S1x1x11x256x256 .f32) (x2 : Vec F S1x3x256x256 .f32) (x3 : Vec F S1x1x256x256 .f32) (xs0 : Vec F S3x256x256 .f32) (y : S3x256x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S3x256x256.size (by sl_kernel_rfl) y

/-- What case B leaves in the accumulator: its pieces read back. -/
def sout0_B_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : ¬cond0_1 i)
    (x0 : Vec F S1x1x3x256x266 .f32) (x1 : Vec F S1x1x11x256x256 .f32) (x2 : Vec F S1x3x256x256 .f32) (x3 : Vec F S1x1x256x256 .f32) (xs0 : Vec F S3x256x256 .f32) : Vec F S3x256x256 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What case C leaves in the output block's staging buffer: its pieces read back over junk. -/
def out0_C_4 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) : Vec F S1x1x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) (y : S3x256x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S3x256x256.size (by sl_kernel_rfl) y

/-- What case C leaves in the accumulator: its pieces read back. -/
def sout0_C_0 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) : Vec F S3x256x256 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- Case C's one store into the output block covers it. -/
theorem cover0_C_4 (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) (y : S1x1x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1x128.size (by sl_kernel_rfl) y

/-! ## What the output block and the accumulator hold after each point -/

/-- After the body at position `n`: (the output block's staging buffer, the accumulator). The case is the one the
    closed forms select at `n`; cases B and C start from the accumulator the point before left. -/
def outsAt0 (c : Dev nD) : (n : ℕ) → n < cfg0.N → Vec F S1x1x128 .f32 × Vec F S3x256x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 11 = 0 then
      if h1 : (n + 1) % 11 = 10 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 11 = 10 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 11 = 0) (h1 : ¬t.val % 11 = 10) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 11 = 0) (h1 : ¬t.val % 11 = 10) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 11 = 0) (h1 : t.val % 11 = 10) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's; afterwards the accumulator at
    what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' memrefs hold their blocks; the closed forms say which case the point is in;
    the invariant hands the body the accumulator at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 44 := lt_of_lt_of_eq t.isLt (show cfg0.N = 44 from N_0)
  by_cases h0 : t.val % 11 = 0
  · by_cases h1 : t.val % 11 = 10
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 11 = 10
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 44 := N_0; omega)

/-! ## The run and the frame -/

set_option backward.isDefEq.respectTransparency.types false in
/-- Every weakly fair execution of @main terminates, and every final state has each array of the pipeline at what
    the proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.KiAcc.lean ====
/-
  What the accumulator and the output block hold after each grid point, in closed form over the body's arithmetic:
  one tap row's eleven column taps are added to the accumulator (`step`), from zero at tap row 0; at tap row 10 the
  output block is the loss payload of the accumulator, the second image's block and the mask's block.
-/
import proofs.«140256_j85203561218656_2_alg».proof.Proof.KiFrame
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.Fr

variable {F : FTy → Type} [FloatOps F]

variable (m : (ℓ : Loc nD τ sig) → Buf (Elt F) ℓ)

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- One tap row added to the accumulator: the eleven column taps of the row-shifted image slab `x0`, each times
    its filter plane of `x1`. -/
def step (x0 : Vec F S1x1x3x256x266 .f32) (x1 : Vec F S1x1x11x256x256 .f32) (acc : Vec F S3x256x256 .f32) : Vec F S3x256x256 .f32 :=
  k0_pay6 (k0_pay2 x0) (k0_pay3 x1) (k0_pay4 x0 x1) (k0_pay5 x0) acc

/-- A tap row strictly inside: the accumulator ends at one more tap row over what the point before left. -/
theorem sout_B (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : ¬cond0_1 i)
    (x0 : Vec F S1x1x3x256x266 .f32) (x1 : Vec F S1x1x11x256x256 .f32) (x2 : Vec F S1x3x256x256 .f32) (x3 : Vec F S1x1x256x256 .f32) (xs0 : Vec F S3x256x256 .f32) :
    sout0_B_0 c i arg2 harg2 arg3 harg3 arg4 harg4 arg5 harg5 arg6 harg6 arg7 harg7 hc0 hc1 x0 x1 x2 x3 xs0 = step x0 x1 xs0 := by
  unfold sout0_B_0 step
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz3]
  simp only [View.readAt_eq_ld, harg2.read_unread, harg3.read_unread, harg4.read_unread, harg5.read_unread, harg7.read_unread, View.ld_unit_zero (S := S3x256x256) hz3, View.ld_unit_zero (S := S1x1x3x256x266) hz5, View.ld_unit_zero (S := S1x1x11x256x256) hz5, View.ld_unit_zero (S := S1x3x256x256) hz4, View.ld_unit_zero (S := S1x1x256x256) hz4]
  try rfl

/-- Tap row 10: the same for the accumulator. -/
theorem sout_C (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) :
    sout0_C_0 c i arg2 harg2 arg3 harg3 arg4 harg4 arg5 harg5 arg6 harg6 arg7 harg7 hc0 hc1 x0 x1 x2 x3 xs0 = step x0 x1 xs0 := by
  unfold sout0_C_0 step
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread, View.ld_unit_zero (S := S3x256x256) hz3, View.ld_unit_zero (S := S1x1x3x256x266) hz5, View.ld_unit_zero (S := S1x1x11x256x256) hz5, View.ld_unit_zero (S := S1x3x256x256) hz4, View.ld_unit_zero (S := S1x1x256x256) hz4]
  try rfl

/-- Tap row 0: the accumulator is reset to zero and the first tap row added. -/
theorem sout_A (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : cond0_0 i) (hc1 : ¬cond0_1 i)
    (x0 : Vec F S1x1x3x256x266 .f32) (x1 : Vec F S1x1x11x256x256 .f32) (x2 : Vec F S1x3x256x256 .f32) (x3 : Vec F S1x1x256x256 .f32) :
    sout0_A_0 c i arg2 harg2 arg3 harg3 arg4 harg4 arg5 harg5 arg6 harg6 arg7 harg7 hc0 hc1 x0 x1 x2 x3 = step x0 x1 (k0_pay1 (F := F)) := by
  unfold sout0_A_0 step
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S3x256x256) hz3, View.readCov_unit_zero (S := S3x256x256) _ hz3]
  simp only [View.readAt_eq_ld, harg2.read_unread, harg3.read_unread, harg4.read_unread, harg5.read_unread, harg7.read_unread, View.ld_unit_zero (S := S3x256x256) hz3, View.ld_unit_zero (S := S1x1x3x256x266) hz5, View.ld_unit_zero (S := S1x1x11x256x256) hz5, View.ld_unit_zero (S := S1x3x256x256) hz4, View.ld_unit_zero (S := S1x1x256x256) hz4]
  try rfl

/-- Tap row 10: the output block is the loss payload of the completed accumulator and the blocks of the second
    image and the mask. -/
theorem out_C (c : Dev nD) (i : grid0.Coords) (arg2 : Memref sig .tc .vmem S1x1x3x256x266 .f32) (harg2 : arg2.IsWhole) (arg3 : Memref sig .tc .vmem S1x1x11x256x256 .f32) (harg3 : arg3.IsWhole) (arg4 : Memref sig .tc .vmem S1x3x256x256 .f32) (harg4 : arg4.IsWhole) (arg5 : Memref sig .tc .vmem S1x1x256x256 .f32) (harg5 : arg5.IsWhole) (arg6 : Memref sig .tc .vmem S1x1x128 .f32) (harg6 : arg6.IsWhole) (arg7 : Memref sig .tc .vmem S3x256x256 .f32) (harg7 : arg7.IsWhole) (hc0 : ¬cond0_0 i) (hc1 : cond0_1 i)
    (x0 : Vec F S1x1x3x256x266 .f32) (x1 : Vec F S1x1x11x256x256 .f32) (x2 : Vec F S1x3x256x256 .f32) (x3 : Vec F S1x1x256x256 .f32) (xs0 : Vec F S3x256x256 .f32) :
    out0_C_4 c i arg2 harg2 arg3 harg3 arg4 harg4 arg5 harg5 arg6 harg6 arg7 harg7 hc0 hc1 x0 x1 x2 x3 xs0 = k0_pay7 (step x0 x1 xs0) x2 x3 := by
  unfold out0_C_4 step
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readCov_unit_zero (S := S3x256x256) _ hz3, View.readAt_eq_ld, harg2.read_unread, harg3.read_unread, harg4.read_unread, harg5.read_unread, harg7.read_unread, View.ld_unit_zero (S := S3x256x256) hz3, View.ld_unit_zero (S := S1x1x3x256x266) hz5, View.ld_unit_zero (S := S1x1x11x256x256) hz5, View.ld_unit_zero (S := S1x3x256x256) hz4, View.ld_unit_zero (S := S1x1x256x256) hz4]
  try rfl

/-- The accumulator after position `n`: restarted from zero at each tap row 0. -/
def accAt (c : Dev nD) : (n : ℕ) → n < cfg0.N → Vec F S3x256x256 .f32
  | 0, h => step (iblk m c 0 ⟨0, h⟩) (iblk m c 1 ⟨0, h⟩) (k0_pay1 (F := F))
  | n + 1, h =>
    if (n + 1) % 11 = 0 then step (iblk m c 0 ⟨n + 1, h⟩) (iblk m c 1 ⟨n + 1, h⟩) (k0_pay1 (F := F))
    else step (iblk m c 0 ⟨n + 1, h⟩) (iblk m c 1 ⟨n + 1, h⟩) (accAt c n (Nat.lt_of_succ_lt h))

/-- The frame's recursion at a point of each case, by components. -/
theorem snd_A (c : Dev nD) (t : Fin cfg0.N) (h0 : t.val % 11 = 0) (h1 : ¬t.val % 11 = 10) :
    (outsAt0 m c t.val t.isLt).2 = sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t) := by
  rw [outsAt0_A m c t h0 h1]
theorem snd_B (c : Dev nD) (t : Fin cfg0.N) (h0 : ¬t.val % 11 = 0) (h1 : ¬t.val % 11 = 10) :
    (outsAt0 m c t.val t.isLt).2 = sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2 := by
  rw [outsAt0_B m c t h0 h1]
theorem snd_C (c : Dev nD) (t : Fin cfg0.N) (h0 : ¬t.val % 11 = 0) (h1 : t.val % 11 = 10) :
    (outsAt0 m c t.val t.isLt).2 = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 := by
  rw [outsAt0_C m c t h0 h1]
theorem fst_C (c : Dev nD) (t : Fin cfg0.N) (h0 : ¬t.val % 11 = 0) (h1 : t.val % 11 = 10) :
    (outsAt0 m c t.val t.isLt).1 = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 := by
  rw [outsAt0_C m c t h0 h1]

/-- One step of the accumulator's recursion at a point of each case. -/
theorem acc_A (c : Dev nD) (t : Fin cfg0.N) (h0 : t.val % 11 = 0) (h1 : ¬t.val % 11 = 10) :
    (outsAt0 m c t.val t.isLt).2 = step (iblk m c 0 t) (iblk m c 1 t) (k0_pay1 (F := F)) :=
  (snd_A m c t h0 h1).trans (sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))
theorem acc_B (c : Dev nD) (t : Fin cfg0.N) (h0 : ¬t.val % 11 = 0) (h1 : ¬t.val % 11 = 10) :
    (outsAt0 m c t.val t.isLt).2 = step (iblk m c 0 t) (iblk m c 1 t) (outsAt0 m c (t.val - 1) (Nat.lt_of_le_of_lt (Nat.sub_le _ _) t.isLt)).2 :=
  (snd_B m c t h0 h1).trans (sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2)
theorem acc_C (c : Dev nD) (t : Fin cfg0.N) (h0 : ¬t.val % 11 = 0) (h1 : t.val % 11 = 10) :
    (outsAt0 m c t.val t.isLt).2 = step (iblk m c 0 t) (iblk m c 1 t) (outsAt0 m c (t.val - 1) (Nat.lt_of_le_of_lt (Nat.sub_le _ _) t.isLt)).2 :=
  (snd_C m c t h0 h1).trans (sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2)
theorem out_C' (c : Dev nD) (t : Fin cfg0.N) (h0 : ¬t.val % 11 = 0) (h1 : t.val % 11 = 10) :
    (outsAt0 m c t.val t.isLt).1 = k0_pay7 (step (iblk m c 0 t) (iblk m c 1 t) (outsAt0 m c (t.val - 1) (Nat.lt_of_le_of_lt (Nat.sub_le _ _) t.isLt)).2) (iblk m c 2 t) (iblk m c 3 t) :=
  (fst_C m c t h0 h1).trans (out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2)

/-- What the frame's recursion leaves in the accumulator is the closed form, by induction on the point. -/
theorem outsAt_acc (c : Dev nD) : ∀ (n : ℕ) (h : n < cfg0.N), (outsAt0 m c n h).2 = accAt m c n h
  | 0, h => acc_A m c ⟨0, h⟩ rfl (by dsimp only; omega)
  | n + 1, h => by
    by_cases h0 : (n + 1) % 11 = 0
    · have h1 : ¬(n + 1) % 11 = 10 := by omega
      refine (acc_A m c ⟨n + 1, h⟩ h0 h1).trans ?_
      rw [accAt, if_pos h0]
    · by_cases h1 : (n + 1) % 11 = 10
      · refine (acc_C m c ⟨n + 1, h⟩ h0 h1).trans ?_
        rw [accAt, if_neg h0]
        exact congrArg (step (iblk m c 0 ⟨n + 1, h⟩) (iblk m c 1 ⟨n + 1, h⟩)) (outsAt_acc c n (Nat.lt_of_succ_lt h))
      · refine (acc_B m c ⟨n + 1, h⟩ h0 h1).trans ?_
        rw [accAt, if_neg h0]
        exact congrArg (step (iblk m c 0 ⟨n + 1, h⟩) (iblk m c 1 ⟨n + 1, h⟩)) (outsAt_acc c n (Nat.lt_of_succ_lt h))

/-- At tap row 10 the output block is the loss payload of the accumulator just completed. -/
theorem outsAt_out (c : Dev nD) (t : Fin cfg0.N) (h1 : t.val % 11 = 10) :
    (outsAt0 m c t.val t.isLt).1 = k0_pay7 (accAt m c t.val t.isLt) (iblk m c 2 t) (iblk m c 3 t) := by
  have h0 : ¬t.val % 11 = 0 := by omega
  have hacc : step (iblk m c 0 t) (iblk m c 1 t) (outsAt0 m c (t.val - 1) (Nat.lt_of_le_of_lt (Nat.sub_le _ _) t.isLt)).2 = accAt m c t.val t.isLt :=
    (acc_C m c t h0 h1).symm.trans (outsAt_acc m c t.val t.isLt)
  exact (out_C' m c t h0 h1).trans (congrArg (fun a => k0_pay7 a (iblk m c 2 t) (iblk m c 3 t)) hacc)

end Cert.KernelIdeal.Val

end
-- ==== Proof.Spec.lean ====
/-
  The loss both programs compute, as one function of the arrays, over the extended reals.

  With `P` the first image zero-padded by five rows and columns on each side, `K` the per-pixel 11×11 filters
  (tap `(i, j)` stored at channel `11·i + j`), `I2` the second image and `M` the validity mask:
    recon n c h w = Σ_{i<11} Σ_{j<11} P[n, c, h+i, w+j] · K[n, 11·i+j, h, w]
    term  n c h w = √((recon − I2[n,c,h,w])² + ε) · M[n, 0, h, w]
    loss          = (Σ_n Σ_h Σ_w Σ_c term n c h w) / 786432.
-/
import Idealize.ShloMosaic.PureOps.Ideal
import Idealize.ShloMosaic.Lib.ValueIdx

noncomputable section

namespace Cert.Spec

open Idealize.ShloMosaic Idealize.ShloMosaic.ValueIdx

abbrev SImg : Shape := ⟨4, ![4, 3, 256, 256]⟩
abbrev SPad : Shape := ⟨4, ![4, 3, 266, 266]⟩
abbrev SFil : Shape := ⟨4, ![4, 121, 256, 256]⟩
abbrev SMsk : Shape := ⟨4, ![4, 1, 256, 256]⟩

/-- The Charbonnier ε² as the f32 word both programs carry. -/
def eps : EReal := Ideal.ofBits .f32 0x358637BD#32
/-- The element count 4·3·256·256 = 786432 as the f32 word both programs carry. -/
def cnt : EReal := Ideal.ofBits .f32 0x49400000#32

/-- Filter channel of tap `(i, j)`. -/
def tap (i j : Fin 11) : Fin 121 := ⟨11 * i.val + j.val, by omega⟩
/-- A pixel coordinate shifted by a tap offset, in the padded image. -/
def sh (h : Fin 256) (i : Fin 11) : Fin 266 := ⟨h.val + i.val, by omega⟩

/-- The filtered first image at one pixel: the 121 taps, by tap row then tap column. -/
def recon (P : SPad.Idx → EReal) (K : SFil.Idx → EReal) (n : Fin 4) (c : Fin 3) (h w : Fin 256) : EReal :=
  ∑ i : Fin 11, ∑ j : Fin 11, P (ix4 n c (sh h i) (sh w j)) * K (ix4 n (tap i j) h w)

/-- One pixel's masked Charbonnier distance to the second image. -/
def term (P : SPad.Idx → EReal) (I2 : SImg.Idx → EReal) (K : SFil.Idx → EReal) (M : SMsk.Idx → EReal)
    (n : Fin 4) (c : Fin 3) (h w : Fin 256) : EReal :=
  Ideal.sqrt ((recon P K n c h w - I2 (ix4 n c h w)) * (recon P K n c h w - I2 (ix4 n c h w)) + eps) * M (ix4 n 0 h w)

/-- One image's sum of distances: rows, then columns, then channels. -/
def partialSum (P : SPad.Idx → EReal) (I2 : SImg.Idx → EReal) (K : SFil.Idx → EReal) (M : SMsk.Idx → EReal) (n : Fin 4) : EReal :=
  ∑ h : Fin 256, ∑ w : Fin 256, ∑ c : Fin 3, term P I2 K M n c h w

/-- The mean distance over the batch. -/
def loss (P : SPad.Idx → EReal) (I2 : SImg.Idx → EReal) (K : SFil.Idx → EReal) (M : SMsk.Idx → EReal) : EReal :=
  Ideal.div (∑ n : Fin 4, partialSum P I2 K M n) cnt

end Cert.Spec

end
-- ==== Proof.KPayLib.lean ====
/-
  Layout operations read at an index given by coordinates, at the ranks and axes this kernel's body uses:
  unit axes dropped by a shape cast, one slab broadcast over the channels, a slice along the first or the last
  axis of a rank-3 vector, a cast between equal shapes, and a sum over eleven taps written out from the left.
-/
import Idealize.ShloMosaic.Lib.ValueLayout
import Idealize.ShloMosaic.PureOps.Ideal.Laws

noncomputable section

namespace Cert.KernelIdeal.Pay

open Idealize.ShloMosaic Idealize.ShloMosaic.ValueIdx

variable {α : Type}

/-- A sum over eleven taps, written out from the left. -/
theorem sum11 (f : Fin 11 → EReal) :
    ∑ j : Fin 11, f j = f 0 + f 1 + f 2 + f 3 + f 4 + f 5 + f 6 + f 7 + f 8 + f 9 + f 10 := by
  simp only [Fin.sum_univ_castSucc, Fin.sum_univ_zero, zero_add]
  rfl

/-- A cast between equal rank-3 shapes reads the operand at the same coordinates. -/
theorem shapeCast_same3 {n0 n1 n2 : Nat} (x : (⟨3, ![n0, n1, n2]⟩ : Shape).Idx → α)
    (hc : (⟨3, ![n0, n1, n2]⟩ : Shape).ShapeCasts ⟨3, ![n0, n1, n2]⟩) (a : Fin n0) (b : Fin n1) (c : Fin n2) :
    shapeCast ⟨3, ![n0, n1, n2]⟩ x hc (ix3 a b c) = x (ix3 a b c) :=
  shapeCast_apply x hc _ _ rfl

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_five, Shape.rowMajor_val_three]
    show ((((0 * 1 + 0) * a + i.val) * b + j.val) * c + k.val) = (i.val * b + j.val) * c + k.val
    simp only [Nat.zero_mul, Nat.zero_add])

/-- A `[1, 1, a, b]` array cast to `[1, a, b]` reads, at `(u, i, j)`, the operand at `(0, 0, i, j)`. -/
theorem shapeCast_11ab_1ab_apply {a b : ℕ} (x : (⟨4, ![1, 1, a, b]⟩ : Shape).Idx → α)
    (h : (⟨4, ![1, 1, a, b]⟩ : Shape).ShapeCasts ⟨3, ![1, a, b]⟩) (u : Fin 1) (i : Fin a) (j : Fin b) :
    shapeCast ⟨3, ![1, a, b]⟩ x h (ix3 u i j) = x (ix4 (0 : Fin 1) (0 : Fin 1) i j) :=
  shapeCast_apply x h _ _ (by
    have hu : u.val = 0 := by omega
    rw [Shape.rowMajor_val_four, Shape.rowMajor_val_three]
    show (((0 * 1 + 0) * a + i.val) * b + j.val) = (u.val * a + i.val) * b + j.val
    simp only [hu, Nat.zero_mul, Nat.zero_add])

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A rank-3 array cut along axis 2 from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- One `[1, b, c]` slab broadcast to `[a, b, c]` reads, at `(p, i, j)`, the slab at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A `[1, 1, 1]` array broadcast to `[1, 1, c]` reads its one element at every index. -/
theorem broadcastTo_111_11c_apply {c : ℕ} (v : (⟨3, ![1, 1, 1]⟩ : Shape).Idx → α)
    (h : (⟨3, ![1, 1, 1]⟩ : Shape).Broadcasts ⟨3, ![1, 1, c]⟩) (p q : Fin 1) (l : Fin c) :
    broadcastTo ⟨3, ![1, 1, c]⟩ v h (ix3 p q l) = v (ix3 (0 : Fin 1) (0 : Fin 1) (0 : Fin 1)) := by
  refine broadcastTo_apply v h (ix3 p q l) (ix3 (0 : Fin 1) (0 : Fin 1) (0 : Fin 1)) fun ax => ?_
  match ax with
  | ⟨0, _⟩ => rfl
  | ⟨1, _⟩ => rfl
  | ⟨2, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    simp only [hu, Nat.mul_one, Nat.add_zero])

/-- A square root of a vector at an index is the extended reals' square root of the element. -/
theorem sqrt_apply {s : Shape} {φ : FTy} (a : FVec Ideal s φ) (i : s.Idx) : sqrt a i = Ideal.sqrt (a i) := rfl

end Cert.KernelIdeal.Pay

end
-- ==== Proof.KPayAcc.lean ====
/-
  The kernel's accumulator arithmetic read at one index, over the extended reals.

  For one grid point the body adds, at accumulator position (c, h, w), the eleven column taps of one tap row:
    acc[c, h, w] + Σ_{j<11} img[0, 0, c, h, w + j] · filt[0, 0, j, h, w],
  the body's left fold from the zero literal written as the sum over the taps; and the value the body stores at
  the first tap row is zero at every position.
-/
import proofs.«140256_j85203561218656_2_alg».proof.Proof.Gen.KernelIdeal.Skeleton
import proofs.«140256_j85203561218656_2_alg».proof.Proof.Spec
import proofs.«140256_j85203561218656_2_alg».proof.Proof.KPayLib
import Idealize.ShloMosaic.Lib.ValueLayout
import Idealize.ShloMosaic.PureOps.Ideal.Laws

noncomputable section

namespace Cert.KernelIdeal.Pay

open Idealize.ShloMosaic Idealize.ShloMosaic.ValueIdx

open Cert.KernelIdeal Cert.KernelIdeal.Gen

/-- The zero word of f32 is the extended real zero. -/
theorem zero_word : (Scalar.ofBits (F := Ideal) .f32 0x00000000#32 : EReal) = 0 := Ideal.ofBits_zero_f32

/-- The value stored at the first tap row is zero at every position. -/
theorem pay1_apply (c : Fin 3) (h w : Fin 256) : k0_pay1 (F := Ideal) (ix3 c h w) = 0 := by
  unfold k0_pay1
  refine (shapeCast_same3 _ _ c h w).trans ?_
  exact zero_word

/-- The image slab cut along its columns from tap `j`, at (c, h, w): the loaded block at column `w + j`. -/
theorem img_tap (x3 : Vec Ideal S1x1x3x256x266 .f32) (j : Fin 11)
    (hs : S3x256x266.Slices ![0, 0, j.val] S3x256x256) (c : Fin 3) (h w : Fin 256) :
    extractStridedSlice S3x256x256 ![0, 0, j.val] (k0_pay2 x3) hs (ix3 c h w)
      = x3 (ix5 (0 : Fin 1) (0 : Fin 1) c h (Cert.Spec.sh w j)) := by
  refine (slice3_axis2_apply j.val _ hs c h w (Cert.Spec.sh w j) (Nat.add_comm _ _)).trans ?_
  unfold k0_pay2
  exact shapeCast_11abc_abc_apply x3 _ c h (Cert.Spec.sh w j)

/-- Tap `j`'s filter plane, broadcast over the channels, at (c, h, w): the loaded block at (j, h, w). -/
theorem fil_tap (x5 : Vec Ideal S1x1x11x256x256 .f32) (j : Fin 11)
    (hs : S11x256x256.Slices ![j.val, 0, 0] S1x256x256) (c : Fin 3) (h w : Fin 256) :
    broadcastTo S3x256x256
        (shapeCast S1x256x256
          (shapeCast S256x256 (extractStridedSlice S1x256x256 ![j.val, 0, 0] (k0_pay3 x5) hs) shapeCasts_S1x256x256_S256x256)
          shapeCasts_S256x256_S1x256x256)
        broadcasts_S1x256x256_S3x256x256 (ix3 c h w)
      = x5 (ix5 (0 : Fin 1) (0 : Fin 1) j h w) := by
  refine (broadcastTo_1bc_abc_apply _ _ c h w).trans ?_
  refine (shapeCast_ab_1ab_apply _ _ (0 : Fin 1) h w).trans ?_
  refine (shapeCast_1ab_ab_apply _ _ h w).trans ?_
  refine (slice3_axis0_apply j.val _ hs (0 : Fin 1) h w j (Nat.add_zero _).symm).trans ?_
  unfold k0_pay3
  exact shapeCast_11abc_abc_apply x5 _ j h w

/-- One tap's product at (c, h, w). -/
theorem tap_term (x3 : Vec Ideal S1x1x3x256x266 .f32) (x5 : Vec Ideal S1x1x11x256x256 .f32) (j : Fin 11)
    (hs : S3x256x266.Slices ![0, 0, j.val] S3x256x256) (hf : S11x256x256.Slices ![j.val, 0, 0] S1x256x256)
    (c : Fin 3) (h w : Fin 256) :
    extractStridedSlice S3x256x256 ![0, 0, j.val] (k0_pay2 x3) hs (ix3 c h w)
      * broadcastTo S3x256x256
          (shapeCast S1x256x256
            (shapeCast S256x256 (extractStridedSlice S1x256x256 ![j.val, 0, 0] (k0_pay3 x5) hf) shapeCasts_S1x256x256_S256x256)
            shapeCasts_S256x256_S1x256x256)
          broadcasts_S1x256x256_S3x256x256 (ix3 c h w)
      = x3 (ix5 (0 : Fin 1) (0 : Fin 1) c h (Cert.Spec.sh w j)) * x5 (ix5 (0 : Fin 1) (0 : Fin 1) j h w) :=
  congrArg₂ (· * ·) (img_tap x3 j hs c h w) (fil_tap x5 j hf c h w)

/-- The accumulator after one grid point, at (c, h, w): what it held plus the eleven column taps of the tap row. -/
theorem pay6_apply (x3 : Vec Ideal S1x1x3x256x266 .f32) (x5 : Vec Ideal S1x1x11x256x256 .f32)
    (acc : Vec Ideal S3x256x256 .f32) (c : Fin 3) (h w : Fin 256) :
    k0_pay6 (k0_pay2 x3) (k0_pay3 x5) (k0_pay4 x3 x5) (k0_pay5 x3) acc (ix3 c h w)
      = acc (ix3 c h w)
        + ∑ j : Fin 11, x3 (ix5 (0 : Fin 1) (0 : Fin 1) c h (Cert.Spec.sh w j)) * x5 (ix5 (0 : Fin 1) (0 : Fin 1) j h w) := by
  rw [sum11]
  unfold k0_pay6 k0_pay4 k0_pay5
  refine (shapeCast_same3 _ _ c h w).trans ?_
  simp only [addf_apply, mulf_apply, broadcast_apply]
  refine congrArg (acc (ix3 c h w) + ·) ?_
  refine congrArg₂ (· + ·) ?_ (tap_term x3 x5 10 _ _ c h w)
  refine congrArg₂ (· + ·) ?_ (tap_term x3 x5 9 _ _ c h w)
  refine congrArg₂ (· + ·) ?_ (tap_term x3 x5 8 _ _ c h w)
  refine congrArg₂ (· + ·) ?_ (tap_term x3 x5 7 _ _ c h w)
  refine congrArg₂ (· + ·) ?_ (tap_term x3 x5 6 _ _ c h w)
  refine congrArg₂ (· + ·) ?_ (tap_term x3 x5 5 _ _ c h w)
  refine congrArg₂ (· + ·) ?_ (tap_term x3 x5 4 _ _ c h w)
  refine congrArg₂ (· + ·) ?_ (tap_term x3 x5 3 _ _ c h w)
  refine congrArg₂ (· + ·) ?_ (tap_term x3 x5 2 _ _ c h w)
  refine congrArg₂ (· + ·) ?_ (tap_term x3 x5 1 _ _ c h w)
  rw [zero_word, zero_add]
  exact tap_term x3 x5 0 _ _ c h w

end Cert.KernelIdeal.Pay

end
-- ==== Proof.KPayLoss.lean ====
/-
  The kernel's final value read at one lane, over the extended reals.

  At the last tap row the body stores, at every lane of its [1, 1, 128] block, the sum over rows, then columns, then
  channels of  √((acc[c, h, w] − img2[0, c, h, w])² + ε) · mask[0, 0, h, w]:  three one-axis sums from zero, the channel
  axis first, each read as the sum over that axis's coordinates.
-/
import proofs.«140256_j85203561218656_2_alg».proof.Proof.Gen.KernelIdeal.Skeleton
import proofs.«140256_j85203561218656_2_alg».proof.Proof.Spec
import proofs.«140256_j85203561218656_2_alg».proof.Proof.KPayLib
import Idealize.ShloMosaic.Lib.ValueLayout
import Idealize.ShloMosaic.PureOps.Ideal.Laws

noncomputable section

namespace Cert.KernelIdeal.Pay

open Idealize.ShloMosaic Idealize.ShloMosaic.ValueIdx

open Cert.KernelIdeal Cert.KernelIdeal.Gen

/-- The sum over the channel axis of a [3, 256, 256] vector, at (h, w). -/
theorem red_c (v : FVec Ideal S3x256x256 .f32) (h w : Fin 256) :
    multiReduction .add [0] S256x256 v 0x00000000#32 reduces_S3x256x256_S256x256 (.inl rfl) rfl (ix2 h w)
      = ∑ c : Fin 3, v (ix3 c h w) := by
  refine (Ideal.multiReduction_add_single v _ reduces_S3x256x256_S256x256 _ _ (ix2 h w)).trans ?_
  show ∑ c : Fin 3, v (reduces_S3x256x256_S256x256.lift (ix2 h w) c) = _
  refine Finset.sum_congr rfl fun c _ => congrArg v ?_
  funext ax
  refine Fin.ext ?_
  match ax with
  | ⟨0, _⟩ => rfl
  | ⟨1, _⟩ => rfl
  | ⟨2, _⟩ => rfl

/-- The sum over the column axis of a [256, 256] vector, at row h. -/
theorem red_w (v : FVec Ideal S256x256 .f32) (h : Fin 256) :
    multiReduction .add [1] S256 v 0x00000000#32 reduces_S256x256_S256 (.inl rfl) rfl (ix1 h)
      = ∑ w : Fin 256, v (ix2 h w) := by
  refine (Ideal.multiReduction_add_single v _ reduces_S256x256_S256 _ _ (ix1 h)).trans ?_
  show ∑ w : Fin 256, v (reduces_S256x256_S256.lift (ix1 h) w) = _
  refine Finset.sum_congr rfl fun w _ => congrArg v ?_
  funext ax
  refine Fin.ext ?_
  match ax with
  | ⟨0, _⟩ => rfl
  | ⟨1, _⟩ => rfl

/-- The sum over the row axis of a [256, 1] vector, at its one column. -/
theorem red_h (v : FVec Ideal S256x1 .f32) (u : Fin 1) :
    multiReduction .add [0] S1 v 0x00000000#32 reduces_S256x1_S1 (.inl rfl) rfl (ix1 u)
      = ∑ h : Fin 256, v (ix2 h u) := by
  refine (Ideal.multiReduction_add_single v _ reduces_S256x1_S1 _ _ (ix1 u)).trans ?_
  show ∑ h : Fin 256, v (reduces_S256x1_S1.lift (ix1 u) h) = _
  refine Finset.sum_congr rfl fun h _ => congrArg v ?_
  funext ax
  refine Fin.ext ?_
  match ax with
  | ⟨0, _⟩ => rfl
  | ⟨1, _⟩ => rfl

/-- The value stored at the last tap row, at every lane: the masked distances summed over rows, columns, channels. -/
theorem pay7_apply (acc : Vec Ideal S3x256x256 .f32) (y : Vec Ideal S1x3x256x256 .f32)
    (k : Vec Ideal S1x1x256x256 .f32) (l : Fin 128) :
    k0_pay7 acc y k (ix3 (0 : Fin 1) (0 : Fin 1) l)
      = ∑ h : Fin 256, ∑ w : Fin 256, ∑ c : Fin 3,
          Ideal.sqrt ((acc (ix3 c h w) - y (ix4 (0 : Fin 1) c h w)) * (acc (ix3 c h w) - y (ix4 (0 : Fin 1) c h w))
              + Cert.Spec.eps) * k (ix4 (0 : Fin 1) (0 : Fin 1) h w) := by
  unfold k0_pay7
  dsimp only
  refine (broadcastTo_111_11c_apply _ _ (0 : Fin 1) (0 : Fin 1) l).trans ?_
  refine (shapeCast_same3 _ _ (0 : Fin 1) (0 : Fin 1) (0 : Fin 1)).trans ?_
  refine (shapeCast_ab_1ab_apply _ _ (0 : Fin 1) (0 : Fin 1) (0 : Fin 1)).trans ?_
  refine (shapeCast_a_1a_apply _ _ (0 : Fin 1) (0 : Fin 1)).trans ?_
  refine (red_h _ (0 : Fin 1)).trans ?_
  refine Finset.sum_congr rfl fun h _ => ?_
  refine (shapeCast_a_a1_apply _ _ h (0 : Fin 1)).trans ?_
  refine (red_w _ h).trans ?_
  refine Finset.sum_congr rfl fun w _ => ?_
  refine (red_c _ h w).trans ?_
  refine Finset.sum_congr rfl fun c _ => ?_
  have e1 : shapeCast S3x256x256 y shapeCasts_S1x3x256x256_S3x256x256 (ix3 c h w) = y (ix4 (0 : Fin 1) c h w) :=
    shapeCast_1abc_abc_apply y _ c h w
  have e2 : broadcastTo S3x256x256 (shapeCast S1x256x256 k shapeCasts_S1x1x256x256_S1x256x256)
      broadcasts_S1x256x256_S3x256x256 (ix3 c h w) = k (ix4 (0 : Fin 1) (0 : Fin 1) h w) :=
    (broadcastTo_1bc_abc_apply _ _ c h w).trans (shapeCast_11ab_1ab_apply k _ (0 : Fin 1) h w)
  simp only [mulf_apply, addf_apply, subf_apply, sqrt_apply, broadcast_apply]
  rw [e1, e2]
  rfl

end Cert.KernelIdeal.Pay

end
-- ==== Proof.KPayBlk.lean ====
/-
  The windows' blocks read at an index.

  The grid is 4 images × 11 tap rows; point t is image t / 11 and tap row t % 11. At point t the first window's block
  is slab (t / 11, t % 11) of the stacked padded image, the second the taps of row t % 11 of image t / 11, the third and
  the fourth the second image and the mask of image t / 11: a block's coordinate is its block index times the block
  size plus the coordinate inside the block, and the block indices are decided once over the grid.
-/
import proofs.«140256_j85203561218656_2_alg».proof.Proof.KiBase
import Idealize.ShloMosaic.Lib.Pipeline.Value
import Idealize.ShloMosaic.Lib.ValueIdx

noncomputable section

namespace Cert.KernelIdeal.Pay

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ)

/-- The grid has 44 points. -/
theorem t_lt (t : Fin cfg0.N) : t.val < 44 := by
  have h := t.isLt
  have e : cfg0.N = 44 := N_0
  omega

/-- The image of point `t`. -/
abbrev imgOf (t : Fin cfg0.N) : Fin 4 := ⟨t.val / 11, by have := t_lt t; omega⟩
/-- The tap row of point `t`. -/
abbrev rowOf (t : Fin cfg0.N) : Fin 11 := ⟨t.val % 11, by omega⟩

/-! ## The block indices, decided over the grid -/

theorem idx0 : ∀ t : Fin cfg0.N, win0_0.index t (0 : Fin 5) = t.val / 11 ∧ win0_0.index t (1 : Fin 5) = t.val % 11
    ∧ win0_0.index t (2 : Fin 5) = 0 ∧ win0_0.index t (3 : Fin 5) = 0 ∧ win0_0.index t (4 : Fin 5) = 0 :=
  (by decide +kernel : ∀ t : Fin grid0.N, win0_0.index t (0 : Fin 5) = t.val / 11 ∧ win0_0.index t (1 : Fin 5) = t.val % 11
    ∧ win0_0.index t (2 : Fin 5) = 0 ∧ win0_0.index t (3 : Fin 5) = 0 ∧ win0_0.index t (4 : Fin 5) = 0)
theorem idx1 : ∀ t : Fin cfg0.N, win0_1.index t (0 : Fin 5) = t.val / 11 ∧ win0_1.index t (1 : Fin 5) = t.val % 11
    ∧ win0_1.index t (2 : Fin 5) = 0 ∧ win0_1.index t (3 : Fin 5) = 0 ∧ win0_1.index t (4 : Fin 5) = 0 :=
  (by decide +kernel : ∀ t : Fin grid0.N, win0_1.index t (0 : Fin 5) = t.val / 11 ∧ win0_1.index t (1 : Fin 5) = t.val % 11
    ∧ win0_1.index t (2 : Fin 5) = 0 ∧ win0_1.index t (3 : Fin 5) = 0 ∧ win0_1.index t (4 : Fin 5) = 0)
theorem idx2 : ∀ t : Fin cfg0.N, win0_2.index t (0 : Fin 4) = t.val / 11 ∧ win0_2.index t (1 : Fin 4) = 0
    ∧ win0_2.index t (2 : Fin 4) = 0 ∧ win0_2.index t (3 : Fin 4) = 0 :=
  (by decide +kernel : ∀ t : Fin grid0.N, win0_2.index t (0 : Fin 4) = t.val / 11 ∧ win0_2.index t (1 : Fin 4) = 0
    ∧ win0_2.index t (2 : Fin 4) = 0 ∧ win0_2.index t (3 : Fin 4) = 0)
theorem idx3 : ∀ t : Fin cfg0.N, win0_3.index t (0 : Fin 4) = t.val / 11 ∧ win0_3.index t (1 : Fin 4) = 0
    ∧ win0_3.index t (2 : Fin 4) = 0 ∧ win0_3.index t (3 : Fin 4) = 0 :=
  (by decide +kernel : ∀ t : Fin grid0.N, win0_3.index t (0 : Fin 4) = t.val / 11 ∧ win0_3.index t (1 : Fin 4) = 0
    ∧ win0_3.index t (2 : Fin 4) = 0 ∧ win0_3.index t (3 : Fin 4) = 0)

/-! ## The blocks -/

/-- The stacked image's block at point `t`: slab (t / 11, t % 11). -/
theorem iblk0_apply (c : Dev nD) (t : Fin cfg0.N) (ch : Fin 3) (h : Fin 256) (w' : Fin 266) :
    (iblk m c 0 t : Vec Ideal S1x1x3x256x266 .f32) (ix5 (0 : Fin 1) (0 : Fin 1) ch h w')
      = (V m c main_v23 : S4x11x3x256x266.Idx → EReal) (ix5 (imgOf t) (rowOf t) ch h w') := by
  obtain ⟨h0, h1, h2, h3, h4⟩ := idx0 t
  unfold iblk
  rw [View.read_apply]
  show V m c main_v23 _ = V m c main_v23 _
  refine congrArg (V m c main_v23) ?_
  funext a
  apply Fin.ext
  match a with
  | ⟨0, _⟩ => show win0_0.index t (0 : Fin 5) * 1 + 1 * 0 = t.val / 11; rw [h0]; omega
  | ⟨1, _⟩ => show win0_0.index t (1 : Fin 5) * 1 + 1 * 0 = t.val % 11; rw [h1]; omega
  | ⟨2, _⟩ => show win0_0.index t (2 : Fin 5) * 3 + 1 * ch.val = ch.val; rw [h2]; omega
  | ⟨3, _⟩ => show win0_0.index t (3 : Fin 5) * 256 + 1 * h.val = h.val; rw [h3]; omega
  | ⟨4, _⟩ => show win0_0.index t (4 : Fin 5) * 266 + 1 * w'.val = w'.val; rw [h4]; omega

/-- The taps' block at point `t`: tap row t % 11 of image t / 11. -/
theorem iblk1_apply (c : Dev nD) (t : Fin cfg0.N) (j : Fin 11) (h w : Fin 256) :
    (iblk m c 1 t : Vec Ideal S1x1x11x256x256 .f32) (ix5 (0 : Fin 1) (0 : Fin 1) j h w)
      = (V m c main_v24 : S4x11x11x256x256.Idx → EReal) (ix5 (imgOf t) (rowOf t) j h w) := by
  obtain ⟨h0, h1, h2, h3, h4⟩ := idx1 t
  unfold iblk
  rw [View.read_apply]
  show V m c main_v24 _ = V m c main_v24 _
  refine congrArg (V m c main_v24) ?_
  funext a
  apply Fin.ext
  match a with
  | ⟨0, _⟩ => show win0_1.index t (0 : Fin 5) * 1 + 1 * 0 = t.val / 11; rw [h0]; omega
  | ⟨1, _⟩ => show win0_1.index t (1 : Fin 5) * 1 + 1 * 0 = t.val % 11; rw [h1]; omega
  | ⟨2, _⟩ => show win0_1.index t (2 : Fin 5) * 11 + 1 * j.val = j.val; rw [h2]; omega
  | ⟨3, _⟩ => show win0_1.index t (3 : Fin 5) * 256 + 1 * h.val = h.val; rw [h3]; omega
  | ⟨4, _⟩ => show win0_1.index t (4 : Fin 5) * 256 + 1 * w.val = w.val; rw [h4]; omega

/-- The second image's block at point `t`, off the array the region finds: image t / 11. -/
theorem iblk2_V (c : Dev nD) (t : Fin cfg0.N) (ch : Fin 3) (h w : Fin 256) :
    (iblk m c 2 t : Vec Ideal S1x3x256x256 .f32) (ix4 (0 : Fin 1) ch h w)
      = (V m c main_arg1 : S4x3x256x256.Idx → EReal) (ix4 (imgOf t) ch h w) := by
  obtain ⟨h0, h1, h2, h3⟩ := idx2 t
  unfold iblk
  rw [View.read_apply]
  show V m c main_arg1 _ = V m c main_arg1 _
  refine congrArg (V m c main_arg1) ?_
  funext a
  apply Fin.ext
  match a with
  | ⟨0, _⟩ => show win0_2.index t (0 : Fin 4) * 1 + 1 * 0 = t.val / 11; rw [h0]; omega
  | ⟨1, _⟩ => show win0_2.index t (1 : Fin 4) * 3 + 1 * ch.val = ch.val; rw [h1]; omega
  | ⟨2, _⟩ => show win0_2.index t (2 : Fin 4) * 256 + 1 * h.val = h.val; rw [h2]; omega
  | ⟨3, _⟩ => show win0_2.index t (3 : Fin 4) * 256 + 1 * w.val = w.val; rw [h3]; omega

/-- The mask's block at point `t`, off the array the region finds: image t / 11. -/
theorem iblk3_V (c : Dev nD) (t : Fin cfg0.N) (h w : Fin 256) :
    (iblk m c 3 t : Vec Ideal S1x1x256x256 .f32) (ix4 (0 : Fin 1) (0 : Fin 1) h w)
      = (V m c main_arg3 : S4x1x256x256.Idx → EReal) (ix4 (imgOf t) (0 : Fin 1) h w) := by
  obtain ⟨h0, h1, h2, h3⟩ := idx3 t
  unfold iblk
  rw [View.read_apply]
  show V m c main_arg3 _ = V m c main_arg3 _
  refine congrArg (V m c main_arg3) ?_
  funext a
  apply Fin.ext
  match a with
  | ⟨0, _⟩ => show win0_3.index t (0 : Fin 4) * 1 + 1 * 0 = t.val / 11; rw [h0]; omega
  | ⟨1, _⟩ => show win0_3.index t (1 : Fin 4) * 1 + 1 * 0 = 0; rw [h1]
  | ⟨2, _⟩ => show win0_3.index t (2 : Fin 4) * 256 + 1 * h.val = h.val; rw [h2]; omega
  | ⟨3, _⟩ => show win0_3.index t (3 : Fin 4) * 256 + 1 * w.val = w.val; rw [h3]; omega

/-- The second image's block at point `t`: image t / 11 of the program's argument. -/
theorem iblk2_apply (c : Dev nD) (t : Fin cfg0.N) (ch : Fin 3) (h w : Fin 256) :
    (iblk m c 2 t : Vec Ideal S1x3x256x256 .f32) (ix4 (0 : Fin 1) ch h w)
      = (m ((c : Thread nD τ).loc main_arg1) : S4x3x256x256.Idx → EReal) (ix4 (imgOf t) ch h w) :=
  (iblk2_V m c t ch h w).trans (by rw [V_main_arg1])

/-- The mask's block at point `t`: image t / 11 of the program's argument. -/
theorem iblk3_apply (c : Dev nD) (t : Fin cfg0.N) (h w : Fin 256) :
    (iblk m c 3 t : Vec Ideal S1x1x256x256 .f32) (ix4 (0 : Fin 1) (0 : Fin 1) h w)
      = (m ((c : Thread nD τ).loc main_arg3) : S4x1x256x256.Idx → EReal) (ix4 (imgOf t) (0 : Fin 1) h w) :=
  (iblk3_V m c t h w).trans (by rw [V_main_arg3])

end Cert.KernelIdeal.Pay

end
-- ==== Proof.KPayHost.lean ====
/-
  The host operations before the kernel is launched, read at an index.

  The program pads the first image, stacks the eleven row-shifted slabs of the padded image along a new axis, and
  reshapes the filters' 121 channels into 11 × 11 taps. Read at an index, with P the padded image:
    stacked[n, i, c, h, w'] = P[n, c, h + i, w'],      taps[n, i, j, h, w] = filters[n, 11·i + j, h, w],
  and the second image and the mask are untouched.
-/
import proofs.«140256_j85203561218656_2_alg».proof.Proof.KiBase
import proofs.«140256_j85203561218656_2_alg».proof.Proof.Spec
import Idealize.ShloMosaic.Lib.StableHlo.Run
import Idealize.ShloMosaic.Lib.ValueLayout

noncomputable section

namespace Cert.KernelIdeal.Pay

open Idealize.ShloMosaic Idealize.ShloMosaic.TcCoe Idealize.ShloMosaic.ValueIdx Idealize.ShloMosaic.StableHlo Idealize.SL.Sem
open Cert.KernelIdeal Cert.KernelIdeal.Gen Cert.KernelIdeal.Fr

/-- Two stretches of operations run one after the other. -/
theorem after_append' {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => exact ih _

/-- The buffers' contents when the kernel is launched, from the contents `m0` the program starts with. -/
abbrev hostV (m0 : Valuation τ sig (Elt Ideal)) : Valuation τ sig (Elt Ideal) :=
  after (List.flatten [hostOps0 (F := Ideal), hostOps0_1 (F := Ideal), hostOps0_2 (F := Ideal)]) m0

/-- The launch contents are the last stretch's, run from the contents after the padding. -/
theorem hostV_eq (m0 : Valuation τ sig (Elt Ideal)) :
    hostV m0 = after (hostOps0_2 (F := Ideal)) (after (hostOps0_1 (F := Ideal)) (after (hostOps0 (F := Ideal)) m0)) := by
  unfold hostV
  rw [List.flatten_cons, List.flatten_cons, List.flatten_cons, List.flatten_nil, List.append_nil, after_append', after_append']

/-- The reshaped filters, whatever the contents the last stretch starts from. -/
theorem v24_eq (W : Valuation τ sig (Elt Ideal)) :
    (after (hostOps0_2 (F := Ideal)) W (Proc.devRef .tc main_v24) : S4x11x11x256x256.Idx → EReal)
      = shapeCast S4x11x11x256x256 (W (Proc.devRef .tc main_arg2) : S4x121x256x256.Idx → EReal) shapeCasts_S4x121x256x256_S4x11x11x256x256 := by
  simp only [hostOps0_2]
  after_results
  rfl

/-- The reshaped filters read at an index: tap (i, j) is channel 11·i + j. -/
theorem v24_apply (W : Valuation τ sig (Elt Ideal)) (n : Fin 4) (i j : Fin 11) (h w : Fin 256) :
    (after (hostOps0_2 (F := Ideal)) W (Proc.devRef .tc main_v24) : S4x11x11x256x256.Idx → EReal) (ix5 n i j h w)
      = (W (Proc.devRef .tc main_arg2) : S4x121x256x256.Idx → EReal) (ix4 n (Cert.Spec.tap i j) h w) := by
  rw [v24_eq]
  refine shapeCast_apply _ _ (ix5 n i j h w) (ix4 n (Cert.Spec.tap i j) h w) ?_
  rw [Shape.rowMajor_val_four, Shape.rowMajor_val_five]
  show ((n.val * 121 + (11 * i.val + j.val)) * 256 + h.val) * 256 + w.val
      = (((n.val * 11 + i.val) * 11 + j.val) * 256 + h.val) * 256 + w.val
  omega

/-- The last stretch writes neither the second image, the mask, the filters nor the padded image. -/
theorem keep_arg1 (W : Valuation τ sig (Elt Ideal)) :
    after (hostOps0_2 (F := Ideal)) W (Proc.devRef .tc main_arg1) = W (Proc.devRef .tc main_arg1) := by
  simp only [hostOps0_2]
  after_results
theorem keep_arg3 (W : Valuation τ sig (Elt Ideal)) :
    after (hostOps0_2 (F := Ideal)) W (Proc.devRef .tc main_arg3) = W (Proc.devRef .tc main_arg3) := by
  simp only [hostOps0_2]
  after_results
theorem keep_v0 (W : Valuation τ sig (Elt Ideal)) :
    after (hostOps0_2 (F := Ideal)) W (Proc.devRef .tc main_v0) = W (Proc.devRef .tc main_v0) := by
  simp only [hostOps0_2]
  after_results

/-- The padding writes none of the program's last three arguments. -/
theorem pad_keep_arg1 (m0 : Valuation τ sig (Elt Ideal)) :
    after (hostOps0_1 (F := Ideal)) (after (hostOps0 (F := Ideal)) m0) (Proc.devRef .tc main_arg1) = m0 (Proc.devRef .tc main_arg1) := by
  simp only [hostOps0_1, hostOps0]
  after_results
theorem pad_keep_arg2 (m0 : Valuation τ sig (Elt Ideal)) :
    after (hostOps0_1 (F := Ideal)) (after (hostOps0 (F := Ideal)) m0) (Proc.devRef .tc main_arg2) = m0 (Proc.devRef .tc main_arg2) := by
  simp only [hostOps0_1, hostOps0]
  after_results
theorem pad_keep_arg3 (m0 : Valuation τ sig (Elt Ideal)) :
    after (hostOps0_1 (F := Ideal)) (after (hostOps0 (F := Ideal)) m0) (Proc.devRef .tc main_arg3) = m0 (Proc.devRef .tc main_arg3) := by
  simp only [hostOps0_1, hostOps0]
  after_results

/-- One slab of the stack read at an index: the padded image `i` rows down. -/
theorem slab_apply (P : S4x3x266x266.Idx → EReal) (i : Fin 11)
    (hs : S4x3x266x266.Slices ![0, 0, i.val, 0] S4x3x256x266) (n : Fin 4) (u : Fin 1) (c : Fin 3) (h : Fin 256) (w' : Fin 266) :
    broadcastInDim S4x1x3x256x266 ![0, 2, 3, 4] bcast_S4x3x256x266_S4x1x3x256x266_0_2_3_4
        (extractStridedSlice S4x3x256x266 ![0, 0, i.val, 0] P hs) (ix5 n u c h w')
      = P (ix4 n c (Cert.Spec.sh h i) w') := by
  refine (broadcastInDim_apply _ _ _ (ix5 n u c h w') (ix4 n c h w') (fun a => ?_)).trans ?_
  · match a with
    | ⟨0, _⟩ => rfl
    | ⟨1, _⟩ => rfl
    | ⟨2, _⟩ => rfl
    | ⟨3, _⟩ => rfl
  · exact slice4_axis2_apply i.val P hs n c h w' (Cert.Spec.sh h i) (Nat.add_comm _ _)

/-- Off the stacking axis a slab's index and the stack's index have the same coordinates. -/
theorem offAxis (n : Fin 4) (u : Fin 1) (k : Fin 11) (c : Fin 3) (h : Fin 256) (w' : Fin 266)
    (hr : S4x1x3x256x266.rank = S4x11x3x256x266.rank) (b : Fin S4x1x3x256x266.rank)
    (hb : b.cast hr ≠ (1 : Fin S4x11x3x256x266.rank)) :
    ((ix5 n u c h w' : S4x1x3x256x266.Idx) b).val = ((ix5 n k c h w' : S4x11x3x256x266.Idx) (b.cast hr)).val := by
  match b, hb with
  | ⟨0, _⟩, _ => rfl
  | ⟨1, _⟩, hb => exact absurd (Fin.ext rfl) hb
  | ⟨2, _⟩, _ => rfl
  | ⟨3, _⟩, _ => rfl
  | ⟨4, _⟩, _ => rfl

/-- One slab of the stack: the padded image's rows from `o` on, under a new unit axis. -/
abbrev slab (P : S4x3x266x266.Idx → EReal) (o : Nat) (hs : S4x3x266x266.Slices ![0, 0, o, 0] S4x3x256x266) :
    S4x1x3x256x266.Idx → EReal :=
  broadcastInDim S4x1x3x256x266 ![0, 2, 3, 4] bcast_S4x3x256x266_S4x1x3x256x266_0_2_3_4
    (extractStridedSlice S4x3x256x266 ![0, 0, o, 0] P hs)

/-- A stack whose piece `K` is the slab from row `K` on, read in that piece: the padded image `K` rows down. -/
theorem stack_read (xs : List ((s : Shape) × (s.Idx → EReal)))
    (hc : Shape.Concatenates (xs.map (·.1)) S4x11x3x256x266 1)
    (P : S4x3x266x266.Idx → EReal) (K : Nat) (hK : K < 11) (hs : S4x3x266x266.Slices ![0, 0, K, 0] S4x3x256x266)
    (hk : K < xs.length) (hxk : xs[K] = ⟨S4x1x3x256x266, slab P K hs⟩)
    (hpre : (((xs.take K).map (·.1)).map fun s =>
      if h : s.rank = S4x11x3x256x266.rank then s.size ((1 : Fin S4x11x3x256x266.rank).cast h.symm) else 0).sum = K)
    (n : Fin 4) (c : Fin 3) (h : Fin 256) (w' : Fin 266) :
    concatenate S4x11x3x256x266 1 xs hc (ix5 n (⟨K, hK⟩ : Fin 11) c h w')
      = P (ix4 n c (Cert.Spec.sh h ⟨K, hK⟩) w') :=
  (concatenate_apply_piece (1 : Fin S4x11x3x256x266.rank) xs hc (ix5 n (⟨K, hK⟩ : Fin 11) c h w') K hk S4x1x3x256x266
    (slab P K hs) hxk rfl K hpre (ix5 n (0 : Fin 1) c h w') (offAxis n 0 ⟨K, hK⟩ c h w' rfl) rfl).trans
    (slab_apply P ⟨K, hK⟩ hs n 0 c h w')

/-- The stacked slabs read at an index, whatever the contents the last stretch starts from: slab `i` is the
    padded image `i` rows down. -/
theorem v23_apply (W : Valuation τ sig (Elt Ideal)) (n : Fin 4) (i : Fin 11) (c : Fin 3) (h : Fin 256) (w' : Fin 266) :
    (after (hostOps0_2 (F := Ideal)) W (Proc.devRef .tc main_v23) : S4x11x3x256x266.Idx → EReal) (ix5 n i c h w')
      = (W (Proc.devRef .tc main_v0) : S4x3x266x266.Idx → EReal) (ix4 n c (Cert.Spec.sh h i) w') := by
  simp only [hostOps0_2]
  after_results
  dsimp only [Matrix.cons_val]
  simp (disch := decide) only [unary_result', unary_result_ne']
  obtain ⟨K, hK⟩ := i
  match K, hK with
  | 0, hK =>
    refine stack_read _ _ (W (Proc.devRef .tc main_v0)) 0 hK slices_S4x3x266x266_S4x3x256x266_0_0_0_0 ?_ ?_ ?_ n c h w'
      <;> first | rfl | exact hK
  | 1, hK =>
    refine stack_read _ _ (W (Proc.devRef .tc main_v0)) 1 hK slices_S4x3x266x266_S4x3x256x266_0_0_1_0 ?_ ?_ ?_ n c h w'
      <;> first | rfl | exact hK
  | 2, hK =>
    refine stack_read _ _ (W (Proc.devRef .tc main_v0)) 2 hK slices_S4x3x266x266_S4x3x256x266_0_0_2_0 ?_ ?_ ?_ n c h w'
      <;> first | rfl | exact hK
  | 3, hK =>
    refine stack_read _ _ (W (Proc.devRef .tc main_v0)) 3 hK slices_S4x3x266x266_S4x3x256x266_0_0_3_0 ?_ ?_ ?_ n c h w'
      <;> first | rfl | exact hK
  | 4, hK =>
    refine stack_read _ _ (W (Proc.devRef .tc main_v0)) 4 hK slices_S4x3x266x266_S4x3x256x266_0_0_4_0 ?_ ?_ ?_ n c h w'
      <;> first | rfl | exact hK
  | 5, hK =>
    refine stack_read _ _ (W (Proc.devRef .tc main_v0)) 5 hK slices_S4x3x266x266_S4x3x256x266_0_0_5_0 ?_ ?_ ?_ n c h w'
      <;> first | rfl | exact hK
  | 6, hK =>
    refine stack_read _ _ (W (Proc.devRef .tc main_v0)) 6 hK slices_S4x3x266x266_S4x3x256x266_0_0_6_0 ?_ ?_ ?_ n c h w'
      <;> first | rfl | exact hK
  | 7, hK =>
    refine stack_read _ _ (W (Proc.devRef .tc main_v0)) 7 hK slices_S4x3x266x266_S4x3x256x266_0_0_7_0 ?_ ?_ ?_ n c h w'
      <;> first | rfl | exact hK
  | 8, hK =>
    refine stack_read _ _ (W (Proc.devRef .tc main_v0)) 8 hK slices_S4x3x266x266_S4x3x256x266_0_0_8_0 ?_ ?_ ?_ n c h w'
      <;> first | rfl | exact hK
  | 9, hK =>
    refine stack_read _ _ (W (Proc.devRef .tc main_v0)) 9 hK slices_S4x3x266x266_S4x3x256x266_0_0_9_0 ?_ ?_ ?_ n c h w'
      <;> first | rfl | exact hK
  | 10, hK =>
    refine stack_read _ _ (W (Proc.devRef .tc main_v0)) 10 hK slices_S4x3x266x266_S4x3x256x266_0_0_10_0 ?_ ?_ ?_ n c h w'
      <;> first | rfl | exact hK
  | K + 11, hK => exact absurd hK (by omega)

/-! ## The launch contents -/

/-- At launch the taps' array holds the filters, tap (i, j) from channel 11·i + j. -/
theorem hostV_v24 (m0 : Valuation τ sig (Elt Ideal)) (n : Fin 4) (i j : Fin 11) (h w : Fin 256) :
    (hostV m0 (Proc.devRef .tc main_v24) : S4x11x11x256x256.Idx → EReal) (ix5 n i j h w)
      = (m0 (Proc.devRef .tc main_arg2) : S4x121x256x256.Idx → EReal) (ix4 n (Cert.Spec.tap i j) h w) := by
  rw [hostV_eq, v24_apply, pad_keep_arg2]

/-- At launch the stack's slab `i` holds the padded image `i` rows down. -/
theorem hostV_v23 (m0 : Valuation τ sig (Elt Ideal)) (n : Fin 4) (i : Fin 11) (c : Fin 3) (h : Fin 256) (w' : Fin 266) :
    (hostV m0 (Proc.devRef .tc main_v23) : S4x11x3x256x266.Idx → EReal) (ix5 n i c h w')
      = (hostV m0 (Proc.devRef .tc main_v0) : S4x3x266x266.Idx → EReal) (ix4 n c (Cert.Spec.sh h i) w') := by
  rw [hostV_eq, v23_apply, keep_v0]

/-- At launch the second image and the mask are the program's arguments. -/
theorem hostV_arg1 (m0 : Valuation τ sig (Elt Ideal)) :
    hostV m0 (Proc.devRef .tc main_arg1) = m0 (Proc.devRef .tc main_arg1) := by
  rw [hostV_eq, keep_arg1, pad_keep_arg1]
theorem hostV_arg3 (m0 : Valuation τ sig (Elt Ideal)) :
    hostV m0 (Proc.devRef .tc main_arg3) = m0 (Proc.devRef .tc main_arg3) := by
  rw [hostV_eq, keep_arg3, pad_keep_arg3]

/-- At launch the padded image's array holds the first image padded with the converted zero. -/
theorem hostV_v0 (m0 : Valuation τ sig (Elt Ideal)) :
    (hostV m0 (Proc.devRef .tc main_v0) : S4x3x266x266.Idx → EReal)
      = pad S4x3x266x266 ![0, 0, 5, 5] ![0, 0, 5, 5] ![0, 0, 0, 0] (m0 (Proc.devRef .tc main_arg0) : S4x3x256x256.Idx → EReal)
          (sitofp (F := Ideal) .f32 (constantI S_ 32 0#32)) pads_S4x3x256x256_S4x3x266x266_000_000_550_550 h_S_ := by
  rw [hostV_eq, keep_v0]
  simp only [hostOps0_1, hostOps0]
  after_results
  rfl

/-! ## The same for the contents the region finds -/

section Region
variable (m : (ℓ : Loc nD τ sig) → Buf (Elt Ideal) ℓ)

/-- The taps' array holds the filters, tap (i, j) from channel 11·i + j. -/
theorem V_v24_apply (c : Dev nD) (n : Fin 4) (i j : Fin 11) (h w : Fin 256) :
    (V m c main_v24 : S4x11x11x256x256.Idx → EReal) (ix5 n i j h w)
      = (m ((c : Thread nD τ).loc main_arg2) : S4x121x256x256.Idx → EReal) (ix4 n (Cert.Spec.tap i j) h w) :=
  hostV_v24 (fun b => m (c, b)) n i j h w

/-- The stack's slab `i` holds the padded image `i` rows down. -/
theorem V_v23_apply (c : Dev nD) (n : Fin 4) (i : Fin 11) (ch : Fin 3) (h : Fin 256) (w' : Fin 266) :
    (V m c main_v23 : S4x11x3x256x266.Idx → EReal) (ix5 n i ch h w')
      = (V m c main_v0 : S4x3x266x266.Idx → EReal) (ix4 n ch (Cert.Spec.sh h i) w') :=
  hostV_v23 (fun b => m (c, b)) n i ch h w'

/-- The padded image's array holds the first image padded with the converted zero. -/
theorem V_v0_eq (c : Dev nD) :
    (V m c main_v0 : S4x3x266x266.Idx → EReal)
      = pad S4x3x266x266 ![0, 0, 5, 5] ![0, 0, 5, 5] ![0, 0, 0, 0] (m ((c : Thread nD τ).loc main_arg0) : S4x3x256x256.Idx → EReal)
          (sitofp (F := Ideal) .f32 (constantI S_ 32 0#32)) pads_S4x3x256x256_S4x3x266x266_000_000_550_550 h_S_ :=
  hostV_v0 (fun b => m (c, b))

end Region

end Cert.KernelIdeal.Pay

end
-- ==== Proof.KiClosed.lean ====
/-
  The kernel's arithmetic in closed form over the extended reals: after tap rows 0..i of image n the accumulator
  at pixel (c, h, w) is the sum over those tap rows of the eleven column taps; after tap row 10 it is the filtered
  image `Spec.recon`, and the output block holds the image's summed distance `Spec.partialSum` in every lane.
-/
import proofs.«140256_j85203561218656_2_alg».proof.Proof.KiAcc
import proofs.«140256_j85203561218656_2_alg».proof.Proof.KPayAcc
import proofs.«140256_j85203561218656_2_alg».proof.Proof.KPayLoss
import proofs.«140256_j85203561218656_2_alg».proof.Proof.KPayBlk
import proofs.«140256_j85203561218656_2_alg».proof.Proof.KPayHost
import proofs.«140256_j85203561218656_2_alg».proof.Proof.Spec

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.KernelIdeal.Pay
open Cert.Spec (tap sh)

variable (m : (ℓ : Loc nD τ sig) → Buf (Elt Ideal) ℓ)

/-- The padded first image as the region finds it. -/
abbrev Pd (c : Dev nD) : Cert.Spec.SPad.Idx → EReal := V m c main_v0
abbrev A1 (c : Dev nD) : Cert.Spec.SImg.Idx → EReal := m ((c : Thread nD τ).loc main_arg1)
abbrev A2 (c : Dev nD) : Cert.Spec.SFil.Idx → EReal := m ((c : Thread nD τ).loc main_arg2)
abbrev A3 (c : Dev nD) : Cert.Spec.SMsk.Idx → EReal := m ((c : Thread nD τ).loc main_arg3)

/-- Tap row `i'` of image `n` at one pixel: its eleven column taps (zero outside the ranges). -/
def rowTerm (c : Dev nD) (n : ℕ) (ch : Fin 3) (h w : Fin 256) (i' : ℕ) : EReal :=
  if hn : n < 4 then
    if hi : i' < 11 then ∑ j : Fin 11, Pd m c (ix4 ⟨n, hn⟩ ch (sh h ⟨i', hi⟩) (sh w j)) * A2 m c (ix4 ⟨n, hn⟩ (tap ⟨i', hi⟩ j) h w) else 0
  else 0

theorem pt_bounds (t : Fin cfg0.N) : t.val / 11 < 4 ∧ t.val % 11 < 11 := by
  have hN : cfg0.N = 44 := N_0
  have := t.isLt
  omega

/-- One tap row added, read at a pixel. -/
theorem step_apply (c : Dev nD) (t : Fin cfg0.N) (acc : Vec Ideal S3x256x256 .f32) (ch : Fin 3) (h w : Fin 256) :
    step (iblk m c 0 t) (iblk m c 1 t) acc (ix3 ch h w) = acc (ix3 ch h w) + rowTerm m c (t.val / 11) ch h w (t.val % 11) := by
  unfold step
  refine (pay6_apply (iblk m c 0 t) (iblk m c 1 t) acc ch h w).trans ?_
  refine congrArg (fun z => acc (ix3 ch h w) + z) ?_
  unfold rowTerm
  rw [dif_pos (pt_bounds t).1, dif_pos (pt_bounds t).2]
  refine Finset.sum_congr rfl fun j _ => ?_
  rw [iblk0_apply m c t ch h (sh w j), iblk1_apply m c t j h w, V_v23_apply, V_v24_apply]

/-- The accumulator after position `n'`: the tap rows 0 .. n' mod 11 of image n' / 11. -/
theorem acc_closed (c : Dev nD) : ∀ (n' : ℕ) (hn : n' < cfg0.N) (ch : Fin 3) (h w : Fin 256),
    accAt m c n' hn (ix3 ch h w) = ∑ i' ∈ Finset.range (n' % 11 + 1), rowTerm m c (n' / 11) ch h w i'
  | 0, hn, ch, h, w => by
    simp only [accAt]
    rw [step_apply m c ⟨0, hn⟩, pay1_apply, zero_add]
    simp only [Nat.zero_mod, Nat.zero_div, zero_add, Finset.sum_range_one]
  | n' + 1, hn, ch, h, w => by
    simp only [accAt]
    by_cases h0 : (n' + 1) % 11 = 0
    · rw [if_pos h0, step_apply m c ⟨n' + 1, hn⟩, pay1_apply, zero_add]
      show rowTerm m c ((n' + 1) / 11) ch h w ((n' + 1) % 11) = _
      rw [h0, zero_add, Finset.sum_range_one]
    · rw [if_neg h0, step_apply m c ⟨n' + 1, hn⟩, acc_closed c n' (Nat.lt_of_succ_lt hn) ch h w]
      show _ + rowTerm m c ((n' + 1) / 11) ch h w ((n' + 1) % 11) = _
      have e1 : (n' + 1) / 11 = n' / 11 := by omega
      have e2 : (n' + 1) % 11 = n' % 11 + 1 := by omega
      rw [e1, e2, Finset.sum_range_succ (fun i' => rowTerm m c (n' / 11) ch h w i') (n' % 11 + 1)]

/-- After tap row 10 the accumulator is the filtered image. -/
theorem acc_last (c : Dev nD) (t : Fin cfg0.N) (h1 : t.val % 11 = 10) (ch : Fin 3) (h w : Fin 256) :
    accAt m c t.val t.isLt (ix3 ch h w) = Cert.Spec.recon (Pd m c) (A2 m c) ⟨t.val / 11, (pt_bounds t).1⟩ ch h w := by
  rw [acc_closed m c t.val t.isLt ch h w, show t.val % 11 + 1 = 11 from by omega]
  unfold Cert.Spec.recon
  rw [Finset.sum_range (fun i' => rowTerm m c (t.val / 11) ch h w i')]
  refine Finset.sum_congr rfl fun i _ => ?_
  unfold rowTerm
  rw [dif_pos (pt_bounds t).1, dif_pos i.isLt]

/-- At tap row 10 every lane of the output block holds the image's summed distance. -/
theorem out_last (c : Dev nD) (t : Fin cfg0.N) (h1 : t.val % 11 = 10) (l : Fin 128) :
    (outsAt0 m c t.val t.isLt).1 (ix3 (0 : Fin 1) (0 : Fin 1) l)
      = Cert.Spec.partialSum (Pd m c) (A1 m c) (A2 m c) (A3 m c) ⟨t.val / 11, (pt_bounds t).1⟩ := by
  rw [outsAt_out m c t h1]
  refine (pay7_apply (accAt m c t.val t.isLt) (iblk m c 2 t) (iblk m c 3 t) l).trans ?_
  unfold Cert.Spec.partialSum Cert.Spec.term
  refine Finset.sum_congr rfl fun h _ => Finset.sum_congr rfl fun w _ => Finset.sum_congr rfl fun ch _ => ?_
  rw [acc_last m c t h1 ch h w, iblk2_apply m c t ch h w, iblk3_apply m c t h w]

end Cert.KernelIdeal.Val

end
-- ==== Proof.KPayTail.lean ====
/-
  The host operations after the kernel, read as one value.

  The program takes lane 0 of each image's [1, 128] block of partial sums, adds the four from the zero literal, and
  divides by the element count: over the extended reals, (Σ_n partial[n, 0, 0]) / 786432.
-/
import proofs.«140256_j85203561218656_2_alg».proof.Proof.Gen.KernelIdeal.Launch
import proofs.«140256_j85203561218656_2_alg».proof.Proof.Spec
import Idealize.ShloMosaic.Lib.StableHlo.Run
import Idealize.ShloMosaic.Lib.ValueLayout
import Idealize.ShloMosaic.PureOps.Ideal.Laws

noncomputable section

namespace Cert.KernelIdeal.Pay

open Idealize.ShloMosaic Idealize.ShloMosaic.ValueIdx Idealize.ShloMosaic.StableHlo Cert.KernelIdeal Cert.KernelIdeal.Gen

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The program's result after the kernel, from any contents `W`: the four images' partial sums at lane 0, added and
    divided by the element count. -/
theorem tail_apply (W : Valuation τ sig (Elt Ideal)) :
    (after (List.flatten [hostOps1 (F := Ideal)]) W (Proc.devRef .tc main_v29) : S_.Idx → EReal)
      = fun _ => Ideal.div (∑ n : Fin 4, (W (Proc.devRef .tc main_v25) : S4x1x128.Idx → EReal) (ix3 n (0 : Fin 1) (0 : Fin 128)))
          Cert.Spec.cnt := by
  simp only [hostOps1, List.flatten_cons, List.flatten_nil, List.append_nil]
  after_results
  funext j
  show Ideal.div (Ideal.hostReduceAdd reducesTo_S4_S_d0
        (shapeCast S4 (extractStridedSlice S4x1x1 ![0, 0, 0] (W (Proc.devRef .tc main_v25) : S4x1x128.Idx → EReal)
          slices_S4x1x128_S4x1x1_0_0_0) shapeCasts_S4x1x1_S4)
        (Ideal.ofBits .f32 0x00000000#32) j) (Ideal.ofBits .f32 0x49400000#32) = _
  rw [Ideal.hostReduceAdd_total reducesTo_S4_S_d0 (fun b => b.elim0), Ideal.ofBits_zero_f32, zero_add]
  refine congrArg (fun z => Ideal.div z Cert.Spec.cnt) ?_
  rw [sum_idx1]
  refine Finset.sum_congr rfl fun n _ => ?_
  refine (shapeCast_apply _ _ (ix1 n) (ix3 n (0 : Fin 1) (0 : Fin 1)) ?_).trans ?_
  · rw [Shape.rowMajor_val_three, Shape.rowMajor_val_one]
    show (n.val * 1 + 0) * 1 + 0 = n.val
    omega
  · exact extractStridedSlice_apply _ _ _ (ix3 n (0 : Fin 1) (0 : Fin 1)) (ix3 n (0 : Fin 1) (0 : Fin 128)) (fun a => by
      match a with
      | ⟨0, _⟩ => exact (Nat.zero_add _).symm
      | ⟨1, _⟩ => exact (Nat.zero_add _).symm
      | ⟨2, _⟩ => exact (Nat.zero_add _).symm)

end Cert.KernelIdeal.Pay

end
-- ==== Proof.KiFinal.lean ====
/-
  The result of the kernel's program over the extended reals: the output array of the pallas_call holds, for each
  image, its summed distance in every lane (one write-back per image, after its last tap row; the four blocks tile
  the array), and the host operations after the region add lane 0 of the four images and divide by the element
  count: `Spec.loss`.
-/
import proofs.«140256_j85203561218656_2_alg».proof.Proof.KiClosed
import proofs.«140256_j85203561218656_2_alg».proof.Proof.KPayTail

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr Cert.KernelIdeal.Pay

variable (m : (ℓ : Loc nD τ sig) → Buf (Elt Ideal) ℓ) (ρ : Dev nD → PrngReg)

/-- The output array after the region: image `n`'s summed distance at every `(n, 0, l)`. -/
def Gout (c : Dev nD) : Buf (Elt Ideal) ((c : Thread nD τ).loc main_v25) :=
  fun i => Cert.Spec.partialSum (Pd m c) (A1 m c) (A2 m c) (A3 m c) (i 0 : Fin 4)

/-- The output window's block index at point `t` is (image, 0, 0). -/
theorem idx4 : ∀ t : Fin cfg0.N, win0_4.index t (0 : Fin 3) = t.val / 11 ∧ win0_4.index t (1 : Fin 3) = 0 ∧ win0_4.index t (2 : Fin 3) = 0 :=
  (by decide +kernel : ∀ t : Fin grid0.N, _)

/-- What the point after an image's last tap row writes back is that image's block of `Gout`. -/
theorem flushed_eq (c : Dev nD) (t : Fin cfg0.N) (hf : (cfg0.win 4).flush t = true) :
    (dats m 0 c).flushed 4 t = ((cfg0.win 4).blk t).view.read (Elt Ideal) (Gout m c) := by
  have h1 : t.val % 11 = 10 := (flush0_4 t).mp hf
  show (cfg0.win 4).cut (grid0.coords t) ((dats m 0 c).after 4 t) = _
  rw [after0_4]
  obtain ⟨e0, e1, e2⟩ := idx4 t
  funext y
  show (outsAt0 m c t.val t.isLt).1 y = Gout m c (((cfg0.win 4).blk t).view.emb y)
  obtain ⟨a, b, l, rfl⟩ : ∃ (a : Fin 1) (b : Fin 1) (l : Fin 128), (y : S1x1x128.Idx) = ix3 a b l := ⟨y 0, y 1, y 2, eq_ix3 y⟩
  obtain rfl : a = 0 := Subsingleton.elim _ _
  obtain rfl : b = 0 := Subsingleton.elim _ _
  rw [out_last m c t h1 l]
  unfold Gout
  refine congrArg (Cert.Spec.partialSum (Pd m c) (A1 m c) (A2 m c) (A3 m c)) (Fin.ext ?_)
  show t.val / 11 = win0_4.index t (0 : Fin 3) * 1 + 1 * 0
  omega

theorem mem_blk4 (t : Fin cfg0.N) (i : S4x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v25).slice (win0_4.rect t)).set ↔ _
  rw [View.set_slice_whole, Rect.mem_set_unit]
  exact Iff.rfl

/-- Every index of the output array is in the block written back after its image's last tap row. -/
theorem cover (c : Dev nD) (i : S4x1x128.Idx) :
    ∃ t : Fin cfg0.N, (cfg0.win 4).flush t = true ∧ i ∈ ((cfg0.win 4).blk t).view.set := by
  have hN : cfg0.N = 44 := N_0
  have hi0 : (i 0).val < 4 := (i 0).isLt
  have hi1 : (i 1).val < 1 := (i 1).isLt
  have hi2 : (i 2).val < 128 := (i 2).isLt
  have ht : 11 * (i 0).val + 10 < cfg0.N := by omega
  refine ⟨⟨11 * (i 0).val + 10, ht⟩, (flush0_4 _).mpr (by show (11 * (i 0).val + 10) % 11 = 10; omega), ?_⟩
  rw [mem_blk4]
  obtain ⟨e0, e1, e2⟩ := idx4 ⟨11 * (i 0).val + 10, ht⟩
  have e0' : win0_4.index ⟨11 * (i 0).val + 10, ht⟩ (0 : Fin 3) = (i 0).val := by rw [e0]; show (11 * (i 0).val + 10) / 11 = _; omega
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 128 ≤ (i 2).val ∧ (i 2).val < win0_4.index _ (2 : Fin 3) * 128 + 128; omega

/-- The output array after the region. -/
theorem final (c : Dev nD) : (dats m 0 c).arrAt 4 cfg0.N = Gout m c :=
  (dats m 0 c).arrAt_eq_of_cover 4 (Gout m c) (flushed_eq m c) (cover c)

/-- The program's result: the mean distance. -/
theorem tail_value (c : Dev nD) :
    Pipeline.afterTail₀ cfgs (dats m) 0 (V0 m) [hostOps1] c main_v29
      = fun _ => Cert.Spec.loss (Pd m c) (A1 m c) (A2 m c) (A3 m c) := by
  unfold Pipeline.afterTail₀
  rw [tail_apply]
  funext _
  unfold Cert.Spec.loss
  refine congrArg (fun z => Ideal.div z Cert.Spec.cnt) (Finset.sum_congr rfl fun n _ => ?_)
  have hw := (Pipeline.withArrays_arr spec0 launch0.win.arr_inj c (V0 m c) (fun w => (dats m 0 c).arrAt w cfg0.N) 4).trans (final m c)
  exact (congrFun hw (ix3 n (0 : Fin 1) (0 : Fin 128)))

/-- Every weakly fair execution of the kernel's program ends with the mean distance as its result and its four
    arguments unchanged. -/
theorem run : θ_run defs (onTc (τ := τ) (main (F := Ideal))) ⟨m, fun _ => 0, ρ⟩ (fun r => ∀ c : Dev nD,
      r.2.mem ((c.tc : Thread nD τ).loc main_v29) = (fun _ => Cert.Spec.loss (Pd m c) (A1 m c) (A2 m c) (A3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v29 (Pipeline.mem_restRefs_of main_v29 (by decide) (by decide))).trans (tail_value m c),
     ((h c).2 main_arg0 (Pipeline.mem_restRefs_of main_arg0 (by decide) (by decide))).trans (W_main_arg0 m (dats m) c),
     ((h c).1 2).trans (((dats m 0 c).arrAt_in 2 rfl _).trans ((A_eq m c 2).trans (V_main_arg1 m c))),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c)))⟩) (run_main m ρ)

end Cert.KernelIdeal.Val

end
-- ==== Proof.RefOps.lean ====
/-
  The reference's @main as lists of its 271 host operations, in order, cut into eleven consecutive stretches:
  `ops0` (the zero constant, its conversion, the padding of the first image), `ops1` … `ops4` (the 121 shifted
  windows of the padded image, one slice per tap), `ops5` … `ops8` (each window given a unit tap axis), `ops9` (the
  nine concatenations that stack the windows along the tap axis) and `ops10` (the filters broadcast over the
  channels, the product, the sum over taps, the Charbonnier distance to the second image, the mask, the sum over
  everything and the division by the element count).
-/
import proofs.«140256_j85203561218656_2_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- Operations 1–3 of @main. -/
abbrev ops0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x3x256x256, .f32⟩) main_arg0) (TRef.of (T := ⟨S_, .f32⟩) main_call0_v0) (TRef.of (T := ⟨S4x3x266x266, .f32⟩) main_v0) (fun x v => pad S4x3x266x266 ![0, 0, 5, 5] ![0, 0, 5, 5] ![0, 0, 0, 0] x v pads_S4x3x256x256_S4x3x266x266_000_000_550_550 h_S_) ]
theorem ops0_sub : (ops0 : List (HloOp τ sig (Elt F))).Forall fun op => op.bufs ⊆ tcRefs τ sig :=
  ⟨nullary_bufs_sub .., unary_bufs_sub .., binary_bufs_sub ..⟩
theorem ops0_fresh : (ops0 : List (HloOp τ sig (Elt F))).Forall fun op => op.fresh = ∅ := by
  simp only [List.Forall]; repeat' constructor

/-- Operations 4–34 of @main. -/
abbrev ops1 : List (HloOp τ sig (Elt F)) :=
  [ unary main_v0 main_v1 ((extractStridedSlice S4x3x256x256 ![0, 0, 0, 0] · slices_S4x3x266x266_S4x3x256x256_0_0_0_0) : (⟨S4x3x266x266, .f32⟩ : BufTy).Contents (Elt F) → (⟨S4x3x256x256, .f32⟩ : BufTy).Contents (Elt F)),
    unary main_v0 main_v2 ((extractStridedSlice S4x3x256x256 ![0, 0, 0, 1] · slices_S4x3x266x266_S4x3x256x256_0_0_0_1) : (⟨S4x3x266x266, .f32⟩ : BufTy).Contents (Elt F) → (⟨S4x3x256x256, .f32⟩ : BufTy).Contents (Elt F)),
    unary main_v0 main_v3 ((extractStridedSlice S4x3x256x256 ![0, 0, 0, 2] · slices_S4x3x266x266_S4x3x256x256_0_0_0_2) : (⟨S4x3x266x266, .f32⟩ : BufTy).Contents (Elt F) → (⟨S4x3x256x256, .f32⟩ : BufTy).Contents (Elt F)),
    unary main_v0 main_v4 ((extractStridedSlice S4x3x256x256 ![0, 0, 0, 3] · slices_S4x3x266x266_S4x3x256x256_0_0_0_3) : (⟨S4x3x266x266, .f32⟩ : BufTy).Contents (Elt F) → (⟨S4x3x256x256, .f32⟩ : BufTy).Contents (Elt F)),
    unary main_v0 main_v5 ((extractStridedSlice S4x3x256x256 ![0, 0, 0, 4] · slices_S4x3x266x266_S4x3x256x256_0_0_0_4) : (⟨S4x3x266x266, .f32⟩ : BufTy).Contents (Elt F) → (⟨S4x3x256x256, .f32⟩ : BufTy).Contents (Elt F)),
    unary main_v0 main_v6 ((extractStridedSlice S4x3x256x256 ![0, 0, 0, 5] · slices_S4x3x266x266_S4x3x256x256_0_0_0_5) : (⟨S4x3x266x266, .f32⟩ : BufTy).Contents (Elt F) → (⟨S4x3x256x256, .f32⟩ : BufTy).Contents (Elt F)),
    unary main_v0 main_v7 ((extractStridedSlice S4x3x256x256 ![0, 0, 0, 6] · slices_S4x3x266x266_S4x3x256x256_0_0_0_6) : (⟨S4x3x266x266, .f32⟩ : BufTy).Contents (Elt F) → (⟨S4x3x256x256, .f32⟩ : BufTy).Contents (Elt F)),
    unary main_v0 main_v8 ((extractStridedSlice S4x3x256x256 ![0, 0, 0, 7] · slices_S4x3x266x266_S4x3x256x256_0_0_0_7) : (⟨S4x3x266x266, .f32⟩ : BufTy).Contents (Elt F) → (⟨S4x3x256x256, .f32⟩ : BufTy).Contents (Elt F)),
    unary main_v0 main_v9 ((extractStridedSlice S4x3x256x256 ![0, 0, 0, 8] · slices_S4x3x266x266_S4x3x256x256_0_0_0_8) : (⟨S4x3x266x266, .f32⟩ : BufTy).Contents (Elt F) → (⟨S4x3x256x256, .f32⟩ : BufTy).Contents (Elt F)),
    unary main_v0 main_v10 ((extractStridedSlice S4x3x256x256 ![0, 0, 0, 9] · slices_S4x3x266x266_S4x3x256x256_0_0_0_9) : (⟨S4x3x266x266, .f32⟩ : BufTy).Contents (Elt F) → (⟨S4x3x256x256, .f32⟩ : BufTy).Contents (Elt F)),
    unary main_v0 main_v11 ((extractStridedSlice S4x3x256x256 ![0, 0, 0, 10] · slices_S4x3x266x266_S4x3x256x256_0_0_0_10) : (⟨S4x3x266x266, .f32⟩ : BufTy).Contents (Elt F) → (⟨S4x3x256x256, .f32⟩ : BufTy).Contents (Elt F)),
    unary main_v0 main_v12 ((extractStridedSlice S4x3x256x256 ![0, 0, 1, 0] · slices_S4x3x266x266_S4x3x256x256_0_0_1_0) : (⟨S4x3x266x266, .f32⟩ : BufTy).Contents (Elt F) → (⟨S4x3x256x256, .f32⟩ : BufTy).Contents (Elt F)),
    unary main_v0 main_v13 ((extractStridedSlice S4x3x256x256 ![0, 0, 1, 1] · slices_S4x3x266x266_S4x3x256x256_0_0_1_1) : (⟨S4x3x266x266, .f32⟩ : BufTy).Contents (Elt F) → (⟨S4x3x256x256, .f32⟩ : BufTy).Contents (Elt F)),
    unary main_v0 main_v14 ((extractStridedSlice S4x3x256x256 ![0, 0, 1, 2] · slices_S4x3x266x266_S4x3x256x256_0_0_1_2) : (⟨S4x3x266x266, .f32⟩ : BufTy).Contents (Elt F) → (⟨S4x3x256x256, .f32⟩ : BufTy).Contents (Elt F)),
    unary main_v0 main_v15 ((extractStridedSlice S4x3x256x256 ![0, 0, 1, 3] · slices_S4x3x266x266_S4x3x256x256_0_0_1_3) : (⟨S4x3x266x266, .f32⟩ : BufTy).Contents (Elt F) → (⟨S4x3x256x256, .f32⟩ : BufTy).Contents (Elt F)),
    unary main_v0 main_v16 ((extractStridedSlice S4x3x256x256 ![0, 0, 1, 4] · slices_S4x3x266x266_S4x3x256x256_0_0_1_4) : (⟨S4x3x266x266, .f32⟩ : BufTy).Contents (Elt F) → (⟨S4x3x256x256, .f32⟩ : BufTy).Contents (Elt F)),
    unary main_v0 main_v17 ((extractStridedSlice S4x3x256x256 ![0, 0, 1, 5] · slices_S4x3x266x266_S4x3x256x256_0_0_1_5) : (⟨S4x3x266x266, .f32⟩ : BufTy).Contents (Elt F) → (⟨S4x3x256x256, .f32⟩ : BufTy).Contents (Elt F)),
    unary main_v0 main_v18 ((extractStridedSlice S4x3x256x256 ![0, 0, 1, 6] · slices_S4x3x266x266_S4x3x256x256_0_0_1_6) : (⟨S4x3x266x266, .f32⟩ : BufTy).Contents (Elt F) → (⟨S4x3x256x256, .f32⟩ : BufTy).Contents (Elt F)),
    unary main_v0 main_v19 ((extractStridedSlice S4x3x256x256 ![0, 0, 1, 7] · slices_S4x3x266x266_S4x3x256x256_0_0_1_7) : (⟨S4x3x266x266, .f32⟩ : BufTy).Contents (Elt F) → (⟨S4x3x256x256, .f32⟩ : BufTy).Contents (Elt F)),
    unary main_v0 main_v20 ((extractStridedSlice S4x3x256x256 ![0, 0, 1, 8] · slices_S4x3x266x266_S4x3x256x256_0_0_1_8) : (⟨S4x3x266x266, .f32⟩ : BufTy).Contents (Elt F) → (⟨S4x3x256x256, .f32⟩ : BufTy).Contents (Elt F)),
    unary main_v0 main_v21 ((extractStridedSlice S4x3x256x256 ![0, 0, 1, 9] · slices_S4x3x266x266_S4x3x256x256_0_0_1_9) : (⟨S4x3x266x266, .f32⟩ : BufTy).Contents (Elt F) → (⟨S4x3x256x256, .f32⟩ : BufTy).Contents (Elt F)),
    unary main_v0 main_v22 ((extractStridedSlice S4x3x256x256 ![0, 0, 1, 10] · slices_S4x3x266x266_S4x3x256x256_0_0_1_10) : (⟨S4x3x266x266, .f32⟩ : BufTy).Contents (Elt F) → (⟨S4x3x256x256, .f32⟩ : BufTy).Contents (Elt F)),
    unary main_v0 main_v23 ((extractStridedSlice S4x3x256x256 ![0, 0, 2, 0] · slices_S4x3x266x266_S4x3x256x256_0_0_2_0) : (⟨S4x3x266x266, .f32⟩ : BufTy).Contents (Elt F) → (⟨S4x3x256x256, .f32⟩ : BufTy).Contents (Elt F)),
    unary main_v0 main_v24 ((extractStridedSlice S4x3x256x256 ![0, 0, 2, 1] · slices_S4x3x266x266_S4x3x256x256_0_0_2_1) : (⟨S4x3x266x266, .f32⟩ : BufTy).Contents (Elt F) → (⟨S4x3x256x256, .f32⟩ : BufTy).Contents (Elt F)),
    unary main_v0 main_v25 ((extractStridedSlice S4x3x256x256 ![0, 0, 2, 2] · slices_S4x3x266x266_S4x3x256x256_0_0_2_2) : (⟨S4x3x266x266, .f32⟩ : BufTy).Contents (Elt F) → (⟨S4x3x256x256, .f32⟩ : BufTy).Contents (Elt F)),
    unary main_v0 main_v26 ((extractStridedSlice S4x3x256x256 ![0, 0, 2, 3] · slices_S4x3x266x266_S4x3x256x256_0_0_2_3) : (⟨S4x3x266x266, .f32⟩ : BufTy).Contents (Elt F) → (⟨S4x3x256x256, .f32⟩ : BufTy).Contents (Elt F)),
    unary main_v0 main_v27 ((extractStridedSlice S4x3x256x256 ![0, 0, 2, 4] · slices_S4x3x266x266_S4x3x256x256_0_0_2_4) : (⟨S4x3x266x266, .f32⟩ : BufTy).Contents (Elt F) → (⟨S4x3x256x256, .f32⟩ : BufTy).Contents (Elt F)),
    unary main_v0 main_v28 ((extractStridedSlice S4x3x256x256 ![0, 0, 2, 5] · slices_S4x3x266x266_S4x3x256x256_0_0_2_5) : (⟨S4x3x266x266, .f32⟩ : BufTy).Contents (Elt F) → (⟨S4x3x256x256, .f32⟩ : BufTy).Contents (Elt F)),
    unary main_v0 main_v29 ((extractStridedSlice S4x3x256x256 ![0, 0, 2, 6] · slices_S4x3x266x266_S4x3x256x256_0_0_2_6) : (⟨S4x3x266x266, .f32⟩ : BufTy).Contents (Elt F) → (⟨S4x3x256x256, .f32⟩ : BufTy).Contents (Elt F)),
    unary main_v0 main_v30 ((extractStridedSlice S4x3x256x256 ![0, 0, 2, 7] · slices_S4x3x266x266_S4x3x256x256_0_0_2_7) : (⟨S4x3x266x266, .f32⟩ : BufTy).Contents (Elt F) → (⟨S4x3x256x256, .f32⟩ : BufTy).Contents (Elt F)),
    unary main_v0 main_v31 ((extractStridedSlice S4x3x256x256 ![0, 0, 2, 8] · slices_S4x3x266x266_S4x3x256x256_0_0_2_8) : (⟨S4x3x266x266, .f32⟩ : BufTy).Contents (Elt F) → (⟨S4x3x256x256, .f32⟩ : BufTy).Contents (Elt F)) ]
theorem ops1_sub : (ops1 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops1_fresh : (ops1 : List (HloOp τ sig (Elt F))).Forall fun op => op.fresh = ∅ := by
  simp only [List.Forall]; repeat' constructor

/-- Operations 35–64 of @main. -/
abbrev ops2 : List (HloOp τ sig (Elt F)) :=
  [ unary main_v0 main_v32 ((extractStridedSlice S4x3x256x256 ![0, 0, 2, 9] · slices_S4x3x266x266_S4x3x256x256_0_0_2_9) : (⟨S4x3x266x266, .f32⟩ : BufTy).Contents (Elt F) → (⟨S4x3x256x256, .f32⟩ : BufTy).Contents (Elt F)),
    unary main_v0 main_v33 ((extractStridedSlice S4x3x256x256 ![0, 0, 2, 10] · slices_S4x3x266x266_S4x3x256x256_0_0_2_10) : (⟨S4x3x266x266, .f32⟩ : BufTy).Contents (Elt F) → (⟨S4x3x256x256, .f32⟩ : BufTy).Contents (Elt F)),
    unary main_v0 main_v34 ((extractStridedSlice S4x3x256x256 ![0, 0, 3, 0] · slices_S4x3x266x266_S4x3x256x256_0_0_3_0) : (⟨S4x3x266x266, .f32⟩ : BufTy).Contents (Elt F) → (⟨S4x3x256x256, .f32⟩ : BufTy).Contents (Elt F)),
    unary main_v0 main_v35 ((extractStridedSlice S4x3x256x256 ![0, 0, 3, 1] · slices_S4x3x266x266_S4x3x256x256_0_0_3_1) : (⟨S4x3x266x266, .f32⟩ : BufTy).Contents (Elt F) → (⟨S4x3x256x256, .f32⟩ : BufTy).Contents (Elt F)),
    unary main_v0 main_v36 ((extractStridedSlice S4x3x256x256 ![0, 0, 3, 2] · slices_S4x3x266x266_S4x3x256x256_0_0_3_2) : (⟨S4x3x266x266, .f32⟩ : BufTy).Contents (Elt F) → (⟨S4x3x256x256, .f32⟩ : BufTy).Contents (Elt F)),
    unary main_v0 main_v37 ((extractStridedSlice S4x3x256x256 ![0, 0, 3, 3] · slices_S4x3x266x266_S4x3x256x256_0_0_3_3) : (⟨S4x3x266x266, .f32⟩ : BufTy).Contents (Elt F) → (⟨S4x3x256x256, .f32⟩ : BufTy).Contents (Elt F)),
    unary main_v0 main_v38 ((extractStridedSlice S4x3x256x256 ![0, 0, 3, 4] · slices_S4x3x266x266_S4x3x256x256_0_0_3_4) : (⟨S4x3x266x266, .f32⟩ : BufTy).Contents (Elt F) → (⟨S4x3x256x256, .f32⟩ : BufTy).Contents (Elt F)),
    unary main_v0 main_v39 ((extractStridedSlice S4x3x256x256 ![0, 0, 3, 5] · slices_S4x3x266x266_S4x3x256x256_0_0_3_5) : (⟨S4x3x266x266, .f32⟩ : BufTy).Contents (Elt F) → (⟨S4x3x256x256, .f32⟩ : BufTy).Contents (Elt F)),
    unary main_v0 main_v40 ((extractStridedSlice S4x3x256x256 ![0, 0, 3, 6] · slices_S4x3x266x266_S4x3x256x256_0_0_3_6) : (⟨S4x3x266x266, .f32⟩ : BufTy).Contents (Elt F) → (⟨S4x3x256x256, .f32⟩ : BufTy).Contents (Elt F)),
    unary main_v0 main_v41 ((extractStridedSlice S4x3x256x256 ![0, 0, 3, 7] · slices_S4x3x266x266_S4x3x256x256_0_0_3_7) : (⟨S4x3x266x266, .f32⟩ : BufTy).Contents (Elt F) → (⟨S4x3x256x256, .f32⟩ : BufTy).Contents (Elt F)),
    unary main_v0 main_v42 ((extractStridedSlice S4x3x256x256 ![0, 0, 3, 8] · slices_S4x3x266x266_S4x3x256x256_0_0_3_8) : (⟨S4x3x266x266, .f32⟩ : BufTy).Contents (Elt F) → (⟨S4x3x256x256, .f32⟩ : BufTy).Contents (Elt F)),
    unary main_v0 main_v43 ((extractStridedSlice S4x3x256x256 ![0, 0, 3, 9] · slices_S4x3x266x266_S4x3x256x256_0_0_3_9) : (⟨S4x3x266x266, .f32⟩ : BufTy).Contents (Elt F) → (⟨S4x3x256x256, .f32⟩ : BufTy).Contents (Elt F)),
    unary main_v0 main_v44 ((extractStridedSlice S4x3x256x256 ![0, 0, 3, 10] · slices_S4x3x266x266_S4x3x256x256_0_0_3_10) : (⟨S4x3x266x266, .f32⟩ : BufTy).Contents (Elt F) → (⟨S4x3x256x256, .f32⟩ : BufTy).Contents (Elt F)),
    unary main_v0 main_v45 ((extractStridedSlice S4x3x256x256 ![0, 0, 4, 0] · slices_S4x3x266x266_S4x3x256x256_0_0_4_0) : (⟨S4x3x266x266, .f32⟩ : BufTy).Contents (Elt F) → (⟨S4x3x256x256, .f32⟩ : BufTy).Contents (Elt F)),
    unary main_v0 main_v46 ((extractStridedSlice S4x3x256x256 ![0, 0, 4, 1] · slices_S4x3x266x266_S4x3x256x256_0_0_4_1) : (⟨S4x3x266x266, .f32⟩ : BufTy).Contents (Elt F) → (⟨S4x3x256x256, .f32⟩ : BufTy).Contents (Elt F)),
    unary main_v0 main_v47 ((extractStridedSlice S4x3x256x256 ![0, 0, 4, 2] · slices_S4x3x266x266_S4x3x256x256_0_0_4_2) : (⟨S4x3x266x266, .f32⟩ : BufTy).Contents (Elt F) → (⟨S4x3x256x256, .f32⟩ : BufTy).Contents (Elt F)),
    unary main_v0 main_v48 ((extractStridedSlice S4x3x256x256 ![0, 0, 4, 3] · slices_S4x3x266x266_S4x3x256x256_0_0_4_3) : (⟨S4x3x266x266, .f32⟩ : BufTy).Contents (Elt F) → (⟨S4x3x256x256, .f32⟩ : BufTy).Contents (Elt F)),
    unary main_v0 main_v49 ((extractStridedSlice S4x3x256x256 ![0, 0, 4, 4] · slices_S4x3x266x266_S4x3x256x256_0_0_4_4) : (⟨S4x3x266x266, .f32⟩ : BufTy).Contents (Elt F) → (⟨S4x3x256x256, .f32⟩ : BufTy).Contents (Elt F)),
    unary main_v0 main_v50 ((extractStridedSlice S4x3x256x256 ![0, 0, 4, 5] · slices_S4x3x266x266_S4x3x256x256_0_0_4_5) : (⟨S4x3x266x266, .f32⟩ : BufTy).Contents (Elt F) → (⟨S4x3x256x256, .f32⟩ : BufTy).Contents (Elt F)),
    unary main_v0 main_v51 ((extractStridedSlice S4x3x256x256 ![0, 0, 4, 6] · slices_S4x3x266x266_S4x3x256x256_0_0_4_6) : (⟨S4x3x266x266, .f32⟩ : BufTy).Contents (Elt F) → (⟨S4x3x256x256, .f32⟩ : BufTy).Contents (Elt F)),
    unary main_v0 main_v52 ((extractStridedSlice S4x3x256x256 ![0, 0, 4, 7] · slices_S4x3x266x266_S4x3x256x256_0_0_4_7) : (⟨S4x3x266x266, .f32⟩ : BufTy).Contents (Elt F) → (⟨S4x3x256x256, .f32⟩ : BufTy).Contents (Elt F)),
    unary main_v0 main_v53 ((extractStridedSlice S4x3x256x256 ![0, 0, 4, 8] · slices_S4x3x266x266_S4x3x256x256_0_0_4_8) : (⟨S4x3x266x266, .f32⟩ : BufTy).Contents (Elt F) → (⟨S4x3x256x256, .f32⟩ : BufTy).Contents (Elt F)),
    unary main_v0 main_v54 ((extractStridedSlice S4x3x256x256 ![0, 0, 4, 9] · slices_S4x3x266x266_S4x3x256x256_0_0_4_9) : (⟨S4x3x266x266, .f32⟩ : BufTy).Contents (Elt F) → (⟨S4x3x256x256, .f32⟩ : BufTy).Contents (Elt F)),
    unary main_v0 main_v55 ((extractStridedSlice S4x3x256x256 ![0, 0, 4, 10] · slices_S4x3x266x266_S4x3x256x256_0_0_4_10) : (⟨S4x3x266x266, .f32⟩ : BufTy).Contents (Elt F) → (⟨S4x3x256x256, .f32⟩ : BufTy).Contents (Elt F)),
    unary main_v0 main_v56 ((extractStridedSlice S4x3x256x256 ![0, 0, 5, 0] · slices_S4x3x266x266_S4x3x256x256_0_0_5_0) : (⟨S4x3x266x266, .f32⟩ : BufTy).Contents (Elt F) → (⟨S4x3x256x256, .f32⟩ : BufTy).Contents (Elt F)),
    unary main_v0 main_v57 ((extractStridedSlice S4x3x256x256 ![0, 0, 5, 1] · slices_S4x3x266x266_S4x3x256x256_0_0_5_1) : (⟨S4x3x266x266, .f32⟩ : BufTy).Contents (Elt F) → (⟨S4x3x256x256, .f32⟩ : BufTy).Contents (Elt F)),
    unary main_v0 main_v58 ((extractStridedSlice S4x3x256x256 ![0, 0, 5, 2] · slices_S4x3x266x266_S4x3x256x256_0_0_5_2) : (⟨S4x3x266x266, .f32⟩ : BufTy).Contents (Elt F) → (⟨S4x3x256x256, .f32⟩ : BufTy).Contents (Elt F)),
    unary main_v0 main_v59 ((extractStridedSlice S4x3x256x256 ![0, 0, 5, 3] · slices_S4x3x266x266_S4x3x256x256_0_0_5_3) : (⟨S4x3x266x266, .f32⟩ : BufTy).Contents (Elt F) → (⟨S4x3x256x256, .f32⟩ : BufTy).Contents (Elt F)),
    unary main_v0 main_v60 ((extractStridedSlice S4x3x256x256 ![0, 0, 5, 4] · slices_S4x3x266x266_S4x3x256x256_0_0_5_4) : (⟨S4x3x266x266, .f32⟩ : BufTy).Contents (Elt F) → (⟨S4x3x256x256, .f32⟩ : BufTy).Contents (Elt F)),
    unary main_v0 main_v61 ((extractStridedSlice S4x3x256x256 ![0, 0, 5, 5] · slices_S4x3x266x266_S4x3x256x256_0_0_5_5) : (⟨S4x3x266x266, .f32⟩ : BufTy).Contents (Elt F) → (⟨S4x3x256x256, .f32⟩ : BufTy).Contents (Elt F)) ]
theorem ops2_sub : (ops2 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops2_fresh : (ops2 : List (HloOp τ sig (Elt F))).Forall fun op => op.fresh = ∅ := by
  simp only [List.Forall]; repeat' constructor

/-- Operations 65–94 of @main. -/
abbrev ops3 : List (HloOp τ sig (Elt F)) :=
  [ unary main_v0 main_v62 ((extractStridedSlice S4x3x256x256 ![0, 0, 5, 6] · slices_S4x3x266x266_S4x3x256x256_0_0_5_6) : (⟨S4x3x266x266, .f32⟩ : BufTy).Contents (Elt F) → (⟨S4x3x256x256, .f32⟩ : BufTy).Contents (Elt F)),
    unary main_v0 main_v63 ((extractStridedSlice S4x3x256x256 ![0, 0, 5, 7] · slices_S4x3x266x266_S4x3x256x256_0_0_5_7) : (⟨S4x3x266x266, .f32⟩ : BufTy).Contents (Elt F) → (⟨S4x3x256x256, .f32⟩ : BufTy).Contents (Elt F)),
    unary main_v0 main_v64 ((extractStridedSlice S4x3x256x256 ![0, 0, 5, 8] · slices_S4x3x266x266_S4x3x256x256_0_0_5_8) : (⟨S4x3x266x266, .f32⟩ : BufTy).Contents (Elt F) → (⟨S4x3x256x256, .f32⟩ : BufTy).Contents (Elt F)),
    unary main_v0 main_v65 ((extractStridedSlice S4x3x256x256 ![0, 0, 5, 9] · slices_S4x3x266x266_S4x3x256x256_0_0_5_9) : (⟨S4x3x266x266, .f32⟩ : BufTy).Contents (Elt F) → (⟨S4x3x256x256, .f32⟩ : BufTy).Contents (Elt F)),
    unary main_v0 main_v66 ((extractStridedSlice S4x3x256x256 ![0, 0, 5, 10] · slices_S4x3x266x266_S4x3x256x256_0_0_5_10) : (⟨S4x3x266x266, .f32⟩ : BufTy).Contents (Elt F) → (⟨S4x3x256x256, .f32⟩ : BufTy).Contents (Elt F)),
    unary main_v0 main_v67 ((extractStridedSlice S4x3x256x256 ![0, 0, 6, 0] · slices_S4x3x266x266_S4x3x256x256_0_0_6_0) : (⟨S4x3x266x266, .f32⟩ : BufTy).Contents (Elt F) → (⟨S4x3x256x256, .f32⟩ : BufTy).Contents (Elt F)),
    unary main_v0 main_v68 ((extractStridedSlice S4x3x256x256 ![0, 0, 6, 1] · slices_S4x3x266x266_S4x3x256x256_0_0_6_1) : (⟨S4x3x266x266, .f32⟩ : BufTy).Contents (Elt F) → (⟨S4x3x256x256, .f32⟩ : BufTy).Contents (Elt F)),
    unary main_v0 main_v69 ((extractStridedSlice S4x3x256x256 ![0, 0, 6, 2] · slices_S4x3x266x266_S4x3x256x256_0_0_6_2) : (⟨S4x3x266x266, .f32⟩ : BufTy).Contents (Elt F) → (⟨S4x3x256x256, .f32⟩ : BufTy).Contents (Elt F)),
    unary main_v0 main_v70 ((extractStridedSlice S4x3x256x256 ![0, 0, 6, 3] · slices_S4x3x266x266_S4x3x256x256_0_0_6_3) : (⟨S4x3x266x266, .f32⟩ : BufTy).Contents (Elt F) → (⟨S4x3x256x256, .f32⟩ : BufTy).Contents (Elt F)),
    unary main_v0 main_v71 ((extractStridedSlice S4x3x256x256 ![0, 0, 6, 4] · slices_S4x3x266x266_S4x3x256x256_0_0_6_4) : (⟨S4x3x266x266, .f32⟩ : BufTy).Contents (Elt F) → (⟨S4x3x256x256, .f32⟩ : BufTy).Contents (Elt F)),
    unary main_v0 main_v72 ((extractStridedSlice S4x3x256x256 ![0, 0, 6, 5] · slices_S4x3x266x266_S4x3x256x256_0_0_6_5) : (⟨S4x3x266x266, .f32⟩ : BufTy).Contents (Elt F) → (⟨S4x3x256x256, .f32⟩ : BufTy).Contents (Elt F)),
    unary main_v0 main_v73 ((extractStridedSlice S4x3x256x256 ![0, 0, 6, 6] · slices_S4x3x266x266_S4x3x256x256_0_0_6_6) : (⟨S4x3x266x266, .f32⟩ : BufTy).Contents (Elt F) → (⟨S4x3x256x256, .f32⟩ : BufTy).Contents (Elt F)),
    unary main_v0 main_v74 ((extractStridedSlice S4x3x256x256 ![0, 0, 6, 7] · slices_S4x3x266x266_S4x3x256x256_0_0_6_7) : (⟨S4x3x266x266, .f32⟩ : BufTy).Contents (Elt F) → (⟨S4x3x256x256, .f32⟩ : BufTy).Contents (Elt F)),
    unary main_v0 main_v75 ((extractStridedSlice S4x3x256x256 ![0, 0, 6, 8] · slices_S4x3x266x266_S4x3x256x256_0_0_6_8) : (⟨S4x3x266x266, .f32⟩ : BufTy).Contents (Elt F) → (⟨S4x3x256x256, .f32⟩ : BufTy).Contents (Elt F)),
    unary main_v0 main_v76 ((extractStridedSlice S4x3x256x256 ![0, 0, 6, 9] · slices_S4x3x266x266_S4x3x256x256_0_0_6_9) : (⟨S4x3x266x266, .f32⟩ : BufTy).Contents (Elt F) → (⟨S4x3x256x256, .f32⟩ : BufTy).Contents (Elt F)),
    unary main_v0 main_v77 ((extractStridedSlice S4x3x256x256 ![0, 0, 6, 10] · slices_S4x3x266x266_S4x3x256x256_0_0_6_10) : (⟨S4x3x266x266, .f32⟩ : BufTy).Contents (Elt F) → (⟨S4x3x256x256, .f32⟩ : BufTy).Contents (Elt F)),
    unary main_v0 main_v78 ((extractStridedSlice S4x3x256x256 ![0, 0, 7, 0] · slices_S4x3x266x266_S4x3x256x256_0_0_7_0) : (⟨S4x3x266x266, .f32⟩ : BufTy).Contents (Elt F) → (⟨S4x3x256x256, .f32⟩ : BufTy).Contents (Elt F)),
    unary main_v0 main_v79 ((extractStridedSlice S4x3x256x256 ![0, 0, 7, 1] · slices_S4x3x266x266_S4x3x256x256_0_0_7_1) : (⟨S4x3x266x266, .f32⟩ : BufTy).Contents (Elt F) → (⟨S4x3x256x256, .f32⟩ : BufTy).Contents (Elt F)),
    unary main_v0 main_v80 ((extractStridedSlice S4x3x256x256 ![0, 0, 7, 2] · slices_S4x3x266x266_S4x3x256x256_0_0_7_2) : (⟨S4x3x266x266, .f32⟩ : BufTy).Contents (Elt F) → (⟨S4x3x256x256, .f32⟩ : BufTy).Contents (Elt F)),
    unary main_v0 main_v81 ((extractStridedSlice S4x3x256x256 ![0, 0, 7, 3] · slices_S4x3x266x266_S4x3x256x256_0_0_7_3) : (⟨S4x3x266x266, .f32⟩ : BufTy).Contents (Elt F) → (⟨S4x3x256x256, .f32⟩ : BufTy).Contents (Elt F)),
    unary main_v0 main_v82 ((extractStridedSlice S4x3x256x256 ![0, 0, 7, 4] · slices_S4x3x266x266_S4x3x256x256_0_0_7_4) : (⟨S4x3x266x266, .f32⟩ : BufTy).Contents (Elt F) → (⟨S4x3x256x256, .f32⟩ : BufTy).Contents (Elt F)),
    unary main_v0 main_v83 ((extractStridedSlice S4x3x256x256 ![0, 0, 7, 5] · slices_S4x3x266x266_S4x3x256x256_0_0_7_5) : (⟨S4x3x266x266, .f32⟩ : BufTy).Contents (Elt F) → (⟨S4x3x256x256, .f32⟩ : BufTy).Contents (Elt F)),
    unary main_v0 main_v84 ((extractStridedSlice S4x3x256x256 ![0, 0, 7, 6] · slices_S4x3x266x266_S4x3x256x256_0_0_7_6) : (⟨S4x3x266x266, .f32⟩ : BufTy).Contents (Elt F) → (⟨S4x3x256x256, .f32⟩ : BufTy).Contents (Elt F)),
    unary main_v0 main_v85 ((extractStridedSlice S4x3x256x256 ![0, 0, 7, 7] · slices_S4x3x266x266_S4x3x256x256_0_0_7_7) : (⟨S4x3x266x266, .f32⟩ : BufTy).Contents (Elt F) → (⟨S4x3x256x256, .f32⟩ : BufTy).Contents (Elt F)),
    unary main_v0 main_v86 ((extractStridedSlice S4x3x256x256 ![0, 0, 7, 8] · slices_S4x3x266x266_S4x3x256x256_0_0_7_8) : (⟨S4x3x266x266, .f32⟩ : BufTy).Contents (Elt F) → (⟨S4x3x256x256, .f32⟩ : BufTy).Contents (Elt F)),
    unary main_v0 main_v87 ((extractStridedSlice S4x3x256x256 ![0, 0, 7, 9] · slices_S4x3x266x266_S4x3x256x256_0_0_7_9) : (⟨S4x3x266x266, .f32⟩ : BufTy).Contents (Elt F) → (⟨S4x3x256x256, .f32⟩ : BufTy).Contents (Elt F)),
    unary main_v0 main_v88 ((extractStridedSlice S4x3x256x256 ![0, 0, 7, 10] · slices_S4x3x266x266_S4x3x256x256_0_0_7_10) : (⟨S4x3x266x266, .f32⟩ : BufTy).Contents (Elt F) → (⟨S4x3x256x256, .f32⟩ : BufTy).Contents (Elt F)),
    unary main_v0 main_v89 ((extractStridedSlice S4x3x256x256 ![0, 0, 8, 0] · slices_S4x3x266x266_S4x3x256x256_0_0_8_0) : (⟨S4x3x266x266, .f32⟩ : BufTy).Contents (Elt F) → (⟨S4x3x256x256, .f32⟩ : BufTy).Contents (Elt F)),
    unary main_v0 main_v90 ((extractStridedSlice S4x3x256x256 ![0, 0, 8, 1] · slices_S4x3x266x266_S4x3x256x256_0_0_8_1) : (⟨S4x3x266x266, .f32⟩ : BufTy).Contents (Elt F) → (⟨S4x3x256x256, .f32⟩ : BufTy).Contents (Elt F)),
    unary main_v0 main_v91 ((extractStridedSlice S4x3x256x256 ![0, 0, 8, 2] · slices_S4x3x266x266_S4x3x256x256_0_0_8_2) : (⟨S4x3x266x266, .f32⟩ : BufTy).Contents (Elt F) → (⟨S4x3x256x256, .f32⟩ : BufTy).Contents (Elt F)) ]
theorem ops3_sub : (ops3 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops3_fresh : (ops3 : List (HloOp τ sig (Elt F))).Forall fun op => op.fresh = ∅ := by
  simp only [List.Forall]; repeat' constructor

/-- Operations 95–124 of @main. -/
abbrev ops4 : List (HloOp τ sig (Elt F)) :=
  [ unary main_v0 main_v92 ((extractStridedSlice S4x3x256x256 ![0, 0, 8, 3] · slices_S4x3x266x266_S4x3x256x256_0_0_8_3) : (⟨S4x3x266x266, .f32⟩ : BufTy).Contents (Elt F) → (⟨S4x3x256x256, .f32⟩ : BufTy).Contents (Elt F)),
    unary main_v0 main_v93 ((extractStridedSlice S4x3x256x256 ![0, 0, 8, 4] · slices_S4x3x266x266_S4x3x256x256_0_0_8_4) : (⟨S4x3x266x266, .f32⟩ : BufTy).Contents (Elt F) → (⟨S4x3x256x256, .f32⟩ : BufTy).Contents (Elt F)),
    unary main_v0 main_v94 ((extractStridedSlice S4x3x256x256 ![0, 0, 8, 5] · slices_S4x3x266x266_S4x3x256x256_0_0_8_5) : (⟨S4x3x266x266, .f32⟩ : BufTy).Contents (Elt F) → (⟨S4x3x256x256, .f32⟩ : BufTy).Contents (Elt F)),
    unary main_v0 main_v95 ((extractStridedSlice S4x3x256x256 ![0, 0, 8, 6] · slices_S4x3x266x266_S4x3x256x256_0_0_8_6) : (⟨S4x3x266x266, .f32⟩ : BufTy).Contents (Elt F) → (⟨S4x3x256x256, .f32⟩ : BufTy).Contents (Elt F)),
    unary main_v0 main_v96 ((extractStridedSlice S4x3x256x256 ![0, 0, 8, 7] · slices_S4x3x266x266_S4x3x256x256_0_0_8_7) : (⟨S4x3x266x266, .f32⟩ : BufTy).Contents (Elt F) → (⟨S4x3x256x256, .f32⟩ : BufTy).Contents (Elt F)),
    unary main_v0 main_v97 ((extractStridedSlice S4x3x256x256 ![0, 0, 8, 8] · slices_S4x3x266x266_S4x3x256x256_0_0_8_8) : (⟨S4x3x266x266, .f32⟩ : BufTy).Contents (Elt F) → (⟨S4x3x256x256, .f32⟩ : BufTy).Contents (Elt F)),
    unary main_v0 main_v98 ((extractStridedSlice S4x3x256x256 ![0, 0, 8, 9] · slices_S4x3x266x266_S4x3x256x256_0_0_8_9) : (⟨S4x3x266x266, .f32⟩ : BufTy).Contents (Elt F) → (⟨S4x3x256x256, .f32⟩ : BufTy).Contents (Elt F)),
    unary main_v0 main_v99 ((extractStridedSlice S4x3x256x256 ![0, 0, 8, 10] · slices_S4x3x266x266_S4x3x256x256_0_0_8_10) : (⟨S4x3x266x266, .f32⟩ : BufTy).Contents (Elt F) → (⟨S4x3x256x256, .f32⟩ : BufTy).Contents (Elt F)),
    unary main_v0 main_v100 ((extractStridedSlice S4x3x256x256 ![0, 0, 9, 0] · slices_S4x3x266x266_S4x3x256x256_0_0_9_0) : (⟨S4x3x266x266, .f32⟩ : BufTy).Contents (Elt F) → (⟨S4x3x256x256, .f32⟩ : BufTy).Contents (Elt F)),
    unary main_v0 main_v101 ((extractStridedSlice S4x3x256x256 ![0, 0, 9, 1] · slices_S4x3x266x266_S4x3x256x256_0_0_9_1) : (⟨S4x3x266x266, .f32⟩ : BufTy).Contents (Elt F) → (⟨S4x3x256x256, .f32⟩ : BufTy).Contents (Elt F)),
    unary main_v0 main_v102 ((extractStridedSlice S4x3x256x256 ![0, 0, 9, 2] · slices_S4x3x266x266_S4x3x256x256_0_0_9_2) : (⟨S4x3x266x266, .f32⟩ : BufTy).Contents (Elt F) → (⟨S4x3x256x256, .f32⟩ : BufTy).Contents (Elt F)),
    unary main_v0 main_v103 ((extractStridedSlice S4x3x256x256 ![0, 0, 9, 3] · slices_S4x3x266x266_S4x3x256x256_0_0_9_3) : (⟨S4x3x266x266, .f32⟩ : BufTy).Contents (Elt F) → (⟨S4x3x256x256, .f32⟩ : BufTy).Contents (Elt F)),
    unary main_v0 main_v104 ((extractStridedSlice S4x3x256x256 ![0, 0, 9, 4] · slices_S4x3x266x266_S4x3x256x256_0_0_9_4) : (⟨S4x3x266x266, .f32⟩ : BufTy).Contents (Elt F) → (⟨S4x3x256x256, .f32⟩ : BufTy).Contents (Elt F)),
    unary main_v0 main_v105 ((extractStridedSlice S4x3x256x256 ![0, 0, 9, 5] · slices_S4x3x266x266_S4x3x256x256_0_0_9_5) : (⟨S4x3x266x266, .f32⟩ : BufTy).Contents (Elt F) → (⟨S4x3x256x256, .f32⟩ : BufTy).Contents (Elt F)),
    unary main_v0 main_v106 ((extractStridedSlice S4x3x256x256 ![0, 0, 9, 6] · slices_S4x3x266x266_S4x3x256x256_0_0_9_6) : (⟨S4x3x266x266, .f32⟩ : BufTy).Contents (Elt F) → (⟨S4x3x256x256, .f32⟩ : BufTy).Contents (Elt F)),
    unary main_v0 main_v107 ((extractStridedSlice S4x3x256x256 ![0, 0, 9, 7] · slices_S4x3x266x266_S4x3x256x256_0_0_9_7) : (⟨S4x3x266x266, .f32⟩ : BufTy).Contents (Elt F) → (⟨S4x3x256x256, .f32⟩ : BufTy).Contents (Elt F)),
    unary main_v0 main_v108 ((extractStridedSlice S4x3x256x256 ![0, 0, 9, 8] · slices_S4x3x266x266_S4x3x256x256_0_0_9_8) : (⟨S4x3x266x266, .f32⟩ : BufTy).Contents (Elt F) → (⟨S4x3x256x256, .f32⟩ : BufTy).Contents (Elt F)),
    unary main_v0 main_v109 ((extractStridedSlice S4x3x256x256 ![0, 0, 9, 9] · slices_S4x3x266x266_S4x3x256x256_0_0_9_9) : (⟨S4x3x266x266, .f32⟩ : BufTy).Contents (Elt F) → (⟨S4x3x256x256, .f32⟩ : BufTy).Contents (Elt F)),
    unary main_v0 main_v110 ((extractStridedSlice S4x3x256x256 ![0, 0, 9, 10] · slices_S4x3x266x266_S4x3x256x256_0_0_9_10) : (⟨S4x3x266x266, .f32⟩ : BufTy).Contents (Elt F) → (⟨S4x3x256x256, .f32⟩ : BufTy).Contents (Elt F)),
    unary main_v0 main_v111 ((extractStridedSlice S4x3x256x256 ![0, 0, 10, 0] · slices_S4x3x266x266_S4x3x256x256_0_0_10_0) : (⟨S4x3x266x266, .f32⟩ : BufTy).Contents (Elt F) → (⟨S4x3x256x256, .f32⟩ : BufTy).Contents (Elt F)),
    unary main_v0 main_v112 ((extractStridedSlice S4x3x256x256 ![0, 0, 10, 1] · slices_S4x3x266x266_S4x3x256x256_0_0_10_1) : (⟨S4x3x266x266, .f32⟩ : BufTy).Contents (Elt F) → (⟨S4x3x256x256, .f32⟩ : BufTy).Contents (Elt F)),
    unary main_v0 main_v113 ((extractStridedSlice S4x3x256x256 ![0, 0, 10, 2] · slices_S4x3x266x266_S4x3x256x256_0_0_10_2) : (⟨S4x3x266x266, .f32⟩ : BufTy).Contents (Elt F) → (⟨S4x3x256x256, .f32⟩ : BufTy).Contents (Elt F)),
    unary main_v0 main_v114 ((extractStridedSlice S4x3x256x256 ![0, 0, 10, 3] · slices_S4x3x266x266_S4x3x256x256_0_0_10_3) : (⟨S4x3x266x266, .f32⟩ : BufTy).Contents (Elt F) → (⟨S4x3x256x256, .f32⟩ : BufTy).Contents (Elt F)),
    unary main_v0 main_v115 ((extractStridedSlice S4x3x256x256 ![0, 0, 10, 4] · slices_S4x3x266x266_S4x3x256x256_0_0_10_4) : (⟨S4x3x266x266, .f32⟩ : BufTy).Contents (Elt F) → (⟨S4x3x256x256, .f32⟩ : BufTy).Contents (Elt F)),
    unary main_v0 main_v116 ((extractStridedSlice S4x3x256x256 ![0, 0, 10, 5] · slices_S4x3x266x266_S4x3x256x256_0_0_10_5) : (⟨S4x3x266x266, .f32⟩ : BufTy).Contents (Elt F) → (⟨S4x3x256x256, .f32⟩ : BufTy).Contents (Elt F)),
    unary main_v0 main_v117 ((extractStridedSlice S4x3x256x256 ![0, 0, 10, 6] · slices_S4x3x266x266_S4x3x256x256_0_0_10_6) : (⟨S4x3x266x266, .f32⟩ : BufTy).Contents (Elt F) → (⟨S4x3x256x256, .f32⟩ : BufTy).Contents (Elt F)),
    unary main_v0 main_v118 ((extractStridedSlice S4x3x256x256 ![0, 0, 10, 7] · slices_S4x3x266x266_S4x3x256x256_0_0_10_7) : (⟨S4x3x266x266, .f32⟩ : BufTy).Contents (Elt F) → (⟨S4x3x256x256, .f32⟩ : BufTy).Contents (Elt F)),
    unary main_v0 main_v119 ((extractStridedSlice S4x3x256x256 ![0, 0, 10, 8] · slices_S4x3x266x266_S4x3x256x256_0_0_10_8) : (⟨S4x3x266x266, .f32⟩ : BufTy).Contents (Elt F) → (⟨S4x3x256x256, .f32⟩ : BufTy).Contents (Elt F)),
    unary main_v0 main_v120 ((extractStridedSlice S4x3x256x256 ![0, 0, 10, 9] · slices_S4x3x266x266_S4x3x256x256_0_0_10_9) : (⟨S4x3x266x266, .f32⟩ : BufTy).Contents (Elt F) → (⟨S4x3x256x256, .f32⟩ : BufTy).Contents (Elt F)),
    unary main_v0 main_v121 ((extractStridedSlice S4x3x256x256 ![0, 0, 10, 10] · slices_S4x3x266x266_S4x3x256x256_0_0_10_10) : (⟨S4x3x266x266, .f32⟩ : BufTy).Contents (Elt F) → (⟨S4x3x256x256, .f32⟩ : BufTy).Contents (Elt F)) ]
theorem ops4_sub : (ops4 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops4_fresh : (ops4 : List (HloOp τ sig (Elt F))).Forall fun op => op.fresh = ∅ := by
  simp only [List.Forall]; repeat' constructor

/-- Operations 125–155 of @main. -/
abbrev ops5 : List (HloOp τ sig (Elt F)) :=
  [ unary main_v1 main_v122 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v2 main_v123 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v3 main_v124 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v4 main_v125 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v5 main_v126 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v6 main_v127 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v7 main_v128 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v8 main_v129 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v9 main_v130 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v10 main_v131 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v11 main_v132 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v12 main_v133 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v13 main_v134 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v14 main_v135 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v15 main_v136 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v16 main_v137 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v17 main_v138 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v18 main_v139 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v19 main_v140 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v20 main_v141 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v21 main_v142 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v22 main_v143 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v23 main_v144 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v24 main_v145 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v25 main_v146 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v26 main_v147 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v27 main_v148 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v28 main_v149 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v29 main_v150 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v30 main_v151 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v31 main_v152 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)) ]
theorem ops5_sub : (ops5 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops5_fresh : (ops5 : List (HloOp τ sig (Elt F))).Forall fun op => op.fresh = ∅ := by
  simp only [List.Forall]; repeat' constructor

/-- Operations 156–185 of @main. -/
abbrev ops6 : List (HloOp τ sig (Elt F)) :=
  [ unary main_v32 main_v153 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v33 main_v154 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v34 main_v155 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v35 main_v156 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v36 main_v157 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v37 main_v158 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v38 main_v159 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v39 main_v160 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v40 main_v161 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v41 main_v162 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v42 main_v163 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v43 main_v164 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v44 main_v165 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v45 main_v166 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v46 main_v167 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v47 main_v168 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v48 main_v169 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v49 main_v170 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v50 main_v171 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v51 main_v172 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v52 main_v173 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v53 main_v174 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v54 main_v175 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v55 main_v176 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v56 main_v177 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v57 main_v178 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v58 main_v179 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v59 main_v180 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v60 main_v181 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v61 main_v182 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)) ]
theorem ops6_sub : (ops6 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops6_fresh : (ops6 : List (HloOp τ sig (Elt F))).Forall fun op => op.fresh = ∅ := by
  simp only [List.Forall]; repeat' constructor

/-- Operations 186–215 of @main. -/
abbrev ops7 : List (HloOp τ sig (Elt F)) :=
  [ unary main_v62 main_v183 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v63 main_v184 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v64 main_v185 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v65 main_v186 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v66 main_v187 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v67 main_v188 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v68 main_v189 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v69 main_v190 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v70 main_v191 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v71 main_v192 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v72 main_v193 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v73 main_v194 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v74 main_v195 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v75 main_v196 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v76 main_v197 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v77 main_v198 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v78 main_v199 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v79 main_v200 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v80 main_v201 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v81 main_v202 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v82 main_v203 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v83 main_v204 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v84 main_v205 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v85 main_v206 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v86 main_v207 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v87 main_v208 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v88 main_v209 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v89 main_v210 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v90 main_v211 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v91 main_v212 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)) ]
theorem ops7_sub : (ops7 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops7_fresh : (ops7 : List (HloOp τ sig (Elt F))).Forall fun op => op.fresh = ∅ := by
  simp only [List.Forall]; repeat' constructor

/-- Operations 216–245 of @main. -/
abbrev ops8 : List (HloOp τ sig (Elt F)) :=
  [ unary main_v92 main_v213 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v93 main_v214 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v94 main_v215 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v95 main_v216 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v96 main_v217 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v97 main_v218 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v98 main_v219 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v99 main_v220 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v100 main_v221 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v101 main_v222 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v102 main_v223 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v103 main_v224 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v104 main_v225 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v105 main_v226 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v106 main_v227 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v107 main_v228 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v108 main_v229 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v109 main_v230 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v110 main_v231 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v111 main_v232 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v112 main_v233 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v113 main_v234 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v114 main_v235 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v115 main_v236 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v116 main_v237 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v117 main_v238 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v118 main_v239 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v119 main_v240 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v120 main_v241 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)),
    unary main_v121 main_v242 (broadcastInDim S4x3x1x256x256 ![0, 1, 3, 4] bcast_S4x3x256x256_S4x3x1x256x256_0_1_3_4 : (⟨S4x3x256x256, .f32⟩ : BufTy).Contents (Elt F) → (⟨S4x3x1x256x256, .f32⟩ : BufTy).Contents (Elt F)) ]
theorem ops8_sub : (ops8 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem ops8_fresh : (ops8 : List (HloOp τ sig (Elt F))).Forall fun op => op.fresh = ∅ := by
  simp only [List.Forall]; repeat' constructor

/-- Operations 246–254 of @main. -/
abbrev ops9 : List (HloOp τ sig (Elt F)) :=
  [ nary ![main_v122, main_v123, main_v124, main_v125, main_v126, main_v127, main_v128, main_v129, main_v130, main_v131, main_v132, main_v133, main_v134, main_v135, main_v136, main_v137] main_v243 (fun u => concatenate S4x3x16x256x256 2 [⟨S4x3x1x256x256, u 0⟩, ⟨S4x3x1x256x256, u 1⟩, ⟨S4x3x1x256x256, u 2⟩, ⟨S4x3x1x256x256, u 3⟩, ⟨S4x3x1x256x256, u 4⟩, ⟨S4x3x1x256x256, u 5⟩, ⟨S4x3x1x256x256, u 6⟩, ⟨S4x3x1x256x256, u 7⟩, ⟨S4x3x1x256x256, u 8⟩, ⟨S4x3x1x256x256, u 9⟩, ⟨S4x3x1x256x256, u 10⟩, ⟨S4x3x1x256x256, u 11⟩, ⟨S4x3x1x256x256, u 12⟩, ⟨S4x3x1x256x256, u 13⟩, ⟨S4x3x1x256x256, u 14⟩, ⟨S4x3x1x256x256, u 15⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2),
    nary ![main_v138, main_v139, main_v140, main_v141, main_v142, main_v143, main_v144, main_v145, main_v146, main_v147, main_v148, main_v149, main_v150, main_v151, main_v152, main_v153] main_v244 (fun u => concatenate S4x3x16x256x256 2 [⟨S4x3x1x256x256, u 0⟩, ⟨S4x3x1x256x256, u 1⟩, ⟨S4x3x1x256x256, u 2⟩, ⟨S4x3x1x256x256, u 3⟩, ⟨S4x3x1x256x256, u 4⟩, ⟨S4x3x1x256x256, u 5⟩, ⟨S4x3x1x256x256, u 6⟩, ⟨S4x3x1x256x256, u 7⟩, ⟨S4x3x1x256x256, u 8⟩, ⟨S4x3x1x256x256, u 9⟩, ⟨S4x3x1x256x256, u 10⟩, ⟨S4x3x1x256x256, u 11⟩, ⟨S4x3x1x256x256, u 12⟩, ⟨S4x3x1x256x256, u 13⟩, ⟨S4x3x1x256x256, u 14⟩, ⟨S4x3x1x256x256, u 15⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2),
    nary ![main_v154, main_v155, main_v156, main_v157, main_v158, main_v159, main_v160, main_v161, main_v162, main_v163, main_v164, main_v165, main_v166, main_v167, main_v168, main_v169] main_v245 (fun u => concatenate S4x3x16x256x256 2 [⟨S4x3x1x256x256, u 0⟩, ⟨S4x3x1x256x256, u 1⟩, ⟨S4x3x1x256x256, u 2⟩, ⟨S4x3x1x256x256, u 3⟩, ⟨S4x3x1x256x256, u 4⟩, ⟨S4x3x1x256x256, u 5⟩, ⟨S4x3x1x256x256, u 6⟩, ⟨S4x3x1x256x256, u 7⟩, ⟨S4x3x1x256x256, u 8⟩, ⟨S4x3x1x256x256, u 9⟩, ⟨S4x3x1x256x256, u 10⟩, ⟨S4x3x1x256x256, u 11⟩, ⟨S4x3x1x256x256, u 12⟩, ⟨S4x3x1x256x256, u 13⟩, ⟨S4x3x1x256x256, u 14⟩, ⟨S4x3x1x256x256, u 15⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2),
    nary ![main_v170, main_v171, main_v172, main_v173, main_v174, main_v175, main_v176, main_v177, main_v178, main_v179, main_v180, main_v181, main_v182, main_v183, main_v184, main_v185] main_v246 (fun u => concatenate S4x3x16x256x256 2 [⟨S4x3x1x256x256, u 0⟩, ⟨S4x3x1x256x256, u 1⟩, ⟨S4x3x1x256x256, u 2⟩, ⟨S4x3x1x256x256, u 3⟩, ⟨S4x3x1x256x256, u 4⟩, ⟨S4x3x1x256x256, u 5⟩, ⟨S4x3x1x256x256, u 6⟩, ⟨S4x3x1x256x256, u 7⟩, ⟨S4x3x1x256x256, u 8⟩, ⟨S4x3x1x256x256, u 9⟩, ⟨S4x3x1x256x256, u 10⟩, ⟨S4x3x1x256x256, u 11⟩, ⟨S4x3x1x256x256, u 12⟩, ⟨S4x3x1x256x256, u 13⟩, ⟨S4x3x1x256x256, u 14⟩, ⟨S4x3x1x256x256, u 15⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2),
    nary ![main_v186, main_v187, main_v188, main_v189, main_v190, main_v191, main_v192, main_v193, main_v194, main_v195, main_v196, main_v197, main_v198, main_v199, main_v200, main_v201] main_v247 (fun u => concatenate S4x3x16x256x256 2 [⟨S4x3x1x256x256, u 0⟩, ⟨S4x3x1x256x256, u 1⟩, ⟨S4x3x1x256x256, u 2⟩, ⟨S4x3x1x256x256, u 3⟩, ⟨S4x3x1x256x256, u 4⟩, ⟨S4x3x1x256x256, u 5⟩, ⟨S4x3x1x256x256, u 6⟩, ⟨S4x3x1x256x256, u 7⟩, ⟨S4x3x1x256x256, u 8⟩, ⟨S4x3x1x256x256, u 9⟩, ⟨S4x3x1x256x256, u 10⟩, ⟨S4x3x1x256x256, u 11⟩, ⟨S4x3x1x256x256, u 12⟩, ⟨S4x3x1x256x256, u 13⟩, ⟨S4x3x1x256x256, u 14⟩, ⟨S4x3x1x256x256, u 15⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2),
    nary ![main_v202, main_v203, main_v204, main_v205, main_v206, main_v207, main_v208, main_v209, main_v210, main_v211, main_v212, main_v213, main_v214, main_v215, main_v216, main_v217] main_v248 (fun u => concatenate S4x3x16x256x256 2 [⟨S4x3x1x256x256, u 0⟩, ⟨S4x3x1x256x256, u 1⟩, ⟨S4x3x1x256x256, u 2⟩, ⟨S4x3x1x256x256, u 3⟩, ⟨S4x3x1x256x256, u 4⟩, ⟨S4x3x1x256x256, u 5⟩, ⟨S4x3x1x256x256, u 6⟩, ⟨S4x3x1x256x256, u 7⟩, ⟨S4x3x1x256x256, u 8⟩, ⟨S4x3x1x256x256, u 9⟩, ⟨S4x3x1x256x256, u 10⟩, ⟨S4x3x1x256x256, u 11⟩, ⟨S4x3x1x256x256, u 12⟩, ⟨S4x3x1x256x256, u 13⟩, ⟨S4x3x1x256x256, u 14⟩, ⟨S4x3x1x256x256, u 15⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2),
    nary ![main_v218, main_v219, main_v220, main_v221, main_v222, main_v223, main_v224, main_v225, main_v226, main_v227, main_v228, main_v229, main_v230, main_v231, main_v232, main_v233] main_v249 (fun u => concatenate S4x3x16x256x256 2 [⟨S4x3x1x256x256, u 0⟩, ⟨S4x3x1x256x256, u 1⟩, ⟨S4x3x1x256x256, u 2⟩, ⟨S4x3x1x256x256, u 3⟩, ⟨S4x3x1x256x256, u 4⟩, ⟨S4x3x1x256x256, u 5⟩, ⟨S4x3x1x256x256, u 6⟩, ⟨S4x3x1x256x256, u 7⟩, ⟨S4x3x1x256x256, u 8⟩, ⟨S4x3x1x256x256, u 9⟩, ⟨S4x3x1x256x256, u 10⟩, ⟨S4x3x1x256x256, u 11⟩, ⟨S4x3x1x256x256, u 12⟩, ⟨S4x3x1x256x256, u 13⟩, ⟨S4x3x1x256x256, u 14⟩, ⟨S4x3x1x256x256, u 15⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2),
    nary ![main_v234, main_v235, main_v236, main_v237, main_v238, main_v239, main_v240, main_v241, main_v242] main_v250 (fun u => concatenate S4x3x9x256x256 2 [⟨S4x3x1x256x256, u 0⟩, ⟨S4x3x1x256x256, u 1⟩, ⟨S4x3x1x256x256, u 2⟩, ⟨S4x3x1x256x256, u 3⟩, ⟨S4x3x1x256x256, u 4⟩, ⟨S4x3x1x256x256, u 5⟩, ⟨S4x3x1x256x256, u 6⟩, ⟨S4x3x1x256x256, u 7⟩, ⟨S4x3x1x256x256, u 8⟩] concatenates_S4x3x1x256x256_S4x3x1x256x256_S4x3x1x256x256_S4x3x1x256x256_S4x3x1x256x256_S4x3x1x256x256_S4x3x1x256x256_S4x3x1x256x256_S4x3x1x256x256_S4x3x9x256x256_d2),
    nary ![main_v243, main_v244, main_v245, main_v246, main_v247, main_v248, main_v249, main_v250] main_v251 (fun u => concatenate S4x3x121x256x256 2 [⟨S4x3x16x256x256, u 0⟩, ⟨S4x3x16x256x256, u 1⟩, ⟨S4x3x16x256x256, u 2⟩, ⟨S4x3x16x256x256, u 3⟩, ⟨S4x3x16x256x256, u 4⟩, ⟨S4x3x16x256x256, u 5⟩, ⟨S4x3x16x256x256, u 6⟩, ⟨S4x3x9x256x256, u 7⟩] concatenates_S4x3x16x256x256_S4x3x16x256x256_S4x3x16x256x256_S4x3x16x256x256_S4x3x16x256x256_S4x3x16x256x256_S4x3x16x256x256_S4x3x9x256x256_S4x3x121x256x256_d2) ]
theorem ops9_sub : (ops9 : List (HloOp τ sig (Elt F))).Forall fun op => op.bufs ⊆ tcRefs τ sig :=
  ⟨nary_bufs_sub .., nary_bufs_sub .., nary_bufs_sub .., nary_bufs_sub .., nary_bufs_sub .., nary_bufs_sub .., nary_bufs_sub .., nary_bufs_sub .., nary_bufs_sub ..⟩
theorem ops9_fresh : (ops9 : List (HloOp τ sig (Elt F))).Forall fun op => op.fresh = ∅ := by
  simp only [List.Forall]; repeat' constructor

/-- Operations 255–271 of @main. -/
abbrev ops10 : List (HloOp τ sig (Elt F)) :=
  [ unary main_arg2 main_v252 (broadcastInDim S4x1x121x256x256 ![0, 2, 3, 4] bcast_S4x121x256x256_S4x1x121x256x256_0_2_3_4 : (⟨S4x121x256x256, .f32⟩ : BufTy).Contents (Elt F) → (⟨S4x1x121x256x256, .f32⟩ : BufTy).Contents (Elt F)),
    unary main_v252 main_v253 (broadcastInDim S4x3x121x256x256 ![0, 1, 2, 3, 4] bcast_S4x1x121x256x256_S4x3x121x256x256_0_1_2_3_4 : (⟨S4x1x121x256x256, .f32⟩ : BufTy).Contents (Elt F) → (⟨S4x3x121x256x256, .f32⟩ : BufTy).Contents (Elt F)),
    binary main_v251 main_v253 main_v254 (mulf : (⟨S4x3x121x256x256, .f32⟩ : BufTy).Contents (Elt F) → (⟨S4x3x121x256x256, .f32⟩ : BufTy).Contents (Elt F) → (⟨S4x3x121x256x256, .f32⟩ : BufTy).Contents (Elt F)),
    nullary main_cst (constant S_ .f32 0x00000000#32),
    binary main_v254 main_cst main_v255 ((fun x v => Host.reduceAdd x v reducesTo_S4x3x121x256x256_S4x3x256x256_d2 h_S_) : (⟨S4x3x121x256x256, .f32⟩ : BufTy).Contents (Elt F) → (⟨S_, .f32⟩ : BufTy).Contents (Elt F) → (⟨S4x3x256x256, .f32⟩ : BufTy).Contents (Elt F)),
    binary main_v255 main_arg1 main_v256 (subf : (⟨S4x3x256x256, .f32⟩ : BufTy).Contents (Elt F) → (⟨S4x3x256x256, .f32⟩ : BufTy).Contents (Elt F) → (⟨S4x3x256x256, .f32⟩ : BufTy).Contents (Elt F)),
    binary main_v256 main_v256 main_v257 (mulf : (⟨S4x3x256x256, .f32⟩ : BufTy).Contents (Elt F) → (⟨S4x3x256x256, .f32⟩ : BufTy).Contents (Elt F) → (⟨S4x3x256x256, .f32⟩ : BufTy).Contents (Elt F)),
    nullary main_cst_0 (constant S_ .f32 0x358637BD#32),
    unary main_cst_0 main_v258 (broadcastInDim S4x3x256x256 ![] bcast_S_S4x3x256x256 : (⟨S_, .f32⟩ : BufTy).Contents (Elt F) → (⟨S4x3x256x256, .f32⟩ : BufTy).Contents (Elt F)),
    binary main_v257 main_v258 main_v259 (addf : (⟨S4x3x256x256, .f32⟩ : BufTy).Contents (Elt F) → (⟨S4x3x256x256, .f32⟩ : BufTy).Contents (Elt F) → (⟨S4x3x256x256, .f32⟩ : BufTy).Contents (Elt F)),
    unary main_v259 main_v260 (Host.sqrt : (⟨S4x3x256x256, .f32⟩ : BufTy).Contents (Elt F) → (⟨S4x3x256x256, .f32⟩ : BufTy).Contents (Elt F)),
    unary main_arg3 main_v261 (broadcastInDim S4x3x256x256 ![0, 1, 2, 3] bcast_S4x1x256x256_S4x3x256x256_0_1_2_3 : (⟨S4x1x256x256, .f32⟩ : BufTy).Contents (Elt F) → (⟨S4x3x256x256, .f32⟩ : BufTy).Contents (Elt F)),
    binary main_v260 main_v261 main_v262 (mulf : (⟨S4x3x256x256, .f32⟩ : BufTy).Contents (Elt F) → (⟨S4x3x256x256, .f32⟩ : BufTy).Contents (Elt F) → (⟨S4x3x256x256, .f32⟩ : BufTy).Contents (Elt F)),
    nullary main_cst_1 (constant S_ .f32 0x00000000#32),
    binary main_v262 main_cst_1 main_v263 ((fun x v => Host.reduceAdd x v reducesTo_S4x3x256x256_S_d0_1_2_3 h_S_) : (⟨S4x3x256x256, .f32⟩ : BufTy).Contents (Elt F) → (⟨S_, .f32⟩ : BufTy).Contents (Elt F) → (⟨S_, .f32⟩ : BufTy).Contents (Elt F)),
    nullary main_cst_2 (constant S_ .f32 0x49400000#32),
    binary main_v263 main_cst_2 main_v264 (Host.divf : (⟨S_, .f32⟩ : BufTy).Contents (Elt F) → (⟨S_, .f32⟩ : BufTy).Contents (Elt F) → (⟨S_, .f32⟩ : BufTy).Contents (Elt F)) ]
theorem ops10_sub : (ops10 : List (HloOp τ sig (Elt F))).Forall fun op => op.bufs ⊆ tcRefs τ sig :=
  ⟨unary_bufs_sub .., unary_bufs_sub .., binary_bufs_sub .., nullary_bufs_sub .., binary_bufs_sub .., binary_bufs_sub .., binary_bufs_sub .., nullary_bufs_sub .., unary_bufs_sub .., binary_bufs_sub .., unary_bufs_sub .., unary_bufs_sub .., binary_bufs_sub .., nullary_bufs_sub .., binary_bufs_sub .., nullary_bufs_sub .., binary_bufs_sub ..⟩
theorem ops10_fresh : (ops10 : List (HloOp τ sig (Elt F))).Forall fun op => op.fresh = ∅ := by
  simp only [List.Forall]; repeat' constructor

end Cert.ReferenceIdeal.RunH

end
-- ==== Proof.RefRunH.lean ====
/-
  The reference's run: @main is the sequence of its 271 host operations (the eleven stretches of the operations'
  module, appended), so every weakly fair execution terminates with each buffer at the fold of the operations over
  the launch contents; the four arguments are written by no operation.
-/
import proofs.«140256_j85203561218656_2_alg».proof.Proof.RefOps

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) := ops0 ++ (ops1 ++ (ops2 ++ (ops3 ++ (ops4 ++ (ops5 ++ (ops6 ++ (ops7 ++ (ops8 ++ (ops9 ++ (ops10))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- Membership in the whole list is membership in one stretch. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F))) ∨ op ∈ (ops3 : List (HloOp τ sig (Elt F))) ∨ op ∈ (ops4 : List (HloOp τ sig (Elt F))) ∨ op ∈ (ops5 : List (HloOp τ sig (Elt F))) ∨ op ∈ (ops6 : List (HloOp τ sig (Elt F))) ∨ op ∈ (ops7 : List (HloOp τ sig (Elt F))) ∨ op ∈ (ops8 : List (HloOp τ sig (Elt F))) ∨ op ∈ (ops9 : List (HloOp τ sig (Elt F))) ∨ op ∈ (ops10 : List (HloOp τ sig (Elt F))) := by
  simp only [ops, List.mem_append] at h
  exact h

theorem ops_sub : (ops : List (HloOp τ sig (Elt F))).Forall fun op => op.bufs ⊆ tcRefs τ sig :=
  List.forall_iff_forall_mem.mpr fun op hop => by
    rcases mem_ops hop with h | h | h | h | h | h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h
    · exact List.forall_iff_forall_mem.mp ops7_sub op h
    · exact List.forall_iff_forall_mem.mp ops8_sub op h
    · exact List.forall_iff_forall_mem.mp ops9_sub op h
    · exact List.forall_iff_forall_mem.mp ops10_sub op h

theorem ops_fresh : ∀ op ∈ (ops : List (HloOp τ sig (Elt F))), op.fresh = ∅ := fun op hop => by
    rcases mem_ops hop with h | h | h | h | h | h | h | h | h | h | h
    · exact List.forall_iff_forall_mem.mp ops0_fresh op h
    · exact List.forall_iff_forall_mem.mp ops1_fresh op h
    · exact List.forall_iff_forall_mem.mp ops2_fresh op h
    · exact List.forall_iff_forall_mem.mp ops3_fresh op h
    · exact List.forall_iff_forall_mem.mp ops4_fresh op h
    · exact List.forall_iff_forall_mem.mp ops5_fresh op h
    · exact List.forall_iff_forall_mem.mp ops6_fresh op h
    · exact List.forall_iff_forall_mem.mp ops7_fresh op h
    · exact List.forall_iff_forall_mem.mp ops8_fresh op h
    · exact List.forall_iff_forall_mem.mp ops9_fresh op h
    · exact List.forall_iff_forall_mem.mp ops10_fresh op h

/-- No operation of stretch 0 writes an argument. -/
theorem nowrite0 (r : Ref sig .tc) (hr : r = main_arg0 ∨ r = main_arg1 ∨ r = main_arg2 ∨ r = main_arg3) :
    (ops0 : List (HloOp τ sig (Elt F))).Forall fun op => Proc.devRef .tc r ∉ op.writes := by
  rcases hr with rfl | rfl | rfl | rfl <;>
  · simp only [ops0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 1 writes an argument. -/
theorem nowrite1 (r : Ref sig .tc) (hr : r = main_arg0 ∨ r = main_arg1 ∨ r = main_arg2 ∨ r = main_arg3) :
    (ops1 : List (HloOp τ sig (Elt F))).Forall fun op => Proc.devRef .tc r ∉ op.writes := by
  rcases hr with rfl | rfl | rfl | rfl <;>
  · simp only [ops1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 2 writes an argument. -/
theorem nowrite2 (r : Ref sig .tc) (hr : r = main_arg0 ∨ r = main_arg1 ∨ r = main_arg2 ∨ r = main_arg3) :
    (ops2 : List (HloOp τ sig (Elt F))).Forall fun op => Proc.devRef .tc r ∉ op.writes := by
  rcases hr with rfl | rfl | rfl | rfl <;>
  · simp only [ops2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 3 writes an argument. -/
theorem nowrite3 (r : Ref sig .tc) (hr : r = main_arg0 ∨ r = main_arg1 ∨ r = main_arg2 ∨ r = main_arg3) :
    (ops3 : List (HloOp τ sig (Elt F))).Forall fun op => Proc.devRef .tc r ∉ op.writes := by
  rcases hr with rfl | rfl | rfl | rfl <;>
  · simp only [ops3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 4 writes an argument. -/
theorem nowrite4 (r : Ref sig .tc) (hr : r = main_arg0 ∨ r = main_arg1 ∨ r = main_arg2 ∨ r = main_arg3) :
    (ops4 : List (HloOp τ sig (Elt F))).Forall fun op => Proc.devRef .tc r ∉ op.writes := by
  rcases hr with rfl | rfl | rfl | rfl <;>
  · simp only [ops4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 5 writes an argument. -/
theorem nowrite5 (r : Ref sig .tc) (hr : r = main_arg0 ∨ r = main_arg1 ∨ r = main_arg2 ∨ r = main_arg3) :
    (ops5 : List (HloOp τ sig (Elt F))).Forall fun op => Proc.devRef .tc r ∉ op.writes := by
  rcases hr with rfl | rfl | rfl | rfl <;>
  · simp only [ops5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 6 writes an argument. -/
theorem nowrite6 (r : Ref sig .tc) (hr : r = main_arg0 ∨ r = main_arg1 ∨ r = main_arg2 ∨ r = main_arg3) :
    (ops6 : List (HloOp τ sig (Elt F))).Forall fun op => Proc.devRef .tc r ∉ op.writes := by
  rcases hr with rfl | rfl | rfl | rfl <;>
  · simp only [ops6, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 7 writes an argument. -/
theorem nowrite7 (r : Ref sig .tc) (hr : r = main_arg0 ∨ r = main_arg1 ∨ r = main_arg2 ∨ r = main_arg3) :
    (ops7 : List (HloOp τ sig (Elt F))).Forall fun op => Proc.devRef .tc r ∉ op.writes := by
  rcases hr with rfl | rfl | rfl | rfl <;>
  · simp only [ops7, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 8 writes an argument. -/
theorem nowrite8 (r : Ref sig .tc) (hr : r = main_arg0 ∨ r = main_arg1 ∨ r = main_arg2 ∨ r = main_arg3) :
    (ops8 : List (HloOp τ sig (Elt F))).Forall fun op => Proc.devRef .tc r ∉ op.writes := by
  rcases hr with rfl | rfl | rfl | rfl <;>
  · simp only [ops8, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 9 writes an argument. -/
theorem nowrite9 (r : Ref sig .tc) (hr : r = main_arg0 ∨ r = main_arg1 ∨ r = main_arg2 ∨ r = main_arg3) :
    (ops9 : List (HloOp τ sig (Elt F))).Forall fun op => Proc.devRef .tc r ∉ op.writes := by
  rcases hr with rfl | rfl | rfl | rfl <;>
  · simp only [ops9, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)
/-- No operation of stretch 10 writes an argument. -/
theorem nowrite10 (r : Ref sig .tc) (hr : r = main_arg0 ∨ r = main_arg1 ∨ r = main_arg2 ∨ r = main_arg3) :
    (ops10 : List (HloOp τ sig (Elt F))).Forall fun op => Proc.devRef .tc r ∉ op.writes := by
  rcases hr with rfl | rfl | rfl | rfl <;>
  · simp only [ops10, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact devRef_ne_of_ne (by decide)

/-- An argument's contents pass through the whole list. -/
theorem keep (V : Valuation τ sig (Elt F)) (r : Ref sig .tc) (hr : r = main_arg0 ∨ r = main_arg1 ∨ r = main_arg2 ∨ r = main_arg3) :
    after ops V (Proc.devRef .tc r) = V (Proc.devRef .tc r) :=
  after_of_forall_not_mem (b := Proc.devRef .tc r) _ _ fun op hop => by
    rcases mem_ops hop with h | h | h | h | h | h | h | h | h | h | h
    · exact List.forall_iff_forall_mem.mp (nowrite0 r hr) op h
    · exact List.forall_iff_forall_mem.mp (nowrite1 r hr) op h
    · exact List.forall_iff_forall_mem.mp (nowrite2 r hr) op h
    · exact List.forall_iff_forall_mem.mp (nowrite3 r hr) op h
    · exact List.forall_iff_forall_mem.mp (nowrite4 r hr) op h
    · exact List.forall_iff_forall_mem.mp (nowrite5 r hr) op h
    · exact List.forall_iff_forall_mem.mp (nowrite6 r hr) op h
    · exact List.forall_iff_forall_mem.mp (nowrite7 r hr) op h
    · exact List.forall_iff_forall_mem.mp (nowrite8 r hr) op h
    · exact List.forall_iff_forall_mem.mp (nowrite9 r hr) op h
    · exact List.forall_iff_forall_mem.mp (nowrite10 r hr) op h

/-- On every device, from any memory with zero counters: every weakly fair execution of @main terminates with the
    result at the fold of the operations over the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v264) = after ops (launchContents m c) (Proc.devRef .tc main_v264)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v264,
      (h c main_arg0).trans (keep _ main_arg0 (.inl rfl)),
      (h c main_arg1).trans (keep _ main_arg1 (.inr (.inl rfl))),
      (h c main_arg2).trans (keep _ main_arg2 (.inr (.inr (.inl rfl)))),
      (h c main_arg3).trans (keep _ main_arg3 (.inr (.inr (.inr rfl))))⟩)
    (run_seq scopedRefs_eq scopedSems_eq defs main (fun _ => ops) main_eq (fun _ => ops_sub) m ρ (fun _ => ops_fresh))

end Cert.ReferenceIdeal.RunH

end
-- ==== Proof.RefTerm.lean ====
/-
  The reference's computation as functions of arrays, and each of them read at one index.

  * `padded a0`: the first image with five zero rows and columns on each side — kept as one term, never opened.
  * `win i j P`: the 256×256 window of `P` starting at row `i`, column `j`, with a unit axis inserted after the
    channel axis. At `(n, c, 0, h, w)` it is `P (n, c, h + i, w + j)`.
  * `stack u`: the 121 arrays `u 0 … u 120` laid along the unit axis, in eight groups (seven of sixteen, one of nine).
  * `filt X K`: the product of `X` with the filters broadcast over the channel axis, summed over the stacking axis;
    at `(n, c, h, w)` it is `Σ_k X (n, c, k, h, w) · K (n, k, h, w)` (the zero the sum starts from adds nothing).
  * `dist X I2 K M`: `√((filt − I2)² + ε) · M`, the mask broadcast over the channel axis.
  * `tail X I2 K M`: the sum of `dist` over every index, divided by the element count.
-/
import proofs.«140256_j85203561218656_2_alg».proof.Proof.Gen.ReferenceIdeal
import proofs.«140256_j85203561218656_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

variable {F : FTy → Type} [FloatOps F]

/-- The first image with five zero rows and columns on each side. -/
def padded (a0 : (⟨S4x3x256x256, .f32⟩ : BufTy).Contents (Elt F)) : (⟨S4x3x266x266, .f32⟩ : BufTy).Contents (Elt F) :=
  pad S4x3x266x266 ![0, 0, 5, 5] ![0, 0, 5, 5] ![0, 0, 0, 0] a0 (sitofp .f32 (constantI S_ 32 0#32))
    pads_S4x3x256x256_S4x3x266x266_000_000_550_550 h_S_

/-- A 256×256 window of the padded image starting at row `i`, column `j` lies inside it: `i + 256 ≤ 266`. -/
theorem slices_ij (i j : Fin 11) : S4x3x266x266.Slices ![0, 0, i.val, j.val] S4x3x256x256 :=
  ⟨rfl, fun a => by
    have hi := i.isLt
    have hj := j.isLt
    match a with
    | ⟨0, _⟩ => show 0 + 4 ≤ 4; omega
    | ⟨1, _⟩ => show 0 + 3 ≤ 3; omega
    | ⟨2, _⟩ => show i.val + 256 ≤ 266; omega
    | ⟨3, _⟩ => show j.val + 256 ≤ 266; omega⟩

/-- The window at `(i, j)`, a unit axis inserted after the channel axis. -/
def win (i j : Fin 11) (P : (⟨S4x3x266x266, .f32⟩ : BufTy).Contents (Elt F)) : (⟨S4x3x1x256x256, .f32⟩ : BufTy).Contents (Elt F) :=
  broadcastInDim S4x3x1x256x256 ![0, 1, 3, 4] bcast_S4x3x256x256_S4x3x1x256x256_0_1_3_4
    (extractStridedSlice S4x3x256x256 ![0, 0, i.val, j.val] P (slices_ij i j))

/-- The window at `(i, j)` read at `(n, c, 0, h, w)` is the padded image at `(n, c, h + i, w + j)`. -/
theorem win_apply (i j : Fin 11) (P : (⟨S4x3x266x266, .f32⟩ : BufTy).Contents (Elt F)) (n : Fin 4) (c : Fin 3) (h w : Fin 256) :
    win (F := F) i j P (ix5 n c (0 : Fin 1) h w) = P (ix4 n c (Spec.sh h i) (Spec.sh w j)) := by
  unfold win
  refine (broadcastInDim_apply _ bcast_S4x3x256x256_S4x3x1x256x256_0_1_3_4 _ (ix5 n c (0 : Fin 1) h w) (ix4 n c h w) (fun a => ?_)).trans ?_
  · match a with
    | ⟨0, _⟩ => show n.val = if (4 : Nat) = 1 then 0 else n.val; rw [if_neg (by decide)]
    | ⟨1, _⟩ => show c.val = if (3 : Nat) = 1 then 0 else c.val; rw [if_neg (by decide)]
    | ⟨2, _⟩ => show h.val = if (256 : Nat) = 1 then 0 else h.val; rw [if_neg (by decide)]
    | ⟨3, _⟩ => show w.val = if (256 : Nat) = 1 then 0 else w.val; rw [if_neg (by decide)]
  · exact extractStridedSlice_apply _ P (slices_ij i j) (ix4 n c h w) (ix4 n c (Spec.sh h i) (Spec.sh w j)) (fun a => by
      match a with
      | ⟨0, _⟩ => show n.val = 0 + n.val; omega
      | ⟨1, _⟩ => show c.val = 0 + c.val; omega
      | ⟨2, _⟩ => show h.val + i.val = i.val + h.val; omega
      | ⟨3, _⟩ => show w.val + j.val = j.val + w.val; omega)

/-- Windows 0 to 15 laid along the stacking axis. -/
def grp0 {α : Type} (u : Fin 121 → (S4x3x1x256x256.Idx → α)) : S4x3x16x256x256.Idx → α :=
  concatenate S4x3x16x256x256 2 [⟨S4x3x1x256x256, u 0⟩, ⟨S4x3x1x256x256, u 1⟩, ⟨S4x3x1x256x256, u 2⟩, ⟨S4x3x1x256x256, u 3⟩, ⟨S4x3x1x256x256, u 4⟩, ⟨S4x3x1x256x256, u 5⟩, ⟨S4x3x1x256x256, u 6⟩, ⟨S4x3x1x256x256, u 7⟩, ⟨S4x3x1x256x256, u 8⟩, ⟨S4x3x1x256x256, u 9⟩, ⟨S4x3x1x256x256, u 10⟩, ⟨S4x3x1x256x256, u 11⟩, ⟨S4x3x1x256x256, u 12⟩, ⟨S4x3x1x256x256, u 13⟩, ⟨S4x3x1x256x256, u 14⟩, ⟨S4x3x1x256x256, u 15⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2
/-- Windows 16 to 31 laid along the stacking axis. -/
def grp1 {α : Type} (u : Fin 121 → (S4x3x1x256x256.Idx → α)) : S4x3x16x256x256.Idx → α :=
  concatenate S4x3x16x256x256 2 [⟨S4x3x1x256x256, u 16⟩, ⟨S4x3x1x256x256, u 17⟩, ⟨S4x3x1x256x256, u 18⟩, ⟨S4x3x1x256x256, u 19⟩, ⟨S4x3x1x256x256, u 20⟩, ⟨S4x3x1x256x256, u 21⟩, ⟨S4x3x1x256x256, u 22⟩, ⟨S4x3x1x256x256, u 23⟩, ⟨S4x3x1x256x256, u 24⟩, ⟨S4x3x1x256x256, u 25⟩, ⟨S4x3x1x256x256, u 26⟩, ⟨S4x3x1x256x256, u 27⟩, ⟨S4x3x1x256x256, u 28⟩, ⟨S4x3x1x256x256, u 29⟩, ⟨S4x3x1x256x256, u 30⟩, ⟨S4x3x1x256x256, u 31⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2
/-- Windows 32 to 47 laid along the stacking axis. -/
def grp2 {α : Type} (u : Fin 121 → (S4x3x1x256x256.Idx → α)) : S4x3x16x256x256.Idx → α :=
  concatenate S4x3x16x256x256 2 [⟨S4x3x1x256x256, u 32⟩, ⟨S4x3x1x256x256, u 33⟩, ⟨S4x3x1x256x256, u 34⟩, ⟨S4x3x1x256x256, u 35⟩, ⟨S4x3x1x256x256, u 36⟩, ⟨S4x3x1x256x256, u 37⟩, ⟨S4x3x1x256x256, u 38⟩, ⟨S4x3x1x256x256, u 39⟩, ⟨S4x3x1x256x256, u 40⟩, ⟨S4x3x1x256x256, u 41⟩, ⟨S4x3x1x256x256, u 42⟩, ⟨S4x3x1x256x256, u 43⟩, ⟨S4x3x1x256x256, u 44⟩, ⟨S4x3x1x256x256, u 45⟩, ⟨S4x3x1x256x256, u 46⟩, ⟨S4x3x1x256x256, u 47⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2
/-- Windows 48 to 63 laid along the stacking axis. -/
def grp3 {α : Type} (u : Fin 121 → (S4x3x1x256x256.Idx → α)) : S4x3x16x256x256.Idx → α :=
  concatenate S4x3x16x256x256 2 [⟨S4x3x1x256x256, u 48⟩, ⟨S4x3x1x256x256, u 49⟩, ⟨S4x3x1x256x256, u 50⟩, ⟨S4x3x1x256x256, u 51⟩, ⟨S4x3x1x256x256, u 52⟩, ⟨S4x3x1x256x256, u 53⟩, ⟨S4x3x1x256x256, u 54⟩, ⟨S4x3x1x256x256, u 55⟩, ⟨S4x3x1x256x256, u 56⟩, ⟨S4x3x1x256x256, u 57⟩, ⟨S4x3x1x256x256, u 58⟩, ⟨S4x3x1x256x256, u 59⟩, ⟨S4x3x1x256x256, u 60⟩, ⟨S4x3x1x256x256, u 61⟩, ⟨S4x3x1x256x256, u 62⟩, ⟨S4x3x1x256x256, u 63⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2
/-- Windows 64 to 79 laid along the stacking axis. -/
def grp4 {α : Type} (u : Fin 121 → (S4x3x1x256x256.Idx → α)) : S4x3x16x256x256.Idx → α :=
  concatenate S4x3x16x256x256 2 [⟨S4x3x1x256x256, u 64⟩, ⟨S4x3x1x256x256, u 65⟩, ⟨S4x3x1x256x256, u 66⟩, ⟨S4x3x1x256x256, u 67⟩, ⟨S4x3x1x256x256, u 68⟩, ⟨S4x3x1x256x256, u 69⟩, ⟨S4x3x1x256x256, u 70⟩, ⟨S4x3x1x256x256, u 71⟩, ⟨S4x3x1x256x256, u 72⟩, ⟨S4x3x1x256x256, u 73⟩, ⟨S4x3x1x256x256, u 74⟩, ⟨S4x3x1x256x256, u 75⟩, ⟨S4x3x1x256x256, u 76⟩, ⟨S4x3x1x256x256, u 77⟩, ⟨S4x3x1x256x256, u 78⟩, ⟨S4x3x1x256x256, u 79⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2
/-- Windows 80 to 95 laid along the stacking axis. -/
def grp5 {α : Type} (u : Fin 121 → (S4x3x1x256x256.Idx → α)) : S4x3x16x256x256.Idx → α :=
  concatenate S4x3x16x256x256 2 [⟨S4x3x1x256x256, u 80⟩, ⟨S4x3x1x256x256, u 81⟩, ⟨S4x3x1x256x256, u 82⟩, ⟨S4x3x1x256x256, u 83⟩, ⟨S4x3x1x256x256, u 84⟩, ⟨S4x3x1x256x256, u 85⟩, ⟨S4x3x1x256x256, u 86⟩, ⟨S4x3x1x256x256, u 87⟩, ⟨S4x3x1x256x256, u 88⟩, ⟨S4x3x1x256x256, u 89⟩, ⟨S4x3x1x256x256, u 90⟩, ⟨S4x3x1x256x256, u 91⟩, ⟨S4x3x1x256x256, u 92⟩, ⟨S4x3x1x256x256, u 93⟩, ⟨S4x3x1x256x256, u 94⟩, ⟨S4x3x1x256x256, u 95⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2
/-- Windows 96 to 111 laid along the stacking axis. -/
def grp6 {α : Type} (u : Fin 121 → (S4x3x1x256x256.Idx → α)) : S4x3x16x256x256.Idx → α :=
  concatenate S4x3x16x256x256 2 [⟨S4x3x1x256x256, u 96⟩, ⟨S4x3x1x256x256, u 97⟩, ⟨S4x3x1x256x256, u 98⟩, ⟨S4x3x1x256x256, u 99⟩, ⟨S4x3x1x256x256, u 100⟩, ⟨S4x3x1x256x256, u 101⟩, ⟨S4x3x1x256x256, u 102⟩, ⟨S4x3x1x256x256, u 103⟩, ⟨S4x3x1x256x256, u 104⟩, ⟨S4x3x1x256x256, u 105⟩, ⟨S4x3x1x256x256, u 106⟩, ⟨S4x3x1x256x256, u 107⟩, ⟨S4x3x1x256x256, u 108⟩, ⟨S4x3x1x256x256, u 109⟩, ⟨S4x3x1x256x256, u 110⟩, ⟨S4x3x1x256x256, u 111⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2
/-- Windows 112 to 120 laid along the stacking axis. -/
def grp7 {α : Type} (u : Fin 121 → (S4x3x1x256x256.Idx → α)) : S4x3x9x256x256.Idx → α :=
  concatenate S4x3x9x256x256 2 [⟨S4x3x1x256x256, u 112⟩, ⟨S4x3x1x256x256, u 113⟩, ⟨S4x3x1x256x256, u 114⟩, ⟨S4x3x1x256x256, u 115⟩, ⟨S4x3x1x256x256, u 116⟩, ⟨S4x3x1x256x256, u 117⟩, ⟨S4x3x1x256x256, u 118⟩, ⟨S4x3x1x256x256, u 119⟩, ⟨S4x3x1x256x256, u 120⟩] concatenates_S4x3x1x256x256_S4x3x1x256x256_S4x3x1x256x256_S4x3x1x256x256_S4x3x1x256x256_S4x3x1x256x256_S4x3x1x256x256_S4x3x1x256x256_S4x3x1x256x256_S4x3x9x256x256_d2

/-- The 121 arrays laid along the stacking axis: the eight groups, in order. -/
def stack {α : Type} (u : Fin 121 → (S4x3x1x256x256.Idx → α)) : S4x3x121x256x256.Idx → α :=
  concatenate S4x3x121x256x256 2 [⟨S4x3x16x256x256, grp0 u⟩, ⟨S4x3x16x256x256, grp1 u⟩, ⟨S4x3x16x256x256, grp2 u⟩, ⟨S4x3x16x256x256, grp3 u⟩, ⟨S4x3x16x256x256, grp4 u⟩, ⟨S4x3x16x256x256, grp5 u⟩, ⟨S4x3x16x256x256, grp6 u⟩, ⟨S4x3x9x256x256, grp7 u⟩] concatenates_S4x3x16x256x256_S4x3x16x256x256_S4x3x16x256x256_S4x3x16x256x256_S4x3x16x256x256_S4x3x16x256x256_S4x3x16x256x256_S4x3x9x256x256_S4x3x121x256x256_d2

/-- The stack times the broadcast filters, summed over the stacking axis. -/
def filt (X : (⟨S4x3x121x256x256, .f32⟩ : BufTy).Contents (Elt F)) (a2 : (⟨S4x121x256x256, .f32⟩ : BufTy).Contents (Elt F)) : (⟨S4x3x256x256, .f32⟩ : BufTy).Contents (Elt F) :=
  Host.reduceAdd (mulf X (broadcastInDim S4x3x121x256x256 ![0, 1, 2, 3, 4] bcast_S4x1x121x256x256_S4x3x121x256x256_0_1_2_3_4
      (broadcastInDim S4x1x121x256x256 ![0, 2, 3, 4] bcast_S4x121x256x256_S4x1x121x256x256_0_2_3_4 a2)))
    (constant S_ .f32 0x00000000#32) reducesTo_S4x3x121x256x256_S4x3x256x256_d2 h_S_

/-- The masked distance array. -/
def dist (X : (⟨S4x3x121x256x256, .f32⟩ : BufTy).Contents (Elt F)) (a1 : (⟨S4x3x256x256, .f32⟩ : BufTy).Contents (Elt F)) (a2 : (⟨S4x121x256x256, .f32⟩ : BufTy).Contents (Elt F)) (a3 : (⟨S4x1x256x256, .f32⟩ : BufTy).Contents (Elt F)) :
    (⟨S4x3x256x256, .f32⟩ : BufTy).Contents (Elt F) :=
  mulf (Host.sqrt (addf (mulf (subf (filt X a2) a1) (subf (filt X a2) a1))
      (broadcastInDim S4x3x256x256 ![] bcast_S_S4x3x256x256 (constant S_ .f32 0x358637BD#32))))
    (broadcastInDim S4x3x256x256 ![0, 1, 2, 3] bcast_S4x1x256x256_S4x3x256x256_0_1_2_3 a3)

/-- The mean of the masked distances. -/
def tail (X : (⟨S4x3x121x256x256, .f32⟩ : BufTy).Contents (Elt F)) (a1 : (⟨S4x3x256x256, .f32⟩ : BufTy).Contents (Elt F)) (a2 : (⟨S4x121x256x256, .f32⟩ : BufTy).Contents (Elt F)) (a3 : (⟨S4x1x256x256, .f32⟩ : BufTy).Contents (Elt F)) :
    (⟨S_, .f32⟩ : BufTy).Contents (Elt F) :=
  Host.divf (Host.reduceAdd (dist X a1 a2 a3) (constant S_ .f32 0x00000000#32) reducesTo_S4x3x256x256_S_d0_1_2_3 h_S_)
    (constant S_ .f32 0x49400000#32)

/-- Over the extended reals the sum over the stacking axis, started from zero, read at `(n, c, h, w)`. -/
theorem reduce121_apply (y : FVec Ideal S4x3x121x256x256 .f32) (n : Fin 4) (c : Fin 3) (h w : Fin 256) :
    Host.reduceAdd (F := Ideal) (φ := .f32) y (constant S_ .f32 0x00000000#32) reducesTo_S4x3x121x256x256_S4x3x256x256_d2 h_S_ (ix4 n c h w)
      = ∑ k : Fin 121, y (ix5 n c k h w) := by
  simp only [Host.reduceAdd, Ideal.hostReduceAdd_def]
  rw [Ideal.hostReduceAdd_single reducesTo_S4x3x121x256x256_S4x3x256x256_d2 (by decide)]
  refine (congrArg (· + _) Ideal.ofBits_zero_f32).trans ((zero_add _).trans ?_)
  refine Finset.sum_congr rfl fun k _ => ?_
  exact congrArg y (funext fun a => Fin.ext (by
    match a with
    | ⟨0, _⟩ => rfl
    | ⟨1, _⟩ => rfl
    | ⟨2, _⟩ => rfl
    | ⟨3, _⟩ => rfl
    | ⟨4, _⟩ => rfl))

/-- `filt` at one pixel: the sum over the 121 channels of stack times filter. -/
theorem filt_apply (X : (⟨S4x3x121x256x256, .f32⟩ : BufTy).Contents (Elt Ideal)) (a2 : (⟨S4x121x256x256, .f32⟩ : BufTy).Contents (Elt Ideal)) (n : Fin 4) (c : Fin 3) (h w : Fin 256) :
    filt (F := Ideal) X a2 (ix4 n c h w) = ∑ k : Fin 121, X (ix5 n c k h w) * a2 (ix4 n k h w) := by
  unfold filt
  rw [reduce121_apply]
  refine Finset.sum_congr rfl fun k _ => ?_
  rw [mulf_apply]
  refine congrArg (X (ix5 n c k h w) * ·) ?_
  refine (broadcastInDim_apply _ bcast_S4x1x121x256x256_S4x3x121x256x256_0_1_2_3_4 _ (ix5 n c k h w) (ix5 n (0 : Fin 1) k h w) (fun a => ?_)).trans ?_
  · match a with
    | ⟨0, _⟩ => show n.val = if (4 : Nat) = 1 then 0 else n.val; rw [if_neg (by decide)]
    | ⟨1, _⟩ => show 0 = if (1 : Nat) = 1 then 0 else c.val; rw [if_pos rfl]
    | ⟨2, _⟩ => show k.val = if (121 : Nat) = 1 then 0 else k.val; rw [if_neg (by decide)]
    | ⟨3, _⟩ => show h.val = if (256 : Nat) = 1 then 0 else h.val; rw [if_neg (by decide)]
    | ⟨4, _⟩ => show w.val = if (256 : Nat) = 1 then 0 else w.val; rw [if_neg (by decide)]
  · refine broadcastInDim_apply _ bcast_S4x121x256x256_S4x1x121x256x256_0_2_3_4 a2 (ix5 n (0 : Fin 1) k h w) (ix4 n k h w) (fun a => ?_)
    match a with
    | ⟨0, _⟩ => show n.val = if (4 : Nat) = 1 then 0 else n.val; rw [if_neg (by decide)]
    | ⟨1, _⟩ => show k.val = if (121 : Nat) = 1 then 0 else k.val; rw [if_neg (by decide)]
    | ⟨2, _⟩ => show h.val = if (256 : Nat) = 1 then 0 else h.val; rw [if_neg (by decide)]
    | ⟨3, _⟩ => show w.val = if (256 : Nat) = 1 then 0 else w.val; rw [if_neg (by decide)]

/-- `dist` at one pixel. -/
theorem dist_apply (X : (⟨S4x3x121x256x256, .f32⟩ : BufTy).Contents (Elt Ideal)) (a1 : (⟨S4x3x256x256, .f32⟩ : BufTy).Contents (Elt Ideal)) (a2 : (⟨S4x121x256x256, .f32⟩ : BufTy).Contents (Elt Ideal)) (a3 : (⟨S4x1x256x256, .f32⟩ : BufTy).Contents (Elt Ideal))
    (n : Fin 4) (c : Fin 3) (h w : Fin 256) :
    dist (F := Ideal) X a1 a2 a3 (ix4 n c h w)
      = Ideal.sqrt ((filt (F := Ideal) X a2 (ix4 n c h w) - a1 (ix4 n c h w)) * (filt (F := Ideal) X a2 (ix4 n c h w) - a1 (ix4 n c h w)) + Spec.eps)
          * a3 (ix4 n (0 : Fin 1) h w) := by
  have e3 : broadcastInDim S4x3x256x256 ![0, 1, 2, 3] bcast_S4x1x256x256_S4x3x256x256_0_1_2_3 a3 (ix4 n c h w) = a3 (ix4 n (0 : Fin 1) h w) := by
    refine broadcastInDim_apply _ bcast_S4x1x256x256_S4x3x256x256_0_1_2_3 a3 (ix4 n c h w) (ix4 n (0 : Fin 1) h w) (fun a => ?_)
    match a with
    | ⟨0, _⟩ => show n.val = if (4 : Nat) = 1 then 0 else n.val; rw [if_neg (by decide)]
    | ⟨1, _⟩ => show 0 = if (1 : Nat) = 1 then 0 else c.val; rw [if_pos rfl]
    | ⟨2, _⟩ => show h.val = if (256 : Nat) = 1 then 0 else h.val; rw [if_neg (by decide)]
    | ⟨3, _⟩ => show w.val = if (256 : Nat) = 1 then 0 else w.val; rw [if_neg (by decide)]
  have e0 : broadcastInDim S4x3x256x256 ![] bcast_S_S4x3x256x256 (constant (F := Ideal) S_ .f32 0x358637BD#32) (ix4 n c h w) = Spec.eps :=
    (broadcastInDim_apply _ bcast_S_S4x3x256x256 (constant (F := Ideal) S_ .f32 0x358637BD#32) (ix4 n c h w) (fun a => a.elim0) (fun a => a.elim0)).trans rfl
  have e : dist (F := Ideal) X a1 a2 a3 (ix4 n c h w)
      = Ideal.sqrt ((filt (F := Ideal) X a2 (ix4 n c h w) - a1 (ix4 n c h w)) * (filt (F := Ideal) X a2 (ix4 n c h w) - a1 (ix4 n c h w))
          + broadcastInDim S4x3x256x256 ![] bcast_S_S4x3x256x256 (constant (F := Ideal) S_ .f32 0x358637BD#32) (ix4 n c h w))
        * broadcastInDim S4x3x256x256 ![0, 1, 2, 3] bcast_S4x1x256x256_S4x3x256x256_0_1_2_3 a3 (ix4 n c h w) := rfl
  rw [e, e3, e0]

/-- `tail` at its one index: the sum of `dist` over every index, divided by the element count. -/
theorem tail_apply (X : (⟨S4x3x121x256x256, .f32⟩ : BufTy).Contents (Elt Ideal)) (a1 : (⟨S4x3x256x256, .f32⟩ : BufTy).Contents (Elt Ideal)) (a2 : (⟨S4x121x256x256, .f32⟩ : BufTy).Contents (Elt Ideal)) (a3 : (⟨S4x1x256x256, .f32⟩ : BufTy).Contents (Elt Ideal))
    (i : S_.Idx) :
    tail (F := Ideal) X a1 a2 a3 i = Ideal.div (∑ j : S4x3x256x256.Idx, dist (F := Ideal) X a1 a2 a3 j) Spec.cnt := by
  have hsum : Host.reduceAdd (F := Ideal) (φ := .f32) (dist (F := Ideal) X a1 a2 a3) (constant S_ .f32 0x00000000#32) reducesTo_S4x3x256x256_S_d0_1_2_3 h_S_ i
      = ∑ j : S4x3x256x256.Idx, dist (F := Ideal) X a1 a2 a3 j := by
    generalize dist (F := Ideal) X a1 a2 a3 = y0
    simp only [Host.reduceAdd, Ideal.hostReduceAdd_def]
    refine (Ideal.hostReduceAdd_total reducesTo_S4x3x256x256_S_d0_1_2_3 (fun b => b.elim0) y0 _ i).trans ?_
    exact (congrArg (· + _) Ideal.ofBits_zero_f32).trans (zero_add _)
  have e : tail (F := Ideal) X a1 a2 a3 i
      = Ideal.div (Host.reduceAdd (F := Ideal) (φ := .f32) (dist (F := Ideal) X a1 a2 a3) (constant S_ .f32 0x00000000#32) reducesTo_S4x3x256x256_S_d0_1_2_3 h_S_ i) Spec.cnt := rfl
  rw [e, hsum]

end Cert.ReferenceIdeal.RefValue

end
-- ==== Proof.RefStack.lean ====
/-
  Arrays laid along the stacking axis, read at one channel.

  `grp16` lays sixteen arrays, each one unit thick, along the stacking axis, `grp9` nine, and `stack8` seven groups of
  sixteen and one of nine. Position `r` of a group is its `r`-th array; channel `16·q + r` of the stack is position `r` of
  group `q`.
-/
import proofs.«140256_j85203561218656_2_alg».proof.Proof.RefTerm

noncomputable section

namespace Cert.ReferenceIdeal.RefValue

open Cert.ReferenceIdeal Cert.ReferenceIdeal.Gen Idealize.ShloMosaic Idealize.ShloMosaic.ValueIdx

/-- Sixteen arrays laid along the stacking axis. -/
def grp16 {α : Type} (x0 x1 x2 x3 x4 x5 x6 x7 x8 x9 x10 x11 x12 x13 x14 x15 : S4x3x1x256x256.Idx → α) : S4x3x16x256x256.Idx → α :=
  concatenate S4x3x16x256x256 2 [⟨S4x3x1x256x256, x0⟩, ⟨S4x3x1x256x256, x1⟩, ⟨S4x3x1x256x256, x2⟩, ⟨S4x3x1x256x256, x3⟩, ⟨S4x3x1x256x256, x4⟩, ⟨S4x3x1x256x256, x5⟩, ⟨S4x3x1x256x256, x6⟩, ⟨S4x3x1x256x256, x7⟩, ⟨S4x3x1x256x256, x8⟩, ⟨S4x3x1x256x256, x9⟩, ⟨S4x3x1x256x256, x10⟩, ⟨S4x3x1x256x256, x11⟩, ⟨S4x3x1x256x256, x12⟩, ⟨S4x3x1x256x256, x13⟩, ⟨S4x3x1x256x256, x14⟩, ⟨S4x3x1x256x256, x15⟩] concatenates_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x1x256x256_S4x3x16x256x256_d2

/-- Nine arrays laid along the stacking axis. -/
def grp9 {α : Type} (x0 x1 x2 x3 x4 x5 x6 x7 x8 : S4x3x1x256x256.Idx → α) : S4x3x9x256x256.Idx → α :=
  concatenate S4x3x9x256x256 2 [⟨S4x3x1x256x256, x0⟩, ⟨S4x3x1x256x256, x1⟩, ⟨S4x3x1x256x256, x2⟩, ⟨S4x3x1x256x256, x3⟩, ⟨S4x3x1x256x256, x4⟩, ⟨S4x3x1x256x256, x5⟩, ⟨S4x3x1x256x256, x6⟩, ⟨S4x3x1x256x256, x7⟩, ⟨S4x3x1x256x256, x8⟩] concatenates_S4x3x1x256x256_S4x3x1x256x256_S4x3x1x256x256_S4x3x1x256x256_S4x3x1x256x256_S4x3x1x256x256_S4x3x1x256x256_S4x3x1x256x256_S4x3x1x256x256_S4x3x9x256x256_d2

/-- Seven groups of sixteen and one of nine laid along the stacking axis. -/
def stack8 {α : Type} (g0 g1 g2 g3 g4 g5 g6 : S4x3x16x256x256.Idx → α) (g7 : S4x3x9x256x256.Idx → α) : S4x3x121x256x256.Idx → α :=
  concatenate S4x3x121x256x256 2 [⟨S4x3x16x256x256, g0⟩, ⟨S4x3x16x256x256, g1⟩, ⟨S4x3x16x256x256, g2⟩, ⟨S4x3x16x256x256, g3⟩, ⟨S4x3x16x256x256, g4⟩, ⟨S4x3x16x256x256, g5⟩, ⟨S4x3x16x256x256, g6⟩, ⟨S4x3x9x256x256, g7⟩] concatenates_S4x3x16x256x256_S4x3x16x256x256_S4x3x16x256x256_S4x3x16x256x256_S4x3x16x256x256_S4x3x16x256x256_S4x3x16x256x256_S4x3x9x256x256_S4x3x121x256x256_d2

theorem grp16_apply_0 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨0, by decide⟩ : Fin 16) h w) = x0 (ix5 n c (0 : Fin 1) h w) := by
  unfold grp16
  refine concatenate_apply_piece (t := S4x3x16x256x256) 2 _ _ (ix5 n c (⟨0, by decide⟩ : Fin 16) h w) 0 ?_ S4x3x1x256x256 x0 ?_ rfl 0 ?_
    (ix5 n c (0 : Fin 1) h w) ?_ ?_
  · show (0 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_1 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨1, by decide⟩ : Fin 16) h w) = x1 (ix5 n c (0 : Fin 1) h w) := by
  unfold grp16
  refine concatenate_apply_piece (t := S4x3x16x256x256) 2 _ _ (ix5 n c (⟨1, by decide⟩ : Fin 16) h w) 1 ?_ S4x3x1x256x256 x1 ?_ rfl 1 ?_
    (ix5 n c (0 : Fin 1) h w) ?_ ?_
  · show (1 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_2 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨2, by decide⟩ : Fin 16) h w) = x2 (ix5 n c (0 : Fin 1) h w) := by
  unfold grp16
  refine concatenate_apply_piece (t := S4x3x16x256x256) 2 _ _ (ix5 n c (⟨2, by decide⟩ : Fin 16) h w) 2 ?_ S4x3x1x256x256 x2 ?_ rfl 2 ?_
    (ix5 n c (0 : Fin 1) h w) ?_ ?_
  · show (2 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_3 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨3, by decide⟩ : Fin 16) h w) = x3 (ix5 n c (0 : Fin 1) h w) := by
  unfold grp16
  refine concatenate_apply_piece (t := S4x3x16x256x256) 2 _ _ (ix5 n c (⟨3, by decide⟩ : Fin 16) h w) 3 ?_ S4x3x1x256x256 x3 ?_ rfl 3 ?_
    (ix5 n c (0 : Fin 1) h w) ?_ ?_
  · show (3 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_4 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨4, by decide⟩ : Fin 16) h w) = x4 (ix5 n c (0 : Fin 1) h w) := by
  unfold grp16
  refine concatenate_apply_piece (t := S4x3x16x256x256) 2 _ _ (ix5 n c (⟨4, by decide⟩ : Fin 16) h w) 4 ?_ S4x3x1x256x256 x4 ?_ rfl 4 ?_
    (ix5 n c (0 : Fin 1) h w) ?_ ?_
  · show (4 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_5 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨5, by decide⟩ : Fin 16) h w) = x5 (ix5 n c (0 : Fin 1) h w) := by
  unfold grp16
  refine concatenate_apply_piece (t := S4x3x16x256x256) 2 _ _ (ix5 n c (⟨5, by decide⟩ : Fin 16) h w) 5 ?_ S4x3x1x256x256 x5 ?_ rfl 5 ?_
    (ix5 n c (0 : Fin 1) h w) ?_ ?_
  · show (5 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_6 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨6, by decide⟩ : Fin 16) h w) = x6 (ix5 n c (0 : Fin 1) h w) := by
  unfold grp16
  refine concatenate_apply_piece (t := S4x3x16x256x256) 2 _ _ (ix5 n c (⟨6, by decide⟩ : Fin 16) h w) 6 ?_ S4x3x1x256x256 x6 ?_ rfl 6 ?_
    (ix5 n c (0 : Fin 1) h w) ?_ ?_
  · show (6 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_7 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨7, by decide⟩ : Fin 16) h w) = x7 (ix5 n c (0 : Fin 1) h w) := by
  unfold grp16
  refine concatenate_apply_piece (t := S4x3x16x256x256) 2 _ _ (ix5 n c (⟨7, by decide⟩ : Fin 16) h w) 7 ?_ S4x3x1x256x256 x7 ?_ rfl 7 ?_
    (ix5 n c (0 : Fin 1) h w) ?_ ?_
  · show (7 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_8 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨8, by decide⟩ : Fin 16) h w) = x8 (ix5 n c (0 : Fin 1) h w) := by
  unfold grp16
  refine concatenate_apply_piece (t := S4x3x16x256x256) 2 _ _ (ix5 n c (⟨8, by decide⟩ : Fin 16) h w) 8 ?_ S4x3x1x256x256 x8 ?_ rfl 8 ?_
    (ix5 n c (0 : Fin 1) h w) ?_ ?_
  · show (8 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_9 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨9, by decide⟩ : Fin 16) h w) = x9 (ix5 n c (0 : Fin 1) h w) := by
  unfold grp16
  refine concatenate_apply_piece (t := S4x3x16x256x256) 2 _ _ (ix5 n c (⟨9, by decide⟩ : Fin 16) h w) 9 ?_ S4x3x1x256x256 x9 ?_ rfl 9 ?_
    (ix5 n c (0 : Fin 1) h w) ?_ ?_
  · show (9 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_10 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨10, by decide⟩ : Fin 16) h w) = x10 (ix5 n c (0 : Fin 1) h w) := by
  unfold grp16
  refine concatenate_apply_piece (t := S4x3x16x256x256) 2 _ _ (ix5 n c (⟨10, by decide⟩ : Fin 16) h w) 10 ?_ S4x3x1x256x256 x10 ?_ rfl 10 ?_
    (ix5 n c (0 : Fin 1) h w) ?_ ?_
  · show (10 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp16_apply_11 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨11, by decide⟩ : Fin 16) h w) = x11 (ix5 n c (0 : Fin 1) h w) := by
  unfold grp16
  refine concatenate_apply_piece (t := S4x3x16x256x256) 2 _ _ (ix5 n c (⟨11, by decide⟩ : Fin 16) h w) 11 ?_ S4x3x1x256x256 x11 ?_ rfl 11 ?_
    (ix5 n c (0 : Fin 1) h w) ?_ ?_
  · show (11 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

set_option maxHeartbeats 4000000 in
theorem grp16_apply_12 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨12, by decide⟩ : Fin 16) h w) = x12 (ix5 n c (0 : Fin 1) h w) := by
  unfold grp16
  refine concatenate_apply_piece (t := S4x3x16x256x256) 2 _ _ (ix5 n c (⟨12, by decide⟩ : Fin 16) h w) 12 ?_ S4x3x1x256x256 x12 ?_ rfl 12 ?_
    (ix5 n c (0 : Fin 1) h w) ?_ ?_
  · show (12 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

set_option maxHeartbeats 4000000 in
theorem grp16_apply_13 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨13, by decide⟩ : Fin 16) h w) = x13 (ix5 n c (0 : Fin 1) h w) := by
  unfold grp16
  refine concatenate_apply_piece (t := S4x3x16x256x256) 2 _ _ (ix5 n c (⟨13, by decide⟩ : Fin 16) h w) 13 ?_ S4x3x1x256x256 x13 ?_ rfl 13 ?_
    (ix5 n c (0 : Fin 1) h w) ?_ ?_
  · show (13 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

set_option maxHeartbeats 4000000 in
theorem grp16_apply_14 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨14, by decide⟩ : Fin 16) h w) = x14 (ix5 n c (0 : Fin 1) h w) := by
  unfold grp16
  refine concatenate_apply_piece (t := S4x3x16x256x256) 2 _ _ (ix5 n c (⟨14, by decide⟩ : Fin 16) h w) 14 ?_ S4x3x1x256x256 x14 ?_ rfl 14 ?_
    (ix5 n c (0 : Fin 1) h w) ?_ ?_
  · show (14 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

set_option maxHeartbeats 4000000 in
theorem grp16_apply_15 {α : Type} (x0 x1 x2 x3 x4 x5 x6 x7 x8 x9 x10 x11 x12 x13 x14 x15 : S4x3x1x256x256.Idx → α) (n : Fin 4) (c : Fin 3) (h w : Fin 256) :
    grp16 x0 x1 x2 x3 x4 x5 x6 x7 x8 x9 x10 x11 x12 x13 x14 x15 (ix5 n c (⟨15, by decide⟩ : Fin 16) h w) = x15 (ix5 n c (0 : Fin 1) h w) := by
  unfold grp16
  refine concatenate_apply_piece (t := S4x3x16x256x256) 2 _ _ (ix5 n c (⟨15, by decide⟩ : Fin 16) h w) 15 ?_ S4x3x1x256x256 x15 ?_ rfl 15 ?_
    (ix5 n c (0 : Fin 1) h w) ?_ ?_
  · show (15 : Nat) < 16; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp9_apply_0 {α : Type} (x0 x1 x2 x3 x4 x5 x6 x7 x8 : S4x3x1x256x256.Idx → α) (n : Fin 4) (c : Fin 3) (h w : Fin 256) :
    grp9 x0 x1 x2 x3 x4 x5 x6 x7 x8 (ix5 n c (⟨0, by decide⟩ : Fin 9) h w) = x0 (ix5 n c (0 : Fin 1) h w) := by
  unfold grp9
  refine concatenate_apply_piece (t := S4x3x9x256x256) 2 _ _ (ix5 n c (⟨0, by decide⟩ : Fin 9) h w) 0 ?_ S4x3x1x256x256 x0 ?_ rfl 0 ?_
    (ix5 n c (0 : Fin 1) h w) ?_ ?_
  · show (0 : Nat) < 9; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp9_apply_1 {α : Type} (x0 x1 x2 x3 x4 x5 x6 x7 x8 : S4x3x1x256x256.Idx → α) (n : Fin 4) (c : Fin 3) (h w : Fin 256) :
    grp9 x0 x1 x2 x3 x4 x5 x6 x7 x8 (ix5 n c (⟨1, by decide⟩ : Fin 9) h w) = x1 (ix5 n c (0 : Fin 1) h w) := by
  unfold grp9
  refine concatenate_apply_piece (t := S4x3x9x256x256) 2 _ _ (ix5 n c (⟨1, by decide⟩ : Fin 9) h w) 1 ?_ S4x3x1x256x256 x1 ?_ rfl 1 ?_
    (ix5 n c (0 : Fin 1) h w) ?_ ?_
  · show (1 : Nat) < 9; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp9_apply_2 {α : Type} (x0 x1 x2 x3 x4 x5 x6 x7 x8 : S4x3x1x256x256.Idx → α) (n : Fin 4) (c : Fin 3) (h w : Fin 256) :
    grp9 x0 x1 x2 x3 x4 x5 x6 x7 x8 (ix5 n c (⟨2, by decide⟩ : Fin 9) h w) = x2 (ix5 n c (0 : Fin 1) h w) := by
  unfold grp9
  refine concatenate_apply_piece (t := S4x3x9x256x256) 2 _ _ (ix5 n c (⟨2, by decide⟩ : Fin 9) h w) 2 ?_ S4x3x1x256x256 x2 ?_ rfl 2 ?_
    (ix5 n c (0 : Fin 1) h w) ?_ ?_
  · show (2 : Nat) < 9; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp9_apply_3 {α : Type} (x0 x1 x2 x3 x4 x5 x6 x7 x8 : S4x3x1x256x256.Idx → α) (n : Fin 4) (c : Fin 3) (h w : Fin 256) :
    grp9 x0 x1 x2 x3 x4 x5 x6 x7 x8 (ix5 n c (⟨3, by decide⟩ : Fin 9) h w) = x3 (ix5 n c (0 : Fin 1) h w) := by
  unfold grp9
  refine concatenate_apply_piece (t := S4x3x9x256x256) 2 _ _ (ix5 n c (⟨3, by decide⟩ : Fin 9) h w) 3 ?_ S4x3x1x256x256 x3 ?_ rfl 3 ?_
    (ix5 n c (0 : Fin 1) h w) ?_ ?_
  · show (3 : Nat) < 9; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp9_apply_4 {α : Type} (x0 x1 x2 x3 x4 x5 x6 x7 x8 : S4x3x1x256x256.Idx → α) (n : Fin 4) (c : Fin 3) (h w : Fin 256) :
    grp9 x0 x1 x2 x3 x4 x5 x6 x7 x8 (ix5 n c (⟨4, by decide⟩ : Fin 9) h w) = x4 (ix5 n c (0 : Fin 1) h w) := by
  unfold grp9
  refine concatenate_apply_piece (t := S4x3x9x256x256) 2 _ _ (ix5 n c (⟨4, by decide⟩ : Fin 9) h w) 4 ?_ S4x3x1x256x256 x4 ?_ rfl 4 ?_
    (ix5 n c (0 : Fin 1) h w) ?_ ?_
  · show (4 : Nat) < 9; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp9_apply_5 {α : Type} (x0 x1 x2 x3 x4 x5 x6 x7 x8 : S4x3x1x256x256.Idx → α) (n : Fin 4) (c : Fin 3) (h w : Fin 256) :
    grp9 x0 x1 x2 x3 x4 x5 x6 x7 x8 (ix5 n c (⟨5, by decide⟩ : Fin 9) h w) = x5 (ix5 n c (0 : Fin 1) h w) := by
  unfold grp9
  refine concatenate_apply_piece (t := S4x3x9x256x256) 2 _ _ (ix5 n c (⟨5, by decide⟩ : Fin 9) h w) 5 ?_ S4x3x1x256x256 x5 ?_ rfl 5 ?_
    (ix5 n c (0 : Fin 1) h w) ?_ ?_
  · show (5 : Nat) < 9; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp9_apply_6 {α : Type} (x0 x1 x2 x3 x4 x5 x6 x7 x8 : S4x3x1x256x256.Idx → α) (n : Fin 4) (c : Fin 3) (h w : Fin 256) :
    grp9 x0 x1 x2 x3 x4 x5 x6 x7 x8 (ix5 n c (⟨6, by decide⟩ : Fin 9) h w) = x6 (ix5 n c (0 : Fin 1) h w) := by
  unfold grp9
  refine concatenate_apply_piece (t := S4x3x9x256x256) 2 _ _ (ix5 n c (⟨6, by decide⟩ : Fin 9) h w) 6 ?_ S4x3x1x256x256 x6 ?_ rfl 6 ?_
    (ix5 n c (0 : Fin 1) h w) ?_ ?_
  · show (6 : Nat) < 9; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp9_apply_7 {α : Type} (x0 x1 x2 x3 x4 x5 x6 x7 x8 : S4x3x1x256x256.Idx → α) (n : Fin 4) (c : Fin 3) (h w : Fin 256) :
    grp9 x0 x1 x2 x3 x4 x5 x6 x7 x8 (ix5 n c (⟨7, by decide⟩ : Fin 9) h w) = x7 (ix5 n c (0 : Fin 1) h w) := by
  unfold grp9
  refine concatenate_apply_piece (t := S4x3x9x256x256) 2 _ _ (ix5 n c (⟨7, by decide⟩ : Fin 9) h w) 7 ?_ S4x3x1x256x256 x7 ?_ rfl 7 ?_
    (ix5 n c (0 : Fin 1) h w) ?_ ?_
  · show (7 : Nat) < 9; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem grp9_apply_8 {α : Type} (x0 x1 x2 x3 x4 x5 x6 x7 x8 : S4x3x1x256x256.Idx → α) (n : Fin 4) (c : Fin 3) (h w : Fin 256) :
    grp9 x0 x1 x2 x3 x4 x5 x6 x7 x8 (ix5 n c (⟨8, by decide⟩ : Fin 9) h w) = x8 (ix5 n c (0 : Fin 1) h w) := by
  unfold grp9
  refine concatenate_apply_piece (t := S4x3x9x256x256) 2 _ _ (ix5 n c (⟨8, by decide⟩ : Fin 9) h w) 8 ?_ S4x3x1x256x256 x8 ?_ rfl 8 ?_
    (ix5 n c (0 : Fin 1) h w) ?_ ?_
  · show (8 : Nat) < 9; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem stack8_apply_0 {α : Type} (g0 g1 g2 g3 g4 g5 g6 : S4x3x16x256x256.Idx → α) (g7 : S4x3x9x256x256.Idx → α) (n : Fin 4) (c : Fin 3) (r : Fin 16) (h w : Fin 256) :
    stack8 g0 g1 g2 g3 g4 g5 g6 g7 (ix5 n c (⟨0 + r.val, by have := r.isLt; omega⟩ : Fin 121) h w) = g0 (ix5 n c r h w) := by
  unfold stack8
  refine concatenate_apply_piece (t := S4x3x121x256x256) 2 _ _ (ix5 n c (⟨0 + r.val, by have := r.isLt; omega⟩ : Fin 121) h w) 0 ?_ S4x3x16x256x256 g0 ?_ rfl 0 ?_
    (ix5 n c r h w) ?_ ?_
  · show (0 : Nat) < 8; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem stack8_apply_1 {α : Type} (g0 g1 g2 g3 g4 g5 g6 : S4x3x16x256x256.Idx → α) (g7 : S4x3x9x256x256.Idx → α) (n : Fin 4) (c : Fin 3) (r : Fin 16) (h w : Fin 256) :
    stack8 g0 g1 g2 g3 g4 g5 g6 g7 (ix5 n c (⟨16 + r.val, by have := r.isLt; omega⟩ : Fin 121) h w) = g1 (ix5 n c r h w) := by
  unfold stack8
  refine concatenate_apply_piece (t := S4x3x121x256x256) 2 _ _ (ix5 n c (⟨16 + r.val, by have := r.isLt; omega⟩ : Fin 121) h w) 1 ?_ S4x3x16x256x256 g1 ?_ rfl 16 ?_
    (ix5 n c r h w) ?_ ?_
  · show (1 : Nat) < 8; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem stack8_apply_2 {α : Type} (g0 g1 g2 g3 g4 g5 g6 : S4x3x16x256x256.Idx → α) (g7 : S4x3x9x256x256.Idx → α) (n : Fin 4) (c : Fin 3) (r : Fin 16) (h w : Fin 256) :
    stack8 g0 g1 g2 g3 g4 g5 g6 g7 (ix5 n c (⟨32 + r.val, by have := r.isLt; omega⟩ : Fin 121) h w) = g2 (ix5 n c r h w) := by
  unfold stack8
  refine concatenate_apply_piece (t := S4x3x121x256x256) 2 _ _ (ix5 n c (⟨32 + r.val, by have := r.isLt; omega⟩ : Fin 121) h w) 2 ?_ S4x3x16x256x256 g2 ?_ rfl 32 ?_
    (ix5 n c r h w) ?_ ?_
  · show (2 : Nat) < 8; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem stack8_apply_3 {α : Type} (g0 g1 g2 g3 g4 g5 g6 : S4x3x16x256x256.Idx → α) (g7 : S4x3x9x256x256.Idx → α) (n : Fin 4) (c : Fin 3) (r : Fin 16) (h w : Fin 256) :
    stack8 g0 g1 g2 g3 g4 g5 g6 g7 (ix5 n c (⟨48 + r.val, by have := r.isLt; omega⟩ : Fin 121) h w) = g3 (ix5 n c r h w) := by
  unfold stack8
  refine concatenate_apply_piece (t := S4x3x121x256x256) 2 _ _ (ix5 n c (⟨48 + r.val, by have := r.isLt; omega⟩ : Fin 121) h w) 3 ?_ S4x3x16x256x256 g3 ?_ rfl 48 ?_
    (ix5 n c r h w) ?_ ?_
  · show (3 : Nat) < 8; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem stack8_apply_4 {α : Type} (g0 g1 g2 g3 g4 g5 g6 : S4x3x16x256x256.Idx → α) (g7 : S4x3x9x256x256.Idx → α) (n : Fin 4) (c : Fin 3) (r : Fin 16) (h w : Fin 256) :
    stack8 g0 g1 g2 g3 g4 g5 g6 g7 (ix5 n c (⟨64 + r.val, by have := r.isLt; omega⟩ : Fin 121) h w) = g4 (ix5 n c r h w) := by
  unfold stack8
  refine concatenate_apply_piece (t := S4x3x121x256x256) 2 _ _ (ix5 n c (⟨64 + r.val, by have := r.isLt; omega⟩ : Fin 121) h w) 4 ?_ S4x3x16x256x256 g4 ?_ rfl 64 ?_
    (ix5 n c r h w) ?_ ?_
  · show (4 : Nat) < 8; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem stack8_apply_5 {α : Type} (g0 g1 g2 g3 g4 g5 g6 : S4x3x16x256x256.Idx → α) (g7 : S4x3x9x256x256.Idx → α) (n : Fin 4) (c : Fin 3) (r : Fin 16) (h w : Fin 256) :
    stack8 g0 g1 g2 g3 g4 g5 g6 g7 (ix5 n c (⟨80 + r.val, by have := r.isLt; omega⟩ : Fin 121) h w) = g5 (ix5 n c r h w) := by
  unfold stack8
  refine concatenate_apply_piece (t := S4x3x121x256x256) 2 _ _ (ix5 n c (⟨80 + r.val, by have := r.isLt; omega⟩ : Fin 121) h w) 5 ?_ S4x3x16x256x256 g5 ?_ rfl 80 ?_
    (ix5 n c r h w) ?_ ?_
  · show (5 : Nat) < 8; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem stack8_apply_6 {α : Type} (g0 g1 g2 g3 g4 g5 g6 : S4x3x16x256x256.Idx → α) (g7 : S4x3x9x256x256.Idx → α) (n : Fin 4) (c : Fin 3) (r : Fin 16) (h w : Fin 256) :
    stack8 g0 g1 g2 g3 g4 g5 g6 g7 (ix5 n c (⟨96 + r.val, by have := r.isLt; omega⟩ : Fin 121) h w) = g6 (ix5 n c r h w) := by
  unfold stack8
  refine concatenate_apply_piece (t := S4x3x121x256x256) 2 _ _ (ix5 n c (⟨96 + r.val, by have := r.isLt; omega⟩ : Fin 121) h w) 6 ?_ S4x3x16x256x256 g6 ?_ rfl 96 ?_
    (ix5 n c r h w) ?_ ?_
  · show (6 : Nat) < 8; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

theorem stack8_apply_7 {α : Type} (g0 g1 g2 g3 g4 g5 g6 : S4x3x16x256x256.Idx → α) (g7 : S4x3x9x256x256.Idx → α) (n : Fin 4) (c : Fin 3) (r : Fin 9) (h w : Fin 256) :
    stack8 g0 g1 g2 g3 g4 g5 g6 g7 (ix5 n c (⟨112 + r.val, by have := r.isLt; omega⟩ : Fin 121) h w) = g7 (ix5 n c r h w) := by
  unfold stack8
  refine concatenate_apply_piece (t := S4x3x121x256x256) 2 _ _ (ix5 n c (⟨112 + r.val, by have := r.isLt; omega⟩ : Fin 121) h w) 7 ?_ S4x3x9x256x256 g7 ?_ rfl 112 ?_
    (ix5 n c r h w) ?_ ?_
  · show (7 : Nat) < 8; omega
  · rfl
  · rfl
  · intro b hb
    match b with
    | ⟨0, _⟩ => rfl
    | ⟨1, _⟩ => rfl
    | ⟨2, _⟩ => exact absurd rfl hb
    | ⟨3, _⟩ => rfl
    | ⟨4, _⟩ => rfl
  · rfl

end Cert.ReferenceIdeal.RefValue

end
-- ==== Proof.RefSeg.lean ====
/-
  What each stretch of the reference's operations leaves in the buffers the later ones read, as a function of the
  contents it starts from.

  * the first three operations leave the padded image;
  * the nine concatenations leave the stack of the 121 buffers they read;
  * the last seventeen operations leave `tail` of the stack and of the second image, the filters and the mask.
  No stretch before the last writes the second image, the filters or the mask. Running a concatenation of two lists of
  operations is running the first and then the second from what the first left.
-/
import proofs.«140256_j85203561218656_2_alg».proof.Proof.RefOps
import proofs.«140256_j85203561218656_2_alg».proof.Proof.RefTerm
import proofs.«140256_j85203561218656_2_alg».proof.Proof.RefStack

noncomputable section

namespace Cert.ReferenceIdeal.RefValue

open Cert.ReferenceIdeal Cert.ReferenceIdeal.Gen Cert.ReferenceIdeal.RunH Idealize.ShloMosaic Idealize.ShloMosaic.TcCoe Idealize.SL.Sem
  Idealize.ShloMosaic.StableHlo Idealize.ShloMosaic.ValueIdx

/-- Running two lists of operations one after the other is running their concatenation. -/
theorem after_append {τ' : Topo} {sig' : RefSig} {Val : EltTy → Type} (l₁ l₂ : List (HloOp τ' sig' Val)) :
    ∀ V : Valuation τ' sig' Val, after (l₁ ++ l₂) V = after l₂ (after l₁ V) := by
  induction l₁ with
  | nil => intro V; rfl
  | cons op l ih => intro V; exact ih (op.result V)

variable {F : FTy → Type} [FloatOps F]

/-- The padding term is `padded`. -/
theorem padded_eq (a0 : (⟨S4x3x256x256, .f32⟩ : BufTy).Contents (Elt F)) :
    padded (F := F) a0 = pad S4x3x266x266 ![0, 0, 5, 5] ![0, 0, 5, 5] ![0, 0, 0, 0] a0 (sitofp .f32 (constantI S_ 32 0#32))
      pads_S4x3x256x256_S4x3x266x266_000_000_550_550 h_S_ := rfl

/-- The first three operations leave the padded image. -/
theorem A_eval (V : Valuation τ sig (Elt F)) :
    after ops0 V (Proc.devRef .tc main_v0) = padded (F := F) (V (Proc.devRef .tc main_arg0)) := by
  after_results_simp
  all_goals rfl

/-- The 121 buffers the concatenations read, stacked: seven groups of sixteen and one of nine. -/
def stackOf (W : Valuation τ sig (Elt F)) : (⟨S4x3x121x256x256, .f32⟩ : BufTy).Contents (Elt F) :=
  stack8
    (grp16 (W (Proc.devRef .tc main_v122)) (W (Proc.devRef .tc main_v123)) (W (Proc.devRef .tc main_v124)) (W (Proc.devRef .tc main_v125)) (W (Proc.devRef .tc main_v126)) (W (Proc.devRef .tc main_v127)) (W (Proc.devRef .tc main_v128)) (W (Proc.devRef .tc main_v129)) (W (Proc.devRef .tc main_v130)) (W (Proc.devRef .tc main_v131)) (W (Proc.devRef .tc main_v132)) (W (Proc.devRef .tc main_v133)) (W (Proc.devRef .tc main_v134)) (W (Proc.devRef .tc main_v135)) (W (Proc.devRef .tc main_v136)) (W (Proc.devRef .tc main_v137)))
    (grp16 (W (Proc.devRef .tc main_v138)) (W (Proc.devRef .tc main_v139)) (W (Proc.devRef .tc main_v140)) (W (Proc.devRef .tc main_v141)) (W (Proc.devRef .tc main_v142)) (W (Proc.devRef .tc main_v143)) (W (Proc.devRef .tc main_v144)) (W (Proc.devRef .tc main_v145)) (W (Proc.devRef .tc main_v146)) (W (Proc.devRef .tc main_v147)) (W (Proc.devRef .tc main_v148)) (W (Proc.devRef .tc main_v149)) (W (Proc.devRef .tc main_v150)) (W (Proc.devRef .tc main_v151)) (W (Proc.devRef .tc main_v152)) (W (Proc.devRef .tc main_v153)))
    (grp16 (W (Proc.devRef .tc main_v154)) (W (Proc.devRef .tc main_v155)) (W (Proc.devRef .tc main_v156)) (W (Proc.devRef .tc main_v157)) (W (Proc.devRef .tc main_v158)) (W (Proc.devRef .tc main_v159)) (W (Proc.devRef .tc main_v160)) (W (Proc.devRef .tc main_v161)) (W (Proc.devRef .tc main_v162)) (W (Proc.devRef .tc main_v163)) (W (Proc.devRef .tc main_v164)) (W (Proc.devRef .tc main_v165)) (W (Proc.devRef .tc main_v166)) (W (Proc.devRef .tc main_v167)) (W (Proc.devRef .tc main_v168)) (W (Proc.devRef .tc main_v169)))
    (grp16 (W (Proc.devRef .tc main_v170)) (W (Proc.devRef .tc main_v171)) (W (Proc.devRef .tc main_v172)) (W (Proc.devRef .tc main_v173)) (W (Proc.devRef .tc main_v174)) (W (Proc.devRef .tc main_v175)) (W (Proc.devRef .tc main_v176)) (W (Proc.devRef .tc main_v177)) (W (Proc.devRef .tc main_v178)) (W (Proc.devRef .tc main_v179)) (W (Proc.devRef .tc main_v180)) (W (Proc.devRef .tc main_v181)) (W (Proc.devRef .tc main_v182)) (W (Proc.devRef .tc main_v183)) (W (Proc.devRef .tc main_v184)) (W (Proc.devRef .tc main_v185)))
    (grp16 (W (Proc.devRef .tc main_v186)) (W (Proc.devRef .tc main_v187)) (W (Proc.devRef .tc main_v188)) (W (Proc.devRef .tc main_v189)) (W (Proc.devRef .tc main_v190)) (W (Proc.devRef .tc main_v191)) (W (Proc.devRef .tc main_v192)) (W (Proc.devRef .tc main_v193)) (W (Proc.devRef .tc main_v194)) (W (Proc.devRef .tc main_v195)) (W (Proc.devRef .tc main_v196)) (W (Proc.devRef .tc main_v197)) (W (Proc.devRef .tc main_v198)) (W (Proc.devRef .tc main_v199)) (W (Proc.devRef .tc main_v200)) (W (Proc.devRef .tc main_v201)))
    (grp16 (W (Proc.devRef .tc main_v202)) (W (Proc.devRef .tc main_v203)) (W (Proc.devRef .tc main_v204)) (W (Proc.devRef .tc main_v205)) (W (Proc.devRef .tc main_v206)) (W (Proc.devRef .tc main_v207)) (W (Proc.devRef .tc main_v208)) (W (Proc.devRef .tc main_v209)) (W (Proc.devRef .tc main_v210)) (W (Proc.devRef .tc main_v211)) (W (Proc.devRef .tc main_v212)) (W (Proc.devRef .tc main_v213)) (W (Proc.devRef .tc main_v214)) (W (Proc.devRef .tc main_v215)) (W (Proc.devRef .tc main_v216)) (W (Proc.devRef .tc main_v217)))
    (grp16 (W (Proc.devRef .tc main_v218)) (W (Proc.devRef .tc main_v219)) (W (Proc.devRef .tc main_v220)) (W (Proc.devRef .tc main_v221)) (W (Proc.devRef .tc main_v222)) (W (Proc.devRef .tc main_v223)) (W (Proc.devRef .tc main_v224)) (W (Proc.devRef .tc main_v225)) (W (Proc.devRef .tc main_v226)) (W (Proc.devRef .tc main_v227)) (W (Proc.devRef .tc main_v228)) (W (Proc.devRef .tc main_v229)) (W (Proc.devRef .tc main_v230)) (W (Proc.devRef .tc main_v231)) (W (Proc.devRef .tc main_v232)) (W (Proc.devRef .tc main_v233)))
    (grp9 (W (Proc.devRef .tc main_v234)) (W (Proc.devRef .tc main_v235)) (W (Proc.devRef .tc main_v236)) (W (Proc.devRef .tc main_v237)) (W (Proc.devRef .tc main_v238)) (W (Proc.devRef .tc main_v239)) (W (Proc.devRef .tc main_v240)) (W (Proc.devRef .tc main_v241)) (W (Proc.devRef .tc main_v242)))

set_option maxRecDepth 8192 in
/-- The concatenations leave the stack of the 121 buffers. -/
theorem D_eval (W : Valuation τ sig (Elt F)) :
    after ops9 W (Proc.devRef .tc main_v251) = stackOf W := by
  simp (disch := decide) only [after_cons, after_nil, nary_result', nary_result_ne', Matrix.cons_val]
  all_goals rfl

/-- The last seventeen operations leave `tail`. -/
theorem E_eval (W : Valuation τ sig (Elt F)) :
    after ops10 W (Proc.devRef .tc main_v264)
      = tail (F := F) (W (Proc.devRef .tc main_v251)) (W (Proc.devRef .tc main_arg1)) (W (Proc.devRef .tc main_arg2)) (W (Proc.devRef .tc main_arg3)) := by
  after_results_simp
  all_goals rfl

theorem keep0_arg1 (W : Valuation τ sig (Elt F)) :
    after ops0 W (Proc.devRef .tc main_arg1) = W (Proc.devRef .tc main_arg1) := by
  after_results_simp

theorem keep0_arg2 (W : Valuation τ sig (Elt F)) :
    after ops0 W (Proc.devRef .tc main_arg2) = W (Proc.devRef .tc main_arg2) := by
  after_results_simp

theorem keep0_arg3 (W : Valuation τ sig (Elt F)) :
    after ops0 W (Proc.devRef .tc main_arg3) = W (Proc.devRef .tc main_arg3) := by
  after_results_simp

theorem keep1_arg1 (W : Valuation τ sig (Elt F)) :
    after ops1 W (Proc.devRef .tc main_arg1) = W (Proc.devRef .tc main_arg1) := by
  after_results_simp

theorem keep1_arg2 (W : Valuation τ sig (Elt F)) :
    after ops1 W (Proc.devRef .tc main_arg2) = W (Proc.devRef .tc main_arg2) := by
  after_results_simp

theorem keep1_arg3 (W : Valuation τ sig (Elt F)) :
    after ops1 W (Proc.devRef .tc main_arg3) = W (Proc.devRef .tc main_arg3) := by
  after_results_simp

theorem keep2_arg1 (W : Valuation τ sig (Elt F)) :
    after ops2 W (Proc.devRef .tc main_arg1) = W (Proc.devRef .tc main_arg1) := by
  after_results_simp

theorem keep2_arg2 (W : Valuation τ sig (Elt F)) :
    after ops2 W (Proc.devRef .tc main_arg2) = W (Proc.devRef .tc main_arg2) := by
  after_results_simp

theorem keep2_arg3 (W : Valuation τ sig (Elt F)) :
    after ops2 W (Proc.devRef .tc main_arg3) = W (Proc.devRef .tc main_arg3) := by
  after_results_simp

theorem keep3_arg1 (W : Valuation τ sig (Elt F)) :
    after ops3 W (Proc.devRef .tc main_arg1) = W (Proc.devRef .tc main_arg1) := by
  after_results_simp

theorem keep3_arg2 (W : Valuation τ sig (Elt F)) :
    after ops3 W (Proc.devRef .tc main_arg2) = W (Proc.devRef .tc main_arg2) := by
  after_results_simp

theorem keep3_arg3 (W : Valuation τ sig (Elt F)) :
    after ops3 W (Proc.devRef .tc main_arg3) = W (Proc.devRef .tc main_arg3) := by
  after_results_simp

theorem keep4_arg1 (W : Valuation τ sig (Elt F)) :
    after ops4 W (Proc.devRef .tc main_arg1) = W (Proc.devRef .tc main_arg1) := by
  after_results_simp

theorem keep4_arg2 (W : Valuation τ sig (Elt F)) :
    after ops4 W (Proc.devRef .tc main_arg2) = W (Proc.devRef .tc main_arg2) := by
  after_results_simp

theorem keep4_arg3 (W : Valuation τ sig (Elt F)) :
    after ops4 W (Proc.devRef .tc main_arg3) = W (Proc.devRef .tc main_arg3) := by
  after_results_simp

theorem keep5_arg1 (W : Valuation τ sig (Elt F)) :
    after ops5 W (Proc.devRef .tc main_arg1) = W (Proc.devRef .tc main_arg1) := by
  after_results_simp

theorem keep5_arg2 (W : Valuation τ sig (Elt F)) :
    after ops5 W (Proc.devRef .tc main_arg2) = W (Proc.devRef .tc main_arg2) := by
  after_results_simp

theorem keep5_arg3 (W : Valuation τ sig (Elt F)) :
    after ops5 W (Proc.devRef .tc main_arg3) = W (Proc.devRef .tc main_arg3) := by
  after_results_simp

theorem keep6_arg1 (W : Valuation τ sig (Elt F)) :
    after ops6 W (Proc.devRef .tc main_arg1) = W (Proc.devRef .tc main_arg1) := by
  after_results_simp

theorem keep6_arg2 (W : Valuation τ sig (Elt F)) :
    after ops6 W (Proc.devRef .tc main_arg2) = W (Proc.devRef .tc main_arg2) := by
  after_results_simp

theorem keep6_arg3 (W : Valuation τ sig (Elt F)) :
    after ops6 W (Proc.devRef .tc main_arg3) = W (Proc.devRef .tc main_arg3) := by
  after_results_simp

theorem keep7_arg1 (W : Valuation τ sig (Elt F)) :
    after ops7 W (Proc.devRef .tc main_arg1) = W (Proc.devRef .tc main_arg1) := by
  after_results_simp

theorem keep7_arg2 (W : Valuation τ sig (Elt F)) :
    after ops7 W (Proc.devRef .tc main_arg2) = W (Proc.devRef .tc main_arg2) := by
  after_results_simp

theorem keep7_arg3 (W : Valuation τ sig (Elt F)) :
    after ops7 W (Proc.devRef .tc main_arg3) = W (Proc.devRef .tc main_arg3) := by
  after_results_simp

theorem keep8_arg1 (W : Valuation τ sig (Elt F)) :
    after ops8 W (Proc.devRef .tc main_arg1) = W (Proc.devRef .tc main_arg1) := by
  after_results_simp

theorem keep8_arg2 (W : Valuation τ sig (Elt F)) :
    after ops8 W (Proc.devRef .tc main_arg2) = W (Proc.devRef .tc main_arg2) := by
  after_results_simp

theorem keep8_arg3 (W : Valuation τ sig (Elt F)) :
    after ops8 W (Proc.devRef .tc main_arg3) = W (Proc.devRef .tc main_arg3) := by
  after_results_simp

theorem keep9_arg1 (W : Valuation τ sig (Elt F)) :
    after ops9 W (Proc.devRef .tc main_arg1) = W (Proc.devRef .tc main_arg1) := by
  after_results_simp

theorem keep9_arg2 (W : Valuation τ sig (Elt F)) :
    after ops9 W (Proc.devRef .tc main_arg2) = W (Proc.devRef .tc main_arg2) := by
  after_results_simp

theorem keep9_arg3 (W : Valuation τ sig (Elt F)) :
    after ops9 W (Proc.devRef .tc main_arg3) = W (Proc.devRef .tc main_arg3) := by
  after_results_simp

theorem pre_keep_arg1 (V : Valuation τ sig (Elt F)) :
    after ops9 (after ops8 (after ops7 (after ops6 (after ops5 (after ops4 (after ops3 (after ops2 (after ops1 (after ops0 (V)))))))))) (Proc.devRef .tc main_arg1) = V (Proc.devRef .tc main_arg1) := by
  rw [keep9_arg1, keep8_arg1, keep7_arg1, keep6_arg1, keep5_arg1, keep4_arg1, keep3_arg1, keep2_arg1, keep1_arg1, keep0_arg1]

theorem pre_keep_arg2 (V : Valuation τ sig (Elt F)) :
    after ops9 (after ops8 (after ops7 (after ops6 (after ops5 (after ops4 (after ops3 (after ops2 (after ops1 (after ops0 (V)))))))))) (Proc.devRef .tc main_arg2) = V (Proc.devRef .tc main_arg2) := by
  rw [keep9_arg2, keep8_arg2, keep7_arg2, keep6_arg2, keep5_arg2, keep4_arg2, keep3_arg2, keep2_arg2, keep1_arg2, keep0_arg2]

theorem pre_keep_arg3 (V : Valuation τ sig (Elt F)) :
    after ops9 (after ops8 (after ops7 (after ops6 (after ops5 (after ops4 (after ops3 (after ops2 (after ops1 (after ops0 (V)))))))))) (Proc.devRef .tc main_arg3) = V (Proc.devRef .tc main_arg3) := by
  rw [keep9_arg3, keep8_arg3, keep7_arg3, keep6_arg3, keep5_arg3, keep4_arg3, keep3_arg3, keep2_arg3, keep1_arg3, keep0_arg3]

end Cert.ReferenceIdeal.RefValue

end
-- ==== Proof.RefStackOf.lean ====
/-
  The stack the concatenations leave, read at the channel of each tap: channel `11·i + j` lies in group `(11·i + j) / 16`
  at position `(11·i + j) % 16`, and is the buffer of that number among the 121.
-/
import proofs.«140256_j85203561218656_2_alg».proof.Proof.RefSeg

noncomputable section

namespace Cert.ReferenceIdeal.RefValue

open Cert.ReferenceIdeal Cert.ReferenceIdeal.Gen Cert.ReferenceIdeal.RunH Idealize.ShloMosaic Idealize.ShloMosaic.TcCoe Idealize.SL.Sem Idealize.ShloMosaic.StableHlo
  Idealize.ShloMosaic.ValueIdx

variable {F : FTy → Type} [FloatOps F]

theorem stackOf_tap_0 (W : Valuation τ sig (Elt F)) (n : Fin 4) (c : Fin 3) (h w : Fin 256) :
    stackOf W (ix5 n c (Spec.tap 0 0) h w) = (W (Proc.devRef .tc main_v122) : (⟨S4x3x1x256x256, .f32⟩ : BufTy).Contents (Elt F)) (ix5 n c (0 : Fin 1) h w) := by
  unfold stackOf
  exact (stack8_apply_0 _ _ _ _ _ _ _ _ n c (⟨0, by decide⟩ : Fin 16) h w).trans (grp16_apply_0 _ _ _ _ _ _ _ _ _ _ _ _ _ _ _ _ n c h w)

theorem stackOf_tap_1 (W : Valuation τ sig (Elt F)) (n : Fin 4) (c : Fin 3) (h w : Fin 256) :
    stackOf W (ix5 n c (Spec.tap 0 1) h w) = (W (Proc.devRef .tc main_v123) : (⟨S4x3x1x256x256, .f32⟩ : BufTy).Contents (Elt F)) (ix5 n c (0 : Fin 1) h w) := by
  unfold stackOf
  exact (stack8_apply_0 _ _ _ _ _ _ _ _ n c (⟨1, by decide⟩ : Fin 16) h w).trans (grp16_apply_1 _ _ _ _ _ _ _ _ _ _ _ _ _ _ _ _ n c h w)

theorem stackOf_tap_2 (W : Valuation τ sig (Elt F)) (n : Fin 4) (c : Fin 3) (h w : Fin 256) :
    stackOf W (ix5 n c (Spec.tap 0 2) h w) = (W (Proc.devRef .tc main_v124) : (⟨S4x3x1x256x256, .f32⟩ : BufTy).Contents (Elt F)) (ix5 n c (0 : Fin 1) h w) := by
  unfold stackOf
  exact (stack8_apply_0 _ _ _ _ _ _ _ _ n c (⟨2, by decide⟩ : Fin 16) h w).trans (grp16_apply_2 _ _ _ _ _ _ _ _ _ _ _ _ _ _ _ _ n c h w)

theorem stackOf_tap_3 (W : Valuation τ sig (Elt F)) (n : Fin 4) (c : Fin 3) (h w : Fin 256) :
    stackOf W (ix5 n c (Spec.tap 0 3) h w) = (W (Proc.devRef .tc main_v125) : (⟨S4x3x1x256x256, .f32⟩ : BufTy).Contents (Elt F)) (ix5 n c (0 : Fin 1) h w) := by
  unfold stackOf
  exact (stack8_apply_0 _ _ _ _ _ _ _ _ n c (⟨3, by decide⟩ : Fin 16) h w).trans (grp16_apply_3 _ _ _ _ _ _ _ _ _ _ _ _ _ _ _ _ n c h w)

theorem stackOf_tap_4 (W : Valuation τ sig (Elt F)) (n : Fin 4) (c : Fin 3) (h w : Fin 256) :
    stackOf W (ix5 n c (Spec.tap 0 4) h w) = (W (Proc.devRef .tc main_v126) : (⟨S4x3x1x256x256, .f32⟩ : BufTy).Contents (Elt F)) (ix5 n c (0 : Fin 1) h w) := by
  unfold stackOf
  exact (stack8_apply_0 _ _ _ _ _ _ _ _ n c (⟨4, by decide⟩ : Fin 16) h w).trans (grp16_apply_4 _ _ _ _ _ _ _ _ _ _ _ _ _ _ _ _ n c h w)

theorem stackOf_tap_5 (W : Valuation τ sig (Elt F)) (n : Fin 4) (c : Fin 3) (h w : Fin 256) :
    stackOf W (ix5 n c (Spec.tap 0 5) h w) = (W (Proc.devRef .tc main_v127) : (⟨S4x3x1x256x256, .f32⟩ : BufTy).Contents (Elt F)) (ix5 n c (0 : Fin 1) h w) := by
  unfold stackOf
  exact (stack8_apply_0 _ _ _ _ _ _ _ _ n c (⟨5, by decide⟩ : Fin 16) h w).trans (grp16_apply_5 _ _ _ _ _ _ _ _ _ _ _ _ _ _ _ _ n c h w)

theorem stackOf_tap_6 (W : Valuation τ sig (Elt F)) (n : Fin 4) (c : Fin 3) (h w : Fin 256) :
    stackOf W (ix5 n c (Spec.tap 0 6) h w) = (W (Proc.devRef .tc main_v128) : (⟨S4x3x1x256x256, .f32⟩ : BufTy).Contents (Elt F)) (ix5 n c (0 : Fin 1) h w) := by
  unfold stackOf
  exact (stack8_apply_0 _ _ _ _ _ _ _ _ n c (⟨6, by decide⟩ : Fin 16) h w).trans (grp16_apply_6 _ _ _ _ _ _ _ _ _ _ _ _ _ _ _ _ n c h w)

theorem stackOf_tap_7 (W : Valuation τ sig (Elt F)) (n : Fin 4) (c : Fin 3) (h w : Fin 256) :
    stackOf W (ix5 n c (Spec.tap 0 7) h w) = (W (Proc.devRef .tc main_v129) : (⟨S4x3x1x256x256, .f32⟩ : BufTy).Contents (Elt F)) (ix5 n c (0 : Fin 1) h w) := by
  unfold stackOf
  exact (stack8_apply_0 _ _ _ _ _ _ _ _ n c (⟨7, by decide⟩ : Fin 16) h w).trans (grp16_apply_7 _ _ _ _ _ _ _ _ _ _ _ _ _ _ _ _ n c h w)

theorem stackOf_tap_8 (W : Valuation τ sig (Elt F)) (n : Fin 4) (c : Fin 3) (h w : Fin 256) :
    stackOf W (ix5 n c (Spec.tap 0 8) h w) = (W (Proc.devRef .tc main_v130) : (⟨S4x3x1x256x256, .f32⟩ : BufTy).Contents (Elt F)) (ix5 n c (0 : Fin 1) h w) := by
  unfold stackOf
  exact (stack8_apply_0 _ _ _ _ _ _ _ _ n c (⟨8, by decide⟩ : Fin 16) h w).trans (grp16_apply_8 _ _ _ _ _ _ _ _ _ _ _ _ _ _ _ _ n c h w)

theorem stackOf_tap_9 (W : Valuation τ sig (Elt F)) (n : Fin 4) (c : Fin 3) (h w : Fin 256) :
    stackOf W (ix5 n c (Spec.tap 0 9) h w) = (W (Proc.devRef .tc main_v131) : (⟨S4x3x1x256x256, .f32⟩ : BufTy).Contents (Elt F)) (ix5 n c (0 : Fin 1) h w) := by
  unfold stackOf
  exact (stack8_apply_0 _ _ _ _ _ _ _ _ n c (⟨9, by decide⟩ : Fin 16) h w).trans (grp16_apply_9 _ _ _ _ _ _ _ _ _ _ _ _ _ _ _ _ n c h w)

theorem stackOf_tap_10 (W : Valuation τ sig (Elt F)) (n : Fin 4) (c : Fin 3) (h w : Fin 256) :
    stackOf W (ix5 n c (Spec.tap 0 10) h w) = (W (Proc.devRef .tc main_v132) : (⟨S4x3x1x256x256, .f32⟩ : BufTy).Contents (Elt F)) (ix5 n c (0 : Fin 1) h w) := by
  unfold stackOf
  exact (stack8_apply_0 _ _ _ _ _ _ _ _ n c (⟨10, by decide⟩ : Fin 16) h w).trans (grp16_apply_10 _ _ _ _ _ _ _ _ _ _ _ _ _ _ _ _ n c h w)

theorem stackOf_tap_11 (W : Valuation τ sig (Elt F)) (n : Fin 4) (c : Fin 3) (h w : Fin 256) :
    stackOf W (ix5 n c (Spec.tap 1 0) h w) = (W (Proc.devRef .tc main_v133) : (⟨S4x3x1x256x256, .f32⟩ : BufTy).Contents (Elt F)) (ix5 n c (0 : Fin 1) h w) := by
  unfold stackOf
  exact (stack8_apply_0 _ _ _ _ _ _ _ _ n c (⟨11, by decide⟩ : Fin 16) h w).trans (grp16_apply_11 _ _ _ _ _ _ _ _ _ _ _ _ _ _ _ _ n c h w)

theorem stackOf_tap_12 (W : Valuation τ sig (Elt F)) (n : Fin 4) (c : Fin 3) (h w : Fin 256) :
    stackOf W (ix5 n c (Spec.tap 1 1) h w) = (W (Proc.devRef .tc main_v134) : (⟨S4x3x1x256x256, .f32⟩ : BufTy).Contents (Elt F)) (ix5 n c (0 : Fin 1) h w) := by
  unfold stackOf
  exact (stack8_apply_0 _ _ _ _ _ _ _ _ n c (⟨12, by decide⟩ : Fin 16) h w).trans (grp16_apply_12 _ _ _ _ _ _ _ _ _ _ _ _ _ _ _ _ n c h w)

theorem stackOf_tap_13 (W : Valuation τ sig (Elt F)) (n : Fin 4) (c : Fin 3) (h w : Fin 256) :
    stackOf W (ix5 n c (Spec.tap 1 2) h w) = (W (Proc.devRef .tc main_v135) : (⟨S4x3x1x256x256, .f32⟩ : BufTy).Contents (Elt F)) (ix5 n c (0 : Fin 1) h w) := by
  unfold stackOf
  exact (stack8_apply_0 _ _ _ _ _ _ _ _ n c (⟨13, by decide⟩ : Fin 16) h w).trans (grp16_apply_13 _ _ _ _ _ _ _ _ _ _ _ _ _ _ _ _ n c h w)

theorem stackOf_tap_14 (W : Valuation τ sig (Elt F)) (n : Fin 4) (c : Fin 3) (h w : Fin 256) :
    stackOf W (ix5 n c (Spec.tap 1 3) h w) = (W (Proc.devRef .tc main_v136) : (⟨S4x3x1x256x256, .f32⟩ : BufTy).Contents (Elt F)) (ix5 n c (0 : Fin 1) h w) := by
  unfold stackOf
  exact (stack8_apply_0 _ _ _ _ _ _ _ _ n c (⟨14, by decide⟩ : Fin 16) h w).trans (grp16_apply_14 _ _ _ _ _ _ _ _ _ _ _ _ _ _ _ _ n c h w)

theorem stackOf_tap_15 (W : Valuation τ sig (Elt F)) (n : Fin 4) (c : Fin 3) (h w : Fin 256) :
    stackOf W (ix5 n c (Spec.tap 1 4) h w) = (W (Proc.devRef .tc main_v137) : (⟨S4x3x1x256x256, .f32⟩ : BufTy).Contents (Elt F)) (ix5 n c (0 : Fin 1) h w) := by
  unfold stackOf
  exact (stack8_apply_0 _ _ _ _ _ _ _ _ n c (⟨15, by decide⟩ : Fin 16) h w).trans (grp16_apply_15 _ _ _ _ _ _ _ _ _ _ _ _ _ _ _ _ n c h w)

theorem stackOf_tap_16 (W : Valuation τ sig (Elt F)) (n : Fin 4) (c : Fin 3) (h w : Fin 256) :
    stackOf W (ix5 n c (Spec.tap 1 5) h w) = (W (Proc.devRef .tc main_v138) : (⟨S4x3x1x256x256, .f32⟩ : BufTy).Contents (Elt F)) (ix5 n c (0 : Fin 1) h w) := by
  unfold stackOf
  exact (stack8_apply_1 _ _ _ _ _ _ _ _ n c (⟨0, by decide⟩ : Fin 16) h w).trans (grp16_apply_0 _ _ _ _ _ _ _ _ _ _ _ _ _ _ _ _ n c h w)

theorem stackOf_tap_17 (W : Valuation τ sig (Elt F)) (n : Fin 4) (c : Fin 3) (h w : Fin 256) :
    stackOf W (ix5 n c (Spec.tap 1 6) h w) = (W (Proc.devRef .tc main_v139) : (⟨S4x3x1x256x256, .f32⟩ : BufTy).Contents (Elt F)) (ix5 n c (0 : Fin 1) h w) := by
  unfold stackOf
  exact (stack8_apply_1 _ _ _ _ _ _ _ _ n c (⟨1, by decide⟩ : Fin 16) h w).trans (grp16_apply_1 _ _ _ _ _ _ _ _ _ _ _ _ _ _ _ _ n c h w)

theorem stackOf_tap_18 (W : Valuation τ sig (Elt F)) (n : Fin 4) (c : Fin 3) (h w : Fin 256) :
    stackOf W (ix5 n c (Spec.tap 1 7) h w) = (W (Proc.devRef .tc main_v140) : (⟨S4x3x1x256x256, .f32⟩ : BufTy).Contents (Elt F)) (ix5 n c (0 : Fin 1) h w) := by
  unfold stackOf
  exact (stack8_apply_1 _ _ _ _ _ _ _ _ n c (⟨2, by decide⟩ : Fin 16) h w).trans (grp16_apply_2 _ _ _ _ _ _ _ _ _ _ _ _ _ _ _ _ n c h w)

theorem stackOf_tap_19 (W : Valuation τ sig (Elt F)) (n : Fin 4) (c : Fin 3) (h w : Fin 256) :
    stackOf W (ix5 n c (Spec.tap 1 8) h w) = (W (Proc.devRef .tc main_v141) : (⟨S4x3x1x256x256, .f32⟩ : BufTy).Contents (Elt F)) (ix5 n c (0 : Fin 1) h w) := by
  unfold stackOf
  exact (stack8_apply_1 _ _ _ _ _ _ _ _ n c (⟨3, by decide⟩ : Fin 16) h w).trans (grp16_apply_3 _ _ _ _ _ _ _ _ _ _ _ _ _ _ _ _ n c h w)

theorem stackOf_tap_20 (W : Valuation τ sig (Elt F)) (n : Fin 4) (c : Fin 3) (h w : Fin 256) :
    stackOf W (ix5 n c (Spec.tap 1 9) h w) = (W (Proc.devRef .tc main_v142) : (⟨S4x3x1x256x256, .f32⟩ : BufTy).Contents (Elt F)) (ix5 n c (0 : Fin 1) h w) := by
  unfold stackOf
  exact (stack8_apply_1 _ _ _ _ _ _ _ _ n c (⟨4, by decide⟩ : Fin 16) h w).trans (grp16_apply_4 _ _ _ _ _ _ _ _ _ _ _ _ _ _ _ _ n c h w)

theorem stackOf_tap_21 (W : Valuation τ sig (Elt F)) (n : Fin 4) (c : Fin 3) (h w : Fin 256) :
    stackOf W (ix5 n c (Spec.tap 1 10) h w) = (W (Proc.devRef .tc main_v143) : (⟨S4x3x1x256x256, .f32⟩ : BufTy).Contents (Elt F)) (ix5 n c (0 : Fin 1) h w) := by
  unfold stackOf
  exact (stack8_apply_1 _ _ _ _ _ _ _ _ n c (⟨5, by decide⟩ : Fin 16) h w).trans (grp16_apply_5 _ _ _ _ _ _ _ _ _ _ _ _ _ _ _ _ n c h w)

theorem stackOf_tap_22 (W : Valuation τ sig (Elt F)) (n : Fin 4) (c : Fin 3) (h w : Fin 256) :
    stackOf W (ix5 n c (Spec.tap 2 0) h w) = (W (Proc.devRef .tc main_v144) : (⟨S4x3x1x256x256, .f32⟩ : BufTy).Contents (Elt F)) (ix5 n c (0 : Fin 1) h w) := by
  unfold stackOf
  exact (stack8_apply_1 _ _ _ _ _ _ _ _ n c (⟨6, by decide⟩ : Fin 16) h w).trans (grp16_apply_6 _ _ _ _ _ _ _ _ _ _ _ _ _ _ _ _ n c h w)

theorem stackOf_tap_23 (W : Valuation τ sig (Elt F)) (n : Fin 4) (c : Fin 3) (h w : Fin 256) :
    stackOf W (ix5 n c (Spec.tap 2 1) h w) = (W (Proc.devRef .tc main_v145) : (⟨S4x3x1x256x256, .f32⟩ : BufTy).Contents (Elt F)) (ix5 n c (0 : Fin 1) h w) := by
  unfold stackOf
  exact (stack8_apply_1 _ _ _ _ _ _ _ _ n c (⟨7, by decide⟩ : Fin 16) h w).trans (grp16_apply_7 _ _ _ _ _ _ _ _ _ _ _ _ _ _ _ _ n c h w)

theorem stackOf_tap_24 (W : Valuation τ sig (Elt F)) (n : Fin 4) (c : Fin 3) (h w : Fin 256) :
    stackOf W (ix5 n c (Spec.tap 2 2) h w) = (W (Proc.devRef .tc main_v146) : (⟨S4x3x1x256x256, .f32⟩ : BufTy).Contents (Elt F)) (ix5 n c (0 : Fin 1) h w) := by
  unfold stackOf
  exact (stack8_apply_1 _ _ _ _ _ _ _ _ n c (⟨8, by decide⟩ : Fin 16) h w).trans (grp16_apply_8 _ _ _ _ _ _ _ _ _ _ _ _ _ _ _ _ n c h w)

theorem stackOf_tap_25 (W : Valuation τ sig (Elt F)) (n : Fin 4) (c : Fin 3) (h w : Fin 256) :
    stackOf W (ix5 n c (Spec.tap 2 3) h w) = (W (Proc.devRef .tc main_v147) : (⟨S4x3x1x256x256, .f32⟩ : BufTy).Contents (Elt F)) (ix5 n c (0 : Fin 1) h w) := by
  unfold stackOf
  exact (stack8_apply_1 _ _ _ _ _ _ _ _ n c (⟨9, by decide⟩ : Fin 16) h w).trans (grp16_apply_9 _ _ _ _ _ _ _ _ _ _ _ _ _ _ _ _ n c h w)

theorem stackOf_tap_26 (W : Valuation τ sig (Elt F)) (n : Fin 4) (c : Fin 3) (h w : Fin 256) :
    stackOf W (ix5 n c (Spec.tap 2 4) h w) = (W (Proc.devRef .tc main_v148) : (⟨S4x3x1x256x256, .f32⟩ : BufTy).Contents (Elt F)) (ix5 n c (0 : Fin 1) h w) := by
  unfold stackOf
  exact (stack8_apply_1 _ _ _ _ _ _ _ _ n c (⟨10, by decide⟩ : Fin 16) h w).trans (grp16_apply_10 _ _ _ _ _ _ _ _ _ _ _ _ _ _ _ _ n c h w)

theorem stackOf_tap_27 (W : Valuation τ sig (Elt F)) (n : Fin 4) (c : Fin 3) (h w : Fin 256) :
    stackOf W (ix5 n c (Spec.tap 2 5) h w) = (W (Proc.devRef .tc main_v149) : (⟨S4x3x1x256x256, .f32⟩ : BufTy).Contents (Elt F)) (ix5 n c (0 : Fin 1) h w) := by
  unfold stackOf
  exact (stack8_apply_1 _ _ _ _ _ _ _ _ n c (⟨11, by decide⟩ : Fin 16) h w).trans (grp16_apply_11 _ _ _ _ _ _ _ _ _ _ _ _ _ _ _ _ n c h w)

theorem stackOf_tap_28 (W : Valuation τ sig (Elt F)) (n : Fin 4) (c : Fin 3) (h w : Fin 256) :
    stackOf W (ix5 n c (Spec.tap 2 6) h w) = (W (Proc.devRef .tc main_v150) : (⟨S4x3x1x256x256, .f32⟩ : BufTy).Contents (Elt F)) (ix5 n c (0 : Fin 1) h w) := by
  unfold stackOf
  exact (stack8_apply_1 _ _ _ _ _ _ _ _ n c (⟨12, by decide⟩ : Fin 16) h w).trans (grp16_apply_12 _ _ _ _ _ _ _ _ _ _ _ _ _ _ _ _ n c h w)

theorem stackOf_tap_29 (W : Valuation τ sig (Elt F)) (n : Fin 4) (c : Fin 3) (h w : Fin 256) :
    stackOf W (ix5 n c (Spec.tap 2 7) h w) = (W (Proc.devRef .tc main_v151) : (⟨S4x3x1x256x256, .f32⟩ : BufTy).Contents (Elt F)) (ix5 n c (0 : Fin 1) h w) := by
  unfold stackOf
  exact (stack8_apply_1 _ _ _ _ _ _ _ _ n c (⟨13, by decide⟩ : Fin 16) h w).trans (grp16_apply_13 _ _ _ _ _ _ _ _ _ _ _ _ _ _ _ _ n c h w)

theorem stackOf_tap_30 (W : Valuation τ sig (Elt F)) (n : Fin 4) (c : Fin 3) (h w : Fin 256) :
    stackOf W (ix5 n c (Spec.tap 2 8) h w) = (W (Proc.devRef .tc main_v152) : (⟨S4x3x1x256x256, .f32⟩ : BufTy).Contents (Elt F)) (ix5 n c (0 : Fin 1) h w) := by
  unfold stackOf
  exact (stack8_apply_1 _ _ _ _ _ _ _ _ n c (⟨14, by decide⟩ : Fin 16) h w).trans (grp16_apply_14 _ _ _ _ _ _ _ _ _ _ _ _ _ _ _ _ n c h w)

theorem stackOf_tap_31 (W : Valuation τ sig (Elt F)) (n : Fin 4) (c : Fin 3) (h w : Fin 256) :
    stackOf W (ix5 n c (Spec.tap 2 9) h w) = (W (Proc.devRef .tc main_v153) : (⟨S4x3x1x256x256, .f32⟩ : BufTy).Contents (Elt F)) (ix5 n c (0 : Fin 1) h w) := by
  unfold stackOf
  exact (stack8_apply_1 _ _ _ _ _ _ _ _ n c (⟨15, by decide⟩ : Fin 16) h w).trans (grp16_apply_15 _ _ _ _ _ _ _ _ _ _ _ _ _ _ _ _ n c h w)

theorem stackOf_tap_32 (W : Valuation τ sig (Elt F)) (n : Fin 4) (c : Fin 3) (h w : Fin 256) :
    stackOf W (ix5 n c (Spec.tap 2 10) h w) = (W (Proc.devRef .tc main_v154) : (⟨S4x3x1x256x256, .f32⟩ : BufTy).Contents (Elt F)) (ix5 n c (0 : Fin 1) h w) := by
  unfold stackOf
  exact (stack8_apply_2 _ _ _ _ _ _ _ _ n c (⟨0, by decide⟩ : Fin 16) h w).trans (grp16_apply_0 _ _ _ _ _ _ _ _ _ _ _ _ _ _ _ _ n c h w)

theorem stackOf_tap_33 (W : Valuation τ sig (Elt F)) (n : Fin 4) (c : Fin 3) (h w : Fin 256) :
    stackOf W (ix5 n c (Spec.tap 3 0) h w) = (W (Proc.devRef .tc main_v155) : (⟨S4x3x1x256x256, .f32⟩ : BufTy).Contents (Elt F)) (ix5 n c (0 : Fin 1) h w) := by
  unfold stackOf
  exact (stack8_apply_2 _ _ _ _ _ _ _ _ n c (⟨1, by decide⟩ : Fin 16) h w).trans (grp16_apply_1 _ _ _ _ _ _ _ _ _ _ _ _ _ _ _ _ n c h w)

theorem stackOf_tap_34 (W : Valuation τ sig (Elt F)) (n : Fin 4) (c : Fin 3) (h w : Fin 256) :
    stackOf W (ix5 n c (Spec.tap 3 1) h w) = (W (Proc.devRef .tc main_v156) : (⟨S4x3x1x256x256, .f32⟩ : BufTy).Contents (Elt F)) (ix5 n c (0 : Fin 1) h w) := by
  unfold stackOf
  exact (stack8_apply_2 _ _ _ _ _ _ _ _ n c (⟨2, by decide⟩ : Fin 16) h w).trans (grp16_apply_2 _ _ _ _ _ _ _ _ _ _ _ _ _ _ _ _ n c h w)

theorem stackOf_tap_35 (W : Valuation τ sig (Elt F)) (n : Fin 4) (c : Fin 3) (h w : Fin 256) :
    stackOf W (ix5 n c (Spec.tap 3 2) h w) = (W (Proc.devRef .tc main_v157) : (⟨S4x3x1x256x256, .f32⟩ : BufTy).Contents (Elt F)) (ix5 n c (0 : Fin 1) h w) := by
  unfold stackOf
  exact (stack8_apply_2 _ _ _ _ _ _ _ _ n c (⟨3, by decide⟩ : Fin 16) h w).trans (grp16_apply_3 _ _ _ _ _ _ _ _ _ _ _ _ _ _ _ _ n c h w)

theorem stackOf_tap_36 (W : Valuation τ sig (Elt F)) (n : Fin 4) (c : Fin 3) (h w : Fin 256) :
    stackOf W (ix5 n c (Spec.tap 3 3) h w) = (W (Proc.devRef .tc main_v158) : (⟨S4x3x1x256x256, .f32⟩ : BufTy).Contents (Elt F)) (ix5 n c (0 : Fin 1) h w) := by
  unfold stackOf
  exact (stack8_apply_2 _ _ _ _ _ _ _ _ n c (⟨4, by decide⟩ : Fin 16) h w).trans (grp16_apply_4 _ _ _ _ _ _ _ _ _ _ _ _ _ _ _ _ n c h w)

theorem stackOf_tap_37 (W : Valuation τ sig (Elt F)) (n : Fin 4) (c : Fin 3) (h w : Fin 256) :
    stackOf W (ix5 n c (Spec.tap 3 4) h w) = (W (Proc.devRef .tc main_v159) : (⟨S4x3x1x256x256, .f32⟩ : BufTy).Contents (Elt F)) (ix5 n c (0 : Fin 1) h w) := by
  unfold stackOf
  exact (stack8_apply_2 _ _ _ _ _ _ _ _ n c (⟨5, by decide⟩ : Fin 16) h w).trans (grp16_apply_5 _ _ _ _ _ _ _ _ _ _ _ _ _ _ _ _ n c h w)

theorem stackOf_tap_38 (W : Valuation τ sig (Elt F)) (n : Fin 4) (c : Fin 3) (h w : Fin 256) :
    stackOf W (ix5 n c (Spec.tap 3 5) h w) = (W (Proc.devRef .tc main_v160) : (⟨S4x3x1x256x256, .f32⟩ : BufTy).Contents (Elt F)) (ix5 n c (0 : Fin 1) h w) := by
  unfold stackOf
  exact (stack8_apply_2 _ _ _ _ _ _ _ _ n c (⟨6, by decide⟩ : Fin 16) h w).trans (grp16_apply_6 _ _ _ _ _ _ _ _ _ _ _ _ _ _ _ _ n c h w)

theorem stackOf_tap_39 (W : Valuation τ sig (Elt F)) (n : Fin 4) (c : Fin 3) (h w : Fin 256) :
    stackOf W (ix5 n c (Spec.tap 3 6) h w) = (W (Proc.devRef .tc main_v161) : (⟨S4x3x1x256x256, .f32⟩ : BufTy).Contents (Elt F)) (ix5 n c (0 : Fin 1) h w) := by
  unfold stackOf
  exact (stack8_apply_2 _ _ _ _ _ _ _ _ n c (⟨7, by decide⟩ : Fin 16) h w).trans (grp16_apply_7 _ _ _ _ _ _ _ _ _ _ _ _ _ _ _ _ n c h w)

theorem stackOf_tap_40 (W : Valuation τ sig (Elt F)) (n : Fin 4) (c : Fin 3) (h w : Fin 256) :
    stackOf W (ix5 n c (Spec.tap 3 7) h w) = (W (Proc.devRef .tc main_v162) : (⟨S4x3x1x256x256, .f32⟩ : BufTy).Contents (Elt F)) (ix5 n c (0 : Fin 1) h w) := by
  unfold stackOf
  exact (stack8_apply_2 _ _ _ _ _ _ _ _ n c (⟨8, by decide⟩ : Fin 16) h w).trans (grp16_apply_8 _ _ _ _ _ _ _ _ _ _ _ _ _ _ _ _ n c h w)

theorem stackOf_tap_41 (W : Valuation τ sig (Elt F)) (n : Fin 4) (c : Fin 3) (h w : Fin 256) :
    stackOf W (ix5 n c (Spec.tap 3 8) h w) = (W (Proc.devRef .tc main_v163) : (⟨S4x3x1x256x256, .f32⟩ : BufTy).Contents (Elt F)) (ix5 n c (0 : Fin 1) h w) := by
  unfold stackOf
  exact (stack8_apply_2 _ _ _ _ _ _ _ _ n c (⟨9, by decide⟩ : Fin 16) h w).trans (grp16_apply_9 _ _ _ _ _ _ _ _ _ _ _ _ _ _ _ _ n c h w)

theorem stackOf_tap_42 (W : Valuation τ sig (Elt F)) (n : Fin 4) (c : Fin 3) (h w : Fin 256) :
    stackOf W (ix5 n c (Spec.tap 3 9) h w) = (W (Proc.devRef .tc main_v164) : (⟨S4x3x1x256x256, .f32⟩ : BufTy).Contents (Elt F)) (ix5 n c (0 : Fin 1) h w) := by
  unfold stackOf
  exact (stack8_apply_2 _ _ _ _ _ _ _ _ n c (⟨10, by decide⟩ : Fin 16) h w).trans (grp16_apply_10 _ _ _ _ _ _ _ _ _ _ _ _ _ _ _ _ n c h w)

theorem stackOf_tap_43 (W : Valuation τ sig (Elt F)) (n : Fin 4) (c : Fin 3) (h w : Fin 256) :
    stackOf W (ix5 n c (Spec.tap 3 10) h w) = (W (Proc.devRef .tc main_v165) : (⟨S4x3x1x256x256, .f32⟩ : BufTy).Contents (Elt F)) (ix5 n c (0 : Fin 1) h w) := by
  unfold stackOf
  exact (stack8_apply_2 _ _ _ _ _ _ _ _ n c (⟨11, by decide⟩ : Fin 16) h w).trans (grp16_apply_11 _ _ _ _ _ _ _ _ _ _ _ _ _ _ _ _ n c h w)

theorem stackOf_tap_44 (W : Valuation τ sig (Elt F)) (n : Fin 4) (c : Fin 3) (h w : Fin 256) :
    stackOf W (ix5 n c (Spec.tap 4 0) h w) = (W (Proc.devRef .tc main_v166) : (⟨S4x3x1x256x256, .f32⟩ : BufTy).Contents (Elt F)) (ix5 n c (0 : Fin 1) h w) := by
  unfold stackOf
  exact (stack8_apply_2 _ _ _ _ _ _ _ _ n c (⟨12, by decide⟩ : Fin 16) h w).trans (grp16_apply_12 _ _ _ _ _ _ _ _ _ _ _ _ _ _ _ _ n c h w)

theorem stackOf_tap_45 (W : Valuation τ sig (Elt F)) (n : Fin 4) (c : Fin 3) (h w : Fin 256) :
    stackOf W (ix5 n c (Spec.tap 4 1) h w) = (W (Proc.devRef .tc main_v167) : (⟨S4x3x1x256x256, .f32⟩ : BufTy).Contents (Elt F)) (ix5 n c (0 : Fin 1) h w) := by
  unfold stackOf
  exact (stack8_apply_2 _ _ _ _ _ _ _ _ n c (⟨13, by decide⟩ : Fin 16) h w).trans (grp16_apply_13 _ _ _ _ _ _ _ _ _ _ _ _ _ _ _ _ n c h w)

theorem stackOf_tap_46 (W : Valuation τ sig (Elt F)) (n : Fin 4) (c : Fin 3) (h w : Fin 256) :
    stackOf W (ix5 n c (Spec.tap 4 2) h w) = (W (Proc.devRef .tc main_v168) : (⟨S4x3x1x256x256, .f32⟩ : BufTy).Contents (Elt F)) (ix5 n c (0 : Fin 1) h w) := by
  unfold stackOf
  exact (stack8_apply_2 _ _ _ _ _ _ _ _ n c (⟨14, by decide⟩ : Fin 16) h w).trans (grp16_apply_14 _ _ _ _ _ _ _ _ _ _ _ _ _ _ _ _ n c h w)

theorem stackOf_tap_47 (W : Valuation τ sig (Elt F)) (n : Fin 4) (c : Fin 3) (h w : Fin 256) :
    stackOf W (ix5 n c (Spec.tap 4 3) h w) = (W (Proc.devRef .tc main_v169) : (⟨S4x3x1x256x256, .f32⟩ : BufTy).Contents (Elt F)) (ix5 n c (0 : Fin 1) h w) := by
  unfold stackOf
  exact (stack8_apply_2 _ _ _ _ _ _ _ _ n c (⟨15, by decide⟩ : Fin 16) h w).trans (grp16_apply_15 _ _ _ _ _ _ _ _ _ _ _ _ _ _ _ _ n c h w)

theorem stackOf_tap_48 (W : Valuation τ sig (Elt F)) (n : Fin 4) (c : Fin 3) (h w : Fin 256) :
    stackOf W (ix5 n c (Spec.tap 4 4) h w) = (W (Proc.devRef .tc main_v170) : (⟨S4x3x1x256x256, .f32⟩ : BufTy).Contents (Elt F)) (ix5 n c (0 : Fin 1) h w) := by
  unfold stackOf
  exact (stack8_apply_3 _ _ _ _ _ _ _ _ n c (⟨0, by decide⟩ : Fin 16) h w).trans (grp16_apply_0 _ _ _ _ _ _ _ _ _ _ _ _ _ _ _ _ n c h w)

theorem stackOf_tap_49 (W : Valuation τ sig (Elt F)) (n : Fin 4) (c : Fin 3) (h w : Fin 256) :
    stackOf W (ix5 n c (Spec.tap 4 5) h w) = (W (Proc.devRef .tc main_v171) : (⟨S4x3x1x256x256, .f32⟩ : BufTy).Contents (Elt F)) (ix5 n c (0 : Fin 1) h w) := by
  unfold stackOf
  exact (stack8_apply_3 _ _ _ _ _ _ _ _ n c (⟨1, by decide⟩ : Fin 16) h w).trans (grp16_apply_1 _ _ _ _ _ _ _ _ _ _ _ _ _ _ _ _ n c h w)

theorem stackOf_tap_50 (W : Valuation τ sig (Elt F)) (n : Fin 4) (c : Fin 3) (h w : Fin 256) :
    stackOf W (ix5 n c (Spec.tap 4 6) h w) = (W (Proc.devRef .tc main_v172) : (⟨S4x3x1x256x256, .f32⟩ : BufTy).Contents (Elt F)) (ix5 n c (0 : Fin 1) h w) := by
  unfold stackOf
  exact (stack8_apply_3 _ _ _ _ _ _ _ _ n c (⟨2, by decide⟩ : Fin 16) h w).trans (grp16_apply_2 _ _ _ _ _ _ _ _ _ _ _ _ _ _ _ _ n c h w)

theorem stackOf_tap_51 (W : Valuation τ sig (Elt F)) (n : Fin 4) (c : Fin 3) (h w : Fin 256) :
    stackOf W (ix5 n c (Spec.tap 4 7) h w) = (W (Proc.devRef .tc main_v173) : (⟨S4x3x1x256x256, .f32⟩ : BufTy).Contents (Elt F)) (ix5 n c (0 : Fin 1) h w) := by
  unfold stackOf
  exact (stack8_apply_3 _ _ _ _ _ _ _ _ n c (⟨3, by decide⟩ : Fin 16) h w).trans (grp16_apply_3 _ _ _ _ _ _ _ _ _ _ _ _ _ _ _ _ n c h w)

theorem stackOf_tap_52 (W : Valuation τ sig (Elt F)) (n : Fin 4) (c : Fin 3) (h w : Fin 256) :
    stackOf W (ix5 n c (Spec.tap 4 8) h w) = (W (Proc.devRef .tc main_v174) : (⟨S4x3x1x256x256, .f32⟩ : BufTy).Contents (Elt F)) (ix5 n c (0 : Fin 1) h w) := by
  unfold stackOf
  exact (stack8_apply_3 _ _ _ _ _ _ _ _ n c (⟨4, by decide⟩ : Fin 16) h w).trans (grp16_apply_4 _ _ _ _ _ _ _ _ _ _ _ _ _ _ _ _ n c h w)

theorem stackOf_tap_53 (W : Valuation τ sig (Elt F)) (n : Fin 4) (c : Fin 3) (h w : Fin 256) :
    stackOf W (ix5 n c (Spec.tap 4 9) h w) = (W (Proc.devRef .tc main_v175) : (⟨S4x3x1x256x256, .f32⟩ : BufTy).Contents (Elt F)) (ix5 n c (0 : Fin 1) h w) := by
  unfold stackOf
  exact (stack8_apply_3 _ _ _ _ _ _ _ _ n c (⟨5, by decide⟩ : Fin 16) h w).trans (grp16_apply_5 _ _ _ _ _ _ _ _ _ _ _ _ _ _ _ _ n c h w)

theorem stackOf_tap_54 (W : Valuation τ sig (Elt F)) (n : Fin 4) (c : Fin 3) (h w : Fin 256) :
    stackOf W (ix5 n c (Spec.tap 4 10) h w) = (W (Proc.devRef .tc main_v176) : (⟨S4x3x1x256x256, .f32⟩ : BufTy).Contents (Elt F)) (ix5 n c (0 : Fin 1) h w) := by
  unfold stackOf
  exact (stack8_apply_3 _ _ _ _ _ _ _ _ n c (⟨6, by decide⟩ : Fin 16) h w).trans (grp16_apply_6 _ _ _ _ _ _ _ _ _ _ _ _ _ _ _ _ n c h w)

theorem stackOf_tap_55 (W : Valuation τ sig (Elt F)) (n : Fin 4) (c : Fin 3) (h w : Fin 256) :
    stackOf W (ix5 n c (Spec.tap 5 0) h w) = (W (Proc.devRef .tc main_v177) : (⟨S4x3x1x256x256, .f32⟩ : BufTy).Contents (Elt F)) (ix5 n c (0 : Fin 1) h w) := by
  unfold stackOf
  exact (stack8_apply_3 _ _ _ _ _ _ _ _ n c (⟨7, by decide⟩ : Fin 16) h w).trans (grp16_apply_7 _ _ _ _ _ _ _ _ _ _ _ _ _ _ _ _ n c h w)

theorem stackOf_tap_56 (W : Valuation τ sig (Elt F)) (n : Fin 4) (c : Fin 3) (h w : Fin 256) :
    stackOf W (ix5 n c (Spec.tap 5 1) h w) = (W (Proc.devRef .tc main_v178) : (⟨S4x3x1x256x256, .f32⟩ : BufTy).Contents (Elt F)) (ix5 n c (0 : Fin 1) h w) := by
  unfold stackOf
  exact (stack8_apply_3 _ _ _ _ _ _ _ _ n c (⟨8, by decide⟩ : Fin 16) h w).trans (grp16_apply_8 _ _ _ _ _ _ _ _ _ _ _ _ _ _ _ _ n c h w)

theorem stackOf_tap_57 (W : Valuation τ sig (Elt F)) (n : Fin 4) (c : Fin 3) (h w : Fin 256) :
    stackOf W (ix5 n c (Spec.tap 5 2) h w) = (W (Proc.devRef .tc main_v179) : (⟨S4x3x1x256x256, .f32⟩ : BufTy).Contents (Elt F)) (ix5 n c (0 : Fin 1) h w) := by
  unfold stackOf
  exact (stack8_apply_3 _ _ _ _ _ _ _ _ n c (⟨9, by decide⟩ : Fin 16) h w).trans (grp16_apply_9 _ _ _ _ _ _ _ _ _ _ _ _ _ _ _ _ n c h w)

theorem stackOf_tap_58 (W : Valuation τ sig (Elt F)) (n : Fin 4) (c : Fin 3) (h w : Fin 256) :
    stackOf W (ix5 n c (Spec.tap 5 3) h w) = (W (Proc.devRef .tc main_v180) : (⟨S4x3x1x256x256, .f32⟩ : BufTy).Contents (Elt F)) (ix5 n c (0 : Fin 1) h w) := by
  unfold stackOf
  exact (stack8_apply_3 _ _ _ _ _ _ _ _ n c (⟨10, by decide⟩ : Fin 16) h w).trans (grp16_apply_10 _ _ _ _ _ _ _ _ _ _ _ _ _ _ _ _ n c h w)

theorem stackOf_tap_59 (W : Valuation τ sig (Elt F)) (n : Fin 4) (c : Fin 3) (h w : Fin 256) :
    stackOf W (ix5 n c (Spec.tap 5 4) h w) = (W (Proc.devRef .tc main_v181) : (⟨S4x3x1x256x256, .f32⟩ : BufTy).Contents (Elt F)) (ix5 n c (0 : Fin 1) h w) := by
  unfold stackOf
  exact (stack8_apply_3 _ _ _ _ _ _ _ _ n c (⟨11, by decide⟩ : Fin 16) h w).trans (grp16_apply_11 _ _ _ _ _ _ _ _ _ _ _ _ _ _ _ _ n c h w)

theorem stackOf_tap_60 (W : Valuation τ sig (Elt F)) (n : Fin 4) (c : Fin 3) (h w : Fin 256) :
    stackOf W (ix5 n c (Spec.tap 5 5) h w) = (W (Proc.devRef .tc main_v182) : (⟨S4x3x1x256x256, .f32⟩ : BufTy).Contents (Elt F)) (ix5 n c (0 : Fin 1) h w) := by
  unfold stackOf
  exact (stack8_apply_3 _ _ _ _ _ _ _ _ n c (⟨12, by decide⟩ : Fin 16) h w).trans (grp16_apply_12 _ _ _ _ _ _ _ _ _ _ _ _ _ _ _ _ n c h w)

theorem stackOf_tap_61 (W : Valuation τ sig (Elt F)) (n : Fin 4) (c : Fin 3) (h w : Fin 256) :
    stackOf W (ix5 n c (Spec.tap 5 6) h w) = (W (Proc.devRef .tc main_v183) : (⟨S4x3x1x256x256, .f32⟩ : BufTy).Contents (Elt F)) (ix5 n c (0 : Fin 1) h w) := by
  unfold stackOf
  exact (stack8_apply_3 _ _ _ _ _ _ _ _ n c (⟨13, by decide⟩ : Fin 16) h w).trans (grp16_apply_13 _ _ _ _ _ _ _ _ _ _ _ _ _ _ _ _ n c h w)

theorem stackOf_tap_62 (W : Valuation τ sig (Elt F)) (n : Fin 4) (c : Fin 3) (h w : Fin 256) :
    stackOf W (ix5 n c (Spec.tap 5 7) h w) = (W (Proc.devRef .tc main_v184) : (⟨S4x3x1x256x256, .f32⟩ : BufTy).Contents (Elt F)) (ix5 n c (0 : Fin 1) h w) := by
  unfold stackOf
  exact (stack8_apply_3 _ _ _ _ _ _ _ _ n c (⟨14, by decide⟩ : Fin 16) h w).trans (grp16_apply_14 _ _ _ _ _ _ _ _ _ _ _ _ _ _ _ _ n c h w)

theorem stackOf_tap_63 (W : Valuation τ sig (Elt F)) (n : Fin 4) (c : Fin 3) (h w : Fin 256) :
    stackOf W (ix5 n c (Spec.tap 5 8) h w) = (W (Proc.devRef .tc main_v185) : (⟨S4x3x1x256x256, .f32⟩ : BufTy).Contents (Elt F)) (ix5 n c (0 : Fin 1) h w) := by
  unfold stackOf
  exact (stack8_apply_3 _ _ _ _ _ _ _ _ n c (⟨15, by decide⟩ : Fin 16) h w).trans (grp16_apply_15 _ _ _ _ _ _ _ _ _ _ _ _ _ _ _ _ n c h w)

theorem stackOf_tap_64 (W : Valuation τ sig (Elt F)) (n : Fin 4) (c : Fin 3) (h w : Fin 256) :
    stackOf W (ix5 n c (Spec.tap 5 9) h w) = (W (Proc.devRef .tc main_v186) : (⟨S4x3x1x256x256, .f32⟩ : BufTy).Contents (Elt F)) (ix5 n c (0 : Fin 1) h w) := by
  unfold stackOf
  exact (stack8_apply_4 _ _ _ _ _ _ _ _ n c (⟨0, by decide⟩ : Fin 16) h w).trans (grp16_apply_0 _ _ _ _ _ _ _ _ _ _ _ _ _ _ _ _ n c h w)

theorem stackOf_tap_65 (W : Valuation τ sig (Elt F)) (n : Fin 4) (c : Fin 3) (h w : Fin 256) :
    stackOf W (ix5 n c (Spec.tap 5 10) h w) = (W (Proc.devRef .tc main_v187) : (⟨S4x3x1x256x256, .f32⟩ : BufTy).Contents (Elt F)) (ix5 n c (0 : Fin 1) h w) := by
  unfold stackOf
  exact (stack8_apply_4 _ _ _ _ _ _ _ _ n c (⟨1, by decide⟩ : Fin 16) h w).trans (grp16_apply_1 _ _ _ _ _ _ _ _ _ _ _ _ _ _ _ _ n c h w)

theorem stackOf_tap_66 (W : Valuation τ sig (Elt F)) (n : Fin 4) (c : Fin 3) (h w : Fin 256) :
    stackOf W (ix5 n c (Spec.tap 6 0) h w) = (W (Proc.devRef .tc main_v188) : (⟨S4x3x1x256x256, .f32⟩ : BufTy).Contents (Elt F)) (ix5 n c (0 : Fin 1) h w) := by
  unfold stackOf
  exact (stack8_apply_4 _ _ _ _ _ _ _ _ n c (⟨2, by decide⟩ : Fin 16) h w).trans (grp16_apply_2 _ _ _ _ _ _ _ _ _ _ _ _ _ _ _ _ n c h w)

theorem stackOf_tap_67 (W : Valuation τ sig (Elt F)) (n : Fin 4) (c : Fin 3) (h w : Fin 256) :
    stackOf W (ix5 n c (Spec.tap 6 1) h w) = (W (Proc.devRef .tc main_v189) : (⟨S4x3x1x256x256, .f32⟩ : BufTy).Contents (Elt F)) (ix5 n c (0 : Fin 1) h w) := by
  unfold stackOf
  exact (stack8_apply_4 _ _ _ _ _ _ _ _ n c (⟨3, by decide⟩ : Fin 16) h w).trans (grp16_apply_3 _ _ _ _ _ _ _ _ _ _ _ _ _ _ _ _ n c h w)

theorem stackOf_tap_68 (W : Valuation τ sig (Elt F)) (n : Fin 4) (c : Fin 3) (h w : Fin 256) :
    stackOf W (ix5 n c (Spec.tap 6 2) h w) = (W (Proc.devRef .tc main_v190) : (⟨S4x3x1x256x256, .f32⟩ : BufTy).Contents (Elt F)) (ix5 n c (0 : Fin 1) h w) := by
  unfold stackOf
  exact (stack8_apply_4 _ _ _ _ _ _ _ _ n c (⟨4, by decide⟩ : Fin 16) h w).trans (grp16_apply_4 _ _ _ _ _ _ _ _ _ _ _ _ _ _ _ _ n c h w)

theorem stackOf_tap_69 (W : Valuation τ sig (Elt F)) (n : Fin 4) (c : Fin 3) (h w : Fin 256) :
    stackOf W (ix5 n c (Spec.tap 6 3) h w) = (W (Proc.devRef .tc main_v191) : (⟨S4x3x1x256x256, .f32⟩ : BufTy).Contents (Elt F)) (ix5 n c (0 : Fin 1) h w) := by
  unfold stackOf
  exact (stack8_apply_4 _ _ _ _ _ _ _ _ n c (⟨5, by decide⟩ : Fin 16) h w).trans (grp16_apply_5 _ _ _ _ _ _ _ _ _ _ _ _ _ _ _ _ n c h w)

theorem stackOf_tap_70 (W : Valuation τ sig (Elt F)) (n : Fin 4) (c : Fin 3) (h w : Fin 256) :
    stackOf W (ix5 n c (Spec.tap 6 4) h w) = (W (Proc.devRef .tc main_v192) : (⟨S4x3x1x256x256, .f32⟩ : BufTy).Contents (Elt F)) (ix5 n c (0 : Fin 1) h w) := by
  unfold stackOf
  exact (stack8_apply_4 _ _ _ _ _ _ _ _ n c (⟨6, by decide⟩ : Fin 16) h w).trans (grp16_apply_6 _ _ _ _ _ _ _ _ _ _ _ _ _ _ _ _ n c h w)

theorem stackOf_tap_71 (W : Valuation τ sig (Elt F)) (n : Fin 4) (c : Fin 3) (h w : Fin 256) :
    stackOf W (ix5 n c (Spec.tap 6 5) h w) = (W (Proc.devRef .tc main_v193) : (⟨S4x3x1x256x256, .f32⟩ : BufTy).Contents (Elt F)) (ix5 n c (0 : Fin 1) h w) := by
  unfold stackOf
  exact (stack8_apply_4 _ _ _ _ _ _ _ _ n c (⟨7, by decide⟩ : Fin 16) h w).trans (grp16_apply_7 _ _ _ _ _ _ _ _ _ _ _ _ _ _ _ _ n c h w)

theorem stackOf_tap_72 (W : Valuation τ sig (Elt F)) (n : Fin 4) (c : Fin 3) (h w : Fin 256) :
    stackOf W (ix5 n c (Spec.tap 6 6) h w) = (W (Proc.devRef .tc main_v194) : (⟨S4x3x1x256x256, .f32⟩ : BufTy).Contents (Elt F)) (ix5 n c (0 : Fin 1) h w) := by
  unfold stackOf
  exact (stack8_apply_4 _ _ _ _ _ _ _ _ n c (⟨8, by decide⟩ : Fin 16) h w).trans (grp16_apply_8 _ _ _ _ _ _ _ _ _ _ _ _ _ _ _ _ n c h w)

theorem stackOf_tap_73 (W : Valuation τ sig (Elt F)) (n : Fin 4) (c : Fin 3) (h w : Fin 256) :
    stackOf W (ix5 n c (Spec.tap 6 7) h w) = (W (Proc.devRef .tc main_v195) : (⟨S4x3x1x256x256, .f32⟩ : BufTy).Contents (Elt F)) (ix5 n c (0 : Fin 1) h w) := by
  unfold stackOf
  exact (stack8_apply_4 _ _ _ _ _ _ _ _ n c (⟨9, by decide⟩ : Fin 16) h w).trans (grp16_apply_9 _ _ _ _ _ _ _ _ _ _ _ _ _ _ _ _ n c h w)

theorem stackOf_tap_74 (W : Valuation τ sig (Elt F)) (n : Fin 4) (c : Fin 3) (h w : Fin 256) :
    stackOf W (ix5 n c (Spec.tap 6 8) h w) = (W (Proc.devRef .tc main_v196) : (⟨S4x3x1x256x256, .f32⟩ : BufTy).Contents (Elt F)) (ix5 n c (0 : Fin 1) h w) := by
  unfold stackOf
  exact (stack8_apply_4 _ _ _ _ _ _ _ _ n c (⟨10, by decide⟩ : Fin 16) h w).trans (grp16_apply_10 _ _ _ _ _ _ _ _ _ _ _ _ _ _ _ _ n c h w)

theorem stackOf_tap_75 (W : Valuation τ sig (Elt F)) (n : Fin 4) (c : Fin 3) (h w : Fin 256) :
    stackOf W (ix5 n c (Spec.tap 6 9) h w) = (W (Proc.devRef .tc main_v197) : (⟨S4x3x1x256x256, .f32⟩ : BufTy).Contents (Elt F)) (ix5 n c (0 : Fin 1) h w) := by
  unfold stackOf
  exact (stack8_apply_4 _ _ _ _ _ _ _ _ n c (⟨11, by decide⟩ : Fin 16) h w).trans (grp16_apply_11 _ _ _ _ _ _ _ _ _ _ _ _ _ _ _ _ n c h w)

theorem stackOf_tap_76 (W : Valuation τ sig (Elt F)) (n : Fin 4) (c : Fin 3) (h w : Fin 256) :
    stackOf W (ix5 n c (Spec.tap 6 10) h w) = (W (Proc.devRef .tc main_v198) : (⟨S4x3x1x256x256, .f32⟩ : BufTy).Contents (Elt F)) (ix5 n c (0 : Fin 1) h w) := by
  unfold stackOf
  exact (stack8_apply_4 _ _ _ _ _ _ _ _ n c (⟨12, by decide⟩ : Fin 16) h w).trans (grp16_apply_12 _ _ _ _ _ _ _ _ _ _ _ _ _ _ _ _ n c h w)

theorem stackOf_tap_77 (W : Valuation τ sig (Elt F)) (n : Fin 4) (c : Fin 3) (h w : Fin 256) :
    stackOf W (ix5 n c (Spec.tap 7 0) h w) = (W (Proc.devRef .tc main_v199) : (⟨S4x3x1x256x256, .f32⟩ : BufTy).Contents (Elt F)) (ix5 n c (0 : Fin 1) h w) := by
  unfold stackOf
  exact (stack8_apply_4 _ _ _ _ _ _ _ _ n c (⟨13, by decide⟩ : Fin 16) h w).trans (grp16_apply_13 _ _ _ _ _ _ _ _ _ _ _ _ _ _ _ _ n c h w)

theorem stackOf_tap_78 (W : Valuation τ sig (Elt F)) (n : Fin 4) (c : Fin 3) (h w : Fin 256) :
    stackOf W (ix5 n c (Spec.tap 7 1) h w) = (W (Proc.devRef .tc main_v200) : (⟨S4x3x1x256x256, .f32⟩ : BufTy).Contents (Elt F)) (ix5 n c (0 : Fin 1) h w) := by
  unfold stackOf
  exact (stack8_apply_4 _ _ _ _ _ _ _ _ n c (⟨14, by decide⟩ : Fin 16) h w).trans (grp16_apply_14 _ _ _ _ _ _ _ _ _ _ _ _ _ _ _ _ n c h w)

theorem stackOf_tap_79 (W : Valuation τ sig (Elt F)) (n : Fin 4) (c : Fin 3) (h w : Fin 256) :
    stackOf W (ix5 n c (Spec.tap 7 2) h w) = (W (Proc.devRef .tc main_v201) : (⟨S4x3x1x256x256, .f32⟩ : BufTy).Contents (Elt F)) (ix5 n c (0 : Fin 1) h w) := by
  unfold stackOf
  exact (stack8_apply_4 _ _ _ _ _ _ _ _ n c (⟨15, by decide⟩ : Fin 16) h w).trans (grp16_apply_15 _ _ _ _ _ _ _ _ _ _ _ _ _ _ _ _ n c h w)

theorem stackOf_tap_80 (W : Valuation τ sig (Elt F)) (n : Fin 4) (c : Fin 3) (h w : Fin 256) :
    stackOf W (ix5 n c (Spec.tap 7 3) h w) = (W (Proc.devRef .tc main_v202) : (⟨S4x3x1x256x256, .f32⟩ : BufTy).Contents (Elt F)) (ix5 n c (0 : Fin 1) h w) := by
  unfold stackOf
  exact (stack8_apply_5 _ _ _ _ _ _ _ _ n c (⟨0, by decide⟩ : Fin 16) h w).trans (grp16_apply_0 _ _ _ _ _ _ _ _ _ _ _ _ _ _ _ _ n c h w)

theorem stackOf_tap_81 (W : Valuation τ sig (Elt F)) (n : Fin 4) (c : Fin 3) (h w : Fin 256) :
    stackOf W (ix5 n c (Spec.tap 7 4) h w) = (W (Proc.devRef .tc main_v203) : (⟨S4x3x1x256x256, .f32⟩ : BufTy).Contents (Elt F)) (ix5 n c (0 : Fin 1) h w) := by
  unfold stackOf
  exact (stack8_apply_5 _ _ _ _ _ _ _ _ n c (⟨1, by decide⟩ : Fin 16) h w).trans (grp16_apply_1 _ _ _ _ _ _ _ _ _ _ _ _ _ _ _ _ n c h w)

theorem stackOf_tap_82 (W : Valuation τ sig (Elt F)) (n : Fin 4) (c : Fin 3) (h w : Fin 256) :
    stackOf W (ix5 n c (Spec.tap 7 5) h w) = (W (Proc.devRef .tc main_v204) : (⟨S4x3x1x256x256, .f32⟩ : BufTy).Contents (Elt F)) (ix5 n c (0 : Fin 1) h w) := by
  unfold stackOf
  exact (stack8_apply_5 _ _ _ _ _ _ _ _ n c (⟨2, by decide⟩ : Fin 16) h w).trans (grp16_apply_2 _ _ _ _ _ _ _ _ _ _ _ _ _ _ _ _ n c h w)

theorem stackOf_tap_83 (W : Valuation τ sig (Elt F)) (n : Fin 4) (c : Fin 3) (h w : Fin 256) :
    stackOf W (ix5 n c (Spec.tap 7 6) h w) = (W (Proc.devRef .tc main_v205) : (⟨S4x3x1x256x256, .f32⟩ : BufTy).Contents (Elt F)) (ix5 n c (0 : Fin 1) h w) := by
  unfold stackOf
  exact (stack8_apply_5 _ _ _ _ _ _ _ _ n c (⟨3, by decide⟩ : Fin 16) h w).trans (grp16_apply_3 _ _ _ _ _ _ _ _ _ _ _ _ _ _ _ _ n c h w)

theorem stackOf_tap_84 (W : Valuation τ sig (Elt F)) (n : Fin 4) (c : Fin 3) (h w : Fin 256) :
    stackOf W (ix5 n c (Spec.tap 7 7) h w) = (W (Proc.devRef .tc main_v206) : (⟨S4x3x1x256x256, .f32⟩ : BufTy).Contents (Elt F)) (ix5 n c (0 : Fin 1) h w) := by
  unfold stackOf
  exact (stack8_apply_5 _ _ _ _ _ _ _ _ n c (⟨4, by decide⟩ : Fin 16) h w).trans (grp16_apply_4 _ _ _ _ _ _ _ _ _ _ _ _ _ _ _ _ n c h w)

theorem stackOf_tap_85 (W : Valuation τ sig (Elt F)) (n : Fin 4) (c : Fin 3) (h w : Fin 256) :
    stackOf W (ix5 n c (Spec.tap 7 8) h w) = (W (Proc.devRef .tc main_v207) : (⟨S4x3x1x256x256, .f32⟩ : BufTy).Contents (Elt F)) (ix5 n c (0 : Fin 1) h w) := by
  unfold stackOf
  exact (stack8_apply_5 _ _ _ _ _ _ _ _ n c (⟨5, by decide⟩ : Fin 16) h w).trans (grp16_apply_5 _ _ _ _ _ _ _ _ _ _ _ _ _ _ _ _ n c h w)

theorem stackOf_tap_86 (W : Valuation τ sig (Elt F)) (n : Fin 4) (c : Fin 3) (h w : Fin 256) :
    stackOf W (ix5 n c (Spec.tap 7 9) h w) = (W (Proc.devRef .tc main_v208) : (⟨S4x3x1x256x256, .f32⟩ : BufTy).Contents (Elt F)) (ix5 n c (0 : Fin 1) h w) := by
  unfold stackOf
  exact (stack8_apply_5 _ _ _ _ _ _ _ _ n c (⟨6, by decide⟩ : Fin 16) h w).trans (grp16_apply_6 _ _ _ _ _ _ _ _ _ _ _ _ _ _ _ _ n c h w)

theorem stackOf_tap_87 (W : Valuation τ sig (Elt F)) (n : Fin 4) (c : Fin 3) (h w : Fin 256) :
    stackOf W (ix5 n c (Spec.tap 7 10) h w) = (W (Proc.devRef .tc main_v209) : (⟨S4x3x1x256x256, .f32⟩ : BufTy).Contents (Elt F)) (ix5 n c (0 : Fin 1) h w) := by
  unfold stackOf
  exact (stack8_apply_5 _ _ _ _ _ _ _ _ n c (⟨7, by decide⟩ : Fin 16) h w).trans (grp16_apply_7 _ _ _ _ _ _ _ _ _ _ _ _ _ _ _ _ n c h w)

theorem stackOf_tap_88 (W : Valuation τ sig (Elt F)) (n : Fin 4) (c : Fin 3) (h w : Fin 256) :
    stackOf W (ix5 n c (Spec.tap 8 0) h w) = (W (Proc.devRef .tc main_v210) : (⟨S4x3x1x256x256, .f32⟩ : BufTy).Contents (Elt F)) (ix5 n c (0 : Fin 1) h w) := by
  unfold stackOf
  exact (stack8_apply_5 _ _ _ _ _ _ _ _ n c (⟨8, by decide⟩ : Fin 16) h w).trans (grp16_apply_8 _ _ _ _ _ _ _ _ _ _ _ _ _ _ _ _ n c h w)

theorem stackOf_tap_89 (W : Valuation τ sig (Elt F)) (n : Fin 4) (c : Fin 3) (h w : Fin 256) :
    stackOf W (ix5 n c (Spec.tap 8 1) h w) = (W (Proc.devRef .tc main_v211) : (⟨S4x3x1x256x256, .f32⟩ : BufTy).Contents (Elt F)) (ix5 n c (0 : Fin 1) h w) := by
  unfold stackOf
  exact (stack8_apply_5 _ _ _ _ _ _ _ _ n c (⟨9, by decide⟩ : Fin 16) h w).trans (grp16_apply_9 _ _ _ _ _ _ _ _ _ _ _ _ _ _ _ _ n c h w)

theorem stackOf_tap_90 (W : Valuation τ sig (Elt F)) (n : Fin 4) (c : Fin 3) (h w : Fin 256) :
    stackOf W (ix5 n c (Spec.tap 8 2) h w) = (W (Proc.devRef .tc main_v212) : (⟨S4x3x1x256x256, .f32⟩ : BufTy).Contents (Elt F)) (ix5 n c (0 : Fin 1) h w) := by
  unfold stackOf
  exact (stack8_apply_5 _ _ _ _ _ _ _ _ n c (⟨10, by decide⟩ : Fin 16) h w).trans (grp16_apply_10 _ _ _ _ _ _ _ _ _ _ _ _ _ _ _ _ n c h w)

theorem stackOf_tap_91 (W : Valuation τ sig (Elt F)) (n : Fin 4) (c : Fin 3) (h w : Fin 256) :
    stackOf W (ix5 n c (Spec.tap 8 3) h w) = (W (Proc.devRef .tc main_v213) : (⟨S4x3x1x256x256, .f32⟩ : BufTy).Contents (Elt F)) (ix5 n c (0 : Fin 1) h w) := by
  unfold stackOf
  exact (stack8_apply_5 _ _ _ _ _ _ _ _ n c (⟨11, by decide⟩ : Fin 16) h w).trans (grp16_apply_11 _ _ _ _ _ _ _ _ _ _ _ _ _ _ _ _ n c h w)

theorem stackOf_tap_92 (W : Valuation τ sig (Elt F)) (n : Fin 4) (c : Fin 3) (h w : Fin 256) :
    stackOf W (ix5 n c (Spec.tap 8 4) h w) = (W (Proc.devRef .tc main_v214) : (⟨S4x3x1x256x256, .f32⟩ : BufTy).Contents (Elt F)) (ix5 n c (0 : Fin 1) h w) := by
  unfold stackOf
  exact (stack8_apply_5 _ _ _ _ _ _ _ _ n c (⟨12, by decide⟩ : Fin 16) h w).trans (grp16_apply_12 _ _ _ _ _ _ _ _ _ _ _ _ _ _ _ _ n c h w)

theorem stackOf_tap_93 (W : Valuation τ sig (Elt F)) (n : Fin 4) (c : Fin 3) (h w : Fin 256) :
    stackOf W (ix5 n c (Spec.tap 8 5) h w) = (W (Proc.devRef .tc main_v215) : (⟨S4x3x1x256x256, .f32⟩ : BufTy).Contents (Elt F)) (ix5 n c (0 : Fin 1) h w) := by
  unfold stackOf
  exact (stack8_apply_5 _ _ _ _ _ _ _ _ n c (⟨13, by decide⟩ : Fin 16) h w).trans (grp16_apply_13 _ _ _ _ _ _ _ _ _ _ _ _ _ _ _ _ n c h w)

theorem stackOf_tap_94 (W : Valuation τ sig (Elt F)) (n : Fin 4) (c : Fin 3) (h w : Fin 256) :
    stackOf W (ix5 n c (Spec.tap 8 6) h w) = (W (Proc.devRef .tc main_v216) : (⟨S4x3x1x256x256, .f32⟩ : BufTy).Contents (Elt F)) (ix5 n c (0 : Fin 1) h w) := by
  unfold stackOf
  exact (stack8_apply_5 _ _ _ _ _ _ _ _ n c (⟨14, by decide⟩ : Fin 16) h w).trans (grp16_apply_14 _ _ _ _ _ _ _ _ _ _ _ _ _ _ _ _ n c h w)

theorem stackOf_tap_95 (W : Valuation τ sig (Elt F)) (n : Fin 4) (c : Fin 3) (h w : Fin 256) :
    stackOf W (ix5 n c (Spec.tap 8 7) h w) = (W (Proc.devRef .tc main_v217) : (⟨S4x3x1x256x256, .f32⟩ : BufTy).Contents (Elt F)) (ix5 n c (0 : Fin 1) h w) := by
  unfold stackOf
  exact (stack8_apply_5 _ _ _ _ _ _ _ _ n c (⟨15, by decide⟩ : Fin 16) h w).trans (grp16_apply_15 _ _ _ _ _ _ _ _ _ _ _ _ _ _ _ _ n c h w)

theorem stackOf_tap_96 (W : Valuation τ sig (Elt F)) (n : Fin 4) (c : Fin 3) (h w : Fin 256) :
    stackOf W (ix5 n c (Spec.tap 8 8) h w) = (W (Proc.devRef .tc main_v218) : (⟨S4x3x1x256x256, .f32⟩ : BufTy).Contents (Elt F)) (ix5 n c (0 : Fin 1) h w) := by
  unfold stackOf
  exact (stack8_apply_6 _ _ _ _ _ _ _ _ n c (⟨0, by decide⟩ : Fin 16) h w).trans (grp16_apply_0 _ _ _ _ _ _ _ _ _ _ _ _ _ _ _ _ n c h w)

theorem stackOf_tap_97 (W : Valuation τ sig (Elt F)) (n : Fin 4) (c : Fin 3) (h w : Fin 256) :
    stackOf W (ix5 n c (Spec.tap 8 9) h w) = (W (Proc.devRef .tc main_v219) : (⟨S4x3x1x256x256, .f32⟩ : BufTy).Contents (Elt F)) (ix5 n c (0 : Fin 1) h w) := by
  unfold stackOf
  exact (stack8_apply_6 _ _ _ _ _ _ _ _ n c (⟨1, by decide⟩ : Fin 16) h w).trans (grp16_apply_1 _ _ _ _ _ _ _ _ _ _ _ _ _ _ _ _ n c h w)

theorem stackOf_tap_98 (W : Valuation τ sig (Elt F)) (n : Fin 4) (c : Fin 3) (h w : Fin 256) :
    stackOf W (ix5 n c (Spec.tap 8 10) h w) = (W (Proc.devRef .tc main_v220) : (⟨S4x3x1x256x256, .f32⟩ : BufTy).Contents (Elt F)) (ix5 n c (0 : Fin 1) h w) := by
  unfold stackOf
  exact (stack8_apply_6 _ _ _ _ _ _ _ _ n c (⟨2, by decide⟩ : Fin 16) h w).trans (grp16_apply_2 _ _ _ _ _ _ _ _ _ _ _ _ _ _ _ _ n c h w)

theorem stackOf_tap_99 (W : Valuation τ sig (Elt F)) (n : Fin 4) (c : Fin 3) (h w : Fin 256) :
    stackOf W (ix5 n c (Spec.tap 9 0) h w) = (W (Proc.devRef .tc main_v221) : (⟨S4x3x1x256x256, .f32⟩ : BufTy).Contents (Elt F)) (ix5 n c (0 : Fin 1) h w) := by
  unfold stackOf
  exact (stack8_apply_6 _ _ _ _ _ _ _ _ n c (⟨3, by decide⟩ : Fin 16) h w).trans (grp16_apply_3 _ _ _ _ _ _ _ _ _ _ _ _ _ _ _ _ n c h w)

theorem stackOf_tap_100 (W : Valuation τ sig (Elt F)) (n : Fin 4) (c : Fin 3) (h w : Fin 256) :
    stackOf W (ix5 n c (Spec.tap 9 1) h w) = (W (Proc.devRef .tc main_v222) : (⟨S4x3x1x256x256, .f32⟩ : BufTy).Contents (Elt F)) (ix5 n c (0 : Fin 1) h w) := by
  unfold stackOf
  exact (stack8_apply_6 _ _ _ _ _ _ _ _ n c (⟨4, by decide⟩ : Fin 16) h w).trans (grp16_apply_4 _ _ _ _ _ _ _ _ _ _ _ _ _ _ _ _ n c h w)

theorem stackOf_tap_101 (W : Valuation τ sig (Elt F)) (n : Fin 4) (c : Fin 3) (h w : Fin 256) :
    stackOf W (ix5 n c (Spec.tap 9 2) h w) = (W (Proc.devRef .tc main_v223) : (⟨S4x3x1x256x256, .f32⟩ : BufTy).Contents (Elt F)) (ix5 n c (0 : Fin 1) h w) := by
  unfold stackOf
  exact (stack8_apply_6 _ _ _ _ _ _ _ _ n c (⟨5, by decide⟩ : Fin 16) h w).trans (grp16_apply_5 _ _ _ _ _ _ _ _ _ _ _ _ _ _ _ _ n c h w)

theorem stackOf_tap_102 (W : Valuation τ sig (Elt F)) (n : Fin 4) (c : Fin 3) (h w : Fin 256) :
    stackOf W (ix5 n c (Spec.tap 9 3) h w) = (W (Proc.devRef .tc main_v224) : (⟨S4x3x1x256x256, .f32⟩ : BufTy).Contents (Elt F)) (ix5 n c (0 : Fin 1) h w) := by
  unfold stackOf
  exact (stack8_apply_6 _ _ _ _ _ _ _ _ n c (⟨6, by decide⟩ : Fin 16) h w).trans (grp16_apply_6 _ _ _ _ _ _ _ _ _ _ _ _ _ _ _ _ n c h w)

theorem stackOf_tap_103 (W : Valuation τ sig (Elt F)) (n : Fin 4) (c : Fin 3) (h w : Fin 256) :
    stackOf W (ix5 n c (Spec.tap 9 4) h w) = (W (Proc.devRef .tc main_v225) : (⟨S4x3x1x256x256, .f32⟩ : BufTy).Contents (Elt F)) (ix5 n c (0 : Fin 1) h w) := by
  unfold stackOf
  exact (stack8_apply_6 _ _ _ _ _ _ _ _ n c (⟨7, by decide⟩ : Fin 16) h w).trans (grp16_apply_7 _ _ _ _ _ _ _ _ _ _ _ _ _ _ _ _ n c h w)

theorem stackOf_tap_104 (W : Valuation τ sig (Elt F)) (n : Fin 4) (c : Fin 3) (h w : Fin 256) :
    stackOf W (ix5 n c (Spec.tap 9 5) h w) = (W (Proc.devRef .tc main_v226) : (⟨S4x3x1x256x256, .f32⟩ : BufTy).Contents (Elt F)) (ix5 n c (0 : Fin 1) h w) := by
  unfold stackOf
  exact (stack8_apply_6 _ _ _ _ _ _ _ _ n c (⟨8, by decide⟩ : Fin 16) h w).trans (grp16_apply_8 _ _ _ _ _ _ _ _ _ _ _ _ _ _ _ _ n c h w)

theorem stackOf_tap_105 (W : Valuation τ sig (Elt F)) (n : Fin 4) (c : Fin 3) (h w : Fin 256) :
    stackOf W (ix5 n c (Spec.tap 9 6) h w) = (W (Proc.devRef .tc main_v227) : (⟨S4x3x1x256x256, .f32⟩ : BufTy).Contents (Elt F)) (ix5 n c (0 : Fin 1) h w) := by
  unfold stackOf
  exact (stack8_apply_6 _ _ _ _ _ _ _ _ n c (⟨9, by decide⟩ : Fin 16) h w).trans (grp16_apply_9 _ _ _ _ _ _ _ _ _ _ _ _ _ _ _ _ n c h w)

theorem stackOf_tap_106 (W : Valuation τ sig (Elt F)) (n : Fin 4) (c : Fin 3) (h w : Fin 256) :
    stackOf W (ix5 n c (Spec.tap 9 7) h w) = (W (Proc.devRef .tc main_v228) : (⟨S4x3x1x256x256, .f32⟩ : BufTy).Contents (Elt F)) (ix5 n c (0 : Fin 1) h w) := by
  unfold stackOf
  exact (stack8_apply_6 _ _ _ _ _ _ _ _ n c (⟨10, by decide⟩ : Fin 16) h w).trans (grp16_apply_10 _ _ _ _ _ _ _ _ _ _ _ _ _ _ _ _ n c h w)

theorem stackOf_tap_107 (W : Valuation τ sig (Elt F)) (n : Fin 4) (c : Fin 3) (h w : Fin 256) :
    stackOf W (ix5 n c (Spec.tap 9 8) h w) = (W (Proc.devRef .tc main_v229) : (⟨S4x3x1x256x256, .f32⟩ : BufTy).Contents (Elt F)) (ix5 n c (0 : Fin 1) h w) := by
  unfold stackOf
  exact (stack8_apply_6 _ _ _ _ _ _ _ _ n c (⟨11, by decide⟩ : Fin 16) h w).trans (grp16_apply_11 _ _ _ _ _ _ _ _ _ _ _ _ _ _ _ _ n c h w)

theorem stackOf_tap_108 (W : Valuation τ sig (Elt F)) (n : Fin 4) (c : Fin 3) (h w : Fin 256) :
    stackOf W (ix5 n c (Spec.tap 9 9) h w) = (W (Proc.devRef .tc main_v230) : (⟨S4x3x1x256x256, .f32⟩ : BufTy).Contents (Elt F)) (ix5 n c (0 : Fin 1) h w) := by
  unfold stackOf
  exact (stack8_apply_6 _ _ _ _ _ _ _ _ n c (⟨12, by decide⟩ : Fin 16) h w).trans (grp16_apply_12 _ _ _ _ _ _ _ _ _ _ _ _ _ _ _ _ n c h w)

theorem stackOf_tap_109 (W : Valuation τ sig (Elt F)) (n : Fin 4) (c : Fin 3) (h w : Fin 256) :
    stackOf W (ix5 n c (Spec.tap 9 10) h w) = (W (Proc.devRef .tc main_v231) : (⟨S4x3x1x256x256, .f32⟩ : BufTy).Contents (Elt F)) (ix5 n c (0 : Fin 1) h w) := by
  unfold stackOf
  exact (stack8_apply_6 _ _ _ _ _ _ _ _ n c (⟨13, by decide⟩ : Fin 16) h w).trans (grp16_apply_13 _ _ _ _ _ _ _ _ _ _ _ _ _ _ _ _ n c h w)

theorem stackOf_tap_110 (W : Valuation τ sig (Elt F)) (n : Fin 4) (c : Fin 3) (h w : Fin 256) :
    stackOf W (ix5 n c (Spec.tap 10 0) h w) = (W (Proc.devRef .tc main_v232) : (⟨S4x3x1x256x256, .f32⟩ : BufTy).Contents (Elt F)) (ix5 n c (0 : Fin 1) h w) := by
  unfold stackOf
  exact (stack8_apply_6 _ _ _ _ _ _ _ _ n c (⟨14, by decide⟩ : Fin 16) h w).trans (grp16_apply_14 _ _ _ _ _ _ _ _ _ _ _ _ _ _ _ _ n c h w)

theorem stackOf_tap_111 (W : Valuation τ sig (Elt F)) (n : Fin 4) (c : Fin 3) (h w : Fin 256) :
    stackOf W (ix5 n c (Spec.tap 10 1) h w) = (W (Proc.devRef .tc main_v233) : (⟨S4x3x1x256x256, .f32⟩ : BufTy).Contents (Elt F)) (ix5 n c (0 : Fin 1) h w) := by
  unfold stackOf
  exact (stack8_apply_6 _ _ _ _ _ _ _ _ n c (⟨15, by decide⟩ : Fin 16) h w).trans (grp16_apply_15 _ _ _ _ _ _ _ _ _ _ _ _ _ _ _ _ n c h w)

theorem stackOf_tap_112 (W : Valuation τ sig (Elt F)) (n : Fin 4) (c : Fin 3) (h w : Fin 256) :
    stackOf W (ix5 n c (Spec.tap 10 2) h w) = (W (Proc.devRef .tc main_v234) : (⟨S4x3x1x256x256, .f32⟩ : BufTy).Contents (Elt F)) (ix5 n c (0 : Fin 1) h w) := by
  unfold stackOf
  exact (stack8_apply_7 _ _ _ _ _ _ _ _ n c (⟨0, by decide⟩ : Fin 9) h w).trans (grp9_apply_0 _ _ _ _ _ _ _ _ _ n c h w)

theorem stackOf_tap_113 (W : Valuation τ sig (Elt F)) (n : Fin 4) (c : Fin 3) (h w : Fin 256) :
    stackOf W (ix5 n c (Spec.tap 10 3) h w) = (W (Proc.devRef .tc main_v235) : (⟨S4x3x1x256x256, .f32⟩ : BufTy).Contents (Elt F)) (ix5 n c (0 : Fin 1) h w) := by
  unfold stackOf
  exact (stack8_apply_7 _ _ _ _ _ _ _ _ n c (⟨1, by decide⟩ : Fin 9) h w).trans (grp9_apply_1 _ _ _ _ _ _ _ _ _ n c h w)

theorem stackOf_tap_114 (W : Valuation τ sig (Elt F)) (n : Fin 4) (c : Fin 3) (h w : Fin 256) :
    stackOf W (ix5 n c (Spec.tap 10 4) h w) = (W (Proc.devRef .tc main_v236) : (⟨S4x3x1x256x256, .f32⟩ : BufTy).Contents (Elt F)) (ix5 n c (0 : Fin 1) h w) := by
  unfold stackOf
  exact (stack8_apply_7 _ _ _ _ _ _ _ _ n c (⟨2, by decide⟩ : Fin 9) h w).trans (grp9_apply_2 _ _ _ _ _ _ _ _ _ n c h w)

theorem stackOf_tap_115 (W : Valuation τ sig (Elt F)) (n : Fin 4) (c : Fin 3) (h w : Fin 256) :
    stackOf W (ix5 n c (Spec.tap 10 5) h w) = (W (Proc.devRef .tc main_v237) : (⟨S4x3x1x256x256, .f32⟩ : BufTy).Contents (Elt F)) (ix5 n c (0 : Fin 1) h w) := by
  unfold stackOf
  exact (stack8_apply_7 _ _ _ _ _ _ _ _ n c (⟨3, by decide⟩ : Fin 9) h w).trans (grp9_apply_3 _ _ _ _ _ _ _ _ _ n c h w)

theorem stackOf_tap_116 (W : Valuation τ sig (Elt F)) (n : Fin 4) (c : Fin 3) (h w : Fin 256) :
    stackOf W (ix5 n c (Spec.tap 10 6) h w) = (W (Proc.devRef .tc main_v238) : (⟨S4x3x1x256x256, .f32⟩ : BufTy).Contents (Elt F)) (ix5 n c (0 : Fin 1) h w) := by
  unfold stackOf
  exact (stack8_apply_7 _ _ _ _ _ _ _ _ n c (⟨4, by decide⟩ : Fin 9) h w).trans (grp9_apply_4 _ _ _ _ _ _ _ _ _ n c h w)

theorem stackOf_tap_117 (W : Valuation τ sig (Elt F)) (n : Fin 4) (c : Fin 3) (h w : Fin 256) :
    stackOf W (ix5 n c (Spec.tap 10 7) h w) = (W (Proc.devRef .tc main_v239) : (⟨S4x3x1x256x256, .f32⟩ : BufTy).Contents (Elt F)) (ix5 n c (0 : Fin 1) h w) := by
  unfold stackOf
  exact (stack8_apply_7 _ _ _ _ _ _ _ _ n c (⟨5, by decide⟩ : Fin 9) h w).trans (grp9_apply_5 _ _ _ _ _ _ _ _ _ n c h w)

theorem stackOf_tap_118 (W : Valuation τ sig (Elt F)) (n : Fin 4) (c : Fin 3) (h w : Fin 256) :
    stackOf W (ix5 n c (Spec.tap 10 8) h w) = (W (Proc.devRef .tc main_v240) : (⟨S4x3x1x256x256, .f32⟩ : BufTy).Contents (Elt F)) (ix5 n c (0 : Fin 1) h w) := by
  unfold stackOf
  exact (stack8_apply_7 _ _ _ _ _ _ _ _ n c (⟨6, by decide⟩ : Fin 9) h w).trans (grp9_apply_6 _ _ _ _ _ _ _ _ _ n c h w)

theorem stackOf_tap_119 (W : Valuation τ sig (Elt F)) (n : Fin 4) (c : Fin 3) (h w : Fin 256) :
    stackOf W (ix5 n c (Spec.tap 10 9) h w) = (W (Proc.devRef .tc main_v241) : (⟨S4x3x1x256x256, .f32⟩ : BufTy).Contents (Elt F)) (ix5 n c (0 : Fin 1) h w) := by
  unfold stackOf
  exact (stack8_apply_7 _ _ _ _ _ _ _ _ n c (⟨7, by decide⟩ : Fin 9) h w).trans (grp9_apply_7 _ _ _ _ _ _ _ _ _ n c h w)

theorem stackOf_tap_120 (W : Valuation τ sig (Elt F)) (n : Fin 4) (c : Fin 3) (h w : Fin 256) :
    stackOf W (ix5 n c (Spec.tap 10 10) h w) = (W (Proc.devRef .tc main_v242) : (⟨S4x3x1x256x256, .f32⟩ : BufTy).Contents (Elt F)) (ix5 n c (0 : Fin 1) h w) := by
  unfold stackOf
  exact (stack8_apply_7 _ _ _ _ _ _ _ _ n c (⟨8, by decide⟩ : Fin 9) h w).trans (grp9_apply_8 _ _ _ _ _ _ _ _ _ n c h w)

end Cert.ReferenceIdeal.RefValue

end
-- ==== Proof.RefLeafLib.lean ====
/-
  Reading one buffer after long stretches of one-operand operations, each of which writes a buffer of its own.

  A stretch is a list of operations; what a buffer holds after it is decided by the one operation that writes the
  buffer, read on what the operations before it left: the operations after it do not write the buffer, and a buffer
  no operation of a stretch writes keeps its contents. Each of the eight stretches of slices and unit-axis insertions
  writes the buffers listed beside it, one per operation, in order.
-/
import proofs.«140256_j85203561218656_2_alg».proof.Proof.RefOps
import Idealize.ShloMosaic.Lib.StableHlo.Run

noncomputable section

namespace Cert.ReferenceIdeal.Leaf

open Cert.ReferenceIdeal Cert.ReferenceIdeal.Gen Cert.ReferenceIdeal.RunH Idealize.ShloMosaic Idealize.ShloMosaic.TcCoe Idealize.SL.Sem
  Idealize.ShloMosaic.StableHlo

variable {F : FTy → Type} [FloatOps F]

/-- The one buffer a reference names, as the set an operation writes. -/
abbrev cell (r : Ref sig .tc) : Finset (DevRef τ sig) := {Proc.devRef .tc r}

/-- Two stretches run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- No operation of a stretch that writes the buffers `Wl`, one each, writes a buffer not among them. -/
theorem nowrite (l : List (HloOp τ sig (Elt F))) (Wl : List (Ref sig .tc)) (hw : l.map (·.writes) = Wl.map cell)
    (r : Ref sig .tc) (hr : r ∉ Wl) : ∀ op ∈ l, Proc.devRef .tc r ∉ op.writes := by
  intro op hop hb
  have h1 : op.writes ∈ l.map (·.writes) := List.mem_map.mpr ⟨op, hop, rfl⟩
  rw [hw] at h1
  obtain ⟨y, hy, he⟩ := List.mem_map.mp h1
  rw [← he] at hb
  have e : r = y := Proc.devRef_injective _ (Finset.mem_singleton.mp hb)
  exact hr (e ▸ hy)

/-- A buffer the stretch does not write keeps its contents. -/
theorem skip (l : List (HloOp τ sig (Elt F))) (Wl : List (Ref sig .tc)) (hw : l.map (·.writes) = Wl.map cell)
    (V : Valuation τ sig (Elt F)) (r : Ref sig .tc) (hr : r ∉ Wl) :
    after l V (Proc.devRef .tc r) = V (Proc.devRef .tc r) :=
  after_of_forall_not_mem l V (nowrite l Wl hw r hr)

/-- Nor does a beginning of the stretch change it. -/
theorem skip_take (l : List (HloOp τ sig (Elt F))) (Wl : List (Ref sig .tc)) (hw : l.map (·.writes) = Wl.map cell)
    (p : Nat) (V : Valuation τ sig (Elt F)) (r : Ref sig .tc) (hr : r ∉ Wl) :
    after (l.take p) V (Proc.devRef .tc r) = V (Proc.devRef .tc r) :=
  after_of_forall_not_mem (l.take p) V fun op hop => nowrite l Wl hw r hr op (List.mem_of_mem_take hop)

/-- The buffer operation `p` of the stretch writes holds, after the stretch, the operation's function of what its
    operand held after the operations before it: the operations after it write other buffers. -/
theorem at_ (l : List (HloOp τ sig (Elt F))) (Wl : List (Ref sig .tc)) (p : Nat) (x y : Ref sig .tc)
    (f : x.ty.Contents (Elt F) → y.ty.Contents (Elt F)) (hx hy) (rest : List (HloOp τ sig (Elt F)))
    (hd : l.drop p = unary x y f hx hy :: rest) (hrest : rest.map (·.writes) = (Wl.drop (p + 1)).map cell)
    (hy' : y ∉ Wl.drop (p + 1)) (V : Valuation τ sig (Elt F)) :
    after l V (Proc.devRef .tc y) = f (after (l.take p) V (Proc.devRef .tc x)) :=
  calc after l V (Proc.devRef .tc y)
      = after (l.take p ++ l.drop p) V (Proc.devRef .tc y) := by rw [List.take_append_drop]
    _ = after (l.drop p) (after (l.take p) V) (Proc.devRef .tc y) := by rw [after_app]
    _ = after rest ((unary x y f hx hy).result (after (l.take p) V)) (Proc.devRef .tc y) := by rw [hd]; rfl
    _ = (unary x y f hx hy).result (after (l.take p) V) (Proc.devRef .tc y) :=
        skip rest (Wl.drop (p + 1)) hrest _ y hy'
    _ = f (after (l.take p) V (Proc.devRef .tc x)) := unary_result x y f hx hy _

/-! ## The buffers each stretch writes, in order -/

abbrev W1 : List (Ref sig .tc) := [main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31]
abbrev W2 : List (Ref sig .tc) := [main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61]
abbrev W3 : List (Ref sig .tc) := [main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91]
abbrev W4 : List (Ref sig .tc) := [main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121]
abbrev W5 : List (Ref sig .tc) := [main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152]
abbrev W6 : List (Ref sig .tc) := [main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182]
abbrev W7 : List (Ref sig .tc) := [main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212]
abbrev W8 : List (Ref sig .tc) := [main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242]

theorem ops1_writes : (ops1 (F := F)).map (·.writes) = W1.map cell := rfl
theorem ops2_writes : (ops2 (F := F)).map (·.writes) = W2.map cell := rfl
theorem ops3_writes : (ops3 (F := F)).map (·.writes) = W3.map cell := rfl
theorem ops4_writes : (ops4 (F := F)).map (·.writes) = W4.map cell := rfl
theorem ops5_writes : (ops5 (F := F)).map (·.writes) = W5.map cell := rfl
theorem ops6_writes : (ops6 (F := F)).map (·.writes) = W6.map cell := rfl
theorem ops7_writes : (ops7 (F := F)).map (·.writes) = W7.map cell := rfl
theorem ops8_writes : (ops8 (F := F)).map (·.writes) = W8.map cell := rfl

end Cert.ReferenceIdeal.Leaf

end
-- ==== Proof.RefLeaves1.lean ====
/-
  What the slices and the unit-axis insertions leave in the buffers the concatenations read, buffers 0 to 30:
  the `k`-th holds the window of the padded image at `(k / 11, k % 11)`, a unit axis inserted. Each buffer is written by
  one insertion, which reads the buffer one slice wrote; no other operation of these stretches writes either.
-/
import proofs.«140256_j85203561218656_2_alg».proof.Proof.RefOps
import proofs.«140256_j85203561218656_2_alg».proof.Proof.RefTerm
import proofs.«140256_j85203561218656_2_alg».proof.Proof.RefLeafLib

noncomputable section

namespace Cert.ReferenceIdeal.RefValue

open Cert.ReferenceIdeal Cert.ReferenceIdeal.Gen Cert.ReferenceIdeal.RunH Idealize.ShloMosaic Idealize.ShloMosaic.TcCoe Idealize.SL.Sem Idealize.ShloMosaic.StableHlo
  Idealize.ShloMosaic.ValueIdx Cert.ReferenceIdeal.Leaf

variable {F : FTy → Type} [FloatOps F]

/-- After the slices and the unit-axis insertions, buffer 0 of the 121 holds the window at (0, 0). -/
theorem leafBC_0 (W : Valuation τ sig (Elt F)) :
    after ops8 (after ops7 (after ops6 (after ops5 (after ops4 (after ops3 (after ops2 (after ops1 (W)))))))) (Proc.devRef .tc main_v122)
      = win (F := F) 0 0 (W (Proc.devRef .tc main_v0)) := by
  rw [skip ops8 W8 ops8_writes _ main_v122 (by decide),
    skip ops7 W7 ops7_writes _ main_v122 (by decide),
    skip ops6 W6 ops6_writes _ main_v122 (by decide),
    at_ ops5 W5 0 main_v1 main_v122 _ _ _ _ rfl rfl (by decide),
    skip_take ops5 W5 ops5_writes 0 _ main_v1 (by decide),
    skip ops4 W4 ops4_writes _ main_v1 (by decide),
    skip ops3 W3 ops3_writes _ main_v1 (by decide),
    skip ops2 W2 ops2_writes _ main_v1 (by decide),
    at_ ops1 W1 0 main_v0 main_v1 _ _ _ _ rfl rfl (by decide),
    skip_take ops1 W1 ops1_writes 0 _ main_v0 (by decide)]
  rfl

/-- After the slices and the unit-axis insertions, buffer 1 of the 121 holds the window at (0, 1). -/
theorem leafBC_1 (W : Valuation τ sig (Elt F)) :
    after ops8 (after ops7 (after ops6 (after ops5 (after ops4 (after ops3 (after ops2 (after ops1 (W)))))))) (Proc.devRef .tc main_v123)
      = win (F := F) 0 1 (W (Proc.devRef .tc main_v0)) := by
  rw [skip ops8 W8 ops8_writes _ main_v123 (by decide),
    skip ops7 W7 ops7_writes _ main_v123 (by decide),
    skip ops6 W6 ops6_writes _ main_v123 (by decide),
    at_ ops5 W5 1 main_v2 main_v123 _ _ _ _ rfl rfl (by decide),
    skip_take ops5 W5 ops5_writes 1 _ main_v2 (by decide),
    skip ops4 W4 ops4_writes _ main_v2 (by decide),
    skip ops3 W3 ops3_writes _ main_v2 (by decide),
    skip ops2 W2 ops2_writes _ main_v2 (by decide),
    at_ ops1 W1 1 main_v0 main_v2 _ _ _ _ rfl rfl (by decide),
    skip_take ops1 W1 ops1_writes 1 _ main_v0 (by decide)]
  rfl

/-- After the slices and the unit-axis insertions, buffer 2 of the 121 holds the window at (0, 2). -/
theorem leafBC_2 (W : Valuation τ sig (Elt F)) :
    after ops8 (after ops7 (after ops6 (after ops5 (after ops4 (after ops3 (after ops2 (after ops1 (W)))))))) (Proc.devRef .tc main_v124)
      = win (F := F) 0 2 (W (Proc.devRef .tc main_v0)) := by
  rw [skip ops8 W8 ops8_writes _ main_v124 (by decide),
    skip ops7 W7 ops7_writes _ main_v124 (by decide),
    skip ops6 W6 ops6_writes _ main_v124 (by decide),
    at_ ops5 W5 2 main_v3 main_v124 _ _ _ _ rfl rfl (by decide),
    skip_take ops5 W5 ops5_writes 2 _ main_v3 (by decide),
    skip ops4 W4 ops4_writes _ main_v3 (by decide),
    skip ops3 W3 ops3_writes _ main_v3 (by decide),
    skip ops2 W2 ops2_writes _ main_v3 (by decide),
    at_ ops1 W1 2 main_v0 main_v3 _ _ _ _ rfl rfl (by decide),
    skip_take ops1 W1 ops1_writes 2 _ main_v0 (by decide)]
  rfl

/-- After the slices and the unit-axis insertions, buffer 3 of the 121 holds the window at (0, 3). -/
theorem leafBC_3 (W : Valuation τ sig (Elt F)) :
    after ops8 (after ops7 (after ops6 (after ops5 (after ops4 (after ops3 (after ops2 (after ops1 (W)))))))) (Proc.devRef .tc main_v125)
      = win (F := F) 0 3 (W (Proc.devRef .tc main_v0)) := by
  rw [skip ops8 W8 ops8_writes _ main_v125 (by decide),
    skip ops7 W7 ops7_writes _ main_v125 (by decide),
    skip ops6 W6 ops6_writes _ main_v125 (by decide),
    at_ ops5 W5 3 main_v4 main_v125 _ _ _ _ rfl rfl (by decide),
    skip_take ops5 W5 ops5_writes 3 _ main_v4 (by decide),
    skip ops4 W4 ops4_writes _ main_v4 (by decide),
    skip ops3 W3 ops3_writes _ main_v4 (by decide),
    skip ops2 W2 ops2_writes _ main_v4 (by decide),
    at_ ops1 W1 3 main_v0 main_v4 _ _ _ _ rfl rfl (by decide),
    skip_take ops1 W1 ops1_writes 3 _ main_v0 (by decide)]
  rfl

/-- After the slices and the unit-axis insertions, buffer 4 of the 121 holds the window at (0, 4). -/
theorem leafBC_4 (W : Valuation τ sig (Elt F)) :
    after ops8 (after ops7 (after ops6 (after ops5 (after ops4 (after ops3 (after ops2 (after ops1 (W)))))))) (Proc.devRef .tc main_v126)
      = win (F := F) 0 4 (W (Proc.devRef .tc main_v0)) := by
  rw [skip ops8 W8 ops8_writes _ main_v126 (by decide),
    skip ops7 W7 ops7_writes _ main_v126 (by decide),
    skip ops6 W6 ops6_writes _ main_v126 (by decide),
    at_ ops5 W5 4 main_v5 main_v126 _ _ _ _ rfl rfl (by decide),
    skip_take ops5 W5 ops5_writes 4 _ main_v5 (by decide),
    skip ops4 W4 ops4_writes _ main_v5 (by decide),
    skip ops3 W3 ops3_writes _ main_v5 (by decide),
    skip ops2 W2 ops2_writes _ main_v5 (by decide),
    at_ ops1 W1 4 main_v0 main_v5 _ _ _ _ rfl rfl (by decide),
    skip_take ops1 W1 ops1_writes 4 _ main_v0 (by decide)]
  rfl

/-- After the slices and the unit-axis insertions, buffer 5 of the 121 holds the window at (0, 5). -/
theorem leafBC_5 (W : Valuation τ sig (Elt F)) :
    after ops8 (after ops7 (after ops6 (after ops5 (after ops4 (after ops3 (after ops2 (after ops1 (W)))))))) (Proc.devRef .tc main_v127)
      = win (F := F) 0 5 (W (Proc.devRef .tc main_v0)) := by
  rw [skip ops8 W8 ops8_writes _ main_v127 (by decide),
    skip ops7 W7 ops7_writes _ main_v127 (by decide),
    skip ops6 W6 ops6_writes _ main_v127 (by decide),
    at_ ops5 W5 5 main_v6 main_v127 _ _ _ _ rfl rfl (by decide),
    skip_take ops5 W5 ops5_writes 5 _ main_v6 (by decide),
    skip ops4 W4 ops4_writes _ main_v6 (by decide),
    skip ops3 W3 ops3_writes _ main_v6 (by decide),
    skip ops2 W2 ops2_writes _ main_v6 (by decide),
    at_ ops1 W1 5 main_v0 main_v6 _ _ _ _ rfl rfl (by decide),
    skip_take ops1 W1 ops1_writes 5 _ main_v0 (by decide)]
  rfl

/-- After the slices and the unit-axis insertions, buffer 6 of the 121 holds the window at (0, 6). -/
theorem leafBC_6 (W : Valuation τ sig (Elt F)) :
    after ops8 (after ops7 (after ops6 (after ops5 (after ops4 (after ops3 (after ops2 (after ops1 (W)))))))) (Proc.devRef .tc main_v128)
      = win (F := F) 0 6 (W (Proc.devRef .tc main_v0)) := by
  rw [skip ops8 W8 ops8_writes _ main_v128 (by decide),
    skip ops7 W7 ops7_writes _ main_v128 (by decide),
    skip ops6 W6 ops6_writes _ main_v128 (by decide),
    at_ ops5 W5 6 main_v7 main_v128 _ _ _ _ rfl rfl (by decide),
    skip_take ops5 W5 ops5_writes 6 _ main_v7 (by decide),
    skip ops4 W4 ops4_writes _ main_v7 (by decide),
    skip ops3 W3 ops3_writes _ main_v7 (by decide),
    skip ops2 W2 ops2_writes _ main_v7 (by decide),
    at_ ops1 W1 6 main_v0 main_v7 _ _ _ _ rfl rfl (by decide),
    skip_take ops1 W1 ops1_writes 6 _ main_v0 (by decide)]
  rfl

/-- After the slices and the unit-axis insertions, buffer 7 of the 121 holds the window at (0, 7). -/
theorem leafBC_7 (W : Valuation τ sig (Elt F)) :
    after ops8 (after ops7 (after ops6 (after ops5 (after ops4 (after ops3 (after ops2 (after ops1 (W)))))))) (Proc.devRef .tc main_v129)
      = win (F := F) 0 7 (W (Proc.devRef .tc main_v0)) := by
  rw [skip ops8 W8 ops8_writes _ main_v129 (by decide),
    skip ops7 W7 ops7_writes _ main_v129 (by decide),
    skip ops6 W6 ops6_writes _ main_v129 (by decide),
    at_ ops5 W5 7 main_v8 main_v129 _ _ _ _ rfl rfl (by decide),
    skip_take ops5 W5 ops5_writes 7 _ main_v8 (by decide),
    skip ops4 W4 ops4_writes _ main_v8 (by decide),
    skip ops3 W3 ops3_writes _ main_v8 (by decide),
    skip ops2 W2 ops2_writes _ main_v8 (by decide),
    at_ ops1 W1 7 main_v0 main_v8 _ _ _ _ rfl rfl (by decide),
    skip_take ops1 W1 ops1_writes 7 _ main_v0 (by decide)]
  rfl

/-- After the slices and the unit-axis insertions, buffer 8 of the 121 holds the window at (0, 8). -/
theorem leafBC_8 (W : Valuation τ sig (Elt F)) :
    after ops8 (after ops7 (after ops6 (after ops5 (after ops4 (after ops3 (after ops2 (after ops1 (W)))))))) (Proc.devRef .tc main_v130)
      = win (F := F) 0 8 (W (Proc.devRef .tc main_v0)) := by
  rw [skip ops8 W8 ops8_writes _ main_v130 (by decide),
    skip ops7 W7 ops7_writes _ main_v130 (by decide),
    skip ops6 W6 ops6_writes _ main_v130 (by decide),
    at_ ops5 W5 8 main_v9 main_v130 _ _ _ _ rfl rfl (by decide),
    skip_take ops5 W5 ops5_writes 8 _ main_v9 (by decide),
    skip ops4 W4 ops4_writes _ main_v9 (by decide),
    skip ops3 W3 ops3_writes _ main_v9 (by decide),
    skip ops2 W2 ops2_writes _ main_v9 (by decide),
    at_ ops1 W1 8 main_v0 main_v9 _ _ _ _ rfl rfl (by decide),
    skip_take ops1 W1 ops1_writes 8 _ main_v0 (by decide)]
  rfl

/-- After the slices and the unit-axis insertions, buffer 9 of the 121 holds the window at (0, 9). -/
theorem leafBC_9 (W : Valuation τ sig (Elt F)) :
    after ops8 (after ops7 (after ops6 (after ops5 (after ops4 (after ops3 (after ops2 (after ops1 (W)))))))) (Proc.devRef .tc main_v131)
      = win (F := F) 0 9 (W (Proc.devRef .tc main_v0)) := by
  rw [skip ops8 W8 ops8_writes _ main_v131 (by decide),
    skip ops7 W7 ops7_writes _ main_v131 (by decide),
    skip ops6 W6 ops6_writes _ main_v131 (by decide),
    at_ ops5 W5 9 main_v10 main_v131 _ _ _ _ rfl rfl (by decide),
    skip_take ops5 W5 ops5_writes 9 _ main_v10 (by decide),
    skip ops4 W4 ops4_writes _ main_v10 (by decide),
    skip ops3 W3 ops3_writes _ main_v10 (by decide),
    skip ops2 W2 ops2_writes _ main_v10 (by decide),
    at_ ops1 W1 9 main_v0 main_v10 _ _ _ _ rfl rfl (by decide),
    skip_take ops1 W1 ops1_writes 9 _ main_v0 (by decide)]
  rfl

/-- After the slices and the unit-axis insertions, buffer 10 of the 121 holds the window at (0, 10). -/
theorem leafBC_10 (W : Valuation τ sig (Elt F)) :
    after ops8 (after ops7 (after ops6 (after ops5 (after ops4 (after ops3 (after ops2 (after ops1 (W)))))))) (Proc.devRef .tc main_v132)
      = win (F := F) 0 10 (W (Proc.devRef .tc main_v0)) := by
  rw [skip ops8 W8 ops8_writes _ main_v132 (by decide),
    skip ops7 W7 ops7_writes _ main_v132 (by decide),
    skip ops6 W6 ops6_writes _ main_v132 (by decide),
    at_ ops5 W5 10 main_v11 main_v132 _ _ _ _ rfl rfl (by decide),
    skip_take ops5 W5 ops5_writes 10 _ main_v11 (by decide),
    skip ops4 W4 ops4_writes _ main_v11 (by decide),
    skip ops3 W3 ops3_writes _ main_v11 (by decide),
    skip ops2 W2 ops2_writes _ main_v11 (by decide),
    at_ ops1 W1 10 main_v0 main_v11 _ _ _ _ rfl rfl (by decide),
    skip_take ops1 W1 ops1_writes 10 _ main_v0 (by decide)]
  rfl

/-- After the slices and the unit-axis insertions, buffer 11 of the 121 holds the window at (1, 0). -/
theorem leafBC_11 (W : Valuation τ sig (Elt F)) :
    after ops8 (after ops7 (after ops6 (after ops5 (after ops4 (after ops3 (after ops2 (after ops1 (W)))))))) (Proc.devRef .tc main_v133)
      = win (F := F) 1 0 (W (Proc.devRef .tc main_v0)) := by
  rw [skip ops8 W8 ops8_writes _ main_v133 (by decide),
    skip ops7 W7 ops7_writes _ main_v133 (by decide),
    skip ops6 W6 ops6_writes _ main_v133 (by decide),
    at_ ops5 W5 11 main_v12 main_v133 _ _ _ _ rfl rfl (by decide),
    skip_take ops5 W5 ops5_writes 11 _ main_v12 (by decide),
    skip ops4 W4 ops4_writes _ main_v12 (by decide),
    skip ops3 W3 ops3_writes _ main_v12 (by decide),
    skip ops2 W2 ops2_writes _ main_v12 (by decide),
    at_ ops1 W1 11 main_v0 main_v12 _ _ _ _ rfl rfl (by decide),
    skip_take ops1 W1 ops1_writes 11 _ main_v0 (by decide)]
  rfl

/-- After the slices and the unit-axis insertions, buffer 12 of the 121 holds the window at (1, 1). -/
theorem leafBC_12 (W : Valuation τ sig (Elt F)) :
    after ops8 (after ops7 (after ops6 (after ops5 (after ops4 (after ops3 (after ops2 (after ops1 (W)))))))) (Proc.devRef .tc main_v134)
      = win (F := F) 1 1 (W (Proc.devRef .tc main_v0)) := by
  rw [skip ops8 W8 ops8_writes _ main_v134 (by decide),
    skip ops7 W7 ops7_writes _ main_v134 (by decide),
    skip ops6 W6 ops6_writes _ main_v134 (by decide),
    at_ ops5 W5 12 main_v13 main_v134 _ _ _ _ rfl rfl (by decide),
    skip_take ops5 W5 ops5_writes 12 _ main_v13 (by decide),
    skip ops4 W4 ops4_writes _ main_v13 (by decide),
    skip ops3 W3 ops3_writes _ main_v13 (by decide),
    skip ops2 W2 ops2_writes _ main_v13 (by decide),
    at_ ops1 W1 12 main_v0 main_v13 _ _ _ _ rfl rfl (by decide),
    skip_take ops1 W1 ops1_writes 12 _ main_v0 (by decide)]
  rfl

/-- After the slices and the unit-axis insertions, buffer 13 of the 121 holds the window at (1, 2). -/
theorem leafBC_13 (W : Valuation τ sig (Elt F)) :
    after ops8 (after ops7 (after ops6 (after ops5 (after ops4 (after ops3 (after ops2 (after ops1 (W)))))))) (Proc.devRef .tc main_v135)
      = win (F := F) 1 2 (W (Proc.devRef .tc main_v0)) := by
  rw [skip ops8 W8 ops8_writes _ main_v135 (by decide),
    skip ops7 W7 ops7_writes _ main_v135 (by decide),
    skip ops6 W6 ops6_writes _ main_v135 (by decide),
    at_ ops5 W5 13 main_v14 main_v135 _ _ _ _ rfl rfl (by decide),
    skip_take ops5 W5 ops5_writes 13 _ main_v14 (by decide),
    skip ops4 W4 ops4_writes _ main_v14 (by decide),
    skip ops3 W3 ops3_writes _ main_v14 (by decide),
    skip ops2 W2 ops2_writes _ main_v14 (by decide),
    at_ ops1 W1 13 main_v0 main_v14 _ _ _ _ rfl rfl (by decide),
    skip_take ops1 W1 ops1_writes 13 _ main_v0 (by decide)]
  rfl

/-- After the slices and the unit-axis insertions, buffer 14 of the 121 holds the window at (1, 3). -/
theorem leafBC_14 (W : Valuation τ sig (Elt F)) :
    after ops8 (after ops7 (after ops6 (after ops5 (after ops4 (after ops3 (after ops2 (after ops1 (W)))))))) (Proc.devRef .tc main_v136)
      = win (F := F) 1 3 (W (Proc.devRef .tc main_v0)) := by
  rw [skip ops8 W8 ops8_writes _ main_v136 (by decide),
    skip ops7 W7 ops7_writes _ main_v136 (by decide),
    skip ops6 W6 ops6_writes _ main_v136 (by decide),
    at_ ops5 W5 14 main_v15 main_v136 _ _ _ _ rfl rfl (by decide),
    skip_take ops5 W5 ops5_writes 14 _ main_v15 (by decide),
    skip ops4 W4 ops4_writes _ main_v15 (by decide),
    skip ops3 W3 ops3_writes _ main_v15 (by decide),
    skip ops2 W2 ops2_writes _ main_v15 (by decide),
    at_ ops1 W1 14 main_v0 main_v15 _ _ _ _ rfl rfl (by decide),
    skip_take ops1 W1 ops1_writes 14 _ main_v0 (by decide)]
  rfl

/-- After the slices and the unit-axis insertions, buffer 15 of the 121 holds the window at (1, 4). -/
theorem leafBC_15 (W : Valuation τ sig (Elt F)) :
    after ops8 (after ops7 (after ops6 (after ops5 (after ops4 (after ops3 (after ops2 (after ops1 (W)))))))) (Proc.devRef .tc main_v137)
      = win (F := F) 1 4 (W (Proc.devRef .tc main_v0)) := by
  rw [skip ops8 W8 ops8_writes _ main_v137 (by decide),
    skip ops7 W7 ops7_writes _ main_v137 (by decide),
    skip ops6 W6 ops6_writes _ main_v137 (by decide),
    at_ ops5 W5 15 main_v16 main_v137 _ _ _ _ rfl rfl (by decide),
    skip_take ops5 W5 ops5_writes 15 _ main_v16 (by decide),
    skip ops4 W4 ops4_writes _ main_v16 (by decide),
    skip ops3 W3 ops3_writes _ main_v16 (by decide),
    skip ops2 W2 ops2_writes _ main_v16 (by decide),
    at_ ops1 W1 15 main_v0 main_v16 _ _ _ _ rfl rfl (by decide),
    skip_take ops1 W1 ops1_writes 15 _ main_v0 (by decide)]
  rfl

/-- After the slices and the unit-axis insertions, buffer 16 of the 121 holds the window at (1, 5). -/
theorem leafBC_16 (W : Valuation τ sig (Elt F)) :
    after ops8 (after ops7 (after ops6 (after ops5 (after ops4 (after ops3 (after ops2 (after ops1 (W)))))))) (Proc.devRef .tc main_v138)
      = win (F := F) 1 5 (W (Proc.devRef .tc main_v0)) := by
  rw [skip ops8 W8 ops8_writes _ main_v138 (by decide),
    skip ops7 W7 ops7_writes _ main_v138 (by decide),
    skip ops6 W6 ops6_writes _ main_v138 (by decide),
    at_ ops5 W5 16 main_v17 main_v138 _ _ _ _ rfl rfl (by decide),
    skip_take ops5 W5 ops5_writes 16 _ main_v17 (by decide),
    skip ops4 W4 ops4_writes _ main_v17 (by decide),
    skip ops3 W3 ops3_writes _ main_v17 (by decide),
    skip ops2 W2 ops2_writes _ main_v17 (by decide),
    at_ ops1 W1 16 main_v0 main_v17 _ _ _ _ rfl rfl (by decide),
    skip_take ops1 W1 ops1_writes 16 _ main_v0 (by decide)]
  rfl

/-- After the slices and the unit-axis insertions, buffer 17 of the 121 holds the window at (1, 6). -/
theorem leafBC_17 (W : Valuation τ sig (Elt F)) :
    after ops8 (after ops7 (after ops6 (after ops5 (after ops4 (after ops3 (after ops2 (after ops1 (W)))))))) (Proc.devRef .tc main_v139)
      = win (F := F) 1 6 (W (Proc.devRef .tc main_v0)) := by
  rw [skip ops8 W8 ops8_writes _ main_v139 (by decide),
    skip ops7 W7 ops7_writes _ main_v139 (by decide),
    skip ops6 W6 ops6_writes _ main_v139 (by decide),
    at_ ops5 W5 17 main_v18 main_v139 _ _ _ _ rfl rfl (by decide),
    skip_take ops5 W5 ops5_writes 17 _ main_v18 (by decide),
    skip ops4 W4 ops4_writes _ main_v18 (by decide),
    skip ops3 W3 ops3_writes _ main_v18 (by decide),
    skip ops2 W2 ops2_writes _ main_v18 (by decide),
    at_ ops1 W1 17 main_v0 main_v18 _ _ _ _ rfl rfl (by decide),
    skip_take ops1 W1 ops1_writes 17 _ main_v0 (by decide)]
  rfl

/-- After the slices and the unit-axis insertions, buffer 18 of the 121 holds the window at (1, 7). -/
theorem leafBC_18 (W : Valuation τ sig (Elt F)) :
    after ops8 (after ops7 (after ops6 (after ops5 (after ops4 (after ops3 (after ops2 (after ops1 (W)))))))) (Proc.devRef .tc main_v140)
      = win (F := F) 1 7 (W (Proc.devRef .tc main_v0)) := by
  rw [skip ops8 W8 ops8_writes _ main_v140 (by decide),
    skip ops7 W7 ops7_writes _ main_v140 (by decide),
    skip ops6 W6 ops6_writes _ main_v140 (by decide),
    at_ ops5 W5 18 main_v19 main_v140 _ _ _ _ rfl rfl (by decide),
    skip_take ops5 W5 ops5_writes 18 _ main_v19 (by decide),
    skip ops4 W4 ops4_writes _ main_v19 (by decide),
    skip ops3 W3 ops3_writes _ main_v19 (by decide),
    skip ops2 W2 ops2_writes _ main_v19 (by decide),
    at_ ops1 W1 18 main_v0 main_v19 _ _ _ _ rfl rfl (by decide),
    skip_take ops1 W1 ops1_writes 18 _ main_v0 (by decide)]
  rfl

/-- After the slices and the unit-axis insertions, buffer 19 of the 121 holds the window at (1, 8). -/
theorem leafBC_19 (W : Valuation τ sig (Elt F)) :
    after ops8 (after ops7 (after ops6 (after ops5 (after ops4 (after ops3 (after ops2 (after ops1 (W)))))))) (Proc.devRef .tc main_v141)
      = win (F := F) 1 8 (W (Proc.devRef .tc main_v0)) := by
  rw [skip ops8 W8 ops8_writes _ main_v141 (by decide),
    skip ops7 W7 ops7_writes _ main_v141 (by decide),
    skip ops6 W6 ops6_writes _ main_v141 (by decide),
    at_ ops5 W5 19 main_v20 main_v141 _ _ _ _ rfl rfl (by decide),
    skip_take ops5 W5 ops5_writes 19 _ main_v20 (by decide),
    skip ops4 W4 ops4_writes _ main_v20 (by decide),
    skip ops3 W3 ops3_writes _ main_v20 (by decide),
    skip ops2 W2 ops2_writes _ main_v20 (by decide),
    at_ ops1 W1 19 main_v0 main_v20 _ _ _ _ rfl rfl (by decide),
    skip_take ops1 W1 ops1_writes 19 _ main_v0 (by decide)]
  rfl

/-- After the slices and the unit-axis insertions, buffer 20 of the 121 holds the window at (1, 9). -/
theorem leafBC_20 (W : Valuation τ sig (Elt F)) :
    after ops8 (after ops7 (after ops6 (after ops5 (after ops4 (after ops3 (after ops2 (after ops1 (W)))))))) (Proc.devRef .tc main_v142)
      = win (F := F) 1 9 (W (Proc.devRef .tc main_v0)) := by
  rw [skip ops8 W8 ops8_writes _ main_v142 (by decide),
    skip ops7 W7 ops7_writes _ main_v142 (by decide),
    skip ops6 W6 ops6_writes _ main_v142 (by decide),
    at_ ops5 W5 20 main_v21 main_v142 _ _ _ _ rfl rfl (by decide),
    skip_take ops5 W5 ops5_writes 20 _ main_v21 (by decide),
    skip ops4 W4 ops4_writes _ main_v21 (by decide),
    skip ops3 W3 ops3_writes _ main_v21 (by decide),
    skip ops2 W2 ops2_writes _ main_v21 (by decide),
    at_ ops1 W1 20 main_v0 main_v21 _ _ _ _ rfl rfl (by decide),
    skip_take ops1 W1 ops1_writes 20 _ main_v0 (by decide)]
  rfl

/-- After the slices and the unit-axis insertions, buffer 21 of the 121 holds the window at (1, 10). -/
theorem leafBC_21 (W : Valuation τ sig (Elt F)) :
    after ops8 (after ops7 (after ops6 (after ops5 (after ops4 (after ops3 (after ops2 (after ops1 (W)))))))) (Proc.devRef .tc main_v143)
      = win (F := F) 1 10 (W (Proc.devRef .tc main_v0)) := by
  rw [skip ops8 W8 ops8_writes _ main_v143 (by decide),
    skip ops7 W7 ops7_writes _ main_v143 (by decide),
    skip ops6 W6 ops6_writes _ main_v143 (by decide),
    at_ ops5 W5 21 main_v22 main_v143 _ _ _ _ rfl rfl (by decide),
    skip_take ops5 W5 ops5_writes 21 _ main_v22 (by decide),
    skip ops4 W4 ops4_writes _ main_v22 (by decide),
    skip ops3 W3 ops3_writes _ main_v22 (by decide),
    skip ops2 W2 ops2_writes _ main_v22 (by decide),
    at_ ops1 W1 21 main_v0 main_v22 _ _ _ _ rfl rfl (by decide),
    skip_take ops1 W1 ops1_writes 21 _ main_v0 (by decide)]
  rfl

/-- After the slices and the unit-axis insertions, buffer 22 of the 121 holds the window at (2, 0). -/
theorem leafBC_22 (W : Valuation τ sig (Elt F)) :
    after ops8 (after ops7 (after ops6 (after ops5 (after ops4 (after ops3 (after ops2 (after ops1 (W)))))))) (Proc.devRef .tc main_v144)
      = win (F := F) 2 0 (W (Proc.devRef .tc main_v0)) := by
  rw [skip ops8 W8 ops8_writes _ main_v144 (by decide),
    skip ops7 W7 ops7_writes _ main_v144 (by decide),
    skip ops6 W6 ops6_writes _ main_v144 (by decide),
    at_ ops5 W5 22 main_v23 main_v144 _ _ _ _ rfl rfl (by decide),
    skip_take ops5 W5 ops5_writes 22 _ main_v23 (by decide),
    skip ops4 W4 ops4_writes _ main_v23 (by decide),
    skip ops3 W3 ops3_writes _ main_v23 (by decide),
    skip ops2 W2 ops2_writes _ main_v23 (by decide),
    at_ ops1 W1 22 main_v0 main_v23 _ _ _ _ rfl rfl (by decide),
    skip_take ops1 W1 ops1_writes 22 _ main_v0 (by decide)]
  rfl

/-- After the slices and the unit-axis insertions, buffer 23 of the 121 holds the window at (2, 1). -/
theorem leafBC_23 (W : Valuation τ sig (Elt F)) :
    after ops8 (after ops7 (after ops6 (after ops5 (after ops4 (after ops3 (after ops2 (after ops1 (W)))))))) (Proc.devRef .tc main_v145)
      = win (F := F) 2 1 (W (Proc.devRef .tc main_v0)) := by
  rw [skip ops8 W8 ops8_writes _ main_v145 (by decide),
    skip ops7 W7 ops7_writes _ main_v145 (by decide),
    skip ops6 W6 ops6_writes _ main_v145 (by decide),
    at_ ops5 W5 23 main_v24 main_v145 _ _ _ _ rfl rfl (by decide),
    skip_take ops5 W5 ops5_writes 23 _ main_v24 (by decide),
    skip ops4 W4 ops4_writes _ main_v24 (by decide),
    skip ops3 W3 ops3_writes _ main_v24 (by decide),
    skip ops2 W2 ops2_writes _ main_v24 (by decide),
    at_ ops1 W1 23 main_v0 main_v24 _ _ _ _ rfl rfl (by decide),
    skip_take ops1 W1 ops1_writes 23 _ main_v0 (by decide)]
  rfl

/-- After the slices and the unit-axis insertions, buffer 24 of the 121 holds the window at (2, 2). -/
theorem leafBC_24 (W : Valuation τ sig (Elt F)) :
    after ops8 (after ops7 (after ops6 (after ops5 (after ops4 (after ops3 (after ops2 (after ops1 (W)))))))) (Proc.devRef .tc main_v146)
      = win (F := F) 2 2 (W (Proc.devRef .tc main_v0)) := by
  rw [skip ops8 W8 ops8_writes _ main_v146 (by decide),
    skip ops7 W7 ops7_writes _ main_v146 (by decide),
    skip ops6 W6 ops6_writes _ main_v146 (by decide),
    at_ ops5 W5 24 main_v25 main_v146 _ _ _ _ rfl rfl (by decide),
    skip_take ops5 W5 ops5_writes 24 _ main_v25 (by decide),
    skip ops4 W4 ops4_writes _ main_v25 (by decide),
    skip ops3 W3 ops3_writes _ main_v25 (by decide),
    skip ops2 W2 ops2_writes _ main_v25 (by decide),
    at_ ops1 W1 24 main_v0 main_v25 _ _ _ _ rfl rfl (by decide),
    skip_take ops1 W1 ops1_writes 24 _ main_v0 (by decide)]
  rfl

/-- After the slices and the unit-axis insertions, buffer 25 of the 121 holds the window at (2, 3). -/
theorem leafBC_25 (W : Valuation τ sig (Elt F)) :
    after ops8 (after ops7 (after ops6 (after ops5 (after ops4 (after ops3 (after ops2 (after ops1 (W)))))))) (Proc.devRef .tc main_v147)
      = win (F := F) 2 3 (W (Proc.devRef .tc main_v0)) := by
  rw [skip ops8 W8 ops8_writes _ main_v147 (by decide),
    skip ops7 W7 ops7_writes _ main_v147 (by decide),
    skip ops6 W6 ops6_writes _ main_v147 (by decide),
    at_ ops5 W5 25 main_v26 main_v147 _ _ _ _ rfl rfl (by decide),
    skip_take ops5 W5 ops5_writes 25 _ main_v26 (by decide),
    skip ops4 W4 ops4_writes _ main_v26 (by decide),
    skip ops3 W3 ops3_writes _ main_v26 (by decide),
    skip ops2 W2 ops2_writes _ main_v26 (by decide),
    at_ ops1 W1 25 main_v0 main_v26 _ _ _ _ rfl rfl (by decide),
    skip_take ops1 W1 ops1_writes 25 _ main_v0 (by decide)]
  rfl

/-- After the slices and the unit-axis insertions, buffer 26 of the 121 holds the window at (2, 4). -/
theorem leafBC_26 (W : Valuation τ sig (Elt F)) :
    after ops8 (after ops7 (after ops6 (after ops5 (after ops4 (after ops3 (after ops2 (after ops1 (W)))))))) (Proc.devRef .tc main_v148)
      = win (F := F) 2 4 (W (Proc.devRef .tc main_v0)) := by
  rw [skip ops8 W8 ops8_writes _ main_v148 (by decide),
    skip ops7 W7 ops7_writes _ main_v148 (by decide),
    skip ops6 W6 ops6_writes _ main_v148 (by decide),
    at_ ops5 W5 26 main_v27 main_v148 _ _ _ _ rfl rfl (by decide),
    skip_take ops5 W5 ops5_writes 26 _ main_v27 (by decide),
    skip ops4 W4 ops4_writes _ main_v27 (by decide),
    skip ops3 W3 ops3_writes _ main_v27 (by decide),
    skip ops2 W2 ops2_writes _ main_v27 (by decide),
    at_ ops1 W1 26 main_v0 main_v27 _ _ _ _ rfl rfl (by decide),
    skip_take ops1 W1 ops1_writes 26 _ main_v0 (by decide)]
  rfl

/-- After the slices and the unit-axis insertions, buffer 27 of the 121 holds the window at (2, 5). -/
theorem leafBC_27 (W : Valuation τ sig (Elt F)) :
    after ops8 (after ops7 (after ops6 (after ops5 (after ops4 (after ops3 (after ops2 (after ops1 (W)))))))) (Proc.devRef .tc main_v149)
      = win (F := F) 2 5 (W (Proc.devRef .tc main_v0)) := by
  rw [skip ops8 W8 ops8_writes _ main_v149 (by decide),
    skip ops7 W7 ops7_writes _ main_v149 (by decide),
    skip ops6 W6 ops6_writes _ main_v149 (by decide),
    at_ ops5 W5 27 main_v28 main_v149 _ _ _ _ rfl rfl (by decide),
    skip_take ops5 W5 ops5_writes 27 _ main_v28 (by decide),
    skip ops4 W4 ops4_writes _ main_v28 (by decide),
    skip ops3 W3 ops3_writes _ main_v28 (by decide),
    skip ops2 W2 ops2_writes _ main_v28 (by decide),
    at_ ops1 W1 27 main_v0 main_v28 _ _ _ _ rfl rfl (by decide),
    skip_take ops1 W1 ops1_writes 27 _ main_v0 (by decide)]
  rfl

/-- After the slices and the unit-axis insertions, buffer 28 of the 121 holds the window at (2, 6). -/
theorem leafBC_28 (W : Valuation τ sig (Elt F)) :
    after ops8 (after ops7 (after ops6 (after ops5 (after ops4 (after ops3 (after ops2 (after ops1 (W)))))))) (Proc.devRef .tc main_v150)
      = win (F := F) 2 6 (W (Proc.devRef .tc main_v0)) := by
  rw [skip ops8 W8 ops8_writes _ main_v150 (by decide),
    skip ops7 W7 ops7_writes _ main_v150 (by decide),
    skip ops6 W6 ops6_writes _ main_v150 (by decide),
    at_ ops5 W5 28 main_v29 main_v150 _ _ _ _ rfl rfl (by decide),
    skip_take ops5 W5 ops5_writes 28 _ main_v29 (by decide),
    skip ops4 W4 ops4_writes _ main_v29 (by decide),
    skip ops3 W3 ops3_writes _ main_v29 (by decide),
    skip ops2 W2 ops2_writes _ main_v29 (by decide),
    at_ ops1 W1 28 main_v0 main_v29 _ _ _ _ rfl rfl (by decide),
    skip_take ops1 W1 ops1_writes 28 _ main_v0 (by decide)]
  rfl

/-- After the slices and the unit-axis insertions, buffer 29 of the 121 holds the window at (2, 7). -/
theorem leafBC_29 (W : Valuation τ sig (Elt F)) :
    after ops8 (after ops7 (after ops6 (after ops5 (after ops4 (after ops3 (after ops2 (after ops1 (W)))))))) (Proc.devRef .tc main_v151)
      = win (F := F) 2 7 (W (Proc.devRef .tc main_v0)) := by
  rw [skip ops8 W8 ops8_writes _ main_v151 (by decide),
    skip ops7 W7 ops7_writes _ main_v151 (by decide),
    skip ops6 W6 ops6_writes _ main_v151 (by decide),
    at_ ops5 W5 29 main_v30 main_v151 _ _ _ _ rfl rfl (by decide),
    skip_take ops5 W5 ops5_writes 29 _ main_v30 (by decide),
    skip ops4 W4 ops4_writes _ main_v30 (by decide),
    skip ops3 W3 ops3_writes _ main_v30 (by decide),
    skip ops2 W2 ops2_writes _ main_v30 (by decide),
    at_ ops1 W1 29 main_v0 main_v30 _ _ _ _ rfl rfl (by decide),
    skip_take ops1 W1 ops1_writes 29 _ main_v0 (by decide)]
  rfl

/-- After the slices and the unit-axis insertions, buffer 30 of the 121 holds the window at (2, 8). -/
theorem leafBC_30 (W : Valuation τ sig (Elt F)) :
    after ops8 (after ops7 (after ops6 (after ops5 (after ops4 (after ops3 (after ops2 (after ops1 (W)))))))) (Proc.devRef .tc main_v152)
      = win (F := F) 2 8 (W (Proc.devRef .tc main_v0)) := by
  rw [skip ops8 W8 ops8_writes _ main_v152 (by decide),
    skip ops7 W7 ops7_writes _ main_v152 (by decide),
    skip ops6 W6 ops6_writes _ main_v152 (by decide),
    at_ ops5 W5 30 main_v31 main_v152 _ _ _ _ rfl rfl (by decide),
    skip_take ops5 W5 ops5_writes 30 _ main_v31 (by decide),
    skip ops4 W4 ops4_writes _ main_v31 (by decide),
    skip ops3 W3 ops3_writes _ main_v31 (by decide),
    skip ops2 W2 ops2_writes _ main_v31 (by decide),
    at_ ops1 W1 30 main_v0 main_v31 _ _ _ _ rfl rfl (by decide),
    skip_take ops1 W1 ops1_writes 30 _ main_v0 (by decide)]
  rfl

end Cert.ReferenceIdeal.RefValue

end
-- ==== Proof.RefLeaves2.lean ====
/-
  What the slices and the unit-axis insertions leave in the buffers the concatenations read, buffers 31 to 61:
  the `k`-th holds the window of the padded image at `(k / 11, k % 11)`, a unit axis inserted. Each buffer is written by
  one insertion, which reads the buffer one slice wrote; no other operation of these stretches writes either.
-/
import proofs.«140256_j85203561218656_2_alg».proof.Proof.RefOps
import proofs.«140256_j85203561218656_2_alg».proof.Proof.RefTerm
import proofs.«140256_j85203561218656_2_alg».proof.Proof.RefLeafLib

noncomputable section

namespace Cert.ReferenceIdeal.RefValue

open Cert.ReferenceIdeal Cert.ReferenceIdeal.Gen Cert.ReferenceIdeal.RunH Idealize.ShloMosaic Idealize.ShloMosaic.TcCoe Idealize.SL.Sem Idealize.ShloMosaic.StableHlo
  Idealize.ShloMosaic.ValueIdx Cert.ReferenceIdeal.Leaf

variable {F : FTy → Type} [FloatOps F]

/-- After the slices and the unit-axis insertions, buffer 31 of the 121 holds the window at (2, 9). -/
theorem leafBC_31 (W : Valuation τ sig (Elt F)) :
    after ops8 (after ops7 (after ops6 (after ops5 (after ops4 (after ops3 (after ops2 (after ops1 (W)))))))) (Proc.devRef .tc main_v153)
      = win (F := F) 2 9 (W (Proc.devRef .tc main_v0)) := by
  rw [skip ops8 W8 ops8_writes _ main_v153 (by decide),
    skip ops7 W7 ops7_writes _ main_v153 (by decide),
    at_ ops6 W6 0 main_v32 main_v153 _ _ _ _ rfl rfl (by decide),
    skip_take ops6 W6 ops6_writes 0 _ main_v32 (by decide),
    skip ops5 W5 ops5_writes _ main_v32 (by decide),
    skip ops4 W4 ops4_writes _ main_v32 (by decide),
    skip ops3 W3 ops3_writes _ main_v32 (by decide),
    at_ ops2 W2 0 main_v0 main_v32 _ _ _ _ rfl rfl (by decide),
    skip_take ops2 W2 ops2_writes 0 _ main_v0 (by decide),
    skip ops1 W1 ops1_writes _ main_v0 (by decide)]
  rfl

/-- After the slices and the unit-axis insertions, buffer 32 of the 121 holds the window at (2, 10). -/
theorem leafBC_32 (W : Valuation τ sig (Elt F)) :
    after ops8 (after ops7 (after ops6 (after ops5 (after ops4 (after ops3 (after ops2 (after ops1 (W)))))))) (Proc.devRef .tc main_v154)
      = win (F := F) 2 10 (W (Proc.devRef .tc main_v0)) := by
  rw [skip ops8 W8 ops8_writes _ main_v154 (by decide),
    skip ops7 W7 ops7_writes _ main_v154 (by decide),
    at_ ops6 W6 1 main_v33 main_v154 _ _ _ _ rfl rfl (by decide),
    skip_take ops6 W6 ops6_writes 1 _ main_v33 (by decide),
    skip ops5 W5 ops5_writes _ main_v33 (by decide),
    skip ops4 W4 ops4_writes _ main_v33 (by decide),
    skip ops3 W3 ops3_writes _ main_v33 (by decide),
    at_ ops2 W2 1 main_v0 main_v33 _ _ _ _ rfl rfl (by decide),
    skip_take ops2 W2 ops2_writes 1 _ main_v0 (by decide),
    skip ops1 W1 ops1_writes _ main_v0 (by decide)]
  rfl

/-- After the slices and the unit-axis insertions, buffer 33 of the 121 holds the window at (3, 0). -/
theorem leafBC_33 (W : Valuation τ sig (Elt F)) :
    after ops8 (after ops7 (after ops6 (after ops5 (after ops4 (after ops3 (after ops2 (after ops1 (W)))))))) (Proc.devRef .tc main_v155)
      = win (F := F) 3 0 (W (Proc.devRef .tc main_v0)) := by
  rw [skip ops8 W8 ops8_writes _ main_v155 (by decide),
    skip ops7 W7 ops7_writes _ main_v155 (by decide),
    at_ ops6 W6 2 main_v34 main_v155 _ _ _ _ rfl rfl (by decide),
    skip_take ops6 W6 ops6_writes 2 _ main_v34 (by decide),
    skip ops5 W5 ops5_writes _ main_v34 (by decide),
    skip ops4 W4 ops4_writes _ main_v34 (by decide),
    skip ops3 W3 ops3_writes _ main_v34 (by decide),
    at_ ops2 W2 2 main_v0 main_v34 _ _ _ _ rfl rfl (by decide),
    skip_take ops2 W2 ops2_writes 2 _ main_v0 (by decide),
    skip ops1 W1 ops1_writes _ main_v0 (by decide)]
  rfl

/-- After the slices and the unit-axis insertions, buffer 34 of the 121 holds the window at (3, 1). -/
theorem leafBC_34 (W : Valuation τ sig (Elt F)) :
    after ops8 (after ops7 (after ops6 (after ops5 (after ops4 (after ops3 (after ops2 (after ops1 (W)))))))) (Proc.devRef .tc main_v156)
      = win (F := F) 3 1 (W (Proc.devRef .tc main_v0)) := by
  rw [skip ops8 W8 ops8_writes _ main_v156 (by decide),
    skip ops7 W7 ops7_writes _ main_v156 (by decide),
    at_ ops6 W6 3 main_v35 main_v156 _ _ _ _ rfl rfl (by decide),
    skip_take ops6 W6 ops6_writes 3 _ main_v35 (by decide),
    skip ops5 W5 ops5_writes _ main_v35 (by decide),
    skip ops4 W4 ops4_writes _ main_v35 (by decide),
    skip ops3 W3 ops3_writes _ main_v35 (by decide),
    at_ ops2 W2 3 main_v0 main_v35 _ _ _ _ rfl rfl (by decide),
    skip_take ops2 W2 ops2_writes 3 _ main_v0 (by decide),
    skip ops1 W1 ops1_writes _ main_v0 (by decide)]
  rfl

/-- After the slices and the unit-axis insertions, buffer 35 of the 121 holds the window at (3, 2). -/
theorem leafBC_35 (W : Valuation τ sig (Elt F)) :
    after ops8 (after ops7 (after ops6 (after ops5 (after ops4 (after ops3 (after ops2 (after ops1 (W)))))))) (Proc.devRef .tc main_v157)
      = win (F := F) 3 2 (W (Proc.devRef .tc main_v0)) := by
  rw [skip ops8 W8 ops8_writes _ main_v157 (by decide),
    skip ops7 W7 ops7_writes _ main_v157 (by decide),
    at_ ops6 W6 4 main_v36 main_v157 _ _ _ _ rfl rfl (by decide),
    skip_take ops6 W6 ops6_writes 4 _ main_v36 (by decide),
    skip ops5 W5 ops5_writes _ main_v36 (by decide),
    skip ops4 W4 ops4_writes _ main_v36 (by decide),
    skip ops3 W3 ops3_writes _ main_v36 (by decide),
    at_ ops2 W2 4 main_v0 main_v36 _ _ _ _ rfl rfl (by decide),
    skip_take ops2 W2 ops2_writes 4 _ main_v0 (by decide),
    skip ops1 W1 ops1_writes _ main_v0 (by decide)]
  rfl

/-- After the slices and the unit-axis insertions, buffer 36 of the 121 holds the window at (3, 3). -/
theorem leafBC_36 (W : Valuation τ sig (Elt F)) :
    after ops8 (after ops7 (after ops6 (after ops5 (after ops4 (after ops3 (after ops2 (after ops1 (W)))))))) (Proc.devRef .tc main_v158)
      = win (F := F) 3 3 (W (Proc.devRef .tc main_v0)) := by
  rw [skip ops8 W8 ops8_writes _ main_v158 (by decide),
    skip ops7 W7 ops7_writes _ main_v158 (by decide),
    at_ ops6 W6 5 main_v37 main_v158 _ _ _ _ rfl rfl (by decide),
    skip_take ops6 W6 ops6_writes 5 _ main_v37 (by decide),
    skip ops5 W5 ops5_writes _ main_v37 (by decide),
    skip ops4 W4 ops4_writes _ main_v37 (by decide),
    skip ops3 W3 ops3_writes _ main_v37 (by decide),
    at_ ops2 W2 5 main_v0 main_v37 _ _ _ _ rfl rfl (by decide),
    skip_take ops2 W2 ops2_writes 5 _ main_v0 (by decide),
    skip ops1 W1 ops1_writes _ main_v0 (by decide)]
  rfl

/-- After the slices and the unit-axis insertions, buffer 37 of the 121 holds the window at (3, 4). -/
theorem leafBC_37 (W : Valuation τ sig (Elt F)) :
    after ops8 (after ops7 (after ops6 (after ops5 (after ops4 (after ops3 (after ops2 (after ops1 (W)))))))) (Proc.devRef .tc main_v159)
      = win (F := F) 3 4 (W (Proc.devRef .tc main_v0)) := by
  rw [skip ops8 W8 ops8_writes _ main_v159 (by decide),
    skip ops7 W7 ops7_writes _ main_v159 (by decide),
    at_ ops6 W6 6 main_v38 main_v159 _ _ _ _ rfl rfl (by decide),
    skip_take ops6 W6 ops6_writes 6 _ main_v38 (by decide),
    skip ops5 W5 ops5_writes _ main_v38 (by decide),
    skip ops4 W4 ops4_writes _ main_v38 (by decide),
    skip ops3 W3 ops3_writes _ main_v38 (by decide),
    at_ ops2 W2 6 main_v0 main_v38 _ _ _ _ rfl rfl (by decide),
    skip_take ops2 W2 ops2_writes 6 _ main_v0 (by decide),
    skip ops1 W1 ops1_writes _ main_v0 (by decide)]
  rfl

/-- After the slices and the unit-axis insertions, buffer 38 of the 121 holds the window at (3, 5). -/
theorem leafBC_38 (W : Valuation τ sig (Elt F)) :
    after ops8 (after ops7 (after ops6 (after ops5 (after ops4 (after ops3 (after ops2 (after ops1 (W)))))))) (Proc.devRef .tc main_v160)
      = win (F := F) 3 5 (W (Proc.devRef .tc main_v0)) := by
  rw [skip ops8 W8 ops8_writes _ main_v160 (by decide),
    skip ops7 W7 ops7_writes _ main_v160 (by decide),
    at_ ops6 W6 7 main_v39 main_v160 _ _ _ _ rfl rfl (by decide),
    skip_take ops6 W6 ops6_writes 7 _ main_v39 (by decide),
    skip ops5 W5 ops5_writes _ main_v39 (by decide),
    skip ops4 W4 ops4_writes _ main_v39 (by decide),
    skip ops3 W3 ops3_writes _ main_v39 (by decide),
    at_ ops2 W2 7 main_v0 main_v39 _ _ _ _ rfl rfl (by decide),
    skip_take ops2 W2 ops2_writes 7 _ main_v0 (by decide),
    skip ops1 W1 ops1_writes _ main_v0 (by decide)]
  rfl

/-- After the slices and the unit-axis insertions, buffer 39 of the 121 holds the window at (3, 6). -/
theorem leafBC_39 (W : Valuation τ sig (Elt F)) :
    after ops8 (after ops7 (after ops6 (after ops5 (after ops4 (after ops3 (after ops2 (after ops1 (W)))))))) (Proc.devRef .tc main_v161)
      = win (F := F) 3 6 (W (Proc.devRef .tc main_v0)) := by
  rw [skip ops8 W8 ops8_writes _ main_v161 (by decide),
    skip ops7 W7 ops7_writes _ main_v161 (by decide),
    at_ ops6 W6 8 main_v40 main_v161 _ _ _ _ rfl rfl (by decide),
    skip_take ops6 W6 ops6_writes 8 _ main_v40 (by decide),
    skip ops5 W5 ops5_writes _ main_v40 (by decide),
    skip ops4 W4 ops4_writes _ main_v40 (by decide),
    skip ops3 W3 ops3_writes _ main_v40 (by decide),
    at_ ops2 W2 8 main_v0 main_v40 _ _ _ _ rfl rfl (by decide),
    skip_take ops2 W2 ops2_writes 8 _ main_v0 (by decide),
    skip ops1 W1 ops1_writes _ main_v0 (by decide)]
  rfl

/-- After the slices and the unit-axis insertions, buffer 40 of the 121 holds the window at (3, 7). -/
theorem leafBC_40 (W : Valuation τ sig (Elt F)) :
    after ops8 (after ops7 (after ops6 (after ops5 (after ops4 (after ops3 (after ops2 (after ops1 (W)))))))) (Proc.devRef .tc main_v162)
      = win (F := F) 3 7 (W (Proc.devRef .tc main_v0)) := by
  rw [skip ops8 W8 ops8_writes _ main_v162 (by decide),
    skip ops7 W7 ops7_writes _ main_v162 (by decide),
    at_ ops6 W6 9 main_v41 main_v162 _ _ _ _ rfl rfl (by decide),
    skip_take ops6 W6 ops6_writes 9 _ main_v41 (by decide),
    skip ops5 W5 ops5_writes _ main_v41 (by decide),
    skip ops4 W4 ops4_writes _ main_v41 (by decide),
    skip ops3 W3 ops3_writes _ main_v41 (by decide),
    at_ ops2 W2 9 main_v0 main_v41 _ _ _ _ rfl rfl (by decide),
    skip_take ops2 W2 ops2_writes 9 _ main_v0 (by decide),
    skip ops1 W1 ops1_writes _ main_v0 (by decide)]
  rfl

/-- After the slices and the unit-axis insertions, buffer 41 of the 121 holds the window at (3, 8). -/
theorem leafBC_41 (W : Valuation τ sig (Elt F)) :
    after ops8 (after ops7 (after ops6 (after ops5 (after ops4 (after ops3 (after ops2 (after ops1 (W)))))))) (Proc.devRef .tc main_v163)
      = win (F := F) 3 8 (W (Proc.devRef .tc main_v0)) := by
  rw [skip ops8 W8 ops8_writes _ main_v163 (by decide),
    skip ops7 W7 ops7_writes _ main_v163 (by decide),
    at_ ops6 W6 10 main_v42 main_v163 _ _ _ _ rfl rfl (by decide),
    skip_take ops6 W6 ops6_writes 10 _ main_v42 (by decide),
    skip ops5 W5 ops5_writes _ main_v42 (by decide),
    skip ops4 W4 ops4_writes _ main_v42 (by decide),
    skip ops3 W3 ops3_writes _ main_v42 (by decide),
    at_ ops2 W2 10 main_v0 main_v42 _ _ _ _ rfl rfl (by decide),
    skip_take ops2 W2 ops2_writes 10 _ main_v0 (by decide),
    skip ops1 W1 ops1_writes _ main_v0 (by decide)]
  rfl

/-- After the slices and the unit-axis insertions, buffer 42 of the 121 holds the window at (3, 9). -/
theorem leafBC_42 (W : Valuation τ sig (Elt F)) :
    after ops8 (after ops7 (after ops6 (after ops5 (after ops4 (after ops3 (after ops2 (after ops1 (W)))))))) (Proc.devRef .tc main_v164)
      = win (F := F) 3 9 (W (Proc.devRef .tc main_v0)) := by
  rw [skip ops8 W8 ops8_writes _ main_v164 (by decide),
    skip ops7 W7 ops7_writes _ main_v164 (by decide),
    at_ ops6 W6 11 main_v43 main_v164 _ _ _ _ rfl rfl (by decide),
    skip_take ops6 W6 ops6_writes 11 _ main_v43 (by decide),
    skip ops5 W5 ops5_writes _ main_v43 (by decide),
    skip ops4 W4 ops4_writes _ main_v43 (by decide),
    skip ops3 W3 ops3_writes _ main_v43 (by decide),
    at_ ops2 W2 11 main_v0 main_v43 _ _ _ _ rfl rfl (by decide),
    skip_take ops2 W2 ops2_writes 11 _ main_v0 (by decide),
    skip ops1 W1 ops1_writes _ main_v0 (by decide)]
  rfl

/-- After the slices and the unit-axis insertions, buffer 43 of the 121 holds the window at (3, 10). -/
theorem leafBC_43 (W : Valuation τ sig (Elt F)) :
    after ops8 (after ops7 (after ops6 (after ops5 (after ops4 (after ops3 (after ops2 (after ops1 (W)))))))) (Proc.devRef .tc main_v165)
      = win (F := F) 3 10 (W (Proc.devRef .tc main_v0)) := by
  rw [skip ops8 W8 ops8_writes _ main_v165 (by decide),
    skip ops7 W7 ops7_writes _ main_v165 (by decide),
    at_ ops6 W6 12 main_v44 main_v165 _ _ _ _ rfl rfl (by decide),
    skip_take ops6 W6 ops6_writes 12 _ main_v44 (by decide),
    skip ops5 W5 ops5_writes _ main_v44 (by decide),
    skip ops4 W4 ops4_writes _ main_v44 (by decide),
    skip ops3 W3 ops3_writes _ main_v44 (by decide),
    at_ ops2 W2 12 main_v0 main_v44 _ _ _ _ rfl rfl (by decide),
    skip_take ops2 W2 ops2_writes 12 _ main_v0 (by decide),
    skip ops1 W1 ops1_writes _ main_v0 (by decide)]
  rfl

/-- After the slices and the unit-axis insertions, buffer 44 of the 121 holds the window at (4, 0). -/
theorem leafBC_44 (W : Valuation τ sig (Elt F)) :
    after ops8 (after ops7 (after ops6 (after ops5 (after ops4 (after ops3 (after ops2 (after ops1 (W)))))))) (Proc.devRef .tc main_v166)
      = win (F := F) 4 0 (W (Proc.devRef .tc main_v0)) := by
  rw [skip ops8 W8 ops8_writes _ main_v166 (by decide),
    skip ops7 W7 ops7_writes _ main_v166 (by decide),
    at_ ops6 W6 13 main_v45 main_v166 _ _ _ _ rfl rfl (by decide),
    skip_take ops6 W6 ops6_writes 13 _ main_v45 (by decide),
    skip ops5 W5 ops5_writes _ main_v45 (by decide),
    skip ops4 W4 ops4_writes _ main_v45 (by decide),
    skip ops3 W3 ops3_writes _ main_v45 (by decide),
    at_ ops2 W2 13 main_v0 main_v45 _ _ _ _ rfl rfl (by decide),
    skip_take ops2 W2 ops2_writes 13 _ main_v0 (by decide),
    skip ops1 W1 ops1_writes _ main_v0 (by decide)]
  rfl

/-- After the slices and the unit-axis insertions, buffer 45 of the 121 holds the window at (4, 1). -/
theorem leafBC_45 (W : Valuation τ sig (Elt F)) :
    after ops8 (after ops7 (after ops6 (after ops5 (after ops4 (after ops3 (after ops2 (after ops1 (W)))))))) (Proc.devRef .tc main_v167)
      = win (F := F) 4 1 (W (Proc.devRef .tc main_v0)) := by
  rw [skip ops8 W8 ops8_writes _ main_v167 (by decide),
    skip ops7 W7 ops7_writes _ main_v167 (by decide),
    at_ ops6 W6 14 main_v46 main_v167 _ _ _ _ rfl rfl (by decide),
    skip_take ops6 W6 ops6_writes 14 _ main_v46 (by decide),
    skip ops5 W5 ops5_writes _ main_v46 (by decide),
    skip ops4 W4 ops4_writes _ main_v46 (by decide),
    skip ops3 W3 ops3_writes _ main_v46 (by decide),
    at_ ops2 W2 14 main_v0 main_v46 _ _ _ _ rfl rfl (by decide),
    skip_take ops2 W2 ops2_writes 14 _ main_v0 (by decide),
    skip ops1 W1 ops1_writes _ main_v0 (by decide)]
  rfl

/-- After the slices and the unit-axis insertions, buffer 46 of the 121 holds the window at (4, 2). -/
theorem leafBC_46 (W : Valuation τ sig (Elt F)) :
    after ops8 (after ops7 (after ops6 (after ops5 (after ops4 (after ops3 (after ops2 (after ops1 (W)))))))) (Proc.devRef .tc main_v168)
      = win (F := F) 4 2 (W (Proc.devRef .tc main_v0)) := by
  rw [skip ops8 W8 ops8_writes _ main_v168 (by decide),
    skip ops7 W7 ops7_writes _ main_v168 (by decide),
    at_ ops6 W6 15 main_v47 main_v168 _ _ _ _ rfl rfl (by decide),
    skip_take ops6 W6 ops6_writes 15 _ main_v47 (by decide),
    skip ops5 W5 ops5_writes _ main_v47 (by decide),
    skip ops4 W4 ops4_writes _ main_v47 (by decide),
    skip ops3 W3 ops3_writes _ main_v47 (by decide),
    at_ ops2 W2 15 main_v0 main_v47 _ _ _ _ rfl rfl (by decide),
    skip_take ops2 W2 ops2_writes 15 _ main_v0 (by decide),
    skip ops1 W1 ops1_writes _ main_v0 (by decide)]
  rfl

/-- After the slices and the unit-axis insertions, buffer 47 of the 121 holds the window at (4, 3). -/
theorem leafBC_47 (W : Valuation τ sig (Elt F)) :
    after ops8 (after ops7 (after ops6 (after ops5 (after ops4 (after ops3 (after ops2 (after ops1 (W)))))))) (Proc.devRef .tc main_v169)
      = win (F := F) 4 3 (W (Proc.devRef .tc main_v0)) := by
  rw [skip ops8 W8 ops8_writes _ main_v169 (by decide),
    skip ops7 W7 ops7_writes _ main_v169 (by decide),
    at_ ops6 W6 16 main_v48 main_v169 _ _ _ _ rfl rfl (by decide),
    skip_take ops6 W6 ops6_writes 16 _ main_v48 (by decide),
    skip ops5 W5 ops5_writes _ main_v48 (by decide),
    skip ops4 W4 ops4_writes _ main_v48 (by decide),
    skip ops3 W3 ops3_writes _ main_v48 (by decide),
    at_ ops2 W2 16 main_v0 main_v48 _ _ _ _ rfl rfl (by decide),
    skip_take ops2 W2 ops2_writes 16 _ main_v0 (by decide),
    skip ops1 W1 ops1_writes _ main_v0 (by decide)]
  rfl

/-- After the slices and the unit-axis insertions, buffer 48 of the 121 holds the window at (4, 4). -/
theorem leafBC_48 (W : Valuation τ sig (Elt F)) :
    after ops8 (after ops7 (after ops6 (after ops5 (after ops4 (after ops3 (after ops2 (after ops1 (W)))))))) (Proc.devRef .tc main_v170)
      = win (F := F) 4 4 (W (Proc.devRef .tc main_v0)) := by
  rw [skip ops8 W8 ops8_writes _ main_v170 (by decide),
    skip ops7 W7 ops7_writes _ main_v170 (by decide),
    at_ ops6 W6 17 main_v49 main_v170 _ _ _ _ rfl rfl (by decide),
    skip_take ops6 W6 ops6_writes 17 _ main_v49 (by decide),
    skip ops5 W5 ops5_writes _ main_v49 (by decide),
    skip ops4 W4 ops4_writes _ main_v49 (by decide),
    skip ops3 W3 ops3_writes _ main_v49 (by decide),
    at_ ops2 W2 17 main_v0 main_v49 _ _ _ _ rfl rfl (by decide),
    skip_take ops2 W2 ops2_writes 17 _ main_v0 (by decide),
    skip ops1 W1 ops1_writes _ main_v0 (by decide)]
  rfl

/-- After the slices and the unit-axis insertions, buffer 49 of the 121 holds the window at (4, 5). -/
theorem leafBC_49 (W : Valuation τ sig (Elt F)) :
    after ops8 (after ops7 (after ops6 (after ops5 (after ops4 (after ops3 (after ops2 (after ops1 (W)))))))) (Proc.devRef .tc main_v171)
      = win (F := F) 4 5 (W (Proc.devRef .tc main_v0)) := by
  rw [skip ops8 W8 ops8_writes _ main_v171 (by decide),
    skip ops7 W7 ops7_writes _ main_v171 (by decide),
    at_ ops6 W6 18 main_v50 main_v171 _ _ _ _ rfl rfl (by decide),
    skip_take ops6 W6 ops6_writes 18 _ main_v50 (by decide),
    skip ops5 W5 ops5_writes _ main_v50 (by decide),
    skip ops4 W4 ops4_writes _ main_v50 (by decide),
    skip ops3 W3 ops3_writes _ main_v50 (by decide),
    at_ ops2 W2 18 main_v0 main_v50 _ _ _ _ rfl rfl (by decide),
    skip_take ops2 W2 ops2_writes 18 _ main_v0 (by decide),
    skip ops1 W1 ops1_writes _ main_v0 (by decide)]
  rfl

/-- After the slices and the unit-axis insertions, buffer 50 of the 121 holds the window at (4, 6). -/
theorem leafBC_50 (W : Valuation τ sig (Elt F)) :
    after ops8 (after ops7 (after ops6 (after ops5 (after ops4 (after ops3 (after ops2 (after ops1 (W)))))))) (Proc.devRef .tc main_v172)
      = win (F := F) 4 6 (W (Proc.devRef .tc main_v0)) := by
  rw [skip ops8 W8 ops8_writes _ main_v172 (by decide),
    skip ops7 W7 ops7_writes _ main_v172 (by decide),
    at_ ops6 W6 19 main_v51 main_v172 _ _ _ _ rfl rfl (by decide),
    skip_take ops6 W6 ops6_writes 19 _ main_v51 (by decide),
    skip ops5 W5 ops5_writes _ main_v51 (by decide),
    skip ops4 W4 ops4_writes _ main_v51 (by decide),
    skip ops3 W3 ops3_writes _ main_v51 (by decide),
    at_ ops2 W2 19 main_v0 main_v51 _ _ _ _ rfl rfl (by decide),
    skip_take ops2 W2 ops2_writes 19 _ main_v0 (by decide),
    skip ops1 W1 ops1_writes _ main_v0 (by decide)]
  rfl

/-- After the slices and the unit-axis insertions, buffer 51 of the 121 holds the window at (4, 7). -/
theorem leafBC_51 (W : Valuation τ sig (Elt F)) :
    after ops8 (after ops7 (after ops6 (after ops5 (after ops4 (after ops3 (after ops2 (after ops1 (W)))))))) (Proc.devRef .tc main_v173)
      = win (F := F) 4 7 (W (Proc.devRef .tc main_v0)) := by
  rw [skip ops8 W8 ops8_writes _ main_v173 (by decide),
    skip ops7 W7 ops7_writes _ main_v173 (by decide),
    at_ ops6 W6 20 main_v52 main_v173 _ _ _ _ rfl rfl (by decide),
    skip_take ops6 W6 ops6_writes 20 _ main_v52 (by decide),
    skip ops5 W5 ops5_writes _ main_v52 (by decide),
    skip ops4 W4 ops4_writes _ main_v52 (by decide),
    skip ops3 W3 ops3_writes _ main_v52 (by decide),
    at_ ops2 W2 20 main_v0 main_v52 _ _ _ _ rfl rfl (by decide),
    skip_take ops2 W2 ops2_writes 20 _ main_v0 (by decide),
    skip ops1 W1 ops1_writes _ main_v0 (by decide)]
  rfl

/-- After the slices and the unit-axis insertions, buffer 52 of the 121 holds the window at (4, 8). -/
theorem leafBC_52 (W : Valuation τ sig (Elt F)) :
    after ops8 (after ops7 (after ops6 (after ops5 (after ops4 (after ops3 (after ops2 (after ops1 (W)))))))) (Proc.devRef .tc main_v174)
      = win (F := F) 4 8 (W (Proc.devRef .tc main_v0)) := by
  rw [skip ops8 W8 ops8_writes _ main_v174 (by decide),
    skip ops7 W7 ops7_writes _ main_v174 (by decide),
    at_ ops6 W6 21 main_v53 main_v174 _ _ _ _ rfl rfl (by decide),
    skip_take ops6 W6 ops6_writes 21 _ main_v53 (by decide),
    skip ops5 W5 ops5_writes _ main_v53 (by decide),
    skip ops4 W4 ops4_writes _ main_v53 (by decide),
    skip ops3 W3 ops3_writes _ main_v53 (by decide),
    at_ ops2 W2 21 main_v0 main_v53 _ _ _ _ rfl rfl (by decide),
    skip_take ops2 W2 ops2_writes 21 _ main_v0 (by decide),
    skip ops1 W1 ops1_writes _ main_v0 (by decide)]
  rfl

/-- After the slices and the unit-axis insertions, buffer 53 of the 121 holds the window at (4, 9). -/
theorem leafBC_53 (W : Valuation τ sig (Elt F)) :
    after ops8 (after ops7 (after ops6 (after ops5 (after ops4 (after ops3 (after ops2 (after ops1 (W)))))))) (Proc.devRef .tc main_v175)
      = win (F := F) 4 9 (W (Proc.devRef .tc main_v0)) := by
  rw [skip ops8 W8 ops8_writes _ main_v175 (by decide),
    skip ops7 W7 ops7_writes _ main_v175 (by decide),
    at_ ops6 W6 22 main_v54 main_v175 _ _ _ _ rfl rfl (by decide),
    skip_take ops6 W6 ops6_writes 22 _ main_v54 (by decide),
    skip ops5 W5 ops5_writes _ main_v54 (by decide),
    skip ops4 W4 ops4_writes _ main_v54 (by decide),
    skip ops3 W3 ops3_writes _ main_v54 (by decide),
    at_ ops2 W2 22 main_v0 main_v54 _ _ _ _ rfl rfl (by decide),
    skip_take ops2 W2 ops2_writes 22 _ main_v0 (by decide),
    skip ops1 W1 ops1_writes _ main_v0 (by decide)]
  rfl

/-- After the slices and the unit-axis insertions, buffer 54 of the 121 holds the window at (4, 10). -/
theorem leafBC_54 (W : Valuation τ sig (Elt F)) :
    after ops8 (after ops7 (after ops6 (after ops5 (after ops4 (after ops3 (after ops2 (after ops1 (W)))))))) (Proc.devRef .tc main_v176)
      = win (F := F) 4 10 (W (Proc.devRef .tc main_v0)) := by
  rw [skip ops8 W8 ops8_writes _ main_v176 (by decide),
    skip ops7 W7 ops7_writes _ main_v176 (by decide),
    at_ ops6 W6 23 main_v55 main_v176 _ _ _ _ rfl rfl (by decide),
    skip_take ops6 W6 ops6_writes 23 _ main_v55 (by decide),
    skip ops5 W5 ops5_writes _ main_v55 (by decide),
    skip ops4 W4 ops4_writes _ main_v55 (by decide),
    skip ops3 W3 ops3_writes _ main_v55 (by decide),
    at_ ops2 W2 23 main_v0 main_v55 _ _ _ _ rfl rfl (by decide),
    skip_take ops2 W2 ops2_writes 23 _ main_v0 (by decide),
    skip ops1 W1 ops1_writes _ main_v0 (by decide)]
  rfl

/-- After the slices and the unit-axis insertions, buffer 55 of the 121 holds the window at (5, 0). -/
theorem leafBC_55 (W : Valuation τ sig (Elt F)) :
    after ops8 (after ops7 (after ops6 (after ops5 (after ops4 (after ops3 (after ops2 (after ops1 (W)))))))) (Proc.devRef .tc main_v177)
      = win (F := F) 5 0 (W (Proc.devRef .tc main_v0)) := by
  rw [skip ops8 W8 ops8_writes _ main_v177 (by decide),
    skip ops7 W7 ops7_writes _ main_v177 (by decide),
    at_ ops6 W6 24 main_v56 main_v177 _ _ _ _ rfl rfl (by decide),
    skip_take ops6 W6 ops6_writes 24 _ main_v56 (by decide),
    skip ops5 W5 ops5_writes _ main_v56 (by decide),
    skip ops4 W4 ops4_writes _ main_v56 (by decide),
    skip ops3 W3 ops3_writes _ main_v56 (by decide),
    at_ ops2 W2 24 main_v0 main_v56 _ _ _ _ rfl rfl (by decide),
    skip_take ops2 W2 ops2_writes 24 _ main_v0 (by decide),
    skip ops1 W1 ops1_writes _ main_v0 (by decide)]
  rfl

/-- After the slices and the unit-axis insertions, buffer 56 of the 121 holds the window at (5, 1). -/
theorem leafBC_56 (W : Valuation τ sig (Elt F)) :
    after ops8 (after ops7 (after ops6 (after ops5 (after ops4 (after ops3 (after ops2 (after ops1 (W)))))))) (Proc.devRef .tc main_v178)
      = win (F := F) 5 1 (W (Proc.devRef .tc main_v0)) := by
  rw [skip ops8 W8 ops8_writes _ main_v178 (by decide),
    skip ops7 W7 ops7_writes _ main_v178 (by decide),
    at_ ops6 W6 25 main_v57 main_v178 _ _ _ _ rfl rfl (by decide),
    skip_take ops6 W6 ops6_writes 25 _ main_v57 (by decide),
    skip ops5 W5 ops5_writes _ main_v57 (by decide),
    skip ops4 W4 ops4_writes _ main_v57 (by decide),
    skip ops3 W3 ops3_writes _ main_v57 (by decide),
    at_ ops2 W2 25 main_v0 main_v57 _ _ _ _ rfl rfl (by decide),
    skip_take ops2 W2 ops2_writes 25 _ main_v0 (by decide),
    skip ops1 W1 ops1_writes _ main_v0 (by decide)]
  rfl

/-- After the slices and the unit-axis insertions, buffer 57 of the 121 holds the window at (5, 2). -/
theorem leafBC_57 (W : Valuation τ sig (Elt F)) :
    after ops8 (after ops7 (after ops6 (after ops5 (after ops4 (after ops3 (after ops2 (after ops1 (W)))))))) (Proc.devRef .tc main_v179)
      = win (F := F) 5 2 (W (Proc.devRef .tc main_v0)) := by
  rw [skip ops8 W8 ops8_writes _ main_v179 (by decide),
    skip ops7 W7 ops7_writes _ main_v179 (by decide),
    at_ ops6 W6 26 main_v58 main_v179 _ _ _ _ rfl rfl (by decide),
    skip_take ops6 W6 ops6_writes 26 _ main_v58 (by decide),
    skip ops5 W5 ops5_writes _ main_v58 (by decide),
    skip ops4 W4 ops4_writes _ main_v58 (by decide),
    skip ops3 W3 ops3_writes _ main_v58 (by decide),
    at_ ops2 W2 26 main_v0 main_v58 _ _ _ _ rfl rfl (by decide),
    skip_take ops2 W2 ops2_writes 26 _ main_v0 (by decide),
    skip ops1 W1 ops1_writes _ main_v0 (by decide)]
  rfl

/-- After the slices and the unit-axis insertions, buffer 58 of the 121 holds the window at (5, 3). -/
theorem leafBC_58 (W : Valuation τ sig (Elt F)) :
    after ops8 (after ops7 (after ops6 (after ops5 (after ops4 (after ops3 (after ops2 (after ops1 (W)))))))) (Proc.devRef .tc main_v180)
      = win (F := F) 5 3 (W (Proc.devRef .tc main_v0)) := by
  rw [skip ops8 W8 ops8_writes _ main_v180 (by decide),
    skip ops7 W7 ops7_writes _ main_v180 (by decide),
    at_ ops6 W6 27 main_v59 main_v180 _ _ _ _ rfl rfl (by decide),
    skip_take ops6 W6 ops6_writes 27 _ main_v59 (by decide),
    skip ops5 W5 ops5_writes _ main_v59 (by decide),
    skip ops4 W4 ops4_writes _ main_v59 (by decide),
    skip ops3 W3 ops3_writes _ main_v59 (by decide),
    at_ ops2 W2 27 main_v0 main_v59 _ _ _ _ rfl rfl (by decide),
    skip_take ops2 W2 ops2_writes 27 _ main_v0 (by decide),
    skip ops1 W1 ops1_writes _ main_v0 (by decide)]
  rfl

/-- After the slices and the unit-axis insertions, buffer 59 of the 121 holds the window at (5, 4). -/
theorem leafBC_59 (W : Valuation τ sig (Elt F)) :
    after ops8 (after ops7 (after ops6 (after ops5 (after ops4 (after ops3 (after ops2 (after ops1 (W)))))))) (Proc.devRef .tc main_v181)
      = win (F := F) 5 4 (W (Proc.devRef .tc main_v0)) := by
  rw [skip ops8 W8 ops8_writes _ main_v181 (by decide),
    skip ops7 W7 ops7_writes _ main_v181 (by decide),
    at_ ops6 W6 28 main_v60 main_v181 _ _ _ _ rfl rfl (by decide),
    skip_take ops6 W6 ops6_writes 28 _ main_v60 (by decide),
    skip ops5 W5 ops5_writes _ main_v60 (by decide),
    skip ops4 W4 ops4_writes _ main_v60 (by decide),
    skip ops3 W3 ops3_writes _ main_v60 (by decide),
    at_ ops2 W2 28 main_v0 main_v60 _ _ _ _ rfl rfl (by decide),
    skip_take ops2 W2 ops2_writes 28 _ main_v0 (by decide),
    skip ops1 W1 ops1_writes _ main_v0 (by decide)]
  rfl

/-- After the slices and the unit-axis insertions, buffer 60 of the 121 holds the window at (5, 5). -/
theorem leafBC_60 (W : Valuation τ sig (Elt F)) :
    after ops8 (after ops7 (after ops6 (after ops5 (after ops4 (after ops3 (after ops2 (after ops1 (W)))))))) (Proc.devRef .tc main_v182)
      = win (F := F) 5 5 (W (Proc.devRef .tc main_v0)) := by
  rw [skip ops8 W8 ops8_writes _ main_v182 (by decide),
    skip ops7 W7 ops7_writes _ main_v182 (by decide),
    at_ ops6 W6 29 main_v61 main_v182 _ _ _ _ rfl rfl (by decide),
    skip_take ops6 W6 ops6_writes 29 _ main_v61 (by decide),
    skip ops5 W5 ops5_writes _ main_v61 (by decide),
    skip ops4 W4 ops4_writes _ main_v61 (by decide),
    skip ops3 W3 ops3_writes _ main_v61 (by decide),
    at_ ops2 W2 29 main_v0 main_v61 _ _ _ _ rfl rfl (by decide),
    skip_take ops2 W2 ops2_writes 29 _ main_v0 (by decide),
    skip ops1 W1 ops1_writes _ main_v0 (by decide)]
  rfl

/-- After the slices and the unit-axis insertions, buffer 61 of the 121 holds the window at (5, 6). -/
theorem leafBC_61 (W : Valuation τ sig (Elt F)) :
    after ops8 (after ops7 (after ops6 (after ops5 (after ops4 (after ops3 (after ops2 (after ops1 (W)))))))) (Proc.devRef .tc main_v183)
      = win (F := F) 5 6 (W (Proc.devRef .tc main_v0)) := by
  rw [skip ops8 W8 ops8_writes _ main_v183 (by decide),
    at_ ops7 W7 0 main_v62 main_v183 _ _ _ _ rfl rfl (by decide),
    skip_take ops7 W7 ops7_writes 0 _ main_v62 (by decide),
    skip ops6 W6 ops6_writes _ main_v62 (by decide),
    skip ops5 W5 ops5_writes _ main_v62 (by decide),
    skip ops4 W4 ops4_writes _ main_v62 (by decide),
    at_ ops3 W3 0 main_v0 main_v62 _ _ _ _ rfl rfl (by decide),
    skip_take ops3 W3 ops3_writes 0 _ main_v0 (by decide),
    skip ops2 W2 ops2_writes _ main_v0 (by decide),
    skip ops1 W1 ops1_writes _ main_v0 (by decide)]
  rfl

end Cert.ReferenceIdeal.RefValue

end
-- ==== Proof.RefLeaves3.lean ====
/-
  What the slices and the unit-axis insertions leave in the buffers the concatenations read, buffers 62 to 92:
  the `k`-th holds the window of the padded image at `(k / 11, k % 11)`, a unit axis inserted. Each buffer is written by
  one insertion, which reads the buffer one slice wrote; no other operation of these stretches writes either.
-/
import proofs.«140256_j85203561218656_2_alg».proof.Proof.RefOps
import proofs.«140256_j85203561218656_2_alg».proof.Proof.RefTerm
import proofs.«140256_j85203561218656_2_alg».proof.Proof.RefLeafLib

noncomputable section

namespace Cert.ReferenceIdeal.RefValue

open Cert.ReferenceIdeal Cert.ReferenceIdeal.Gen Cert.ReferenceIdeal.RunH Idealize.ShloMosaic Idealize.ShloMosaic.TcCoe Idealize.SL.Sem Idealize.ShloMosaic.StableHlo
  Idealize.ShloMosaic.ValueIdx Cert.ReferenceIdeal.Leaf

variable {F : FTy → Type} [FloatOps F]

/-- After the slices and the unit-axis insertions, buffer 62 of the 121 holds the window at (5, 7). -/
theorem leafBC_62 (W : Valuation τ sig (Elt F)) :
    after ops8 (after ops7 (after ops6 (after ops5 (after ops4 (after ops3 (after ops2 (after ops1 (W)))))))) (Proc.devRef .tc main_v184)
      = win (F := F) 5 7 (W (Proc.devRef .tc main_v0)) := by
  rw [skip ops8 W8 ops8_writes _ main_v184 (by decide),
    at_ ops7 W7 1 main_v63 main_v184 _ _ _ _ rfl rfl (by decide),
    skip_take ops7 W7 ops7_writes 1 _ main_v63 (by decide),
    skip ops6 W6 ops6_writes _ main_v63 (by decide),
    skip ops5 W5 ops5_writes _ main_v63 (by decide),
    skip ops4 W4 ops4_writes _ main_v63 (by decide),
    at_ ops3 W3 1 main_v0 main_v63 _ _ _ _ rfl rfl (by decide),
    skip_take ops3 W3 ops3_writes 1 _ main_v0 (by decide),
    skip ops2 W2 ops2_writes _ main_v0 (by decide),
    skip ops1 W1 ops1_writes _ main_v0 (by decide)]
  rfl

/-- After the slices and the unit-axis insertions, buffer 63 of the 121 holds the window at (5, 8). -/
theorem leafBC_63 (W : Valuation τ sig (Elt F)) :
    after ops8 (after ops7 (after ops6 (after ops5 (after ops4 (after ops3 (after ops2 (after ops1 (W)))))))) (Proc.devRef .tc main_v185)
      = win (F := F) 5 8 (W (Proc.devRef .tc main_v0)) := by
  rw [skip ops8 W8 ops8_writes _ main_v185 (by decide),
    at_ ops7 W7 2 main_v64 main_v185 _ _ _ _ rfl rfl (by decide),
    skip_take ops7 W7 ops7_writes 2 _ main_v64 (by decide),
    skip ops6 W6 ops6_writes _ main_v64 (by decide),
    skip ops5 W5 ops5_writes _ main_v64 (by decide),
    skip ops4 W4 ops4_writes _ main_v64 (by decide),
    at_ ops3 W3 2 main_v0 main_v64 _ _ _ _ rfl rfl (by decide),
    skip_take ops3 W3 ops3_writes 2 _ main_v0 (by decide),
    skip ops2 W2 ops2_writes _ main_v0 (by decide),
    skip ops1 W1 ops1_writes _ main_v0 (by decide)]
  rfl

/-- After the slices and the unit-axis insertions, buffer 64 of the 121 holds the window at (5, 9). -/
theorem leafBC_64 (W : Valuation τ sig (Elt F)) :
    after ops8 (after ops7 (after ops6 (after ops5 (after ops4 (after ops3 (after ops2 (after ops1 (W)))))))) (Proc.devRef .tc main_v186)
      = win (F := F) 5 9 (W (Proc.devRef .tc main_v0)) := by
  rw [skip ops8 W8 ops8_writes _ main_v186 (by decide),
    at_ ops7 W7 3 main_v65 main_v186 _ _ _ _ rfl rfl (by decide),
    skip_take ops7 W7 ops7_writes 3 _ main_v65 (by decide),
    skip ops6 W6 ops6_writes _ main_v65 (by decide),
    skip ops5 W5 ops5_writes _ main_v65 (by decide),
    skip ops4 W4 ops4_writes _ main_v65 (by decide),
    at_ ops3 W3 3 main_v0 main_v65 _ _ _ _ rfl rfl (by decide),
    skip_take ops3 W3 ops3_writes 3 _ main_v0 (by decide),
    skip ops2 W2 ops2_writes _ main_v0 (by decide),
    skip ops1 W1 ops1_writes _ main_v0 (by decide)]
  rfl

/-- After the slices and the unit-axis insertions, buffer 65 of the 121 holds the window at (5, 10). -/
theorem leafBC_65 (W : Valuation τ sig (Elt F)) :
    after ops8 (after ops7 (after ops6 (after ops5 (after ops4 (after ops3 (after ops2 (after ops1 (W)))))))) (Proc.devRef .tc main_v187)
      = win (F := F) 5 10 (W (Proc.devRef .tc main_v0)) := by
  rw [skip ops8 W8 ops8_writes _ main_v187 (by decide),
    at_ ops7 W7 4 main_v66 main_v187 _ _ _ _ rfl rfl (by decide),
    skip_take ops7 W7 ops7_writes 4 _ main_v66 (by decide),
    skip ops6 W6 ops6_writes _ main_v66 (by decide),
    skip ops5 W5 ops5_writes _ main_v66 (by decide),
    skip ops4 W4 ops4_writes _ main_v66 (by decide),
    at_ ops3 W3 4 main_v0 main_v66 _ _ _ _ rfl rfl (by decide),
    skip_take ops3 W3 ops3_writes 4 _ main_v0 (by decide),
    skip ops2 W2 ops2_writes _ main_v0 (by decide),
    skip ops1 W1 ops1_writes _ main_v0 (by decide)]
  rfl

/-- After the slices and the unit-axis insertions, buffer 66 of the 121 holds the window at (6, 0). -/
theorem leafBC_66 (W : Valuation τ sig (Elt F)) :
    after ops8 (after ops7 (after ops6 (after ops5 (after ops4 (after ops3 (after ops2 (after ops1 (W)))))))) (Proc.devRef .tc main_v188)
      = win (F := F) 6 0 (W (Proc.devRef .tc main_v0)) := by
  rw [skip ops8 W8 ops8_writes _ main_v188 (by decide),
    at_ ops7 W7 5 main_v67 main_v188 _ _ _ _ rfl rfl (by decide),
    skip_take ops7 W7 ops7_writes 5 _ main_v67 (by decide),
    skip ops6 W6 ops6_writes _ main_v67 (by decide),
    skip ops5 W5 ops5_writes _ main_v67 (by decide),
    skip ops4 W4 ops4_writes _ main_v67 (by decide),
    at_ ops3 W3 5 main_v0 main_v67 _ _ _ _ rfl rfl (by decide),
    skip_take ops3 W3 ops3_writes 5 _ main_v0 (by decide),
    skip ops2 W2 ops2_writes _ main_v0 (by decide),
    skip ops1 W1 ops1_writes _ main_v0 (by decide)]
  rfl

/-- After the slices and the unit-axis insertions, buffer 67 of the 121 holds the window at (6, 1). -/
theorem leafBC_67 (W : Valuation τ sig (Elt F)) :
    after ops8 (after ops7 (after ops6 (after ops5 (after ops4 (after ops3 (after ops2 (after ops1 (W)))))))) (Proc.devRef .tc main_v189)
      = win (F := F) 6 1 (W (Proc.devRef .tc main_v0)) := by
  rw [skip ops8 W8 ops8_writes _ main_v189 (by decide),
    at_ ops7 W7 6 main_v68 main_v189 _ _ _ _ rfl rfl (by decide),
    skip_take ops7 W7 ops7_writes 6 _ main_v68 (by decide),
    skip ops6 W6 ops6_writes _ main_v68 (by decide),
    skip ops5 W5 ops5_writes _ main_v68 (by decide),
    skip ops4 W4 ops4_writes _ main_v68 (by decide),
    at_ ops3 W3 6 main_v0 main_v68 _ _ _ _ rfl rfl (by decide),
    skip_take ops3 W3 ops3_writes 6 _ main_v0 (by decide),
    skip ops2 W2 ops2_writes _ main_v0 (by decide),
    skip ops1 W1 ops1_writes _ main_v0 (by decide)]
  rfl

/-- After the slices and the unit-axis insertions, buffer 68 of the 121 holds the window at (6, 2). -/
theorem leafBC_68 (W : Valuation τ sig (Elt F)) :
    after ops8 (after ops7 (after ops6 (after ops5 (after ops4 (after ops3 (after ops2 (after ops1 (W)))))))) (Proc.devRef .tc main_v190)
      = win (F := F) 6 2 (W (Proc.devRef .tc main_v0)) := by
  rw [skip ops8 W8 ops8_writes _ main_v190 (by decide),
    at_ ops7 W7 7 main_v69 main_v190 _ _ _ _ rfl rfl (by decide),
    skip_take ops7 W7 ops7_writes 7 _ main_v69 (by decide),
    skip ops6 W6 ops6_writes _ main_v69 (by decide),
    skip ops5 W5 ops5_writes _ main_v69 (by decide),
    skip ops4 W4 ops4_writes _ main_v69 (by decide),
    at_ ops3 W3 7 main_v0 main_v69 _ _ _ _ rfl rfl (by decide),
    skip_take ops3 W3 ops3_writes 7 _ main_v0 (by decide),
    skip ops2 W2 ops2_writes _ main_v0 (by decide),
    skip ops1 W1 ops1_writes _ main_v0 (by decide)]
  rfl

/-- After the slices and the unit-axis insertions, buffer 69 of the 121 holds the window at (6, 3). -/
theorem leafBC_69 (W : Valuation τ sig (Elt F)) :
    after ops8 (after ops7 (after ops6 (after ops5 (after ops4 (after ops3 (after ops2 (after ops1 (W)))))))) (Proc.devRef .tc main_v191)
      = win (F := F) 6 3 (W (Proc.devRef .tc main_v0)) := by
  rw [skip ops8 W8 ops8_writes _ main_v191 (by decide),
    at_ ops7 W7 8 main_v70 main_v191 _ _ _ _ rfl rfl (by decide),
    skip_take ops7 W7 ops7_writes 8 _ main_v70 (by decide),
    skip ops6 W6 ops6_writes _ main_v70 (by decide),
    skip ops5 W5 ops5_writes _ main_v70 (by decide),
    skip ops4 W4 ops4_writes _ main_v70 (by decide),
    at_ ops3 W3 8 main_v0 main_v70 _ _ _ _ rfl rfl (by decide),
    skip_take ops3 W3 ops3_writes 8 _ main_v0 (by decide),
    skip ops2 W2 ops2_writes _ main_v0 (by decide),
    skip ops1 W1 ops1_writes _ main_v0 (by decide)]
  rfl

/-- After the slices and the unit-axis insertions, buffer 70 of the 121 holds the window at (6, 4). -/
theorem leafBC_70 (W : Valuation τ sig (Elt F)) :
    after ops8 (after ops7 (after ops6 (after ops5 (after ops4 (after ops3 (after ops2 (after ops1 (W)))))))) (Proc.devRef .tc main_v192)
      = win (F := F) 6 4 (W (Proc.devRef .tc main_v0)) := by
  rw [skip ops8 W8 ops8_writes _ main_v192 (by decide),
    at_ ops7 W7 9 main_v71 main_v192 _ _ _ _ rfl rfl (by decide),
    skip_take ops7 W7 ops7_writes 9 _ main_v71 (by decide),
    skip ops6 W6 ops6_writes _ main_v71 (by decide),
    skip ops5 W5 ops5_writes _ main_v71 (by decide),
    skip ops4 W4 ops4_writes _ main_v71 (by decide),
    at_ ops3 W3 9 main_v0 main_v71 _ _ _ _ rfl rfl (by decide),
    skip_take ops3 W3 ops3_writes 9 _ main_v0 (by decide),
    skip ops2 W2 ops2_writes _ main_v0 (by decide),
    skip ops1 W1 ops1_writes _ main_v0 (by decide)]
  rfl

/-- After the slices and the unit-axis insertions, buffer 71 of the 121 holds the window at (6, 5). -/
theorem leafBC_71 (W : Valuation τ sig (Elt F)) :
    after ops8 (after ops7 (after ops6 (after ops5 (after ops4 (after ops3 (after ops2 (after ops1 (W)))))))) (Proc.devRef .tc main_v193)
      = win (F := F) 6 5 (W (Proc.devRef .tc main_v0)) := by
  rw [skip ops8 W8 ops8_writes _ main_v193 (by decide),
    at_ ops7 W7 10 main_v72 main_v193 _ _ _ _ rfl rfl (by decide),
    skip_take ops7 W7 ops7_writes 10 _ main_v72 (by decide),
    skip ops6 W6 ops6_writes _ main_v72 (by decide),
    skip ops5 W5 ops5_writes _ main_v72 (by decide),
    skip ops4 W4 ops4_writes _ main_v72 (by decide),
    at_ ops3 W3 10 main_v0 main_v72 _ _ _ _ rfl rfl (by decide),
    skip_take ops3 W3 ops3_writes 10 _ main_v0 (by decide),
    skip ops2 W2 ops2_writes _ main_v0 (by decide),
    skip ops1 W1 ops1_writes _ main_v0 (by decide)]
  rfl

/-- After the slices and the unit-axis insertions, buffer 72 of the 121 holds the window at (6, 6). -/
theorem leafBC_72 (W : Valuation τ sig (Elt F)) :
    after ops8 (after ops7 (after ops6 (after ops5 (after ops4 (after ops3 (after ops2 (after ops1 (W)))))))) (Proc.devRef .tc main_v194)
      = win (F := F) 6 6 (W (Proc.devRef .tc main_v0)) := by
  rw [skip ops8 W8 ops8_writes _ main_v194 (by decide),
    at_ ops7 W7 11 main_v73 main_v194 _ _ _ _ rfl rfl (by decide),
    skip_take ops7 W7 ops7_writes 11 _ main_v73 (by decide),
    skip ops6 W6 ops6_writes _ main_v73 (by decide),
    skip ops5 W5 ops5_writes _ main_v73 (by decide),
    skip ops4 W4 ops4_writes _ main_v73 (by decide),
    at_ ops3 W3 11 main_v0 main_v73 _ _ _ _ rfl rfl (by decide),
    skip_take ops3 W3 ops3_writes 11 _ main_v0 (by decide),
    skip ops2 W2 ops2_writes _ main_v0 (by decide),
    skip ops1 W1 ops1_writes _ main_v0 (by decide)]
  rfl

/-- After the slices and the unit-axis insertions, buffer 73 of the 121 holds the window at (6, 7). -/
theorem leafBC_73 (W : Valuation τ sig (Elt F)) :
    after ops8 (after ops7 (after ops6 (after ops5 (after ops4 (after ops3 (after ops2 (after ops1 (W)))))))) (Proc.devRef .tc main_v195)
      = win (F := F) 6 7 (W (Proc.devRef .tc main_v0)) := by
  rw [skip ops8 W8 ops8_writes _ main_v195 (by decide),
    at_ ops7 W7 12 main_v74 main_v195 _ _ _ _ rfl rfl (by decide),
    skip_take ops7 W7 ops7_writes 12 _ main_v74 (by decide),
    skip ops6 W6 ops6_writes _ main_v74 (by decide),
    skip ops5 W5 ops5_writes _ main_v74 (by decide),
    skip ops4 W4 ops4_writes _ main_v74 (by decide),
    at_ ops3 W3 12 main_v0 main_v74 _ _ _ _ rfl rfl (by decide),
    skip_take ops3 W3 ops3_writes 12 _ main_v0 (by decide),
    skip ops2 W2 ops2_writes _ main_v0 (by decide),
    skip ops1 W1 ops1_writes _ main_v0 (by decide)]
  rfl

/-- After the slices and the unit-axis insertions, buffer 74 of the 121 holds the window at (6, 8). -/
theorem leafBC_74 (W : Valuation τ sig (Elt F)) :
    after ops8 (after ops7 (after ops6 (after ops5 (after ops4 (after ops3 (after ops2 (after ops1 (W)))))))) (Proc.devRef .tc main_v196)
      = win (F := F) 6 8 (W (Proc.devRef .tc main_v0)) := by
  rw [skip ops8 W8 ops8_writes _ main_v196 (by decide),
    at_ ops7 W7 13 main_v75 main_v196 _ _ _ _ rfl rfl (by decide),
    skip_take ops7 W7 ops7_writes 13 _ main_v75 (by decide),
    skip ops6 W6 ops6_writes _ main_v75 (by decide),
    skip ops5 W5 ops5_writes _ main_v75 (by decide),
    skip ops4 W4 ops4_writes _ main_v75 (by decide),
    at_ ops3 W3 13 main_v0 main_v75 _ _ _ _ rfl rfl (by decide),
    skip_take ops3 W3 ops3_writes 13 _ main_v0 (by decide),
    skip ops2 W2 ops2_writes _ main_v0 (by decide),
    skip ops1 W1 ops1_writes _ main_v0 (by decide)]
  rfl

/-- After the slices and the unit-axis insertions, buffer 75 of the 121 holds the window at (6, 9). -/
theorem leafBC_75 (W : Valuation τ sig (Elt F)) :
    after ops8 (after ops7 (after ops6 (after ops5 (after ops4 (after ops3 (after ops2 (after ops1 (W)))))))) (Proc.devRef .tc main_v197)
      = win (F := F) 6 9 (W (Proc.devRef .tc main_v0)) := by
  rw [skip ops8 W8 ops8_writes _ main_v197 (by decide),
    at_ ops7 W7 14 main_v76 main_v197 _ _ _ _ rfl rfl (by decide),
    skip_take ops7 W7 ops7_writes 14 _ main_v76 (by decide),
    skip ops6 W6 ops6_writes _ main_v76 (by decide),
    skip ops5 W5 ops5_writes _ main_v76 (by decide),
    skip ops4 W4 ops4_writes _ main_v76 (by decide),
    at_ ops3 W3 14 main_v0 main_v76 _ _ _ _ rfl rfl (by decide),
    skip_take ops3 W3 ops3_writes 14 _ main_v0 (by decide),
    skip ops2 W2 ops2_writes _ main_v0 (by decide),
    skip ops1 W1 ops1_writes _ main_v0 (by decide)]
  rfl

/-- After the slices and the unit-axis insertions, buffer 76 of the 121 holds the window at (6, 10). -/
theorem leafBC_76 (W : Valuation τ sig (Elt F)) :
    after ops8 (after ops7 (after ops6 (after ops5 (after ops4 (after ops3 (after ops2 (after ops1 (W)))))))) (Proc.devRef .tc main_v198)
      = win (F := F) 6 10 (W (Proc.devRef .tc main_v0)) := by
  rw [skip ops8 W8 ops8_writes _ main_v198 (by decide),
    at_ ops7 W7 15 main_v77 main_v198 _ _ _ _ rfl rfl (by decide),
    skip_take ops7 W7 ops7_writes 15 _ main_v77 (by decide),
    skip ops6 W6 ops6_writes _ main_v77 (by decide),
    skip ops5 W5 ops5_writes _ main_v77 (by decide),
    skip ops4 W4 ops4_writes _ main_v77 (by decide),
    at_ ops3 W3 15 main_v0 main_v77 _ _ _ _ rfl rfl (by decide),
    skip_take ops3 W3 ops3_writes 15 _ main_v0 (by decide),
    skip ops2 W2 ops2_writes _ main_v0 (by decide),
    skip ops1 W1 ops1_writes _ main_v0 (by decide)]
  rfl

/-- After the slices and the unit-axis insertions, buffer 77 of the 121 holds the window at (7, 0). -/
theorem leafBC_77 (W : Valuation τ sig (Elt F)) :
    after ops8 (after ops7 (after ops6 (after ops5 (after ops4 (after ops3 (after ops2 (after ops1 (W)))))))) (Proc.devRef .tc main_v199)
      = win (F := F) 7 0 (W (Proc.devRef .tc main_v0)) := by
  rw [skip ops8 W8 ops8_writes _ main_v199 (by decide),
    at_ ops7 W7 16 main_v78 main_v199 _ _ _ _ rfl rfl (by decide),
    skip_take ops7 W7 ops7_writes 16 _ main_v78 (by decide),
    skip ops6 W6 ops6_writes _ main_v78 (by decide),
    skip ops5 W5 ops5_writes _ main_v78 (by decide),
    skip ops4 W4 ops4_writes _ main_v78 (by decide),
    at_ ops3 W3 16 main_v0 main_v78 _ _ _ _ rfl rfl (by decide),
    skip_take ops3 W3 ops3_writes 16 _ main_v0 (by decide),
    skip ops2 W2 ops2_writes _ main_v0 (by decide),
    skip ops1 W1 ops1_writes _ main_v0 (by decide)]
  rfl

/-- After the slices and the unit-axis insertions, buffer 78 of the 121 holds the window at (7, 1). -/
theorem leafBC_78 (W : Valuation τ sig (Elt F)) :
    after ops8 (after ops7 (after ops6 (after ops5 (after ops4 (after ops3 (after ops2 (after ops1 (W)))))))) (Proc.devRef .tc main_v200)
      = win (F := F) 7 1 (W (Proc.devRef .tc main_v0)) := by
  rw [skip ops8 W8 ops8_writes _ main_v200 (by decide),
    at_ ops7 W7 17 main_v79 main_v200 _ _ _ _ rfl rfl (by decide),
    skip_take ops7 W7 ops7_writes 17 _ main_v79 (by decide),
    skip ops6 W6 ops6_writes _ main_v79 (by decide),
    skip ops5 W5 ops5_writes _ main_v79 (by decide),
    skip ops4 W4 ops4_writes _ main_v79 (by decide),
    at_ ops3 W3 17 main_v0 main_v79 _ _ _ _ rfl rfl (by decide),
    skip_take ops3 W3 ops3_writes 17 _ main_v0 (by decide),
    skip ops2 W2 ops2_writes _ main_v0 (by decide),
    skip ops1 W1 ops1_writes _ main_v0 (by decide)]
  rfl

/-- After the slices and the unit-axis insertions, buffer 79 of the 121 holds the window at (7, 2). -/
theorem leafBC_79 (W : Valuation τ sig (Elt F)) :
    after ops8 (after ops7 (after ops6 (after ops5 (after ops4 (after ops3 (after ops2 (after ops1 (W)))))))) (Proc.devRef .tc main_v201)
      = win (F := F) 7 2 (W (Proc.devRef .tc main_v0)) := by
  rw [skip ops8 W8 ops8_writes _ main_v201 (by decide),
    at_ ops7 W7 18 main_v80 main_v201 _ _ _ _ rfl rfl (by decide),
    skip_take ops7 W7 ops7_writes 18 _ main_v80 (by decide),
    skip ops6 W6 ops6_writes _ main_v80 (by decide),
    skip ops5 W5 ops5_writes _ main_v80 (by decide),
    skip ops4 W4 ops4_writes _ main_v80 (by decide),
    at_ ops3 W3 18 main_v0 main_v80 _ _ _ _ rfl rfl (by decide),
    skip_take ops3 W3 ops3_writes 18 _ main_v0 (by decide),
    skip ops2 W2 ops2_writes _ main_v0 (by decide),
    skip ops1 W1 ops1_writes _ main_v0 (by decide)]
  rfl

/-- After the slices and the unit-axis insertions, buffer 80 of the 121 holds the window at (7, 3). -/
theorem leafBC_80 (W : Valuation τ sig (Elt F)) :
    after ops8 (after ops7 (after ops6 (after ops5 (after ops4 (after ops3 (after ops2 (after ops1 (W)))))))) (Proc.devRef .tc main_v202)
      = win (F := F) 7 3 (W (Proc.devRef .tc main_v0)) := by
  rw [skip ops8 W8 ops8_writes _ main_v202 (by decide),
    at_ ops7 W7 19 main_v81 main_v202 _ _ _ _ rfl rfl (by decide),
    skip_take ops7 W7 ops7_writes 19 _ main_v81 (by decide),
    skip ops6 W6 ops6_writes _ main_v81 (by decide),
    skip ops5 W5 ops5_writes _ main_v81 (by decide),
    skip ops4 W4 ops4_writes _ main_v81 (by decide),
    at_ ops3 W3 19 main_v0 main_v81 _ _ _ _ rfl rfl (by decide),
    skip_take ops3 W3 ops3_writes 19 _ main_v0 (by decide),
    skip ops2 W2 ops2_writes _ main_v0 (by decide),
    skip ops1 W1 ops1_writes _ main_v0 (by decide)]
  rfl

/-- After the slices and the unit-axis insertions, buffer 81 of the 121 holds the window at (7, 4). -/
theorem leafBC_81 (W : Valuation τ sig (Elt F)) :
    after ops8 (after ops7 (after ops6 (after ops5 (after ops4 (after ops3 (after ops2 (after ops1 (W)))))))) (Proc.devRef .tc main_v203)
      = win (F := F) 7 4 (W (Proc.devRef .tc main_v0)) := by
  rw [skip ops8 W8 ops8_writes _ main_v203 (by decide),
    at_ ops7 W7 20 main_v82 main_v203 _ _ _ _ rfl rfl (by decide),
    skip_take ops7 W7 ops7_writes 20 _ main_v82 (by decide),
    skip ops6 W6 ops6_writes _ main_v82 (by decide),
    skip ops5 W5 ops5_writes _ main_v82 (by decide),
    skip ops4 W4 ops4_writes _ main_v82 (by decide),
    at_ ops3 W3 20 main_v0 main_v82 _ _ _ _ rfl rfl (by decide),
    skip_take ops3 W3 ops3_writes 20 _ main_v0 (by decide),
    skip ops2 W2 ops2_writes _ main_v0 (by decide),
    skip ops1 W1 ops1_writes _ main_v0 (by decide)]
  rfl

/-- After the slices and the unit-axis insertions, buffer 82 of the 121 holds the window at (7, 5). -/
theorem leafBC_82 (W : Valuation τ sig (Elt F)) :
    after ops8 (after ops7 (after ops6 (after ops5 (after ops4 (after ops3 (after ops2 (after ops1 (W)))))))) (Proc.devRef .tc main_v204)
      = win (F := F) 7 5 (W (Proc.devRef .tc main_v0)) := by
  rw [skip ops8 W8 ops8_writes _ main_v204 (by decide),
    at_ ops7 W7 21 main_v83 main_v204 _ _ _ _ rfl rfl (by decide),
    skip_take ops7 W7 ops7_writes 21 _ main_v83 (by decide),
    skip ops6 W6 ops6_writes _ main_v83 (by decide),
    skip ops5 W5 ops5_writes _ main_v83 (by decide),
    skip ops4 W4 ops4_writes _ main_v83 (by decide),
    at_ ops3 W3 21 main_v0 main_v83 _ _ _ _ rfl rfl (by decide),
    skip_take ops3 W3 ops3_writes 21 _ main_v0 (by decide),
    skip ops2 W2 ops2_writes _ main_v0 (by decide),
    skip ops1 W1 ops1_writes _ main_v0 (by decide)]
  rfl

/-- After the slices and the unit-axis insertions, buffer 83 of the 121 holds the window at (7, 6). -/
theorem leafBC_83 (W : Valuation τ sig (Elt F)) :
    after ops8 (after ops7 (after ops6 (after ops5 (after ops4 (after ops3 (after ops2 (after ops1 (W)))))))) (Proc.devRef .tc main_v205)
      = win (F := F) 7 6 (W (Proc.devRef .tc main_v0)) := by
  rw [skip ops8 W8 ops8_writes _ main_v205 (by decide),
    at_ ops7 W7 22 main_v84 main_v205 _ _ _ _ rfl rfl (by decide),
    skip_take ops7 W7 ops7_writes 22 _ main_v84 (by decide),
    skip ops6 W6 ops6_writes _ main_v84 (by decide),
    skip ops5 W5 ops5_writes _ main_v84 (by decide),
    skip ops4 W4 ops4_writes _ main_v84 (by decide),
    at_ ops3 W3 22 main_v0 main_v84 _ _ _ _ rfl rfl (by decide),
    skip_take ops3 W3 ops3_writes 22 _ main_v0 (by decide),
    skip ops2 W2 ops2_writes _ main_v0 (by decide),
    skip ops1 W1 ops1_writes _ main_v0 (by decide)]
  rfl

/-- After the slices and the unit-axis insertions, buffer 84 of the 121 holds the window at (7, 7). -/
theorem leafBC_84 (W : Valuation τ sig (Elt F)) :
    after ops8 (after ops7 (after ops6 (after ops5 (after ops4 (after ops3 (after ops2 (after ops1 (W)))))))) (Proc.devRef .tc main_v206)
      = win (F := F) 7 7 (W (Proc.devRef .tc main_v0)) := by
  rw [skip ops8 W8 ops8_writes _ main_v206 (by decide),
    at_ ops7 W7 23 main_v85 main_v206 _ _ _ _ rfl rfl (by decide),
    skip_take ops7 W7 ops7_writes 23 _ main_v85 (by decide),
    skip ops6 W6 ops6_writes _ main_v85 (by decide),
    skip ops5 W5 ops5_writes _ main_v85 (by decide),
    skip ops4 W4 ops4_writes _ main_v85 (by decide),
    at_ ops3 W3 23 main_v0 main_v85 _ _ _ _ rfl rfl (by decide),
    skip_take ops3 W3 ops3_writes 23 _ main_v0 (by decide),
    skip ops2 W2 ops2_writes _ main_v0 (by decide),
    skip ops1 W1 ops1_writes _ main_v0 (by decide)]
  rfl

/-- After the slices and the unit-axis insertions, buffer 85 of the 121 holds the window at (7, 8). -/
theorem leafBC_85 (W : Valuation τ sig (Elt F)) :
    after ops8 (after ops7 (after ops6 (after ops5 (after ops4 (after ops3 (after ops2 (after ops1 (W)))))))) (Proc.devRef .tc main_v207)
      = win (F := F) 7 8 (W (Proc.devRef .tc main_v0)) := by
  rw [skip ops8 W8 ops8_writes _ main_v207 (by decide),
    at_ ops7 W7 24 main_v86 main_v207 _ _ _ _ rfl rfl (by decide),
    skip_take ops7 W7 ops7_writes 24 _ main_v86 (by decide),
    skip ops6 W6 ops6_writes _ main_v86 (by decide),
    skip ops5 W5 ops5_writes _ main_v86 (by decide),
    skip ops4 W4 ops4_writes _ main_v86 (by decide),
    at_ ops3 W3 24 main_v0 main_v86 _ _ _ _ rfl rfl (by decide),
    skip_take ops3 W3 ops3_writes 24 _ main_v0 (by decide),
    skip ops2 W2 ops2_writes _ main_v0 (by decide),
    skip ops1 W1 ops1_writes _ main_v0 (by decide)]
  rfl

/-- After the slices and the unit-axis insertions, buffer 86 of the 121 holds the window at (7, 9). -/
theorem leafBC_86 (W : Valuation τ sig (Elt F)) :
    after ops8 (after ops7 (after ops6 (after ops5 (after ops4 (after ops3 (after ops2 (after ops1 (W)))))))) (Proc.devRef .tc main_v208)
      = win (F := F) 7 9 (W (Proc.devRef .tc main_v0)) := by
  rw [skip ops8 W8 ops8_writes _ main_v208 (by decide),
    at_ ops7 W7 25 main_v87 main_v208 _ _ _ _ rfl rfl (by decide),
    skip_take ops7 W7 ops7_writes 25 _ main_v87 (by decide),
    skip ops6 W6 ops6_writes _ main_v87 (by decide),
    skip ops5 W5 ops5_writes _ main_v87 (by decide),
    skip ops4 W4 ops4_writes _ main_v87 (by decide),
    at_ ops3 W3 25 main_v0 main_v87 _ _ _ _ rfl rfl (by decide),
    skip_take ops3 W3 ops3_writes 25 _ main_v0 (by decide),
    skip ops2 W2 ops2_writes _ main_v0 (by decide),
    skip ops1 W1 ops1_writes _ main_v0 (by decide)]
  rfl

/-- After the slices and the unit-axis insertions, buffer 87 of the 121 holds the window at (7, 10). -/
theorem leafBC_87 (W : Valuation τ sig (Elt F)) :
    after ops8 (after ops7 (after ops6 (after ops5 (after ops4 (after ops3 (after ops2 (after ops1 (W)))))))) (Proc.devRef .tc main_v209)
      = win (F := F) 7 10 (W (Proc.devRef .tc main_v0)) := by
  rw [skip ops8 W8 ops8_writes _ main_v209 (by decide),
    at_ ops7 W7 26 main_v88 main_v209 _ _ _ _ rfl rfl (by decide),
    skip_take ops7 W7 ops7_writes 26 _ main_v88 (by decide),
    skip ops6 W6 ops6_writes _ main_v88 (by decide),
    skip ops5 W5 ops5_writes _ main_v88 (by decide),
    skip ops4 W4 ops4_writes _ main_v88 (by decide),
    at_ ops3 W3 26 main_v0 main_v88 _ _ _ _ rfl rfl (by decide),
    skip_take ops3 W3 ops3_writes 26 _ main_v0 (by decide),
    skip ops2 W2 ops2_writes _ main_v0 (by decide),
    skip ops1 W1 ops1_writes _ main_v0 (by decide)]
  rfl

/-- After the slices and the unit-axis insertions, buffer 88 of the 121 holds the window at (8, 0). -/
theorem leafBC_88 (W : Valuation τ sig (Elt F)) :
    after ops8 (after ops7 (after ops6 (after ops5 (after ops4 (after ops3 (after ops2 (after ops1 (W)))))))) (Proc.devRef .tc main_v210)
      = win (F := F) 8 0 (W (Proc.devRef .tc main_v0)) := by
  rw [skip ops8 W8 ops8_writes _ main_v210 (by decide),
    at_ ops7 W7 27 main_v89 main_v210 _ _ _ _ rfl rfl (by decide),
    skip_take ops7 W7 ops7_writes 27 _ main_v89 (by decide),
    skip ops6 W6 ops6_writes _ main_v89 (by decide),
    skip ops5 W5 ops5_writes _ main_v89 (by decide),
    skip ops4 W4 ops4_writes _ main_v89 (by decide),
    at_ ops3 W3 27 main_v0 main_v89 _ _ _ _ rfl rfl (by decide),
    skip_take ops3 W3 ops3_writes 27 _ main_v0 (by decide),
    skip ops2 W2 ops2_writes _ main_v0 (by decide),
    skip ops1 W1 ops1_writes _ main_v0 (by decide)]
  rfl

/-- After the slices and the unit-axis insertions, buffer 89 of the 121 holds the window at (8, 1). -/
theorem leafBC_89 (W : Valuation τ sig (Elt F)) :
    after ops8 (after ops7 (after ops6 (after ops5 (after ops4 (after ops3 (after ops2 (after ops1 (W)))))))) (Proc.devRef .tc main_v211)
      = win (F := F) 8 1 (W (Proc.devRef .tc main_v0)) := by
  rw [skip ops8 W8 ops8_writes _ main_v211 (by decide),
    at_ ops7 W7 28 main_v90 main_v211 _ _ _ _ rfl rfl (by decide),
    skip_take ops7 W7 ops7_writes 28 _ main_v90 (by decide),
    skip ops6 W6 ops6_writes _ main_v90 (by decide),
    skip ops5 W5 ops5_writes _ main_v90 (by decide),
    skip ops4 W4 ops4_writes _ main_v90 (by decide),
    at_ ops3 W3 28 main_v0 main_v90 _ _ _ _ rfl rfl (by decide),
    skip_take ops3 W3 ops3_writes 28 _ main_v0 (by decide),
    skip ops2 W2 ops2_writes _ main_v0 (by decide),
    skip ops1 W1 ops1_writes _ main_v0 (by decide)]
  rfl

/-- After the slices and the unit-axis insertions, buffer 90 of the 121 holds the window at (8, 2). -/
theorem leafBC_90 (W : Valuation τ sig (Elt F)) :
    after ops8 (after ops7 (after ops6 (after ops5 (after ops4 (after ops3 (after ops2 (after ops1 (W)))))))) (Proc.devRef .tc main_v212)
      = win (F := F) 8 2 (W (Proc.devRef .tc main_v0)) := by
  rw [skip ops8 W8 ops8_writes _ main_v212 (by decide),
    at_ ops7 W7 29 main_v91 main_v212 _ _ _ _ rfl rfl (by decide),
    skip_take ops7 W7 ops7_writes 29 _ main_v91 (by decide),
    skip ops6 W6 ops6_writes _ main_v91 (by decide),
    skip ops5 W5 ops5_writes _ main_v91 (by decide),
    skip ops4 W4 ops4_writes _ main_v91 (by decide),
    at_ ops3 W3 29 main_v0 main_v91 _ _ _ _ rfl rfl (by decide),
    skip_take ops3 W3 ops3_writes 29 _ main_v0 (by decide),
    skip ops2 W2 ops2_writes _ main_v0 (by decide),
    skip ops1 W1 ops1_writes _ main_v0 (by decide)]
  rfl

/-- After the slices and the unit-axis insertions, buffer 91 of the 121 holds the window at (8, 3). -/
theorem leafBC_91 (W : Valuation τ sig (Elt F)) :
    after ops8 (after ops7 (after ops6 (after ops5 (after ops4 (after ops3 (after ops2 (after ops1 (W)))))))) (Proc.devRef .tc main_v213)
      = win (F := F) 8 3 (W (Proc.devRef .tc main_v0)) := by
  rw [at_ ops8 W8 0 main_v92 main_v213 _ _ _ _ rfl rfl (by decide),
    skip_take ops8 W8 ops8_writes 0 _ main_v92 (by decide),
    skip ops7 W7 ops7_writes _ main_v92 (by decide),
    skip ops6 W6 ops6_writes _ main_v92 (by decide),
    skip ops5 W5 ops5_writes _ main_v92 (by decide),
    at_ ops4 W4 0 main_v0 main_v92 _ _ _ _ rfl rfl (by decide),
    skip_take ops4 W4 ops4_writes 0 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 92 of the 121 holds the window at (8, 4). -/
theorem leafBC_92 (W : Valuation τ sig (Elt F)) :
    after ops8 (after ops7 (after ops6 (after ops5 (after ops4 (after ops3 (after ops2 (after ops1 (W)))))))) (Proc.devRef .tc main_v214)
      = win (F := F) 8 4 (W (Proc.devRef .tc main_v0)) := by
  rw [at_ ops8 W8 1 main_v93 main_v214 _ _ _ _ rfl rfl (by decide),
    skip_take ops8 W8 ops8_writes 1 _ main_v93 (by decide),
    skip ops7 W7 ops7_writes _ main_v93 (by decide),
    skip ops6 W6 ops6_writes _ main_v93 (by decide),
    skip ops5 W5 ops5_writes _ main_v93 (by decide),
    at_ ops4 W4 1 main_v0 main_v93 _ _ _ _ rfl rfl (by decide),
    skip_take ops4 W4 ops4_writes 1 _ main_v0 (by decide),
    skip ops3 W3 ops3_writes _ main_v0 (by decide),
    skip ops2 W2 ops2_writes _ main_v0 (by decide),
    skip ops1 W1 ops1_writes _ main_v0 (by decide)]
  rfl

end Cert.ReferenceIdeal.RefValue

end
-- ==== Proof.RefLeaves4.lean ====
/-
  What the slices and the unit-axis insertions leave in the buffers the concatenations read, buffers 93 to 120:
  the `k`-th holds the window of the padded image at `(k / 11, k % 11)`, a unit axis inserted. Each buffer is written by
  one insertion, which reads the buffer one slice wrote; no other operation of these stretches writes either.
-/
import proofs.«140256_j85203561218656_2_alg».proof.Proof.RefOps
import proofs.«140256_j85203561218656_2_alg».proof.Proof.RefTerm
import proofs.«140256_j85203561218656_2_alg».proof.Proof.RefLeafLib

noncomputable section

namespace Cert.ReferenceIdeal.RefValue

open Cert.ReferenceIdeal Cert.ReferenceIdeal.Gen Cert.ReferenceIdeal.RunH Idealize.ShloMosaic Idealize.ShloMosaic.TcCoe Idealize.SL.Sem Idealize.ShloMosaic.StableHlo
  Idealize.ShloMosaic.ValueIdx Cert.ReferenceIdeal.Leaf

variable {F : FTy → Type} [FloatOps F]

/-- After the slices and the unit-axis insertions, buffer 93 of the 121 holds the window at (8, 5). -/
theorem leafBC_93 (W : Valuation τ sig (Elt F)) :
    after ops8 (after ops7 (after ops6 (after ops5 (after ops4 (after ops3 (after ops2 (after ops1 (W)))))))) (Proc.devRef .tc main_v215)
      = win (F := F) 8 5 (W (Proc.devRef .tc main_v0)) := by
  rw [at_ ops8 W8 2 main_v94 main_v215 _ _ _ _ rfl rfl (by decide),
    skip_take ops8 W8 ops8_writes 2 _ main_v94 (by decide),
    skip ops7 W7 ops7_writes _ main_v94 (by decide),
    skip ops6 W6 ops6_writes _ main_v94 (by decide),
    skip ops5 W5 ops5_writes _ main_v94 (by decide),
    at_ ops4 W4 2 main_v0 main_v94 _ _ _ _ rfl rfl (by decide),
    skip_take ops4 W4 ops4_writes 2 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 94 of the 121 holds the window at (8, 6). -/
theorem leafBC_94 (W : Valuation τ sig (Elt F)) :
    after ops8 (after ops7 (after ops6 (after ops5 (after ops4 (after ops3 (after ops2 (after ops1 (W)))))))) (Proc.devRef .tc main_v216)
      = win (F := F) 8 6 (W (Proc.devRef .tc main_v0)) := by
  rw [at_ ops8 W8 3 main_v95 main_v216 _ _ _ _ rfl rfl (by decide),
    skip_take ops8 W8 ops8_writes 3 _ main_v95 (by decide),
    skip ops7 W7 ops7_writes _ main_v95 (by decide),
    skip ops6 W6 ops6_writes _ main_v95 (by decide),
    skip ops5 W5 ops5_writes _ main_v95 (by decide),
    at_ ops4 W4 3 main_v0 main_v95 _ _ _ _ rfl rfl (by decide),
    skip_take ops4 W4 ops4_writes 3 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 95 of the 121 holds the window at (8, 7). -/
theorem leafBC_95 (W : Valuation τ sig (Elt F)) :
    after ops8 (after ops7 (after ops6 (after ops5 (after ops4 (after ops3 (after ops2 (after ops1 (W)))))))) (Proc.devRef .tc main_v217)
      = win (F := F) 8 7 (W (Proc.devRef .tc main_v0)) := by
  rw [at_ ops8 W8 4 main_v96 main_v217 _ _ _ _ rfl rfl (by decide),
    skip_take ops8 W8 ops8_writes 4 _ main_v96 (by decide),
    skip ops7 W7 ops7_writes _ main_v96 (by decide),
    skip ops6 W6 ops6_writes _ main_v96 (by decide),
    skip ops5 W5 ops5_writes _ main_v96 (by decide),
    at_ ops4 W4 4 main_v0 main_v96 _ _ _ _ rfl rfl (by decide),
    skip_take ops4 W4 ops4_writes 4 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 96 of the 121 holds the window at (8, 8). -/
theorem leafBC_96 (W : Valuation τ sig (Elt F)) :
    after ops8 (after ops7 (after ops6 (after ops5 (after ops4 (after ops3 (after ops2 (after ops1 (W)))))))) (Proc.devRef .tc main_v218)
      = win (F := F) 8 8 (W (Proc.devRef .tc main_v0)) := by
  rw [at_ ops8 W8 5 main_v97 main_v218 _ _ _ _ rfl rfl (by decide),
    skip_take ops8 W8 ops8_writes 5 _ main_v97 (by decide),
    skip ops7 W7 ops7_writes _ main_v97 (by decide),
    skip ops6 W6 ops6_writes _ main_v97 (by decide),
    skip ops5 W5 ops5_writes _ main_v97 (by decide),
    at_ ops4 W4 5 main_v0 main_v97 _ _ _ _ rfl rfl (by decide),
    skip_take ops4 W4 ops4_writes 5 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 97 of the 121 holds the window at (8, 9). -/
theorem leafBC_97 (W : Valuation τ sig (Elt F)) :
    after ops8 (after ops7 (after ops6 (after ops5 (after ops4 (after ops3 (after ops2 (after ops1 (W)))))))) (Proc.devRef .tc main_v219)
      = win (F := F) 8 9 (W (Proc.devRef .tc main_v0)) := by
  rw [at_ ops8 W8 6 main_v98 main_v219 _ _ _ _ rfl rfl (by decide),
    skip_take ops8 W8 ops8_writes 6 _ main_v98 (by decide),
    skip ops7 W7 ops7_writes _ main_v98 (by decide),
    skip ops6 W6 ops6_writes _ main_v98 (by decide),
    skip ops5 W5 ops5_writes _ main_v98 (by decide),
    at_ ops4 W4 6 main_v0 main_v98 _ _ _ _ rfl rfl (by decide),
    skip_take ops4 W4 ops4_writes 6 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 98 of the 121 holds the window at (8, 10). -/
theorem leafBC_98 (W : Valuation τ sig (Elt F)) :
    after ops8 (after ops7 (after ops6 (after ops5 (after ops4 (after ops3 (after ops2 (after ops1 (W)))))))) (Proc.devRef .tc main_v220)
      = win (F := F) 8 10 (W (Proc.devRef .tc main_v0)) := by
  rw [at_ ops8 W8 7 main_v99 main_v220 _ _ _ _ rfl rfl (by decide),
    skip_take ops8 W8 ops8_writes 7 _ main_v99 (by decide),
    skip ops7 W7 ops7_writes _ main_v99 (by decide),
    skip ops6 W6 ops6_writes _ main_v99 (by decide),
    skip ops5 W5 ops5_writes _ main_v99 (by decide),
    at_ ops4 W4 7 main_v0 main_v99 _ _ _ _ rfl rfl (by decide),
    skip_take ops4 W4 ops4_writes 7 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 99 of the 121 holds the window at (9, 0). -/
theorem leafBC_99 (W : Valuation τ sig (Elt F)) :
    after ops8 (after ops7 (after ops6 (after ops5 (after ops4 (after ops3 (after ops2 (after ops1 (W)))))))) (Proc.devRef .tc main_v221)
      = win (F := F) 9 0 (W (Proc.devRef .tc main_v0)) := by
  rw [at_ ops8 W8 8 main_v100 main_v221 _ _ _ _ rfl rfl (by decide),
    skip_take ops8 W8 ops8_writes 8 _ main_v100 (by decide),
    skip ops7 W7 ops7_writes _ main_v100 (by decide),
    skip ops6 W6 ops6_writes _ main_v100 (by decide),
    skip ops5 W5 ops5_writes _ main_v100 (by decide),
    at_ ops4 W4 8 main_v0 main_v100 _ _ _ _ rfl rfl (by decide),
    skip_take ops4 W4 ops4_writes 8 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 100 of the 121 holds the window at (9, 1). -/
theorem leafBC_100 (W : Valuation τ sig (Elt F)) :
    after ops8 (after ops7 (after ops6 (after ops5 (after ops4 (after ops3 (after ops2 (after ops1 (W)))))))) (Proc.devRef .tc main_v222)
      = win (F := F) 9 1 (W (Proc.devRef .tc main_v0)) := by
  rw [at_ ops8 W8 9 main_v101 main_v222 _ _ _ _ rfl rfl (by decide),
    skip_take ops8 W8 ops8_writes 9 _ main_v101 (by decide),
    skip ops7 W7 ops7_writes _ main_v101 (by decide),
    skip ops6 W6 ops6_writes _ main_v101 (by decide),
    skip ops5 W5 ops5_writes _ main_v101 (by decide),
    at_ ops4 W4 9 main_v0 main_v101 _ _ _ _ rfl rfl (by decide),
    skip_take ops4 W4 ops4_writes 9 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 101 of the 121 holds the window at (9, 2). -/
theorem leafBC_101 (W : Valuation τ sig (Elt F)) :
    after ops8 (after ops7 (after ops6 (after ops5 (after ops4 (after ops3 (after ops2 (after ops1 (W)))))))) (Proc.devRef .tc main_v223)
      = win (F := F) 9 2 (W (Proc.devRef .tc main_v0)) := by
  rw [at_ ops8 W8 10 main_v102 main_v223 _ _ _ _ rfl rfl (by decide),
    skip_take ops8 W8 ops8_writes 10 _ main_v102 (by decide),
    skip ops7 W7 ops7_writes _ main_v102 (by decide),
    skip ops6 W6 ops6_writes _ main_v102 (by decide),
    skip ops5 W5 ops5_writes _ main_v102 (by decide),
    at_ ops4 W4 10 main_v0 main_v102 _ _ _ _ rfl rfl (by decide),
    skip_take ops4 W4 ops4_writes 10 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 102 of the 121 holds the window at (9, 3). -/
theorem leafBC_102 (W : Valuation τ sig (Elt F)) :
    after ops8 (after ops7 (after ops6 (after ops5 (after ops4 (after ops3 (after ops2 (after ops1 (W)))))))) (Proc.devRef .tc main_v224)
      = win (F := F) 9 3 (W (Proc.devRef .tc main_v0)) := by
  rw [at_ ops8 W8 11 main_v103 main_v224 _ _ _ _ rfl rfl (by decide),
    skip_take ops8 W8 ops8_writes 11 _ main_v103 (by decide),
    skip ops7 W7 ops7_writes _ main_v103 (by decide),
    skip ops6 W6 ops6_writes _ main_v103 (by decide),
    skip ops5 W5 ops5_writes _ main_v103 (by decide),
    at_ ops4 W4 11 main_v0 main_v103 _ _ _ _ rfl rfl (by decide),
    skip_take ops4 W4 ops4_writes 11 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 103 of the 121 holds the window at (9, 4). -/
theorem leafBC_103 (W : Valuation τ sig (Elt F)) :
    after ops8 (after ops7 (after ops6 (after ops5 (after ops4 (after ops3 (after ops2 (after ops1 (W)))))))) (Proc.devRef .tc main_v225)
      = win (F := F) 9 4 (W (Proc.devRef .tc main_v0)) := by
  rw [at_ ops8 W8 12 main_v104 main_v225 _ _ _ _ rfl rfl (by decide),
    skip_take ops8 W8 ops8_writes 12 _ main_v104 (by decide),
    skip ops7 W7 ops7_writes _ main_v104 (by decide),
    skip ops6 W6 ops6_writes _ main_v104 (by decide),
    skip ops5 W5 ops5_writes _ main_v104 (by decide),
    at_ ops4 W4 12 main_v0 main_v104 _ _ _ _ rfl rfl (by decide),
    skip_take ops4 W4 ops4_writes 12 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 104 of the 121 holds the window at (9, 5). -/
theorem leafBC_104 (W : Valuation τ sig (Elt F)) :
    after ops8 (after ops7 (after ops6 (after ops5 (after ops4 (after ops3 (after ops2 (after ops1 (W)))))))) (Proc.devRef .tc main_v226)
      = win (F := F) 9 5 (W (Proc.devRef .tc main_v0)) := by
  rw [at_ ops8 W8 13 main_v105 main_v226 _ _ _ _ rfl rfl (by decide),
    skip_take ops8 W8 ops8_writes 13 _ main_v105 (by decide),
    skip ops7 W7 ops7_writes _ main_v105 (by decide),
    skip ops6 W6 ops6_writes _ main_v105 (by decide),
    skip ops5 W5 ops5_writes _ main_v105 (by decide),
    at_ ops4 W4 13 main_v0 main_v105 _ _ _ _ rfl rfl (by decide),
    skip_take ops4 W4 ops4_writes 13 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 105 of the 121 holds the window at (9, 6). -/
theorem leafBC_105 (W : Valuation τ sig (Elt F)) :
    after ops8 (after ops7 (after ops6 (after ops5 (after ops4 (after ops3 (after ops2 (after ops1 (W)))))))) (Proc.devRef .tc main_v227)
      = win (F := F) 9 6 (W (Proc.devRef .tc main_v0)) := by
  rw [at_ ops8 W8 14 main_v106 main_v227 _ _ _ _ rfl rfl (by decide),
    skip_take ops8 W8 ops8_writes 14 _ main_v106 (by decide),
    skip ops7 W7 ops7_writes _ main_v106 (by decide),
    skip ops6 W6 ops6_writes _ main_v106 (by decide),
    skip ops5 W5 ops5_writes _ main_v106 (by decide),
    at_ ops4 W4 14 main_v0 main_v106 _ _ _ _ rfl rfl (by decide),
    skip_take ops4 W4 ops4_writes 14 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 106 of the 121 holds the window at (9, 7). -/
theorem leafBC_106 (W : Valuation τ sig (Elt F)) :
    after ops8 (after ops7 (after ops6 (after ops5 (after ops4 (after ops3 (after ops2 (after ops1 (W)))))))) (Proc.devRef .tc main_v228)
      = win (F := F) 9 7 (W (Proc.devRef .tc main_v0)) := by
  rw [at_ ops8 W8 15 main_v107 main_v228 _ _ _ _ rfl rfl (by decide),
    skip_take ops8 W8 ops8_writes 15 _ main_v107 (by decide),
    skip ops7 W7 ops7_writes _ main_v107 (by decide),
    skip ops6 W6 ops6_writes _ main_v107 (by decide),
    skip ops5 W5 ops5_writes _ main_v107 (by decide),
    at_ ops4 W4 15 main_v0 main_v107 _ _ _ _ rfl rfl (by decide),
    skip_take ops4 W4 ops4_writes 15 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 107 of the 121 holds the window at (9, 8). -/
theorem leafBC_107 (W : Valuation τ sig (Elt F)) :
    after ops8 (after ops7 (after ops6 (after ops5 (after ops4 (after ops3 (after ops2 (after ops1 (W)))))))) (Proc.devRef .tc main_v229)
      = win (F := F) 9 8 (W (Proc.devRef .tc main_v0)) := by
  rw [at_ ops8 W8 16 main_v108 main_v229 _ _ _ _ rfl rfl (by decide),
    skip_take ops8 W8 ops8_writes 16 _ main_v108 (by decide),
    skip ops7 W7 ops7_writes _ main_v108 (by decide),
    skip ops6 W6 ops6_writes _ main_v108 (by decide),
    skip ops5 W5 ops5_writes _ main_v108 (by decide),
    at_ ops4 W4 16 main_v0 main_v108 _ _ _ _ rfl rfl (by decide),
    skip_take ops4 W4 ops4_writes 16 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 108 of the 121 holds the window at (9, 9). -/
theorem leafBC_108 (W : Valuation τ sig (Elt F)) :
    after ops8 (after ops7 (after ops6 (after ops5 (after ops4 (after ops3 (after ops2 (after ops1 (W)))))))) (Proc.devRef .tc main_v230)
      = win (F := F) 9 9 (W (Proc.devRef .tc main_v0)) := by
  rw [at_ ops8 W8 17 main_v109 main_v230 _ _ _ _ rfl rfl (by decide),
    skip_take ops8 W8 ops8_writes 17 _ main_v109 (by decide),
    skip ops7 W7 ops7_writes _ main_v109 (by decide),
    skip ops6 W6 ops6_writes _ main_v109 (by decide),
    skip ops5 W5 ops5_writes _ main_v109 (by decide),
    at_ ops4 W4 17 main_v0 main_v109 _ _ _ _ rfl rfl (by decide),
    skip_take ops4 W4 ops4_writes 17 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 109 of the 121 holds the window at (9, 10). -/
theorem leafBC_109 (W : Valuation τ sig (Elt F)) :
    after ops8 (after ops7 (after ops6 (after ops5 (after ops4 (after ops3 (after ops2 (after ops1 (W)))))))) (Proc.devRef .tc main_v231)
      = win (F := F) 9 10 (W (Proc.devRef .tc main_v0)) := by
  rw [at_ ops8 W8 18 main_v110 main_v231 _ _ _ _ rfl rfl (by decide),
    skip_take ops8 W8 ops8_writes 18 _ main_v110 (by decide),
    skip ops7 W7 ops7_writes _ main_v110 (by decide),
    skip ops6 W6 ops6_writes _ main_v110 (by decide),
    skip ops5 W5 ops5_writes _ main_v110 (by decide),
    at_ ops4 W4 18 main_v0 main_v110 _ _ _ _ rfl rfl (by decide),
    skip_take ops4 W4 ops4_writes 18 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 110 of the 121 holds the window at (10, 0). -/
theorem leafBC_110 (W : Valuation τ sig (Elt F)) :
    after ops8 (after ops7 (after ops6 (after ops5 (after ops4 (after ops3 (after ops2 (after ops1 (W)))))))) (Proc.devRef .tc main_v232)
      = win (F := F) 10 0 (W (Proc.devRef .tc main_v0)) := by
  rw [at_ ops8 W8 19 main_v111 main_v232 _ _ _ _ rfl rfl (by decide),
    skip_take ops8 W8 ops8_writes 19 _ main_v111 (by decide),
    skip ops7 W7 ops7_writes _ main_v111 (by decide),
    skip ops6 W6 ops6_writes _ main_v111 (by decide),
    skip ops5 W5 ops5_writes _ main_v111 (by decide),
    at_ ops4 W4 19 main_v0 main_v111 _ _ _ _ rfl rfl (by decide),
    skip_take ops4 W4 ops4_writes 19 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 111 of the 121 holds the window at (10, 1). -/
theorem leafBC_111 (W : Valuation τ sig (Elt F)) :
    after ops8 (after ops7 (after ops6 (after ops5 (after ops4 (after ops3 (after ops2 (after ops1 (W)))))))) (Proc.devRef .tc main_v233)
      = win (F := F) 10 1 (W (Proc.devRef .tc main_v0)) := by
  rw [at_ ops8 W8 20 main_v112 main_v233 _ _ _ _ rfl rfl (by decide),
    skip_take ops8 W8 ops8_writes 20 _ main_v112 (by decide),
    skip ops7 W7 ops7_writes _ main_v112 (by decide),
    skip ops6 W6 ops6_writes _ main_v112 (by decide),
    skip ops5 W5 ops5_writes _ main_v112 (by decide),
    at_ ops4 W4 20 main_v0 main_v112 _ _ _ _ rfl rfl (by decide),
    skip_take ops4 W4 ops4_writes 20 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 112 of the 121 holds the window at (10, 2). -/
theorem leafBC_112 (W : Valuation τ sig (Elt F)) :
    after ops8 (after ops7 (after ops6 (after ops5 (after ops4 (after ops3 (after ops2 (after ops1 (W)))))))) (Proc.devRef .tc main_v234)
      = win (F := F) 10 2 (W (Proc.devRef .tc main_v0)) := by
  rw [at_ ops8 W8 21 main_v113 main_v234 _ _ _ _ rfl rfl (by decide),
    skip_take ops8 W8 ops8_writes 21 _ main_v113 (by decide),
    skip ops7 W7 ops7_writes _ main_v113 (by decide),
    skip ops6 W6 ops6_writes _ main_v113 (by decide),
    skip ops5 W5 ops5_writes _ main_v113 (by decide),
    at_ ops4 W4 21 main_v0 main_v113 _ _ _ _ rfl rfl (by decide),
    skip_take ops4 W4 ops4_writes 21 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 113 of the 121 holds the window at (10, 3). -/
theorem leafBC_113 (W : Valuation τ sig (Elt F)) :
    after ops8 (after ops7 (after ops6 (after ops5 (after ops4 (after ops3 (after ops2 (after ops1 (W)))))))) (Proc.devRef .tc main_v235)
      = win (F := F) 10 3 (W (Proc.devRef .tc main_v0)) := by
  rw [at_ ops8 W8 22 main_v114 main_v235 _ _ _ _ rfl rfl (by decide),
    skip_take ops8 W8 ops8_writes 22 _ main_v114 (by decide),
    skip ops7 W7 ops7_writes _ main_v114 (by decide),
    skip ops6 W6 ops6_writes _ main_v114 (by decide),
    skip ops5 W5 ops5_writes _ main_v114 (by decide),
    at_ ops4 W4 22 main_v0 main_v114 _ _ _ _ rfl rfl (by decide),
    skip_take ops4 W4 ops4_writes 22 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 114 of the 121 holds the window at (10, 4). -/
theorem leafBC_114 (W : Valuation τ sig (Elt F)) :
    after ops8 (after ops7 (after ops6 (after ops5 (after ops4 (after ops3 (after ops2 (after ops1 (W)))))))) (Proc.devRef .tc main_v236)
      = win (F := F) 10 4 (W (Proc.devRef .tc main_v0)) := by
  rw [at_ ops8 W8 23 main_v115 main_v236 _ _ _ _ rfl rfl (by decide),
    skip_take ops8 W8 ops8_writes 23 _ main_v115 (by decide),
    skip ops7 W7 ops7_writes _ main_v115 (by decide),
    skip ops6 W6 ops6_writes _ main_v115 (by decide),
    skip ops5 W5 ops5_writes _ main_v115 (by decide),
    at_ ops4 W4 23 main_v0 main_v115 _ _ _ _ rfl rfl (by decide),
    skip_take ops4 W4 ops4_writes 23 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 115 of the 121 holds the window at (10, 5). -/
theorem leafBC_115 (W : Valuation τ sig (Elt F)) :
    after ops8 (after ops7 (after ops6 (after ops5 (after ops4 (after ops3 (after ops2 (after ops1 (W)))))))) (Proc.devRef .tc main_v237)
      = win (F := F) 10 5 (W (Proc.devRef .tc main_v0)) := by
  rw [at_ ops8 W8 24 main_v116 main_v237 _ _ _ _ rfl rfl (by decide),
    skip_take ops8 W8 ops8_writes 24 _ main_v116 (by decide),
    skip ops7 W7 ops7_writes _ main_v116 (by decide),
    skip ops6 W6 ops6_writes _ main_v116 (by decide),
    skip ops5 W5 ops5_writes _ main_v116 (by decide),
    at_ ops4 W4 24 main_v0 main_v116 _ _ _ _ rfl rfl (by decide),
    skip_take ops4 W4 ops4_writes 24 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 116 of the 121 holds the window at (10, 6). -/
theorem leafBC_116 (W : Valuation τ sig (Elt F)) :
    after ops8 (after ops7 (after ops6 (after ops5 (after ops4 (after ops3 (after ops2 (after ops1 (W)))))))) (Proc.devRef .tc main_v238)
      = win (F := F) 10 6 (W (Proc.devRef .tc main_v0)) := by
  rw [at_ ops8 W8 25 main_v117 main_v238 _ _ _ _ rfl rfl (by decide),
    skip_take ops8 W8 ops8_writes 25 _ main_v117 (by decide),
    skip ops7 W7 ops7_writes _ main_v117 (by decide),
    skip ops6 W6 ops6_writes _ main_v117 (by decide),
    skip ops5 W5 ops5_writes _ main_v117 (by decide),
    at_ ops4 W4 25 main_v0 main_v117 _ _ _ _ rfl rfl (by decide),
    skip_take ops4 W4 ops4_writes 25 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 117 of the 121 holds the window at (10, 7). -/
theorem leafBC_117 (W : Valuation τ sig (Elt F)) :
    after ops8 (after ops7 (after ops6 (after ops5 (after ops4 (after ops3 (after ops2 (after ops1 (W)))))))) (Proc.devRef .tc main_v239)
      = win (F := F) 10 7 (W (Proc.devRef .tc main_v0)) := by
  rw [at_ ops8 W8 26 main_v118 main_v239 _ _ _ _ rfl rfl (by decide),
    skip_take ops8 W8 ops8_writes 26 _ main_v118 (by decide),
    skip ops7 W7 ops7_writes _ main_v118 (by decide),
    skip ops6 W6 ops6_writes _ main_v118 (by decide),
    skip ops5 W5 ops5_writes _ main_v118 (by decide),
    at_ ops4 W4 26 main_v0 main_v118 _ _ _ _ rfl rfl (by decide),
    skip_take ops4 W4 ops4_writes 26 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 118 of the 121 holds the window at (10, 8). -/
theorem leafBC_118 (W : Valuation τ sig (Elt F)) :
    after ops8 (after ops7 (after ops6 (after ops5 (after ops4 (after ops3 (after ops2 (after ops1 (W)))))))) (Proc.devRef .tc main_v240)
      = win (F := F) 10 8 (W (Proc.devRef .tc main_v0)) := by
  rw [at_ ops8 W8 27 main_v119 main_v240 _ _ _ _ rfl rfl (by decide),
    skip_take ops8 W8 ops8_writes 27 _ main_v119 (by decide),
    skip ops7 W7 ops7_writes _ main_v119 (by decide),
    skip ops6 W6 ops6_writes _ main_v119 (by decide),
    skip ops5 W5 ops5_writes _ main_v119 (by decide),
    at_ ops4 W4 27 main_v0 main_v119 _ _ _ _ rfl rfl (by decide),
    skip_take ops4 W4 ops4_writes 27 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 119 of the 121 holds the window at (10, 9). -/
theorem leafBC_119 (W : Valuation τ sig (Elt F)) :
    after ops8 (after ops7 (after ops6 (after ops5 (after ops4 (after ops3 (after ops2 (after ops1 (W)))))))) (Proc.devRef .tc main_v241)
      = win (F := F) 10 9 (W (Proc.devRef .tc main_v0)) := by
  rw [at_ ops8 W8 28 main_v120 main_v241 _ _ _ _ rfl rfl (by decide),
    skip_take ops8 W8 ops8_writes 28 _ main_v120 (by decide),
    skip ops7 W7 ops7_writes _ main_v120 (by decide),
    skip ops6 W6 ops6_writes _ main_v120 (by decide),
    skip ops5 W5 ops5_writes _ main_v120 (by decide),
    at_ ops4 W4 28 main_v0 main_v120 _ _ _ _ rfl rfl (by decide),
    skip_take ops4 W4 ops4_writes 28 _ main_v0 (by decide),
    skip ops3 W3 ops3_writes _ main_v0 (by decide),
    skip ops2 W2 ops2_writes _ main_v0 (by decide),
    skip ops1 W1 ops1_writes _ main_v0 (by decide)]
  rfl

/-- After the slices and the unit-axis insertions, buffer 120 of the 121 holds the window at (10, 10). -/
theorem leafBC_120 (W : Valuation τ sig (Elt F)) :
    after ops8 (after ops7 (after ops6 (after ops5 (after ops4 (after ops3 (after ops2 (after ops1 (W)))))))) (Proc.devRef .tc main_v242)
      = win (F := F) 10 10 (W (Proc.devRef .tc main_v0)) := by
  rw [at_ ops8 W8 29 main_v121 main_v242 _ _ _ _ rfl rfl (by decide),
    skip_take ops8 W8 ops8_writes 29 _ main_v121 (by decide),
    skip ops7 W7 ops7_writes _ main_v121 (by decide),
    skip ops6 W6 ops6_writes _ main_v121 (by decide),
    skip ops5 W5 ops5_writes _ main_v121 (by decide),
    at_ ops4 W4 29 main_v0 main_v121 _ _ _ _ rfl rfl (by decide),
    skip_take ops4 W4 ops4_writes 29 _ main_v0 (by decide),
    skip ops3 W3 ops3_writes _ main_v0 (by decide),
    skip ops2 W2 ops2_writes _ main_v0 (by decide),
    skip ops1 W1 ops1_writes _ main_v0 (by decide)]
  rfl

end Cert.ReferenceIdeal.RefValue

end
-- ==== Proof.RefSum.lean ====
/-
  Re-indexing of the two sums of the loss.

  * The sum over the 121 filter channels is the double sum over tap rows and tap columns, channel `11·i + j`
    being tap `(i, j)`: `(i, j) ↦ 11·i + j` is a bijection from `Fin 11 × Fin 11` onto `Fin 121`.
  * The sum over all indices of a rank-4 array is the nested sum over its coordinates, taken in the order
    first axis, third axis, fourth axis, second axis (image, row, column, channel). Addition of extended reals is
    commutative and associative, so any order of summation gives the same value; no finiteness is needed.
-/
import proofs.«140256_j85203561218656_2_alg».proof.Proof.Spec
import Mathlib.Algebra.BigOperators.Fin

noncomputable section

open scoped BigOperators

namespace Cert.ReferenceIdeal.RefValue

open Idealize.ShloMosaic Idealize.ShloMosaic.ValueIdx Cert.Spec

/-- Tap `(i, j)` ↦ channel `11·i + j` is a bijection; its inverse is `k ↦ (k / 11, k % 11)`. -/
def tapEquiv : Fin 11 × Fin 11 ≃ Fin 121 where
  toFun p := tap p.1 p.2
  invFun k := (⟨k.val / 11, by have := k.isLt; omega⟩, ⟨k.val % 11, by omega⟩)
  left_inv p := by
    obtain ⟨⟨i, hi⟩, ⟨j, hj⟩⟩ := p
    refine Prod.ext (Fin.ext ?_) (Fin.ext ?_)
    · show (11 * i + j) / 11 = i
      omega
    · show (11 * i + j) % 11 = j
      omega
  right_inv k := by
    refine Fin.ext ?_
    show 11 * (k.val / 11) + k.val % 11 = k.val
    omega

/-- A sum over the 121 channels is the double sum over tap rows and tap columns. -/
theorem sum_taps {M : Type*} [AddCommMonoid M] (f : Fin 121 → M) :
    ∑ k : Fin 121, f k = ∑ i : Fin 11, ∑ j : Fin 11, f (tap i j) := by
  rw [← Equiv.sum_comp tapEquiv f, Fintype.sum_prod_type]
  rfl

/-- A rank-4 index set is the product of its coordinate ranges, listed first, third, fourth, second. -/
def idxEquiv4 {n0 n1 n2 n3 : Nat} : (⟨4, ![n0, n1, n2, n3]⟩ : Shape).Idx ≃ Fin n0 × Fin n2 × Fin n3 × Fin n1 where
  toFun i := (i 0, i 2, i 3, i 1)
  invFun p := ix4 p.1 p.2.2.2 p.2.1 p.2.2.1
  left_inv i := (eq_ix4 i).symm
  right_inv _ := rfl

/-- A sum over every index of a rank-4 array is the nested sum over first, third, fourth and second coordinate. -/
theorem sum_idx4 {M : Type*} [AddCommMonoid M] {n0 n1 n2 n3 : Nat} (f : (⟨4, ![n0, n1, n2, n3]⟩ : Shape).Idx → M) :
    ∑ i, f i = ∑ a : Fin n0, ∑ c : Fin n2, ∑ d : Fin n3, ∑ b : Fin n1, f (ix4 a b c d) := by
  rw [← Equiv.sum_comp (idxEquiv4 (n0 := n0) (n1 := n1) (n2 := n2) (n3 := n3)).symm f]
  simp only [Fintype.sum_prod_type]
  rfl

end Cert.ReferenceIdeal.RefValue

end
-- ==== Proof.RefIsSpec.lean ====
/-
  The reference program computes the loss of `Spec.lean`.

  Whatever the buffers hold at the start, after the reference's 271 operations the result buffer holds, at its one
  index, `loss P I2 K M`: `P` the padded first image (the program's own term for it, never opened), `I2`, `K`, `M` the
  other three arguments. The operations run stretch by stretch. The last stretch leaves the mean of the masked distances
  of the stack; the stack's channel `11·i + j` is the window of `P` at `(i, j)`, so at a pixel the sum over the 121
  channels is the double sum over tap rows and columns, which is `recon`; the distance at a pixel is then `term`; and the
  sum over all four axes, regrouped as image, row, column, channel, divided by the element count, is `loss`. Sums of
  extended reals may be regrouped freely, so nothing is assumed about the arguments.
-/
import proofs.«140256_j85203561218656_2_alg».proof.Proof.RefSeg
import proofs.«140256_j85203561218656_2_alg».proof.Proof.RefStackOf
import proofs.«140256_j85203561218656_2_alg».proof.Proof.RefLeaves1
import proofs.«140256_j85203561218656_2_alg».proof.Proof.RefLeaves2
import proofs.«140256_j85203561218656_2_alg».proof.Proof.RefLeaves3
import proofs.«140256_j85203561218656_2_alg».proof.Proof.RefLeaves4
import Mathlib.Tactic.FinCases
import proofs.«140256_j85203561218656_2_alg».proof.Proof.RefSum
import proofs.«140256_j85203561218656_2_alg».proof.Proof.RefRunH

noncomputable section

open scoped BigOperators

namespace Cert.ReferenceIdeal.RefValue

open Cert.ReferenceIdeal Cert.ReferenceIdeal.Gen Cert.ReferenceIdeal.RunH Idealize.ShloMosaic Idealize.ShloMosaic.TcCoe Idealize.SL.Sem
  Idealize.ShloMosaic.StableHlo Idealize.ShloMosaic.ValueIdx

/-- A buffer holding the window at `(i, j)` of what the first three operations leave, read at a pixel, is the padded
    image shifted by `(i, j)`. -/
theorem leaf_read (V : Valuation τ sig (Elt Ideal)) (i j : Fin 11) (n : Fin 4) (c : Fin 3) (h w : Fin 256)
    (X : (⟨S4x3x1x256x256, .f32⟩ : BufTy).Contents (Elt Ideal)) (hX : X = win (F := Ideal) i j (after ops0 V (Proc.devRef .tc main_v0))) :
    X (ix5 n c (0 : Fin 1) h w) = padded (F := Ideal) (V (Proc.devRef .tc main_arg0)) (ix4 n c (Spec.sh h i) (Spec.sh w j)) := by
  rw [hX, win_apply, A_eval]

/-- Channel `11·i + j` of the stack the concatenations leave, read at a pixel, is the padded image shifted by `(i, j)`. -/
theorem stack_tap (V : Valuation τ sig (Elt Ideal)) (n : Fin 4) (c : Fin 3) (h w : Fin 256) (i j : Fin 11) :
    stackOf (after ops8 (after ops7 (after ops6 (after ops5 (after ops4 (after ops3 (after ops2 (after ops1 (after ops0 (V)))))))))) (ix5 n c (Spec.tap i j) h w)
      = padded (F := Ideal) (V (Proc.devRef .tc main_arg0)) (ix4 n c (Spec.sh h i) (Spec.sh w j)) := by
  fin_cases i <;> fin_cases j
  · exact (stackOf_tap_0 _ n c h w).trans (leaf_read V _ _ n c h w _ (leafBC_0 _))
  · exact (stackOf_tap_1 _ n c h w).trans (leaf_read V _ _ n c h w _ (leafBC_1 _))
  · exact (stackOf_tap_2 _ n c h w).trans (leaf_read V _ _ n c h w _ (leafBC_2 _))
  · exact (stackOf_tap_3 _ n c h w).trans (leaf_read V _ _ n c h w _ (leafBC_3 _))
  · exact (stackOf_tap_4 _ n c h w).trans (leaf_read V _ _ n c h w _ (leafBC_4 _))
  · exact (stackOf_tap_5 _ n c h w).trans (leaf_read V _ _ n c h w _ (leafBC_5 _))
  · exact (stackOf_tap_6 _ n c h w).trans (leaf_read V _ _ n c h w _ (leafBC_6 _))
  · exact (stackOf_tap_7 _ n c h w).trans (leaf_read V _ _ n c h w _ (leafBC_7 _))
  · exact (stackOf_tap_8 _ n c h w).trans (leaf_read V _ _ n c h w _ (leafBC_8 _))
  · exact (stackOf_tap_9 _ n c h w).trans (leaf_read V _ _ n c h w _ (leafBC_9 _))
  · exact (stackOf_tap_10 _ n c h w).trans (leaf_read V _ _ n c h w _ (leafBC_10 _))
  · exact (stackOf_tap_11 _ n c h w).trans (leaf_read V _ _ n c h w _ (leafBC_11 _))
  · exact (stackOf_tap_12 _ n c h w).trans (leaf_read V _ _ n c h w _ (leafBC_12 _))
  · exact (stackOf_tap_13 _ n c h w).trans (leaf_read V _ _ n c h w _ (leafBC_13 _))
  · exact (stackOf_tap_14 _ n c h w).trans (leaf_read V _ _ n c h w _ (leafBC_14 _))
  · exact (stackOf_tap_15 _ n c h w).trans (leaf_read V _ _ n c h w _ (leafBC_15 _))
  · exact (stackOf_tap_16 _ n c h w).trans (leaf_read V _ _ n c h w _ (leafBC_16 _))
  · exact (stackOf_tap_17 _ n c h w).trans (leaf_read V _ _ n c h w _ (leafBC_17 _))
  · exact (stackOf_tap_18 _ n c h w).trans (leaf_read V _ _ n c h w _ (leafBC_18 _))
  · exact (stackOf_tap_19 _ n c h w).trans (leaf_read V _ _ n c h w _ (leafBC_19 _))
  · exact (stackOf_tap_20 _ n c h w).trans (leaf_read V _ _ n c h w _ (leafBC_20 _))
  · exact (stackOf_tap_21 _ n c h w).trans (leaf_read V _ _ n c h w _ (leafBC_21 _))
  · exact (stackOf_tap_22 _ n c h w).trans (leaf_read V _ _ n c h w _ (leafBC_22 _))
  · exact (stackOf_tap_23 _ n c h w).trans (leaf_read V _ _ n c h w _ (leafBC_23 _))
  · exact (stackOf_tap_24 _ n c h w).trans (leaf_read V _ _ n c h w _ (leafBC_24 _))
  · exact (stackOf_tap_25 _ n c h w).trans (leaf_read V _ _ n c h w _ (leafBC_25 _))
  · exact (stackOf_tap_26 _ n c h w).trans (leaf_read V _ _ n c h w _ (leafBC_26 _))
  · exact (stackOf_tap_27 _ n c h w).trans (leaf_read V _ _ n c h w _ (leafBC_27 _))
  · exact (stackOf_tap_28 _ n c h w).trans (leaf_read V _ _ n c h w _ (leafBC_28 _))
  · exact (stackOf_tap_29 _ n c h w).trans (leaf_read V _ _ n c h w _ (leafBC_29 _))
  · exact (stackOf_tap_30 _ n c h w).trans (leaf_read V _ _ n c h w _ (leafBC_30 _))
  · exact (stackOf_tap_31 _ n c h w).trans (leaf_read V _ _ n c h w _ (leafBC_31 _))
  · exact (stackOf_tap_32 _ n c h w).trans (leaf_read V _ _ n c h w _ (leafBC_32 _))
  · exact (stackOf_tap_33 _ n c h w).trans (leaf_read V _ _ n c h w _ (leafBC_33 _))
  · exact (stackOf_tap_34 _ n c h w).trans (leaf_read V _ _ n c h w _ (leafBC_34 _))
  · exact (stackOf_tap_35 _ n c h w).trans (leaf_read V _ _ n c h w _ (leafBC_35 _))
  · exact (stackOf_tap_36 _ n c h w).trans (leaf_read V _ _ n c h w _ (leafBC_36 _))
  · exact (stackOf_tap_37 _ n c h w).trans (leaf_read V _ _ n c h w _ (leafBC_37 _))
  · exact (stackOf_tap_38 _ n c h w).trans (leaf_read V _ _ n c h w _ (leafBC_38 _))
  · exact (stackOf_tap_39 _ n c h w).trans (leaf_read V _ _ n c h w _ (leafBC_39 _))
  · exact (stackOf_tap_40 _ n c h w).trans (leaf_read V _ _ n c h w _ (leafBC_40 _))
  · exact (stackOf_tap_41 _ n c h w).trans (leaf_read V _ _ n c h w _ (leafBC_41 _))
  · exact (stackOf_tap_42 _ n c h w).trans (leaf_read V _ _ n c h w _ (leafBC_42 _))
  · exact (stackOf_tap_43 _ n c h w).trans (leaf_read V _ _ n c h w _ (leafBC_43 _))
  · exact (stackOf_tap_44 _ n c h w).trans (leaf_read V _ _ n c h w _ (leafBC_44 _))
  · exact (stackOf_tap_45 _ n c h w).trans (leaf_read V _ _ n c h w _ (leafBC_45 _))
  · exact (stackOf_tap_46 _ n c h w).trans (leaf_read V _ _ n c h w _ (leafBC_46 _))
  · exact (stackOf_tap_47 _ n c h w).trans (leaf_read V _ _ n c h w _ (leafBC_47 _))
  · exact (stackOf_tap_48 _ n c h w).trans (leaf_read V _ _ n c h w _ (leafBC_48 _))
  · exact (stackOf_tap_49 _ n c h w).trans (leaf_read V _ _ n c h w _ (leafBC_49 _))
  · exact (stackOf_tap_50 _ n c h w).trans (leaf_read V _ _ n c h w _ (leafBC_50 _))
  · exact (stackOf_tap_51 _ n c h w).trans (leaf_read V _ _ n c h w _ (leafBC_51 _))
  · exact (stackOf_tap_52 _ n c h w).trans (leaf_read V _ _ n c h w _ (leafBC_52 _))
  · exact (stackOf_tap_53 _ n c h w).trans (leaf_read V _ _ n c h w _ (leafBC_53 _))
  · exact (stackOf_tap_54 _ n c h w).trans (leaf_read V _ _ n c h w _ (leafBC_54 _))
  · exact (stackOf_tap_55 _ n c h w).trans (leaf_read V _ _ n c h w _ (leafBC_55 _))
  · exact (stackOf_tap_56 _ n c h w).trans (leaf_read V _ _ n c h w _ (leafBC_56 _))
  · exact (stackOf_tap_57 _ n c h w).trans (leaf_read V _ _ n c h w _ (leafBC_57 _))
  · exact (stackOf_tap_58 _ n c h w).trans (leaf_read V _ _ n c h w _ (leafBC_58 _))
  · exact (stackOf_tap_59 _ n c h w).trans (leaf_read V _ _ n c h w _ (leafBC_59 _))
  · exact (stackOf_tap_60 _ n c h w).trans (leaf_read V _ _ n c h w _ (leafBC_60 _))
  · exact (stackOf_tap_61 _ n c h w).trans (leaf_read V _ _ n c h w _ (leafBC_61 _))
  · exact (stackOf_tap_62 _ n c h w).trans (leaf_read V _ _ n c h w _ (leafBC_62 _))
  · exact (stackOf_tap_63 _ n c h w).trans (leaf_read V _ _ n c h w _ (leafBC_63 _))
  · exact (stackOf_tap_64 _ n c h w).trans (leaf_read V _ _ n c h w _ (leafBC_64 _))
  · exact (stackOf_tap_65 _ n c h w).trans (leaf_read V _ _ n c h w _ (leafBC_65 _))
  · exact (stackOf_tap_66 _ n c h w).trans (leaf_read V _ _ n c h w _ (leafBC_66 _))
  · exact (stackOf_tap_67 _ n c h w).trans (leaf_read V _ _ n c h w _ (leafBC_67 _))
  · exact (stackOf_tap_68 _ n c h w).trans (leaf_read V _ _ n c h w _ (leafBC_68 _))
  · exact (stackOf_tap_69 _ n c h w).trans (leaf_read V _ _ n c h w _ (leafBC_69 _))
  · exact (stackOf_tap_70 _ n c h w).trans (leaf_read V _ _ n c h w _ (leafBC_70 _))
  · exact (stackOf_tap_71 _ n c h w).trans (leaf_read V _ _ n c h w _ (leafBC_71 _))
  · exact (stackOf_tap_72 _ n c h w).trans (leaf_read V _ _ n c h w _ (leafBC_72 _))
  · exact (stackOf_tap_73 _ n c h w).trans (leaf_read V _ _ n c h w _ (leafBC_73 _))
  · exact (stackOf_tap_74 _ n c h w).trans (leaf_read V _ _ n c h w _ (leafBC_74 _))
  · exact (stackOf_tap_75 _ n c h w).trans (leaf_read V _ _ n c h w _ (leafBC_75 _))
  · exact (stackOf_tap_76 _ n c h w).trans (leaf_read V _ _ n c h w _ (leafBC_76 _))
  · exact (stackOf_tap_77 _ n c h w).trans (leaf_read V _ _ n c h w _ (leafBC_77 _))
  · exact (stackOf_tap_78 _ n c h w).trans (leaf_read V _ _ n c h w _ (leafBC_78 _))
  · exact (stackOf_tap_79 _ n c h w).trans (leaf_read V _ _ n c h w _ (leafBC_79 _))
  · exact (stackOf_tap_80 _ n c h w).trans (leaf_read V _ _ n c h w _ (leafBC_80 _))
  · exact (stackOf_tap_81 _ n c h w).trans (leaf_read V _ _ n c h w _ (leafBC_81 _))
  · exact (stackOf_tap_82 _ n c h w).trans (leaf_read V _ _ n c h w _ (leafBC_82 _))
  · exact (stackOf_tap_83 _ n c h w).trans (leaf_read V _ _ n c h w _ (leafBC_83 _))
  · exact (stackOf_tap_84 _ n c h w).trans (leaf_read V _ _ n c h w _ (leafBC_84 _))
  · exact (stackOf_tap_85 _ n c h w).trans (leaf_read V _ _ n c h w _ (leafBC_85 _))
  · exact (stackOf_tap_86 _ n c h w).trans (leaf_read V _ _ n c h w _ (leafBC_86 _))
  · exact (stackOf_tap_87 _ n c h w).trans (leaf_read V _ _ n c h w _ (leafBC_87 _))
  · exact (stackOf_tap_88 _ n c h w).trans (leaf_read V _ _ n c h w _ (leafBC_88 _))
  · exact (stackOf_tap_89 _ n c h w).trans (leaf_read V _ _ n c h w _ (leafBC_89 _))
  · exact (stackOf_tap_90 _ n c h w).trans (leaf_read V _ _ n c h w _ (leafBC_90 _))
  · exact (stackOf_tap_91 _ n c h w).trans (leaf_read V _ _ n c h w _ (leafBC_91 _))
  · exact (stackOf_tap_92 _ n c h w).trans (leaf_read V _ _ n c h w _ (leafBC_92 _))
  · exact (stackOf_tap_93 _ n c h w).trans (leaf_read V _ _ n c h w _ (leafBC_93 _))
  · exact (stackOf_tap_94 _ n c h w).trans (leaf_read V _ _ n c h w _ (leafBC_94 _))
  · exact (stackOf_tap_95 _ n c h w).trans (leaf_read V _ _ n c h w _ (leafBC_95 _))
  · exact (stackOf_tap_96 _ n c h w).trans (leaf_read V _ _ n c h w _ (leafBC_96 _))
  · exact (stackOf_tap_97 _ n c h w).trans (leaf_read V _ _ n c h w _ (leafBC_97 _))
  · exact (stackOf_tap_98 _ n c h w).trans (leaf_read V _ _ n c h w _ (leafBC_98 _))
  · exact (stackOf_tap_99 _ n c h w).trans (leaf_read V _ _ n c h w _ (leafBC_99 _))
  · exact (stackOf_tap_100 _ n c h w).trans (leaf_read V _ _ n c h w _ (leafBC_100 _))
  · exact (stackOf_tap_101 _ n c h w).trans (leaf_read V _ _ n c h w _ (leafBC_101 _))
  · exact (stackOf_tap_102 _ n c h w).trans (leaf_read V _ _ n c h w _ (leafBC_102 _))
  · exact (stackOf_tap_103 _ n c h w).trans (leaf_read V _ _ n c h w _ (leafBC_103 _))
  · exact (stackOf_tap_104 _ n c h w).trans (leaf_read V _ _ n c h w _ (leafBC_104 _))
  · exact (stackOf_tap_105 _ n c h w).trans (leaf_read V _ _ n c h w _ (leafBC_105 _))
  · exact (stackOf_tap_106 _ n c h w).trans (leaf_read V _ _ n c h w _ (leafBC_106 _))
  · exact (stackOf_tap_107 _ n c h w).trans (leaf_read V _ _ n c h w _ (leafBC_107 _))
  · exact (stackOf_tap_108 _ n c h w).trans (leaf_read V _ _ n c h w _ (leafBC_108 _))
  · exact (stackOf_tap_109 _ n c h w).trans (leaf_read V _ _ n c h w _ (leafBC_109 _))
  · exact (stackOf_tap_110 _ n c h w).trans (leaf_read V _ _ n c h w _ (leafBC_110 _))
  · exact (stackOf_tap_111 _ n c h w).trans (leaf_read V _ _ n c h w _ (leafBC_111 _))
  · exact (stackOf_tap_112 _ n c h w).trans (leaf_read V _ _ n c h w _ (leafBC_112 _))
  · exact (stackOf_tap_113 _ n c h w).trans (leaf_read V _ _ n c h w _ (leafBC_113 _))
  · exact (stackOf_tap_114 _ n c h w).trans (leaf_read V _ _ n c h w _ (leafBC_114 _))
  · exact (stackOf_tap_115 _ n c h w).trans (leaf_read V _ _ n c h w _ (leafBC_115 _))
  · exact (stackOf_tap_116 _ n c h w).trans (leaf_read V _ _ n c h w _ (leafBC_116 _))
  · exact (stackOf_tap_117 _ n c h w).trans (leaf_read V _ _ n c h w _ (leafBC_117 _))
  · exact (stackOf_tap_118 _ n c h w).trans (leaf_read V _ _ n c h w _ (leafBC_118 _))
  · exact (stackOf_tap_119 _ n c h w).trans (leaf_read V _ _ n c h w _ (leafBC_119 _))
  · exact (stackOf_tap_120 _ n c h w).trans (leaf_read V _ _ n c h w _ (leafBC_120 _))

/-- **The reference's result is the loss**, from any initial contents `V` of the buffers. -/
theorem result_eq_loss (V : Valuation τ sig (Elt Ideal)) :
    after (ops0 ++ (ops1 ++ (ops2 ++ (ops3 ++ (ops4 ++ (ops5 ++ (ops6 ++ (ops7 ++ (ops8 ++ (ops9 ++ ops10))))))))) : List (HloOp τ sig (Elt Ideal))) V (Proc.devRef .tc main_v264)
      = fun _ => Spec.loss (padded (F := Ideal) (V (Proc.devRef .tc main_arg0))) (V (Proc.devRef .tc main_arg1)) (V (Proc.devRef .tc main_arg2)) (V (Proc.devRef .tc main_arg3)) := by
  rw [after_append, after_append, after_append, after_append, after_append, after_append, after_append, after_append, after_append,
    after_append, E_eval, D_eval, pre_keep_arg1, pre_keep_arg2, pre_keep_arg3]
  funext i0
  rw [tail_apply, sum_idx4]
  unfold Spec.loss Spec.partialSum
  refine congrArg (Ideal.div · Spec.cnt) ?_
  refine Finset.sum_congr rfl fun n _ => Finset.sum_congr rfl fun h _ => Finset.sum_congr rfl fun w _ => Finset.sum_congr rfl fun c _ => ?_
  rw [dist_apply, filt_apply, sum_taps]
  unfold Spec.term Spec.recon
  simp only [stack_tap]
  all_goals rfl

/-- The same about the reference's whole list of operations. -/
theorem ops_result_eq_loss (V : Valuation τ sig (Elt Ideal)) :
    after (RunH.ops (F := Ideal)) V (Proc.devRef .tc main_v264)
      = fun _ => Spec.loss (padded (F := Ideal) (V (Proc.devRef .tc main_arg0))) (V (Proc.devRef .tc main_arg1)) (V (Proc.devRef .tc main_arg2)) (V (Proc.devRef .tc main_arg3)) :=
  result_eq_loss V

end Cert.ReferenceIdeal.RefValue

end
-- ==== Proof.lean ====
/-
  The certificate of the occlusion-aware Charbonnier reconstruction loss.

  The kernel filters the first image with per-pixel 11 × 11 filters tap row by tap row over a 4 × 11 grid (image,
  tap row), accumulating in a scratch buffer, and at each image's last tap row stores the image's summed masked
  distance √((recon − image2)² + ε) · mask; the host adds the four sums and divides by the element count. The
  reference stacks the 121 shifted windows of the padded image, multiplies by the filters, sums over the taps, and
  sums the masked distances over everything at once.

  Over the extended reals both are `Spec.loss` of the padded first image, the second image, the filters and the
  mask: the sum over the 121 taps is the sum over tap rows of the sums over tap columns, and the sum over all
  (image, channel, row, column) is the sum over images of the sums over rows, columns and channels — addition of
  extended reals is commutative and associative, so no finiteness is used. The frames: each program runs to the
  end and leaves its four arguments as launched (the kernel's programs through the pipeline's launch, the
  reference because no host operation writes an argument). The ideal pass rewrote nothing, so `preserves` is
  trivial.
-/
import proofs.«140256_j85203561218656_2_alg».proof.Defs
import proofs.«140256_j85203561218656_2_alg».proof.Proof.Gen.Kernel
import proofs.«140256_j85203561218656_2_alg».proof.Proof.Gen.KernelIdeal
import proofs.«140256_j85203561218656_2_alg».proof.Proof.Gen.ReferenceIdeal
import proofs.«140256_j85203561218656_2_alg».proof.Proof.Gen.Pre_finite_inputs
import proofs.«140256_j85203561218656_2_alg».proof.Proof.KbFrame
import proofs.«140256_j85203561218656_2_alg».proof.Proof.KiFinal
import proofs.«140256_j85203561218656_2_alg».proof.Proof.RefRunH
import proofs.«140256_j85203561218656_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.RunH.run (F := Ideal) m ρ)

theorem preserves : Cert.preserves_Kernel_KernelIdeal := trivial

/-- Both idealized programs end with `Spec.loss` of the padded first image, the second image, the filters and the
    mask, of arguments that agree. -/
theorem algebraic : Cert.algebraic_KernelIdeal_ReferenceIdeal := by
  intro m ρ m' ρ' _ hagree
  refine ⟨fun c => fun _ => Cert.Spec.loss (Cert.KernelIdeal.Val.Pd m c) (Cert.KernelIdeal.Val.A1 m c) (Cert.KernelIdeal.Val.A2 m c) (Cert.KernelIdeal.Val.A3 m c),
    Cert.KernelIdeal.Val.run m ρ, ?_⟩
  refine (θ_run Cert.ReferenceIdeal.defs _ _).mono (fun _ h c => ⟨(h c).1.trans ?_, (h c).2⟩)
    (Cert.ReferenceIdeal.RunH.run (F := Ideal) m' ρ')
  refine (Cert.ReferenceIdeal.RefValue.ops_result_eq_loss _).trans ?_
  show (fun _ => Cert.Spec.loss (Cert.ReferenceIdeal.RefValue.padded (m' ((c.tc : Thread Cert.ReferenceIdeal.nD Cert.ReferenceIdeal.τ).loc Cert.ReferenceIdeal.main_arg0)))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))) = _
  rw [(hagree c).1, (hagree c).2.1, (hagree c).2.2.1, (hagree c).2.2.2, Cert.ReferenceIdeal.RefValue.padded_eq]
  show _ = (fun _ => Cert.Spec.loss (Cert.KernelIdeal.Fr.V m c Cert.KernelIdeal.main_v0) (Cert.KernelIdeal.Val.A1 m c) (Cert.KernelIdeal.Val.A2 m c) (Cert.KernelIdeal.Val.A3 m c))
  rw [Cert.KernelIdeal.Pay.V_v0_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
